-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v22)) (v2 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_v7_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v229) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_v231) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x2x1024x2048 : Shape := ⟨4, ![1, 2, 1024, 2048]⟩
abbrev S1x3x1024x2048 : Shape := ⟨4, ![1, 3, 1024, 2048]⟩
abbrev S_ : Shape := ⟨0, ![]⟩

class Facts : Prop where
  bcast_S_S1x3x1024x2048 : S_.BroadcastsInDim S1x3x1024x2048 (![] : Fin 0 → Fin S1x3x1024x2048.rank)
  reducesTo_S1x3x1024x2048_S_d0_1_2_3 : S1x3x1024x2048.ReducesTo [0, 1, 2, 3] S_
  h_S_ : 0 < S_.numel

variable [Facts]

def fn {F : FTy → Type} [FloatOps F] (main_arg0 : IVec S1x2x1024x2048 32) (main_arg1 : FVec F S1x3x1024x2048 .f32) : IVec S_ 1 :=
  let main_v0 : FVec F S1x3x1024x2048 .f32 := Host.absf main_arg1
  let main_cst : FVec F S_ .f32 := constant S_ .f32 0x7F800000#32
  let main_v1 : FVec F S1x3x1024x2048 .f32 := broadcastInDim S1x3x1024x2048 ![] bcast_S_S1x3x1024x2048 main_cst
  let main_v2 : IVec S1x3x1024x2048 1 := cmpf .olt main_v0 main_v1
  let main_c : IVec S_ 1 := constantI S_ 1 1#1
  let main_v3 : IVec S_ 1 := (fun x v => Host.reduce IntOp.andi x v reducesTo_S1x3x1024x2048_S_d0_1_2_3 h_S_) main_v2 main_c
  main_v3
-- ==== Kernel.lean ====
abbrev S1x2x1024x2048 : Shape := ⟨4, ![1, 2, 1024, 2048]⟩
abbrev S1x3x1024x2048 : Shape := ⟨4, ![1, 3, 1024, 2048]⟩
abbrev S1x1x1024x2048 : Shape := ⟨4, ![1, 1, 1024, 2048]⟩
abbrev S1024x2048 : Shape := ⟨2, ![1024, 2048]⟩
abbrev S3x1024x2048 : Shape := ⟨3, ![3, 1024, 2048]⟩
abbrev S_ : Shape := ⟨0, ![]⟩
abbrev S1x2048 : Shape := ⟨2, ![1, 2048]⟩
abbrev S8x2048 : Shape := ⟨2, ![8, 2048]⟩
abbrev S1032x2048 : Shape := ⟨2, ![1032, 2048]⟩
abbrev S1040x2048 : Shape := ⟨2, ![1040, 2048]⟩
abbrev S1040x1 : Shape := ⟨2, ![1040, 1]⟩
abbrev S1040x2049 : Shape := ⟨2, ![1040, 2049]⟩
abbrev S1040x2050 : Shape := ⟨2, ![1040, 2050]⟩
abbrev S1040x2176 : Shape := ⟨2, ![1040, 2176]⟩
abbrev S3x1x2048 : Shape := ⟨3, ![3, 1, 2048]⟩
abbrev S3x8x2048 : Shape := ⟨3, ![3, 8, 2048]⟩
abbrev S3x1032x2048 : Shape := ⟨3, ![3, 1032, 2048]⟩
abbrev S3x1040x2048 : Shape := ⟨3, ![3, 1040, 2048]⟩
abbrev S3x1040x1 : Shape := ⟨3, ![3, 1040, 1]⟩
abbrev S3x1040x2049 : Shape := ⟨3, ![3, 1040, 2049]⟩
abbrev S3x1040x2050 : Shape := ⟨3, ![3, 1040, 2050]⟩
abbrev S3x1040x2176 : Shape := ⟨3, ![3, 1040, 2176]⟩
abbrev S16x8x128 : Shape := ⟨3, ![16, 8, 128]⟩
abbrev S3x64x2048 : Shape := ⟨3, ![3, 64, 2048]⟩
abbrev S64x2048 : Shape := ⟨2, ![64, 2048]⟩
abbrev S1x8x128 : Shape := ⟨3, ![1, 8, 128]⟩
abbrev S80x2176 : Shape := ⟨2, ![80, 2176]⟩
abbrev S3x80x2176 : Shape := ⟨3, ![3, 80, 2176]⟩
abbrev S66x2050 : Shape := ⟨2, ![66, 2050]⟩
abbrev S1x66x2050 : Shape := ⟨3, ![1, 66, 2050]⟩
abbrev S64 : Shape := ⟨1, ![64]⟩
abbrev S64x1 : Shape := ⟨2, ![64, 1]⟩
abbrev S1 : Shape := ⟨1, ![1]⟩
abbrev S1x1 : Shape := ⟨2, ![1, 1]⟩
abbrev S1x64x2048 : Shape := ⟨3, ![1, 64, 2048]⟩
abbrev S1x3 : Shape := ⟨2, ![1, 3]⟩
abbrev S1x125 : Shape := ⟨2, ![1, 125]⟩
abbrev S1x128 : Shape := ⟨2, ![1, 128]⟩
abbrev S7x128 : Shape := ⟨2, ![7, 128]⟩
abbrev S8x128 : Shape := ⟨2, ![8, 128]⟩
abbrev S16x1x3 : Shape := ⟨3, ![16, 1, 3]⟩
abbrev S16x3 : Shape := ⟨2, ![16, 3]⟩
abbrev S3 : Shape := ⟨1, ![3]⟩

abbrev nBuf : Space → Nat
  | .hbm => 67
  | .vmem => 8
  | .smem => 0
  | _ => 0

abbrev bufTy : (tb : Table) → Fin (tcTables nBuf tb) → BufTy
  | .hbm, ⟨0, _⟩ => ⟨S1x2x1024x2048, .i32⟩
  | .hbm, ⟨1, _⟩ => ⟨S1x3x1024x2048, .f32⟩
  | .hbm, ⟨2, _⟩ => ⟨S1x1x1024x2048, .i32⟩
  | .hbm, ⟨3, _⟩ => ⟨S1024x2048, .i32⟩
  | .hbm, ⟨4, _⟩ => ⟨S3x1024x2048, .f32⟩
  | .hbm, ⟨5, _⟩ => ⟨S_, .i32⟩
  | .hbm, ⟨6, _⟩ => ⟨S1x2048, .i32⟩
  | .hbm, ⟨7, _⟩ => ⟨S8x2048, .i32⟩
  | .hbm, ⟨8, _⟩ => ⟨S8x2048, .i32⟩
  | .hbm, ⟨9, _⟩ => ⟨S1032x2048, .i32⟩
  | .hbm, ⟨10, _⟩ => ⟨S1x2048, .i32⟩
  | .hbm, ⟨11, _⟩ => ⟨S8x2048, .i32⟩
  | .hbm, ⟨12, _⟩ => ⟨S8x2048, .i32⟩
  | .hbm, ⟨13, _⟩ => ⟨S1040x2048, .i32⟩
  | .hbm, ⟨14, _⟩ => ⟨S1040x1, .i32⟩
  | .hbm, ⟨15, _⟩ => ⟨S1040x1, .i32⟩
  | .hbm, ⟨16, _⟩ => ⟨S1040x1, .i32⟩
  | .hbm, ⟨17, _⟩ => ⟨S1040x2049, .i32⟩
  | .hbm, ⟨18, _⟩ => ⟨S1040x1, .i32⟩
  | .hbm, ⟨19, _⟩ => ⟨S1040x1, .i32⟩
  | .hbm, ⟨20, _⟩ => ⟨S1040x1, .i32⟩
  | .hbm, ⟨21, _⟩ => ⟨S1040x2050, .i32⟩
  | .hbm, ⟨22, _⟩ => ⟨S_, .i32⟩
  | .hbm, ⟨23, _⟩ => ⟨S_, .i32⟩
  | .hbm, ⟨24, _⟩ => ⟨S1040x2176, .i32⟩
  | .hbm, ⟨25, _⟩ => ⟨S_, .i32⟩
  | .hbm, ⟨26, _⟩ => ⟨S3x1x2048, .f32⟩
  | .hbm, ⟨27, _⟩ => ⟨S3x8x2048, .f32⟩
  | .hbm, ⟨28, _⟩ => ⟨S3x8x2048, .f32⟩
  | .hbm, ⟨29, _⟩ => ⟨S3x1032x2048, .f32⟩
  | .hbm, ⟨30, _⟩ => ⟨S3x1x2048, .f32⟩
  | .hbm, ⟨31, _⟩ => ⟨S3x8x2048, .f32⟩
  | .hbm, ⟨32, _⟩ => ⟨S3x8x2048, .f32⟩
  | .hbm, ⟨33, _⟩ => ⟨S3x1040x2048, .f32⟩
  | .hbm, ⟨34, _⟩ => ⟨S3x1040x1, .f32⟩
  | .hbm, ⟨35, _⟩ => ⟨S3x1040x1, .f32⟩
  | .hbm, ⟨36, _⟩ => ⟨S3x1040x1, .f32⟩
  | .hbm, ⟨37, _⟩ => ⟨S3x1040x2049, .f32⟩
  | .hbm, ⟨38, _⟩ => ⟨S3x1040x1, .f32⟩
  | .hbm, ⟨39, _⟩ => ⟨S3x1040x1, .f32⟩
  | .hbm, ⟨40, _⟩ => ⟨S3x1040x1, .f32⟩
  | .hbm, ⟨41, _⟩ => ⟨S3x1040x2050, .f32⟩
  | .hbm, ⟨42, _⟩ => ⟨S_, .i32⟩
  | .hbm, ⟨43, _⟩ => ⟨S_, .f32⟩
  | .hbm, ⟨44, _⟩ => ⟨S3x1040x2176, .f32⟩
  | .hbm, ⟨45, _⟩ => ⟨S3x1024x2048, .f32⟩
  | .hbm, ⟨46, _⟩ => ⟨S1024x2048, .f32⟩
  | .hbm, ⟨47, _⟩ => ⟨S16x8x128, .f32⟩
  | .hbm, ⟨48, _⟩ => ⟨S16x1x3, .f32⟩
  | .hbm, ⟨49, _⟩ => ⟨S16x3, .f32⟩
  | .hbm, ⟨50, _⟩ => ⟨S_, .f32⟩
  | .hbm, ⟨51, _⟩ => ⟨S3, .f32⟩
  | .hbm, ⟨52, _⟩ => ⟨S1, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S1, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S1, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S1x3x1024x2048, .f32⟩
  | .local _ .vmem, ⟨0, _⟩ => ⟨S3x64x2048, .f32⟩
  | .local _ .vmem, ⟨1, _⟩ => ⟨S3x64x2048, .f32⟩
  | .local _ .vmem, ⟨2, _⟩ => ⟨S64x2048, .f32⟩
  | .local _ .vmem, ⟨3, _⟩ => ⟨S64x2048, .f32⟩
  | .local _ .vmem, ⟨4, _⟩ => ⟨S1x8x128, .f32⟩
  | .local _ .vmem, ⟨5, _⟩ => ⟨S1x8x128, .f32⟩
  | .local _ .vmem, ⟨6, _⟩ => ⟨S80x2176, .i32⟩
  | .local _ .vmem, ⟨7, _⟩ => ⟨S3x80x2176, .f32⟩
  | _, _ => ⟨S1x2x1024x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_v12 : Ref sig .tc := ⟨.hbm, 18, rfl⟩
abbrev main_call0_v13 : Ref sig .tc := ⟨.hbm, 19, rfl⟩
abbrev main_call0_v14 : Ref sig .tc := ⟨.hbm, 20, rfl⟩
abbrev main_v3 : Ref sig .tc := ⟨.hbm, 21, rfl⟩
abbrev main_c_0 : Ref sig .tc := ⟨.hbm, 22, rfl⟩
abbrev main_call1_v0 : Ref sig .tc := ⟨.hbm, 23, rfl⟩
abbrev main_v4 : Ref sig .tc := ⟨.hbm, 24, rfl⟩
abbrev main_c_1 : Ref sig .tc := ⟨.hbm, 25, rfl⟩
abbrev main_call2_v0 : Ref sig .tc := ⟨.hbm, 26, rfl⟩
abbrev main_call2_v1 : Ref sig .tc := ⟨.hbm, 27, rfl⟩
abbrev main_call2_v2 : Ref sig .tc := ⟨.hbm, 28, rfl⟩
abbrev main_call2_v3 : Ref sig .tc := ⟨.hbm, 29, rfl⟩
abbrev main_call2_v4 : Ref sig .tc := ⟨.hbm, 30, rfl⟩
abbrev main_call2_v5 : Ref sig .tc := ⟨.hbm, 31, rfl⟩
abbrev main_call2_v6 : Ref sig .tc := ⟨.hbm, 32, rfl⟩
abbrev main_call2_v7 : Ref sig .tc := ⟨.hbm, 33, rfl⟩
abbrev main_call2_v8 : Ref sig .tc := ⟨.hbm, 34, rfl⟩
abbrev main_call2_v9 : Ref sig .tc := ⟨.hbm, 35, rfl⟩
abbrev main_call2_v10 : Ref sig .tc := ⟨.hbm, 36, rfl⟩
abbrev main_call2_v11 : Ref sig .tc := ⟨.hbm, 37, rfl⟩
abbrev main_call2_v12 : Ref sig .tc := ⟨.hbm, 38, rfl⟩
abbrev main_call2_v13 : Ref sig .tc := ⟨.hbm, 39, rfl⟩
abbrev main_call2_v14 : Ref sig .tc := ⟨.hbm, 40, rfl⟩
abbrev main_v5 : Ref sig .tc := ⟨.hbm, 41, rfl⟩
abbrev main_c_2 : Ref sig .tc := ⟨.hbm, 42, rfl⟩
abbrev main_call3_v0 : Ref sig .tc := ⟨.hbm, 43, rfl⟩
abbrev main_v6 : Ref sig .tc := ⟨.hbm, 44, rfl⟩
abbrev main_v7_0 : Ref sig .tc := ⟨.hbm, 45, rfl⟩
abbrev main_v7_1 : Ref sig .tc := ⟨.hbm, 46, rfl⟩
abbrev main_v7_2 : Ref sig .tc := ⟨.hbm, 47, rfl⟩
abbrev main_v8 : Ref sig .tc := ⟨.hbm, 48, rfl⟩
abbrev main_v9 : Ref sig .tc := ⟨.hbm, 49, rfl⟩
abbrev main_cst : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_cst_3 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_cst_4 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_cst_5 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def k0_mult1 (i : grid0.Coords) : BitVec 32 :=
  let arg0 : BitVec 32 := BitVec.ofNat 32 (i 0).val
  let c64_i32 : BitVec 32 := 64#32
  let v0 : BitVec 32 := Scalar.muli arg0 c64_i32
  v0
def k0_off1 (i : grid0.Coords) : Fin 2 → Nat :=
  let arg0 : BitVec 32 := BitVec.ofNat 32 (i 0).val
  let c64_i32 : BitVec 32 := 64#32
  let v0 : BitVec 32 := Scalar.muli arg0 c64_i32
  let v1 : BitVec 32 := v0
  let c0_i32 : BitVec 32 := 0#32
  ![v1.toNat, 0]
def k0_off2 (i : grid0.Coords) : Fin 3 → Nat :=
  let c0_i32_0 : BitVec 32 := 0#32
  let arg0 : BitVec 32 := BitVec.ofNat 32 (i 0).val
  let c64_i32 : BitVec 32 := 64#32
  let v0 : BitVec 32 := Scalar.muli arg0 c64_i32
  let v1 : BitVec 32 := v0
  let c0_i32_1 : BitVec 32 := 0#32
  ![0, v1.toNat, 0]
def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S3x64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S1x2x1024x2048_S1x1x1024x2048_0_1_0_0 : S1x2x1024x2048.Slices ![0, 1, 0, 0] S1x1x1024x2048
  shapeCasts_S1x1x1024x2048_S1024x2048 : S1x1x1024x2048.ShapeCasts S1024x2048
  shapeCasts_S1x3x1024x2048_S3x1024x2048 : S1x3x1024x2048.ShapeCasts S3x1024x2048
  slices_S1024x2048_S1x2048_0_0 : S1024x2048.Slices ![0, 0] S1x2048
  slices_S1024x2048_S8x2048_1_0 : S1024x2048.Slices ![1, 0] S8x2048
  concatenates_S8x2048_S1024x2048_S1032x2048_d0 : Shape.Concatenates [S8x2048, S1024x2048] S1032x2048 0
  slices_S1032x2048_S1x2048_1031_0 : S1032x2048.Slices ![1031, 0] S1x2048
  slices_S1032x2048_S8x2048_1023_0 : S1032x2048.Slices ![1023, 0] S8x2048
  concatenates_S1032x2048_S8x2048_S1040x2048_d0 : Shape.Concatenates [S1032x2048, S8x2048] S1040x2048 0
  slices_S1040x2048_S1040x1_0_0 : S1040x2048.Slices ![0, 0] S1040x1
  slices_S1040x2048_S1040x1_0_1 : S1040x2048.Slices ![0, 1] S1040x1
  concatenates_S1040x1_S1040x2048_S1040x2049_d1 : Shape.Concatenates [S1040x1, S1040x2048] S1040x2049 1
  slices_S1040x2049_S1040x1_0_2048 : S1040x2049.Slices ![0, 2048] S1040x1
  slices_S1040x2049_S1040x1_0_2047 : S1040x2049.Slices ![0, 2047] S1040x1
  concatenates_S1040x2049_S1040x1_S1040x2050_d1 : Shape.Concatenates [S1040x2049, S1040x1] S1040x2050 1
  pads_S1040x2050_S1040x2176_000_01260 : S1040x2050.Pads (![0, 0] : Fin 2 → Nat) ![0, 126] ![0, 0] S1040x2176
  h_S_ : 0 < S_.numel
  slices_S3x1024x2048_S3x1x2048_0_0_0 : S3x1024x2048.Slices ![0, 0, 0] S3x1x2048
  slices_S3x1024x2048_S3x8x2048_0_1_0 : S3x1024x2048.Slices ![0, 1, 0] S3x8x2048
  concatenates_S3x8x2048_S3x1024x2048_S3x1032x2048_d1 : Shape.Concatenates [S3x8x2048, S3x1024x2048] S3x1032x2048 1
  slices_S3x1032x2048_S3x1x2048_0_1031_0 : S3x1032x2048.Slices ![0, 1031, 0] S3x1x2048
  slices_S3x1032x2048_S3x8x2048_0_1023_0 : S3x1032x2048.Slices ![0, 1023, 0] S3x8x2048
  concatenates_S3x1032x2048_S3x8x2048_S3x1040x2048_d1 : Shape.Concatenates [S3x1032x2048, S3x8x2048] S3x1040x2048 1
  slices_S3x1040x2048_S3x1040x1_0_0_0 : S3x1040x2048.Slices ![0, 0, 0] S3x1040x1
  slices_S3x1040x2048_S3x1040x1_0_0_1 : S3x1040x2048.Slices ![0, 0, 1] S3x1040x1
  concatenates_S3x1040x1_S3x1040x2048_S3x1040x2049_d2 : Shape.Concatenates [S3x1040x1, S3x1040x2048] S3x1040x2049 2
  slices_S3x1040x2049_S3x1040x1_0_0_2048 : S3x1040x2049.Slices ![0, 0, 2048] S3x1040x1
  slices_S3x1040x2049_S3x1040x1_0_0_2047 : S3x1040x2049.Slices ![0, 0, 2047] S3x1040x1
  concatenates_S3x1040x2049_S3x1040x1_S3x1040x2050_d2 : Shape.Concatenates [S3x1040x2049, S3x1040x1] S3x1040x2050 2
  pads_S3x1040x2050_S3x1040x2176_000_000_01260 : S3x1040x2050.Pads (![0, 0, 0] : Fin 3 → Nat) ![0, 0, 126] ![0, 0, 0] S3x1040x2176
  inb_S80x2176_S66x2050_7_0 : ∀ a, (![7, 0] : Fin 2 → Nat) a + S66x2050.size a ≤ S80x2176.size a
  h_S66x2050 : 0 < S66x2050.numel
  inb_S3x80x2176_S1x66x2050_0_7_0 : ∀ a, (![0, 7, 0] : Fin 3 → Nat) a + S1x66x2050.size a ≤ S3x80x2176.size a
  h_S1x66x2050 : 0 < S1x66x2050.numel
  shapeCasts_S1x66x2050_S66x2050 : S1x66x2050.ShapeCasts S66x2050
  inb_S3x80x2176_S1x66x2050_1_7_0 : ∀ a, (![1, 7, 0] : Fin 3 → Nat) a + S1x66x2050.size a ≤ S3x80x2176.size a
  inb_S3x80x2176_S1x66x2050_2_7_0 : ∀ a, (![2, 7, 0] : Fin 3 → Nat) a + S1x66x2050.size a ≤ S3x80x2176.size a
  slices_S66x2050_o1_1_S64x2048 : S66x2050.Slices ![1, 1] S64x2048
  slices_S66x2050_o1_2_S64x2048 : S66x2050.Slices ![1, 2] S64x2048
  slices_S66x2050_o1_0_S64x2048 : S66x2050.Slices ![1, 0] S64x2048
  slices_S66x2050_o0_1_S64x2048 : S66x2050.Slices ![0, 1] S64x2048
  slices_S66x2050_o2_1_S64x2048 : S66x2050.Slices ![2, 1] S64x2048
  natLt_1_32 : 1 < 32
  reduces_S64x2048_S64 : S64x2048.Reduces [1] S64
  shapeCasts_S64_S64x1 : S64.ShapeCasts S64x1
  reduces_S64x1_S1 : S64x1.Reduces [0] S1
  shapeCasts_S1_S1x1 : S1.ShapeCasts S1x1
  shapeCasts_S64x2048_S1x64x2048 : S64x2048.ShapeCasts S1x64x2048
  concatenates_S1x64x2048_S1x64x2048_S1x64x2048_S3x64x2048_d0 : Shape.Concatenates [S1x64x2048, S1x64x2048, S1x64x2048] S3x64x2048 0
  inb_S3x64x2048_S3x64x2048_0_0_0 : ∀ a, (![0, 0, 0] : Fin 3 → Nat) a + S3x64x2048.size a ≤ S3x64x2048.size a
  h_S3x64x2048 : 0 < S3x64x2048.numel
  inb_S64x2048_S64x2048_0_0 : ∀ a, (![0, 0] : Fin 2 → Nat) a + S64x2048.size a ≤ S64x2048.size a
  h_S64x2048 : 0 < S64x2048.numel
  concatenates_S1x1_S1x1_S1x1_S1x3_d1 : Shape.Concatenates [S1x1, S1x1, S1x1] S1x3 1
  concatenates_S1x3_S1x125_S1x128_d1 : Shape.Concatenates [S1x3, S1x125] S1x128 1
  concatenates_S1x128_S7x128_S8x128_d0 : Shape.Concatenates [S1x128, S7x128] S8x128 0
  shapeCasts_S8x128_S1x8x128 : S8x128.ShapeCasts S1x8x128
  inb_S1x8x128_S1x8x128_0_0_0 : ∀ a, (![0, 0, 0] : Fin 3 → Nat) a + S1x8x128.size a ≤ S1x8x128.size a
  h_S1x8x128 : 0 < S1x8x128.numel
  slices_S16x8x128_S16x1x3_0_0_0 : S16x8x128.Slices ![0, 0, 0] S16x1x3
  shapeCasts_S16x1x3_S16x3 : S16x1x3.ShapeCasts S16x3
  reducesTo_S16x3_S3_d0 : S16x3.ReducesTo [0] S3
  slices_S3_S1_0 : S3.Slices ![0] S1
  shapeCasts_S1_S_ : S1.ShapeCasts S_
  slices_S3_S1_1 : S3.Slices ![1] S1
  slices_S3_S1_2 : S3.Slices ![2] S1
  bcast_S3x1024x2048_S1x3x1024x2048_1_2_3 : S3x1024x2048.BroadcastsInDim S1x3x1024x2048 (![1, 2, 3] : Fin 3 → Fin S1x3x1024x2048.rank)
  hcc0_scratch2 : 6 + S_.numel ≤ 8
  hcc0_scratch3 : 7 + S_.numel ≤ 8
  hrank0 : 0 < grid0.rank
  k0_mult1_dvd : ∀ i : grid0.Coords, 8 ∣ (k0_mult1 i).toNat
  k0_off1_inb : ∀ i : grid0.Coords, ∀ a, (k0_off1 i) a + S80x2176.size a ≤ S1040x2176.size a
  k0_off2_inb : ∀ i : grid0.Coords, ∀ a, (k0_off2 i) a + S3x80x2176.size a ≤ S3x1040x2176.size a
  hstage0_0 : ∀ j, (stage0_0 j).IsWhole
  nbuf0_0 : grid0.bufCount reads0_0 false = 2
  hreads0_0 : ∀ i i' : grid0.Coords, (∀ a, reads0_0 a = true → i a = i' a) → cc0_transform_2 i = cc0_transform_2 i'
  hinb0_0 : ∀ (i : grid0.Coords) a, (cc0_transform_2 i a + 1) * S3x64x2048.size a ≤ S3x1024x2048.size a
  hwx0_0 : ∀ i : grid0.Coords, EltTy.bits .f32 = 32 ∨ (Rect.block (s := S3x1024x2048) S3x64x2048.size (cc0_transform_2 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_3 i = cc0_transform_3 i'
  hinb0_1 : ∀ (i : grid0.Coords) a, (cc0_transform_3 i a + 1) * S64x2048.size a ≤ S1024x2048.size a
  hwx0_1 : ∀ i : grid0.Coords, EltTy.bits .f32 = 32 ∨ (Rect.block (s := S1024x2048) S64x2048.size (cc0_transform_3 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_4 i = cc0_transform_4 i'
  hinb0_2 : ∀ (i : grid0.Coords) a, (cc0_transform_4 i a + 1) * S1x8x128.size a ≤ S16x8x128.size a
  hwx0_2 : ∀ i : grid0.Coords, EltTy.bits .f32 = 32 ∨ (Rect.block (s := S16x8x128) S1x8x128.size (cc0_transform_4 i) (hinb0_2 i)).WholeWords (EltTy.packing .f32)

variable [Facts₀]

abbrev cc0_scratch2 : DmaSems sig S_ := SemArray.consecutive 6 S_ hcc0_scratch2
abbrev cc0_scratch3 : DmaSems sig S_ := SemArray.consecutive 7 S_ hcc0_scratch3

abbrev win0_0 : Pipeline.Window sig grid0 :=
  Pipeline.Window.ofSpec (Memref.whole main_v7_0) S3x64x2048.size cc0_transform_2 reads0_0 true false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7_1) S64x2048.size cc0_transform_3 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7_2) S1x8x128.size cc0_transform_4 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1x2x1024x2048 : Shape := ⟨4, ![1, 2, 1024, 2048]⟩
abbrev S1x3x1024x2048 : Shape := ⟨4, ![1, 3, 1024, 2048]⟩
abbrev S1x1x1024x2048 : Shape := ⟨4, ![1, 1, 1024, 2048]⟩
abbrev S1024x2048 : Shape := ⟨2, ![1024, 2048]⟩
abbrev S_ : Shape := ⟨0, ![]⟩
abbrev S1x1024x2048 : Shape := ⟨3, ![1, 1024, 2048]⟩
abbrev S1x3x1x2048 : Shape := ⟨4, ![1, 3, 1, 2048]⟩
abbrev S1x3x1025x2048 : Shape := ⟨4, ![1, 3, 1025, 2048]⟩
abbrev S1x3x1026x2048 : Shape := ⟨4, ![1, 3, 1026, 2048]⟩
abbrev S1x3x1026x1 : Shape := ⟨4, ![1, 3, 1026, 1]⟩
abbrev S1x3x1026x2049 : Shape := ⟨4, ![1, 3, 1026, 2049]⟩
abbrev S1x3x1026x2050 : Shape := ⟨4, ![1, 3, 1026, 2050]⟩
abbrev S1x1x1026x2050 : Shape := ⟨4, ![1, 1, 1026, 2050]⟩
abbrev S1x1026x2050 : Shape := ⟨3, ![1, 1026, 2050]⟩

abbrev nBuf : Space → Nat
  | .hbm => 328
  | .vmem => 0
  | .smem => 0
  | _ => 0

abbrev hbmTy0_0 (i : Nat) : BufTy := match i % 128 with
  | 0 => ⟨S1x2x1024x2048, .i32⟩
  | 1 => ⟨S1x3x1024x2048, .f32⟩
  | 2 => ⟨S1x1x1024x2048, .i32⟩
  | 3 => ⟨S1024x2048, .i32⟩
  | 4 => ⟨S_, .i32⟩
  | 5 => ⟨S1024x2048, .i32⟩
  | 6 => ⟨S1024x2048, .i1⟩
  | 7 => ⟨S_, .i32⟩
  | 8 => ⟨S1024x2048, .i32⟩
  | 9 => ⟨S1024x2048, .i1⟩
  | 10 => ⟨S1x1x1024x2048, .f32⟩
  | 11 => ⟨S1x1024x2048, .f32⟩
  | 12 => ⟨S_, .f32⟩
  | 13 => ⟨S_, .f32⟩
  | 14 => ⟨S1x1024x2048, .i1⟩
  | 15 => ⟨S1x1024x2048, .f32⟩
  | 16 => ⟨S1x1024x2048, .f32⟩
  | 17 => ⟨S_, .f32⟩
  | 18 => ⟨S_, .f32⟩
  | 19 => ⟨S1x1024x2048, .i1⟩
  | 20 => ⟨S1x1024x2048, .f32⟩
  | 21 => ⟨S1x1024x2048, .f32⟩
  | 22 => ⟨S_, .i32⟩
  | 23 => ⟨S1024x2048, .i32⟩
  | 24 => ⟨S1024x2048, .i1⟩
  | 25 => ⟨S_, .i32⟩
  | 26 => ⟨S1024x2048, .i32⟩
  | 27 => ⟨S1024x2048, .i1⟩
  | 28 => ⟨S1024x2048, .i1⟩
  | 29 => ⟨S1x1x1024x2048, .f32⟩
  | 30 => ⟨S1x1024x2048, .f32⟩
  | 31 => ⟨S_, .f32⟩
  | 32 => ⟨S_, .f32⟩
  | 33 => ⟨S1x1024x2048, .i1⟩
  | 34 => ⟨S1x1024x2048, .f32⟩
  | 35 => ⟨S1x1024x2048, .f32⟩
  | 36 => ⟨S_, .i32⟩
  | 37 => ⟨S1024x2048, .i32⟩
  | 38 => ⟨S1024x2048, .i1⟩
  | 39 => ⟨S_, .i32⟩
  | 40 => ⟨S1024x2048, .i32⟩
  | 41 => ⟨S1024x2048, .i1⟩
  | 42 => ⟨S1024x2048, .i1⟩
  | 43 => ⟨S1x1x1024x2048, .f32⟩
  | 44 => ⟨S1x1024x2048, .f32⟩
  | 45 => ⟨S_, .f32⟩
  | 46 => ⟨S_, .f32⟩
  | 47 => ⟨S1x1024x2048, .i1⟩
  | 48 => ⟨S1x1024x2048, .f32⟩
  | 49 => ⟨S1x1024x2048, .f32⟩
  | 50 => ⟨S1x1x1024x2048, .f32⟩
  | 51 => ⟨S1x1x1024x2048, .f32⟩
  | 52 => ⟨S1x1x1024x2048, .f32⟩
  | 53 => ⟨S1x3x1024x2048, .f32⟩
  | 54 => ⟨S1x1x1024x2048, .f32⟩
  | 55 => ⟨S1x1024x2048, .f32⟩
  | 56 => ⟨S1x1x1024x2048, .f32⟩
  | 57 => ⟨S1x1024x2048, .f32⟩
  | 58 => ⟨S_, .i32⟩
  | 59 => ⟨S1x3x1x2048, .f32⟩
  | 60 => ⟨S1x3x1x2048, .f32⟩
  | 61 => ⟨S1x3x1x2048, .f32⟩
  | 62 => ⟨S1x3x1025x2048, .f32⟩
  | 63 => ⟨S1x3x1x2048, .f32⟩
  | 64 => ⟨S1x3x1x2048, .f32⟩
  | 65 => ⟨S1x3x1x2048, .f32⟩
  | 66 => ⟨S1x3x1026x2048, .f32⟩
  | 67 => ⟨S1x3x1026x1, .f32⟩
  | 68 => ⟨S1x3x1026x1, .f32⟩
  | 69 => ⟨S1x3x1026x1, .f32⟩
  | 70 => ⟨S1x3x1026x2049, .f32⟩
  | 71 => ⟨S1x3x1026x1, .f32⟩
  | 72 => ⟨S1x3x1026x1, .f32⟩
  | 73 => ⟨S1x3x1026x1, .f32⟩
  | 74 => ⟨S1x3x1026x2050, .f32⟩
  | 75 => ⟨S1x1x1026x2050, .f32⟩
  | 76 => ⟨S1x1026x2050, .f32⟩
  | 77 => ⟨S1x1x1026x2050, .f32⟩
  | 78 => ⟨S1x1026x2050, .f32⟩
  | 79 => ⟨S1x1x1026x2050, .f32⟩
  | 80 => ⟨S1x1026x2050, .f32⟩
  | 81 => ⟨S_, .i32⟩
  | 82 => ⟨S1024x2048, .i32⟩
  | 83 => ⟨S1024x2048, .i1⟩
  | 84 => ⟨S_, .i32⟩
  | 85 => ⟨S1024x2048, .i32⟩
  | 86 => ⟨S1024x2048, .i1⟩
  | 87 => ⟨S1024x2048, .i1⟩
  | 88 => ⟨S_, .i32⟩
  | 89 => ⟨S1024x2048, .i32⟩
  | 90 => ⟨S1024x2048, .i1⟩
  | 91 => ⟨S1024x2048, .i1⟩
  | 92 => ⟨S1x1024x2048, .f32⟩
  | 93 => ⟨S1x1024x2048, .f32⟩
  | 94 => ⟨S1x1024x2048, .f32⟩
  | 95 => ⟨S_, .i32⟩
  | 96 => ⟨S1024x2048, .i32⟩
  | 97 => ⟨S1024x2048, .i1⟩
  | 98 => ⟨S_, .i32⟩
  | 99 => ⟨S1024x2048, .i32⟩
  | 100 => ⟨S1024x2048, .i1⟩
  | 101 => ⟨S1024x2048, .i1⟩
  | 102 => ⟨S_, .i32⟩
  | 103 => ⟨S1024x2048, .i32⟩
  | 104 => ⟨S1024x2048, .i1⟩
  | 105 => ⟨S1024x2048, .i1⟩
  | 106 => ⟨S1x1024x2048, .f32⟩
  | 107 => ⟨S1x1024x2048, .f32⟩
  | 108 => ⟨S1x1024x2048, .f32⟩
  | 109 => ⟨S1x1024x2048, .f32⟩
  | 110 => ⟨S1x1024x2048, .f32⟩
  | 111 => ⟨S1x1024x2048, .f32⟩
  | 112 => ⟨S_, .f32⟩
  | 113 => ⟨S1x1024x2048, .f32⟩
  | 114 => ⟨S1x1024x2048, .f32⟩
  | 115 => ⟨S1x1024x2048, .i1⟩
  | 116 => ⟨S1x1024x2048, .f32⟩
  | 117 => ⟨S1x1024x2048, .i1⟩
  | 118 => ⟨S1x1024x2048, .f32⟩
  | 119 => ⟨S_, .i32⟩
  | 120 => ⟨S1024x2048, .i32⟩
  | 121 => ⟨S1024x2048, .i1⟩
  | 122 => ⟨S_, .i32⟩
  | 123 => ⟨S1024x2048, .i32⟩
  | 124 => ⟨S1024x2048, .i1⟩
  | 125 => ⟨S1024x2048, .i1⟩
  | 126 => ⟨S_, .i32⟩
  | 127 => ⟨S1024x2048, .i32⟩
  | _ => ⟨S1x2x1024x2048, .i32⟩

abbrev hbmTy0_1 (i : Nat) : BufTy := match i % 128 with
  | 0 => ⟨S1024x2048, .i1⟩
  | 1 => ⟨S1024x2048, .i1⟩
  | 2 => ⟨S1x1024x2048, .f32⟩
  | 3 => ⟨S1x1024x2048, .f32⟩
  | 4 => ⟨S1x1024x2048, .f32⟩
  | 5 => ⟨S_, .i32⟩
  | 6 => ⟨S1024x2048, .i32⟩
  | 7 => ⟨S1024x2048, .i1⟩
  | 8 => ⟨S_, .i32⟩
  | 9 => ⟨S1024x2048, .i32⟩
  | 10 => ⟨S1024x2048, .i1⟩
  | 11 => ⟨S1024x2048, .i1⟩
  | 12 => ⟨S_, .i32⟩
  | 13 => ⟨S1024x2048, .i32⟩
  | 14 => ⟨S1024x2048, .i1⟩
  | 15 => ⟨S1024x2048, .i1⟩
  | 16 => ⟨S1x1024x2048, .f32⟩
  | 17 => ⟨S1x1024x2048, .f32⟩
  | 18 => ⟨S1x1024x2048, .f32⟩
  | 19 => ⟨S1x1024x2048, .f32⟩
  | 20 => ⟨S1x1024x2048, .f32⟩
  | 21 => ⟨S1x1024x2048, .f32⟩
  | 22 => ⟨S_, .f32⟩
  | 23 => ⟨S1x1024x2048, .f32⟩
  | 24 => ⟨S1x1024x2048, .f32⟩
  | 25 => ⟨S1x1024x2048, .i1⟩
  | 26 => ⟨S1x1024x2048, .f32⟩
  | 27 => ⟨S1x1024x2048, .i1⟩
  | 28 => ⟨S1x1024x2048, .f32⟩
  | 29 => ⟨S1x1024x2048, .f32⟩
  | 30 => ⟨S1x1024x2048, .f32⟩
  | 31 => ⟨S1x1024x2048, .f32⟩
  | 32 => ⟨S_, .f32⟩
  | 33 => ⟨S1x1024x2048, .f32⟩
  | 34 => ⟨S1x1024x2048, .f32⟩
  | 35 => ⟨S1x1024x2048, .f32⟩
  | 36 => ⟨S_, .f32⟩
  | 37 => ⟨S1x1024x2048, .f32⟩
  | 38 => ⟨S1x1024x2048, .f32⟩
  | 39 => ⟨S1x1024x2048, .f32⟩
  | 40 => ⟨S1x1024x2048, .f32⟩
  | 41 => ⟨S1x1024x2048, .f32⟩
  | 42 => ⟨S_, .f32⟩
  | 43 => ⟨S1x1024x2048, .f32⟩
  | 44 => ⟨S1x1024x2048, .f32⟩
  | 45 => ⟨S1x1024x2048, .f32⟩
  | 46 => ⟨S_, .f32⟩
  | 47 => ⟨S1x1024x2048, .f32⟩
  | 48 => ⟨S1x1024x2048, .f32⟩
  | 49 => ⟨S1x1024x2048, .f32⟩
  | 50 => ⟨S_, .f32⟩
  | 51 => ⟨S1x1024x2048, .f32⟩
  | 52 => ⟨S1x1024x2048, .f32⟩
  | 53 => ⟨S1x1024x2048, .f32⟩
  | 54 => ⟨S1x1024x2048, .f32⟩
  | 55 => ⟨S1x1024x2048, .f32⟩
  | 56 => ⟨S1x1024x2048, .f32⟩
  | 57 => ⟨S1x1024x2048, .f32⟩
  | 58 => ⟨S1x1024x2048, .f32⟩
  | 59 => ⟨S1x1024x2048, .f32⟩
  | 60 => ⟨S1x1024x2048, .f32⟩
  | 61 => ⟨S1x1024x2048, .f32⟩
  | 62 => ⟨S_, .f32⟩
  | 63 => ⟨S1x1024x2048, .f32⟩
  | 64 => ⟨S1x1024x2048, .f32⟩
  | 65 => ⟨S1x1024x2048, .f32⟩
  | 66 => ⟨S_, .f32⟩
  | 67 => ⟨S1x1024x2048, .f32⟩
  | 68 => ⟨S1x1024x2048, .f32⟩
  | 69 => ⟨S_, .f32⟩
  | 70 => ⟨S1x1024x2048, .f32⟩
  | 71 => ⟨S1x1024x2048, .f32⟩
  | 72 => ⟨S1x1024x2048, .f32⟩
  | 73 => ⟨S1x1024x2048, .f32⟩
  | 74 => ⟨S1x1024x2048, .f32⟩
  | 75 => ⟨S1x1024x2048, .f32⟩
  | 76 => ⟨S_, .f32⟩
  | 77 => ⟨S1x1024x2048, .f32⟩
  | 78 => ⟨S1x1024x2048, .f32⟩
  | 79 => ⟨S1x1024x2048, .f32⟩
  | 80 => ⟨S_, .f32⟩
  | 81 => ⟨S1x1024x2048, .f32⟩
  | 82 => ⟨S1x1024x2048, .f32⟩
  | 83 => ⟨S1x1024x2048, .f32⟩
  | 84 => ⟨S1x1024x2048, .f32⟩
  | 85 => ⟨S1x1024x2048, .f32⟩
  | 86 => ⟨S_, .f32⟩
  | 87 => ⟨S1x1024x2048, .f32⟩
  | 88 => ⟨S1x1024x2048, .f32⟩
  | 89 => ⟨S1x1024x2048, .f32⟩
  | 90 => ⟨S_, .f32⟩
  | 91 => ⟨S1x1024x2048, .f32⟩
  | 92 => ⟨S1x1024x2048, .f32⟩
  | 93 => ⟨S1x1024x2048, .f32⟩
  | 94 => ⟨S_, .f32⟩
  | 95 => ⟨S1x1024x2048, .f32⟩
  | 96 => ⟨S1x1024x2048, .f32⟩
  | 97 => ⟨S1x1024x2048, .f32⟩
  | 98 => ⟨S1x1024x2048, .f32⟩
  | 99 => ⟨S1x1024x2048, .f32⟩
  | 100 => ⟨S1x1024x2048, .f32⟩
  | 101 => ⟨S1x1024x2048, .f32⟩
  | 102 => ⟨S1x1024x2048, .f32⟩
  | 103 => ⟨S1x1024x2048, .f32⟩
  | 104 => ⟨S1x1024x2048, .f32⟩
  | 105 => ⟨S1x1024x2048, .f32⟩
  | 106 => ⟨S_, .f32⟩
  | 107 => ⟨S1x1024x2048, .f32⟩
  | 108 => ⟨S1x1024x2048, .f32⟩
  | 109 => ⟨S1x1024x2048, .f32⟩
  | 110 => ⟨S_, .f32⟩
  | 111 => ⟨S1x1024x2048, .f32⟩
  | 112 => ⟨S1x1024x2048, .f32⟩
  | 113 => ⟨S_, .f32⟩
  | 114 => ⟨S1x1024x2048, .f32⟩
  | 115 => ⟨S1x1024x2048, .f32⟩
  | 116 => ⟨S1x1024x2048, .f32⟩
  | 117 => ⟨S1x1024x2048, .f32⟩
  | 118 => ⟨S1x1024x2048, .f32⟩
  | 119 => ⟨S1x1024x2048, .f32⟩
  | 120 => ⟨S_, .f32⟩
  | 121 => ⟨S1x1024x2048, .f32⟩
  | 122 => ⟨S1x1024x2048, .f32⟩
  | 123 => ⟨S_, .f32⟩
  | 124 => ⟨S1x1024x2048, .f32⟩
  | 125 => ⟨S1x1024x2048, .f32⟩
  | 126 => ⟨S1x1024x2048, .f32⟩
  | 127 => ⟨S1x1024x2048, .f32⟩
  | _ => ⟨S1x2x1024x2048, .i32⟩

abbrev hbmTy0_2 (i : Nat) : BufTy := match i % 128 with
  | 0 => ⟨S1x1024x2048, .f32⟩
  | 1 => ⟨S_, .f32⟩
  | 2 => ⟨S1x1024x2048, .f32⟩
  | 3 => ⟨S1x1024x2048, .f32⟩
  | 4 => ⟨S_, .f32⟩
  | 5 => ⟨S1x1024x2048, .f32⟩
  | 6 => ⟨S1x1024x2048, .f32⟩
  | 7 => ⟨S1x1024x2048, .f32⟩
  | 8 => ⟨S_, .i32⟩
  | 9 => ⟨S1024x2048, .i32⟩
  | 10 => ⟨S1024x2048, .i1⟩
  | 11 => ⟨S_, .i32⟩
  | 12 => ⟨S1024x2048, .i32⟩
  | 13 => ⟨S1024x2048, .i1⟩
  | 14 => ⟨S1024x2048, .i1⟩
  | 15 => ⟨S_, .i32⟩
  | 16 => ⟨S1024x2048, .i32⟩
  | 17 => ⟨S1024x2048, .i1⟩
  | 18 => ⟨S1024x2048, .i1⟩
  | 19 => ⟨S_, .i32⟩
  | 20 => ⟨S1024x2048, .i32⟩
  | 21 => ⟨S1024x2048, .i1⟩
  | 22 => ⟨S1024x2048, .i1⟩
  | 23 => ⟨S_, .i32⟩
  | 24 => ⟨S1024x2048, .i32⟩
  | 25 => ⟨S1024x2048, .i1⟩
  | 26 => ⟨S1024x2048, .i1⟩
  | 27 => ⟨S_, .i32⟩
  | 28 => ⟨S1024x2048, .i32⟩
  | 29 => ⟨S1024x2048, .i1⟩
  | 30 => ⟨S1024x2048, .i1⟩
  | 31 => ⟨S_, .i32⟩
  | 32 => ⟨S1024x2048, .i32⟩
  | 33 => ⟨S1024x2048, .i1⟩
  | 34 => ⟨S1024x2048, .i1⟩
  | 35 => ⟨S_, .i32⟩
  | 36 => ⟨S1024x2048, .i32⟩
  | 37 => ⟨S1024x2048, .i1⟩
  | 38 => ⟨S1024x2048, .i1⟩
  | 39 => ⟨S_, .i32⟩
  | 40 => ⟨S1024x2048, .i32⟩
  | 41 => ⟨S1024x2048, .i1⟩
  | 42 => ⟨S1024x2048, .i1⟩
  | 43 => ⟨S1024x2048, .f32⟩
  | 44 => ⟨S1x1024x2048, .f32⟩
  | 45 => ⟨S1x1024x2048, .f32⟩
  | 46 => ⟨S1x1024x2048, .f32⟩
  | 47 => ⟨S1x1024x2048, .f32⟩
  | 48 => ⟨S1x1024x2048, .f32⟩
  | 49 => ⟨S1x1024x2048, .f32⟩
  | 50 => ⟨S1x1024x2048, .f32⟩
  | 51 => ⟨S_, .f32⟩
  | 52 => ⟨S_, .f32⟩
  | 53 => ⟨S_, .f32⟩
  | 54 => ⟨S_, .f32⟩
  | 55 => ⟨S1x1024x2048, .f32⟩
  | 56 => ⟨S_, .f32⟩
  | 57 => ⟨S_, .f32⟩
  | 58 => ⟨S_, .f32⟩
  | 59 => ⟨S_, .f32⟩
  | 60 => ⟨S_, .f32⟩
  | 61 => ⟨S1x1024x2048, .f32⟩
  | 62 => ⟨S_, .f32⟩
  | 63 => ⟨S_, .f32⟩
  | 64 => ⟨S_, .f32⟩
  | 65 => ⟨S_, .f32⟩
  | 66 => ⟨S_, .f32⟩
  | 67 => ⟨S_, .i32⟩
  | 68 => ⟨S_, .i32⟩
  | 69 => ⟨S1024x2048, .i32⟩
  | 70 => ⟨S1024x2048, .i32⟩
  | 71 => ⟨S1024x2048, .f32⟩
  | _ => ⟨S1x2x1024x2048, .i32⟩

abbrev hbmTy (i : Nat) : BufTy := match i / 128 with
  | 0 => hbmTy0_0 i
  | 1 => hbmTy0_1 i
  | 2 => hbmTy0_2 i
  | _ => ⟨S1x2x1024x2048, .i32⟩

abbrev bufTy : (tb : Table) → Fin (tcTables nBuf tb) → BufTy
  | .hbm, ⟨i, _⟩ => hbmTy i
  | _, _ => ⟨S1x2x1024x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v8 : Ref sig .tc := ⟨.hbm, 16, rfl⟩
abbrev main_cst_1 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_v9 : Ref sig .tc := ⟨.hbm, 21, rfl⟩
abbrev main_c_2 : Ref sig .tc := ⟨.hbm, 22, rfl⟩
abbrev main_v10 : Ref sig .tc := ⟨.hbm, 23, rfl⟩
abbrev main_v11 : Ref sig .tc := ⟨.hbm, 24, rfl⟩
abbrev main_c_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_4 : Ref sig .tc := ⟨.hbm, 31, rfl⟩
abbrev main_call2_v0 : Ref sig .tc := ⟨.hbm, 32, rfl⟩
abbrev main_call2_v1 : Ref sig .tc := ⟨.hbm, 33, rfl⟩
abbrev main_call2_v2 : Ref sig .tc := ⟨.hbm, 34, rfl⟩
abbrev main_v17 : Ref sig .tc := ⟨.hbm, 35, rfl⟩
abbrev main_c_5 : Ref sig .tc := ⟨.hbm, 36, rfl⟩
abbrev main_v18 : Ref sig .tc := ⟨.hbm, 37, rfl⟩
abbrev main_v19 : Ref sig .tc := ⟨.hbm, 38, rfl⟩
abbrev main_c_6 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_7 : Ref sig .tc := ⟨.hbm, 45, rfl⟩
abbrev main_call3_v0 : Ref sig .tc := ⟨.hbm, 46, rfl⟩
abbrev main_call3_v1 : Ref sig .tc := ⟨.hbm, 47, rfl⟩
abbrev main_call3_v2 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_c_8 : Ref sig .tc := ⟨.hbm, 58, rfl⟩
abbrev main_call4_v0 : Ref sig .tc := ⟨.hbm, 59, rfl⟩
abbrev main_call4_v1 : Ref sig .tc := ⟨.hbm, 60, rfl⟩
abbrev main_call4_v2 : Ref sig .tc := ⟨.hbm, 61, rfl⟩
abbrev main_call4_v3 : Ref sig .tc := ⟨.hbm, 62, rfl⟩
abbrev main_call4_v4 : Ref sig .tc := ⟨.hbm, 63, rfl⟩
abbrev main_call4_v5 : Ref sig .tc := ⟨.hbm, 64, rfl⟩
abbrev main_call4_v6 : Ref sig .tc := ⟨.hbm, 65, rfl⟩
abbrev main_call4_v7 : Ref sig .tc := ⟨.hbm, 66, rfl⟩
abbrev main_call4_v8 : Ref sig .tc := ⟨.hbm, 67, rfl⟩
abbrev main_call4_v9 : Ref sig .tc := ⟨.hbm, 68, rfl⟩
abbrev main_call4_v10 : Ref sig .tc := ⟨.hbm, 69, rfl⟩
abbrev main_call4_v11 : Ref sig .tc := ⟨.hbm, 70, rfl⟩
abbrev main_call4_v12 : Ref sig .tc := ⟨.hbm, 71, rfl⟩
abbrev main_call4_v13 : Ref sig .tc := ⟨.hbm, 72, rfl⟩
abbrev main_call4_v14 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_c_9 : Ref sig .tc := ⟨.hbm, 81, rfl⟩
abbrev main_v41 : Ref sig .tc := ⟨.hbm, 82, rfl⟩
abbrev main_v42 : Ref sig .tc := ⟨.hbm, 83, rfl⟩
abbrev main_c_10 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_c_11 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_c_12 : Ref sig .tc := ⟨.hbm, 95, rfl⟩
abbrev main_v52 : Ref sig .tc := ⟨.hbm, 96, rfl⟩
abbrev main_v53 : Ref sig .tc := ⟨.hbm, 97, rfl⟩
abbrev main_c_13 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_c_14 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_cst_15 : Ref sig .tc := ⟨.hbm, 112, rfl⟩
abbrev main_v66 : Ref sig .tc := ⟨.hbm, 113, rfl⟩
abbrev main_v67 : Ref sig .tc := ⟨.hbm, 114, rfl⟩
abbrev main_call5_v0 : Ref sig .tc := ⟨.hbm, 115, rfl⟩
abbrev main_v68 : Ref sig .tc := ⟨.hbm, 116, rfl⟩
abbrev main_call6_v0 : Ref sig .tc := ⟨.hbm, 117, rfl⟩
abbrev main_v69 : Ref sig .tc := ⟨.hbm, 118, rfl⟩
abbrev main_c_16 : Ref sig .tc := ⟨.hbm, 119, rfl⟩
abbrev main_v70 : Ref sig .tc := ⟨.hbm, 120, rfl⟩
abbrev main_v71 : Ref sig .tc := ⟨.hbm, 121, rfl⟩
abbrev main_c_17 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_c_18 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_c_19 : Ref sig .tc := ⟨.hbm, 133, rfl⟩
abbrev main_v81 : Ref sig .tc := ⟨.hbm, 134, rfl⟩
abbrev main_v82 : Ref sig .tc := ⟨.hbm, 135, rfl⟩
abbrev main_c_20 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_c_21 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_cst_22 : Ref sig .tc := ⟨.hbm, 150, rfl⟩
abbrev main_v95 : Ref sig .tc := ⟨.hbm, 151, rfl⟩
abbrev main_v96 : Ref sig .tc := ⟨.hbm, 152, rfl⟩
abbrev main_call7_v0 : Ref sig .tc := ⟨.hbm, 153, rfl⟩
abbrev main_v97 : Ref sig .tc := ⟨.hbm, 154, rfl⟩
abbrev main_call8_v0 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_cst_23 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_cst_24 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev main_cst_25 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_cst_26 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_cst_27 : Ref sig .tc := ⟨.hbm, 178, rfl⟩
abbrev main_v116 : Ref sig .tc := ⟨.hbm, 179, rfl⟩
abbrev main_v117 : Ref sig .tc := ⟨.hbm, 180, rfl⟩
abbrev main_v118 : Ref sig .tc := ⟨.hbm, 181, rfl⟩
abbrev main_v119 : Ref sig .tc := ⟨.hbm, 182, rfl⟩
abbrev main_v120 : Ref sig .tc := ⟨.hbm, 183, rfl⟩
abbrev main_v121 : Ref sig .tc := ⟨.hbm, 184, rfl⟩
abbrev main_v122 : Ref sig .tc := ⟨.hbm, 185, rfl⟩
abbrev main_v123 : Ref sig .tc := ⟨.hbm, 186, rfl⟩
abbrev main_v124 : Ref sig .tc := ⟨.hbm, 187, rfl⟩
abbrev main_v125 : Ref sig .tc := ⟨.hbm, 188, rfl⟩
abbrev main_v126 : Ref sig .tc := ⟨.hbm, 189, rfl⟩
abbrev main_cst_28 : Ref sig .tc := ⟨.hbm, 190, rfl⟩
abbrev main_v127 : Ref sig .tc := ⟨.hbm, 191, rfl⟩
abbrev main_v128 : Ref sig .tc := ⟨.hbm, 192, rfl⟩
abbrev main_v129 : Ref sig .tc := ⟨.hbm, 193, rfl⟩
abbrev main_cst_29 : Ref sig .tc := ⟨.hbm, 194, rfl⟩
abbrev main_v130 : Ref sig .tc := ⟨.hbm, 195, rfl⟩
abbrev main_v131 : Ref sig .tc := ⟨.hbm, 196, rfl⟩
abbrev main_cst_30 : Ref sig .tc := ⟨.hbm, 197, rfl⟩
abbrev main_v132 : Ref sig .tc := ⟨.hbm, 198, rfl⟩
abbrev main_v133 : Ref sig .tc := ⟨.hbm, 199, rfl⟩
abbrev main_v134 : Ref sig .tc := ⟨.hbm, 200, rfl⟩
abbrev main_v135 : Ref sig .tc := ⟨.hbm, 201, rfl⟩
abbrev main_v136 : Ref sig .tc := ⟨.hbm, 202, rfl⟩
abbrev main_v137 : Ref sig .tc := ⟨.hbm, 203, rfl⟩
abbrev main_cst_31 : Ref sig .tc := ⟨.hbm, 204, rfl⟩
abbrev main_v138 : Ref sig .tc := ⟨.hbm, 205, rfl⟩
abbrev main_v139 : Ref sig .tc := ⟨.hbm, 206, rfl⟩
abbrev main_v140 : Ref sig .tc := ⟨.hbm, 207, rfl⟩
abbrev main_cst_32 : Ref sig .tc := ⟨.hbm, 208, rfl⟩
abbrev main_v141 : Ref sig .tc := ⟨.hbm, 209, rfl⟩
abbrev main_v142 : Ref sig .tc := ⟨.hbm, 210, rfl⟩
abbrev main_v143 : Ref sig .tc := ⟨.hbm, 211, rfl⟩
abbrev main_v144 : Ref sig .tc := ⟨.hbm, 212, rfl⟩
abbrev main_v145 : Ref sig .tc := ⟨.hbm, 213, rfl⟩
abbrev main_cst_33 : Ref sig .tc := ⟨.hbm, 214, rfl⟩
abbrev main_v146 : Ref sig .tc := ⟨.hbm, 215, rfl⟩
abbrev main_v147 : Ref sig .tc := ⟨.hbm, 216, rfl⟩
abbrev main_v148 : Ref sig .tc := ⟨.hbm, 217, rfl⟩
abbrev main_cst_34 : Ref sig .tc := ⟨.hbm, 218, rfl⟩
abbrev main_v149 : Ref sig .tc := ⟨.hbm, 219, rfl⟩
abbrev main_v150 : Ref sig .tc := ⟨.hbm, 220, rfl⟩
abbrev main_v151 : Ref sig .tc := ⟨.hbm, 221, rfl⟩
abbrev main_cst_35 : Ref sig .tc := ⟨.hbm, 222, rfl⟩
abbrev main_v152 : Ref sig .tc := ⟨.hbm, 223, rfl⟩
abbrev main_v153 : Ref sig .tc := ⟨.hbm, 224, rfl⟩
abbrev main_v154 : Ref sig .tc := ⟨.hbm, 225, rfl⟩
abbrev main_v155 : Ref sig .tc := ⟨.hbm, 226, rfl⟩
abbrev main_v156 : Ref sig .tc := ⟨.hbm, 227, rfl⟩
abbrev main_v157 : Ref sig .tc := ⟨.hbm, 228, rfl⟩
abbrev main_v158 : Ref sig .tc := ⟨.hbm, 229, rfl⟩
abbrev main_v159 : Ref sig .tc := ⟨.hbm, 230, rfl⟩
abbrev main_v160 : Ref sig .tc := ⟨.hbm, 231, rfl⟩
abbrev main_v161 : Ref sig .tc := ⟨.hbm, 232, rfl⟩
abbrev main_v162 : Ref sig .tc := ⟨.hbm, 233, rfl⟩
abbrev main_cst_36 : Ref sig .tc := ⟨.hbm, 234, rfl⟩
abbrev main_v163 : Ref sig .tc := ⟨.hbm, 235, rfl⟩
abbrev main_v164 : Ref sig .tc := ⟨.hbm, 236, rfl⟩
abbrev main_v165 : Ref sig .tc := ⟨.hbm, 237, rfl⟩
abbrev main_cst_37 : Ref sig .tc := ⟨.hbm, 238, rfl⟩
abbrev main_v166 : Ref sig .tc := ⟨.hbm, 239, rfl⟩
abbrev main_v167 : Ref sig .tc := ⟨.hbm, 240, rfl⟩
abbrev main_cst_38 : Ref sig .tc := ⟨.hbm, 241, rfl⟩
abbrev main_v168 : Ref sig .tc := ⟨.hbm, 242, rfl⟩
abbrev main_v169 : Ref sig .tc := ⟨.hbm, 243, rfl⟩
abbrev main_v170 : Ref sig .tc := ⟨.hbm, 244, rfl⟩
abbrev main_v171 : Ref sig .tc := ⟨.hbm, 245, rfl⟩
abbrev main_v172 : Ref sig .tc := ⟨.hbm, 246, rfl⟩
abbrev main_v173 : Ref sig .tc := ⟨.hbm, 247, rfl⟩
abbrev main_cst_39 : Ref sig .tc := ⟨.hbm, 248, rfl⟩
abbrev main_v174 : Ref sig .tc := ⟨.hbm, 249, rfl⟩
abbrev main_v175 : Ref sig .tc := ⟨.hbm, 250, rfl⟩
abbrev main_cst_40 : Ref sig .tc := ⟨.hbm, 251, rfl⟩
abbrev main_v176 : Ref sig .tc := ⟨.hbm, 252, rfl⟩
abbrev main_v177 : Ref sig .tc := ⟨.hbm, 253, rfl⟩
abbrev main_v178 : Ref sig .tc := ⟨.hbm, 254, rfl⟩
abbrev main_v179 : Ref sig .tc := ⟨.hbm, 255, rfl⟩
abbrev main_v180 : Ref sig .tc := ⟨.hbm, 256, rfl⟩
abbrev main_cst_41 : Ref sig .tc := ⟨.hbm, 257, rfl⟩
abbrev main_v181 : Ref sig .tc := ⟨.hbm, 258, rfl⟩
abbrev main_v182 : Ref sig .tc := ⟨.hbm, 259, rfl⟩
abbrev main_cst_42 : Ref sig .tc := ⟨.hbm, 260, rfl⟩
abbrev main_v183 : Ref sig .tc := ⟨.hbm, 261, rfl⟩
abbrev main_v184 : Ref sig .tc := ⟨.hbm, 262, rfl⟩
abbrev main_v185 : Ref sig .tc := ⟨.hbm, 263, rfl⟩
abbrev main_c_43 : Ref sig .tc := ⟨.hbm, 264, rfl⟩
abbrev main_v186 : Ref sig .tc := ⟨.hbm, 265, rfl⟩
abbrev main_v187 : Ref sig .tc := ⟨.hbm, 266, rfl⟩
abbrev main_c_44 : Ref sig .tc := ⟨.hbm, 267, rfl⟩
abbrev main_v188 : Ref sig .tc := ⟨.hbm, 268, rfl⟩
abbrev main_v189 : Ref sig .tc := ⟨.hbm, 269, rfl⟩
abbrev main_v190 : Ref sig .tc := ⟨.hbm, 270, rfl⟩
abbrev main_c_45 : Ref sig .tc := ⟨.hbm, 271, rfl⟩
abbrev main_v191 : Ref sig .tc := ⟨.hbm, 272, rfl⟩
abbrev main_v192 : Ref sig .tc := ⟨.hbm, 273, rfl⟩
abbrev main_v193 : Ref sig .tc := ⟨.hbm, 274, rfl⟩
abbrev main_c_46 : Ref sig .tc := ⟨.hbm, 275, rfl⟩
abbrev main_v194 : Ref sig .tc := ⟨.hbm, 276, rfl⟩
abbrev main_v195 : Ref sig .tc := ⟨.hbm, 277, rfl⟩
abbrev main_v196 : Ref sig .tc := ⟨.hbm, 278, rfl⟩
abbrev main_c_47 : Ref sig .tc := ⟨.hbm, 279, rfl⟩
abbrev main_v197 : Ref sig .tc := ⟨.hbm, 280, rfl⟩
abbrev main_v198 : Ref sig .tc := ⟨.hbm, 281, rfl⟩
abbrev main_v199 : Ref sig .tc := ⟨.hbm, 282, rfl⟩
abbrev main_c_48 : Ref sig .tc := ⟨.hbm, 283, rfl⟩
abbrev main_v200 : Ref sig .tc := ⟨.hbm, 284, rfl⟩
abbrev main_v201 : Ref sig .tc := ⟨.hbm, 285, rfl⟩
abbrev main_v202 : Ref sig .tc := ⟨.hbm, 286, rfl⟩
abbrev main_c_49 : Ref sig .tc := ⟨.hbm, 287, rfl⟩
abbrev main_v203 : Ref sig .tc := ⟨.hbm, 288, rfl⟩
abbrev main_v204 : Ref sig .tc := ⟨.hbm, 289, rfl⟩
abbrev main_v205 : Ref sig .tc := ⟨.hbm, 290, rfl⟩
abbrev main_c_50 : Ref sig .tc := ⟨.hbm, 291, rfl⟩
abbrev main_v206 : Ref sig .tc := ⟨.hbm, 292, rfl⟩
abbrev main_v207 : Ref sig .tc := ⟨.hbm, 293, rfl⟩
abbrev main_v208 : Ref sig .tc := ⟨.hbm, 294, rfl⟩
abbrev main_c_51 : Ref sig .tc := ⟨.hbm, 295, rfl⟩
abbrev main_v209 : Ref sig .tc := ⟨.hbm, 296, rfl⟩
abbrev main_v210 : Ref sig .tc := ⟨.hbm, 297, rfl⟩
abbrev main_v211 : Ref sig .tc := ⟨.hbm, 298, rfl⟩
abbrev main_v212 : Ref sig .tc := ⟨.hbm, 299, rfl⟩
abbrev main_v213 : Ref sig .tc := ⟨.hbm, 300, rfl⟩
abbrev main_v214 : Ref sig .tc := ⟨.hbm, 301, rfl⟩
abbrev main_v215 : Ref sig .tc := ⟨.hbm, 302, rfl⟩
abbrev main_v216 : Ref sig .tc := ⟨.hbm, 303, rfl⟩
abbrev main_v217 : Ref sig .tc := ⟨.hbm, 304, rfl⟩
abbrev main_v218 : Ref sig .tc := ⟨.hbm, 305, rfl⟩
abbrev main_v219 : Ref sig .tc := ⟨.hbm, 306, rfl⟩
abbrev main_cst_52 : Ref sig .tc := ⟨.hbm, 307, rfl⟩
abbrev main_v220 : Ref sig .tc := ⟨.hbm, 308, rfl⟩
abbrev main_cst_53 : Ref sig .tc := ⟨.hbm, 309, rfl⟩
abbrev main_v221 : Ref sig .tc := ⟨.hbm, 310, rfl⟩
abbrev main_v222 : Ref sig .tc := ⟨.hbm, 311, rfl⟩
abbrev main_cst_54 : Ref sig .tc := ⟨.hbm, 312, rfl⟩
abbrev main_v223 : Ref sig .tc := ⟨.hbm, 313, rfl⟩
abbrev main_cst_55 : Ref sig .tc := ⟨.hbm, 314, rfl⟩
abbrev main_v224 : Ref sig .tc := ⟨.hbm, 315, rfl⟩
abbrev main_v225 : Ref sig .tc := ⟨.hbm, 316, rfl⟩
abbrev main_v226 : Ref sig .tc := ⟨.hbm, 317, rfl⟩
abbrev main_cst_56 : Ref sig .tc := ⟨.hbm, 318, rfl⟩
abbrev main_v227 : Ref sig .tc := ⟨.hbm, 319, rfl⟩
abbrev main_cst_57 : Ref sig .tc := ⟨.hbm, 320, rfl⟩
abbrev main_v228 : Ref sig .tc := ⟨.hbm, 321, rfl⟩
abbrev main_v229 : Ref sig .tc := ⟨.hbm, 322, rfl⟩
abbrev main_c_58 : Ref sig .tc := ⟨.hbm, 323, rfl⟩
abbrev main_call9_v0 : Ref sig .tc := ⟨.hbm, 324, rfl⟩
abbrev main_call9_v1 : Ref sig .tc := ⟨.hbm, 325, rfl⟩
abbrev main_v230 : Ref sig .tc := ⟨.hbm, 326, rfl⟩
abbrev main_v231 : Ref sig .tc := ⟨.hbm, 327, rfl⟩

abbrev nD : Nat := 1
abbrev τ : Topo := Topo.v7x

variable {F : FTy → Type} [FloatOps F]

class Facts₀ : Prop where
  slices_S1x2x1024x2048_S1x1x1024x2048_0_1_0_0 : S1x2x1024x2048.Slices ![0, 1, 0, 0] S1x1x1024x2048
  shapeCasts_S1x1x1024x2048_S1024x2048 : S1x1x1024x2048.ShapeCasts S1024x2048
  bcast_S_S1024x2048 : S_.BroadcastsInDim S1024x2048 (![] : Fin 0 → Fin S1024x2048.rank)
  slices_S1x3x1024x2048_S1x1x1024x2048_0_0_0_0 : S1x3x1024x2048.Slices ![0, 0, 0, 0] S1x1x1024x2048
  shapeCasts_S1x1x1024x2048_S1x1024x2048 : S1x1x1024x2048.ShapeCasts S1x1024x2048
  bcast_S1024x2048_S1x1024x2048_1_2 : S1024x2048.BroadcastsInDim S1x1024x2048 (![1, 2] : Fin 2 → Fin S1x1024x2048.rank)
  bcast_S_S1x1024x2048 : S_.BroadcastsInDim S1x1024x2048 (![] : Fin 0 → Fin S1x1024x2048.rank)
  slices_S1x3x1024x2048_S1x1x1024x2048_0_1_0_0 : S1x3x1024x2048.Slices ![0, 1, 0, 0] S1x1x1024x2048
  slices_S1x3x1024x2048_S1x1x1024x2048_0_2_0_0 : S1x3x1024x2048.Slices ![0, 2, 0, 0] S1x1x1024x2048
  bcast_S1x1024x2048_S1x1x1024x2048_0_2_3 : S1x1024x2048.BroadcastsInDim S1x1x1024x2048 (![0, 2, 3] : Fin 3 → Fin S1x1x1024x2048.rank)
  concatenates_S1x1x1024x2048_S1x1x1024x2048_S1x1x1024x2048_S1x3x1024x2048_d1 : Shape.Concatenates [S1x1x1024x2048, S1x1x1024x2048, S1x1x1024x2048] S1x3x1024x2048 1
  slices_S1x3x1024x2048_S1x3x1x2048_0_0_0_0 : S1x3x1024x2048.Slices ![0, 0, 0, 0] S1x3x1x2048
  slices_S1x3x1024x2048_S1x3x1x2048_0_0_1_0 : S1x3x1024x2048.Slices ![0, 0, 1, 0] S1x3x1x2048
  concatenates_S1x3x1x2048_S1x3x1024x2048_S1x3x1025x2048_d2 : Shape.Concatenates [S1x3x1x2048, S1x3x1024x2048] S1x3x1025x2048 2
  slices_S1x3x1025x2048_S1x3x1x2048_0_0_1024_0 : S1x3x1025x2048.Slices ![0, 0, 1024, 0] S1x3x1x2048
  slices_S1x3x1025x2048_S1x3x1x2048_0_0_1023_0 : S1x3x1025x2048.Slices ![0, 0, 1023, 0] S1x3x1x2048
  concatenates_S1x3x1025x2048_S1x3x1x2048_S1x3x1026x2048_d2 : Shape.Concatenates [S1x3x1025x2048, S1x3x1x2048] S1x3x1026x2048 2
  slices_S1x3x1026x2048_S1x3x1026x1_0_0_0_0 : S1x3x1026x2048.Slices ![0, 0, 0, 0] S1x3x1026x1
  slices_S1x3x1026x2048_S1x3x1026x1_0_0_0_1 : S1x3x1026x2048.Slices ![0, 0, 0, 1] S1x3x1026x1
  concatenates_S1x3x1026x1_S1x3x1026x2048_S1x3x1026x2049_d3 : Shape.Concatenates [S1x3x1026x1, S1x3x1026x2048] S1x3x1026x2049 3
  slices_S1x3x1026x2049_S1x3x1026x1_0_0_0_2048 : S1x3x1026x2049.Slices ![0, 0, 0, 2048] S1x3x1026x1
  slices_S1x3x1026x2049_S1x3x1026x1_0_0_0_2047 : S1x3x1026x2049.Slices ![0, 0, 0, 2047] S1x3x1026x1
  concatenates_S1x3x1026x2049_S1x3x1026x1_S1x3x1026x2050_d3 : Shape.Concatenates [S1x3x1026x2049, S1x3x1026x1] S1x3x1026x2050 3
  slices_S1x3x1026x2050_S1x1x1026x2050_0_0_0_0 : S1x3x1026x2050.Slices ![0, 0, 0, 0] S1x1x1026x2050
  shapeCasts_S1x1x1026x2050_S1x1026x2050 : S1x1x1026x2050.ShapeCasts S1x1026x2050
  slices_S1x3x1026x2050_S1x1x1026x2050_0_1_0_0 : S1x3x1026x2050.Slices ![0, 1, 0, 0] S1x1x1026x2050
  slices_S1x3x1026x2050_S1x1x1026x2050_0_2_0_0 : S1x3x1026x2050.Slices ![0, 2, 0, 0] S1x1x1026x2050
  slices_S1x1026x2050_S1x1024x2048_0_1_2 : S1x1026x2050.Slices ![0, 1, 2] S1x1024x2048
  slices_S1x1026x2050_S1x1024x2048_0_1_1 : S1x1026x2050.Slices ![0, 1, 1] S1x1024x2048
  slices_S1x1026x2050_S1x1024x2048_0_1_0 : S1x1026x2050.Slices ![0, 1, 0] S1x1024x2048
  slices_S1x1026x2050_S1x1024x2048_0_0_1 : S1x1026x2050.Slices ![0, 0, 1] S1x1024x2048
  slices_S1x1026x2050_S1x1024x2048_0_2_1 : S1x1026x2050.Slices ![0, 2, 1] S1x1024x2048
  reducesTo_S1x1024x2048_S_d0_1_2 : S1x1024x2048.ReducesTo [0, 1, 2] S_
  h_S_ : 0 < S_.numel

variable [Facts₀]

class Facts : Prop extends Facts₀ where

variable [Facts]
-- ==== Proof.Spec.lean ====
/-
  The mathematics both programs compute, stated once over the two argument arrays and read index by index.

  The boundary codes b = layout[0, 1] and the three flow fields u, v, p = flow[0, 0..2] live on a 1024 × 2048 grid.
  Each field is first overwritten where the code prescribes a Dirichlet value (u = 3 on code 1, u = 0 on code 2;
  v = 0 on codes 1, 2; p = 0 on codes 2, 3), then extended by one cell on every side by REFLECTION (the cell outside
  the edge mirrors the cell one inside it). On the extended fields, written here over PADDED coordinates
  (row p ∈ [0, 1026), column q ∈ [0, 2050); the grid cell (R, C) sits at (R + 1, C + 1)), the five-point stencils
  give centred, forward and backward differences and the Laplacian; the two momentum residuals and the continuity
  residual are masked by the code, squared, and averaged over the grid.
-/
import Idealize.ShloMosaic.PureOps.Ideal
import Idealize.ShloMosaic.Lib.ValueIdx

noncomputable section

namespace Cert.Spec

open Idealize.ShloMosaic Idealize.ShloMosaic.ValueIdx

abbrev SL : Shape := ⟨4, ![1, 2, 1024, 2048]⟩
abbrev SF : Shape := ⟨4, ![1, 3, 1024, 2048]⟩
abbrev SM : Shape := ⟨2, ![1024, 2048]⟩
abbrev S0 : Shape := ⟨0, ![]⟩

/-- The float words the programs share, read at the extended reals. -/
def zero : EReal := Ideal.ofBits .f32 0x00000000#32
def three : EReal := Ideal.ofBits .f32 0x40400000#32
def half : EReal := Ideal.ofBits .f32 0x3F000000#32
def four : EReal := Ideal.ofBits .f32 0x40800000#32
/-- the grid spacing h = 6 / 2048 -/
def hh : EReal := Ideal.ofBits .f32 0x3B400000#32
/-- h² -/
def hh2 : EReal := Ideal.ofBits .f32 0x37100000#32
/-- the viscosity, the float nearest 0.05 -/
def nu : EReal := Ideal.ofBits .f32 0x3D4CCCCD#32
/-- the number of grid cells, 1024 · 2048 -/
def cells : EReal := Ideal.ofBits .f32 0x4A000000#32

/-- Reflection by one cell: the source coordinate in [0, n) of padded coordinate p ∈ [0, n + 2). -/
def refl1 (n p : ℕ) : ℕ := if p = 0 then 1 else if p ≤ n then p - 1 else n - 2

def rowSrc (p : ℕ) : Fin 1024 := ⟨refl1 1024 p % 1024, Nat.mod_lt _ (by decide)⟩
def colSrc (q : ℕ) : Fin 2048 := ⟨refl1 2048 q % 2048, Nat.mod_lt _ (by decide)⟩

theorem rowSrc_succ (R : ℕ) (h : R < 1024) : rowSrc (R + 1) = ⟨R, h⟩ := by
  apply Fin.ext
  show (if R + 1 = 0 then 1 else if R + 1 ≤ 1024 then R + 1 - 1 else 1024 - 2) % 1024 = R
  rw [if_neg (by omega), if_pos (by omega)]; omega
theorem colSrc_succ (C : ℕ) (h : C < 2048) : colSrc (C + 1) = ⟨C, h⟩ := by
  apply Fin.ext
  show (if C + 1 = 0 then 1 else if C + 1 ≤ 2048 then C + 1 - 1 else 2048 - 2) % 2048 = C
  rw [if_neg (by omega), if_pos (by omega)]; omega

/-- "the code is k" as a bit -/
def eqc (b k : BitVec 32) : BitVec 1 := IntOp.cmpi .eq b k

/-- The Dirichlet substitutions, cell by cell. -/
def uS (b : BitVec 32) (u : EReal) : EReal := Scalar.select (eqc b 2#32) zero (Scalar.select (eqc b 1#32) three u)
def vS (b : BitVec 32) (v : EReal) : EReal := Scalar.select (IntOp.ori (eqc b 1#32) (eqc b 2#32)) zero v
def pS (b : BitVec 32) (p : EReal) : EReal := Scalar.select (IntOp.ori (eqc b 2#32) (eqc b 3#32)) zero p

/-- code sets -/
def in3 (b a0 a1 a2 : BitVec 32) : BitVec 1 := IntOp.ori (IntOp.ori (eqc b a0) (eqc b a1)) (eqc b a2)
/-- the cells where the equations are imposed: codes 0, 4, 5, …, 11 -/
def maskS (b : BitVec 32) : BitVec 1 :=
  IntOp.ori (IntOp.ori (IntOp.ori (IntOp.ori (IntOp.ori (IntOp.ori (IntOp.ori (IntOp.ori (eqc b 0#32) (eqc b 4#32)) (eqc b 5#32)) (eqc b 6#32)) (eqc b 7#32)) (eqc b 8#32)) (eqc b 9#32)) (eqc b 10#32)) (eqc b 11#32)
/-- the mask as a number, 0 or 1 -/
def mfS (b : BitVec 32) : EReal := FloatOps.sitofp (F := Ideal) .f32 ((maskS b).setWidth 32)

section Stencils
/- A field on padded coordinates; the stencils are read at the grid cell (R, C), centre (R + 1, C + 1):
   north (R, C + 1), south (R + 2, C + 1), west (R + 1, C), east (R + 1, C + 2). -/
variable (a : ℕ → ℕ → EReal) (R C : ℕ)
def dx : EReal := half * (a (R + 1) (C + 2) - a (R + 1) C)
def dy : EReal := half * (a (R + 2) (C + 1) - a R (C + 1))
def fdx : EReal := a (R + 1) (C + 2) - a (R + 1) (C + 1)
def bdx : EReal := a (R + 1) (C + 1) - a (R + 1) C
def fdy : EReal := a R (C + 1) - a (R + 1) (C + 1)
def bdy : EReal := a (R + 1) (C + 1) - a (R + 2) (C + 1)
def lap : EReal := a R (C + 1) + a (R + 2) (C + 1) + a (R + 1) C + a (R + 1) (C + 2) - four * a (R + 1) (C + 1)
end Stencils

section Cells
/- B: the code, Fl k: the k-th raw field (k = 0, 1, 2 for u, v, p), both already extended, on padded coordinates. -/
variable (B : ℕ → ℕ → BitVec 32) (Fl : Fin 3 → ℕ → ℕ → EReal)

/-- The three fields after the Dirichlet substitution, at padded coordinates. -/
def up (p q : ℕ) : EReal := uS (B p q) (Fl 0 p q)
def vp (p q : ℕ) : EReal := vS (B p q) (Fl 1 p q)
def pp (p q : ℕ) : EReal := pS (B p q) (Fl 2 p q)
/-- the k-th substituted field -/
def fld (k : Fin 3) (p q : ℕ) : EReal :=
  match k with
  | ⟨0, _⟩ => up B Fl p q
  | ⟨1, _⟩ => vp B Fl p q
  | ⟨_ + 2, _⟩ => pp B Fl p q

variable (R C : ℕ)
/-- the code of grid cell (R, C) -/
def code : BitVec 32 := B (R + 1) (C + 1)

/-- the pressure gradient, one-sided where the code says so -/
def dpx : EReal :=
  Scalar.select (in3 (code B R C) 4#32 8#32 11#32) (fdx (pp B Fl) R C)
    (Scalar.select (in3 (code B R C) 6#32 9#32 10#32) (bdx (pp B Fl) R C) (dx (pp B Fl) R C))
def dpy : EReal :=
  Scalar.select (in3 (code B R C) 7#32 10#32 11#32) (fdy (pp B Fl) R C)
    (Scalar.select (in3 (code B R C) 5#32 8#32 9#32) (bdy (pp B Fl) R C) (dy (pp B Fl) R C))

/-- the momentum residual of a transported field f with pressure-gradient component g -/
def mom (f : ℕ → ℕ → EReal) (g : EReal) : EReal :=
  Ideal.div (up B Fl (R + 1) (C + 1) * dx f R C) hh + Ideal.div (vp B Fl (R + 1) (C + 1) * dy f R C) hh
    + Ideal.div g hh - Ideal.div (nu * lap f R C) hh2

def momU : EReal := mom B Fl R C (up B Fl) (dpx B Fl R C)
def momV : EReal := mom B Fl R C (vp B Fl) (dpy B Fl R C)
def cont : EReal := Ideal.div (dx (up B Fl) R C) hh + Ideal.div (dy (vp B Fl) R C) hh

/-- the squared masked residuals -/
def sqU : EReal := (mfS (code B R C) * momU B Fl R C) * (mfS (code B R C) * momU B Fl R C)
def sqV : EReal := (mfS (code B R C) * momV B Fl R C) * (mfS (code B R C) * momV B Fl R C)
def sqC : EReal := (mfS (code B R C) * cont B Fl R C) * (mfS (code B R C) * cont B Fl R C)

/-- the code where the equations are imposed, 0 elsewhere, as a number -/
def maskVal : EReal :=
  FloatOps.sitofp (F := Ideal) .f32 (Scalar.select (maskS (code B R C)) (code B R C) 0#32)
end Cells

/-- the sum of a cell function over the grid -/
def total (f : ℕ → ℕ → EReal) : EReal := ∑ R : Fin 1024, ∑ C : Fin 2048, f R.val C.val

/-- the mean-square loss from the three squared residuals -/
def lossOf (B : ℕ → ℕ → BitVec 32) (Fl : Fin 3 → ℕ → ℕ → EReal) : EReal :=
  Ideal.div (total (sqU B Fl)) cells + Ideal.div (total (sqV B Fl)) cells + Ideal.div (total (sqC B Fl)) cells

section Results
variable (lay : SL.Idx → BitVec 32) (flo : SF.Idx → EReal)

/-- The code and the raw fields at padded coordinates (reflected), read off the argument arrays. -/
def Bp (p q : ℕ) : BitVec 32 := lay (ix4 0 1 (rowSrc p) (colSrc q))
def Fp (k : Fin 3) (p q : ℕ) : EReal := flo (ix4 0 k (rowSrc p) (colSrc q))

/-- The three substituted fields on the grid: the second result. -/
def flowbc : SF.Idx → EReal := fun i => fld (Bp lay) (Fp flo) (i 1) ((i 2).val + 1) ((i 3).val + 1)

/-- The code where the equations are imposed, 0 elsewhere, as a number: the third result. -/
def eqmask : SM.Idx → EReal := fun i => maskVal (Bp lay) (i 0).val (i 1).val

/-- The loss: the three mean squared residuals added, the first result. -/
def loss : S0.Idx → EReal := fun _ => lossOf (Bp lay) (Fp flo)
end Results

end Cert.Spec

end
-- ==== Proof.LibAfterAppend.lean ====
/-
  Host operations run one stretch after another.

  The contents of a device's buffers after a list of host operations is a fold of the operations over the contents
  before.  A fold over a concatenation is the fold over the second list started from the fold over the first: the
  contents after `l₁ ++ l₂` are the contents after `l₂` from the contents after `l₁`.  This lets a long host
  program be read one stretch at a time, with the contents between two stretches carried as one unknown.
-/
import Idealize.ShloMosaic.Lib.StableHlo.Run

noncomputable section

namespace Cert.Lib.AfterAppend

open Idealize.ShloMosaic Idealize.ShloMosaic.StableHlo

variable {τ : Topo} {sig : RefSig} {Val : EltTy → Type}

/-- The contents after `l₁ ++ l₂` are the contents after `l₂` from the contents after `l₁`. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Three stretches, as a host program cut twice reads them. -/
theorem after_three (l₁ l₂ l₃ : List (HloOp τ sig Val)) (V : Valuation τ sig Val) :
    after (List.flatten [l₁, l₂, l₃]) V = after l₃ (after l₂ (after l₁ V)) := by
  simp only [List.flatten_cons, List.flatten_nil, List.append_nil, after_append]

end Cert.Lib.AfterAppend

end
-- ==== Proof.KHost6.lean ====
import proofs.«148698_j59665685676147_2_alg».proof.Proof.Gen.KernelIdeal.Frame.Runs
import proofs.«148698_j59665685676147_2_alg».proof.Proof.Spec
import proofs.«148698_j59665685676147_2_alg».proof.Proof.LibAfterAppend
import Idealize.ShloMosaic.Lib.Pipeline.Value
import Idealize.ShloMosaic.Lib.KernelVsHost
import Idealize.ShloMosaic.Lib.ValueIdx
import Idealize.ShloMosaic.Lib.ValueLayout
import Idealize.ShloMosaic.Lib.StableHlo.Run
set_option maxRecDepth 16384
noncomputable section
namespace Cert.KernelIdeal.Hand
open Idealize.ShloMosaic Idealize.ShloMosaic.TcCoe Idealize.SL.Sem Idealize.ShloMosaic.ValueIdx
open Cert.KernelIdeal Cert.KernelIdeal.Gen
open Idealize.ShloMosaic.StableHlo

/-! # The three raw fields, reflected and lane-padded, read at an entry

flow[0] : [3, 1024, 2048] is extended by REFLECTION, eight rows above and below and one column left and right, in four
steps (rows above, rows below, column left, column right), each a concatenation of the array with the reversal of a
slice of itself; dead lanes are then appended on the right. Entry (k, P + 7, q) of the result, for P < 1026 and
q < 2050, is entry (k, r, c) of flow[0] with r, c the one-cell reflections of P and q. -/

section Stages3
variable {α : Type}

/-- The leading unit axis dropped: entry (k, r, c) of flow[0]. -/
theorem front3 (flo : (⟨4, ![1, 3, 1024, 2048]⟩ : Shape).Idx → α)
    (h : (⟨4, ![1, 3, 1024, 2048]⟩ : Shape).ShapeCasts ⟨3, ![3, 1024, 2048]⟩) (k : Fin 3) (r : Fin 1024) (c : Fin 2048) :
    shapeCast ⟨3, ![3, 1024, 2048]⟩ flo h (ix3 k r c) = flo (ix4 0 k r c) :=
  shapeCast_1abc_abc_apply flo h k r c

/-- Rows reflected at the top, field by field. -/
theorem top3 (x : (⟨3, ![3, 1024, 2048]⟩ : Shape).Idx → α) (h1 : (⟨3, ![3, 1024, 2048]⟩ : Shape).Slices ![0, 1, 0] ⟨3, ![3, 8, 2048]⟩)
    (h2 : Shape.Concatenates [⟨3, ![3, 8, 2048]⟩, ⟨3, ![3, 1024, 2048]⟩] ⟨3, ![3, 1032, 2048]⟩ 1)
    (k : Fin 3) (r : Fin 1032) (c : Fin 2048) (r' : Fin 1024) (hr : r'.val = if r.val < 8 then 8 - r.val else r.val - 8) :
    concatenate ⟨3, ![3, 1032, 2048]⟩ 1 [⟨⟨3, ![3, 8, 2048]⟩, Host.reverse [1] (extractStridedSlice ⟨3, ![3, 8, 2048]⟩ ![0, 1, 0] x h1)⟩, ⟨⟨3, ![3, 1024, 2048]⟩, x⟩] h2 (ix3 k r c)
      = x (ix3 k r' c) := by
  by_cases h : r.val < 8
  · rw [if_pos h] at hr
    refine (concatenate_pair_apply_left (t := ⟨3, ![3, 1032, 2048]⟩) (1 : Fin 3) _ x h2 (ix3 k r c) rfl (ix3 k (⟨r.val, h⟩ : Fin 8) c)
      (fun b => match b with | ⟨0, _⟩ => rfl | ⟨1, _⟩ => rfl | ⟨2, _⟩ => rfl)).trans ?_
    show x _ = x _
    refine congrArg x (funext fun a => Fin.ext ?_)
    match a with
    | ⟨0, _⟩ => show 0 + k.val = k.val; omega
    | ⟨1, _⟩ => show 1 + (8 - (r.val + 1)) = r'.val; omega
    | ⟨2, _⟩ => show 0 + c.val = c.val; omega
  · rw [if_neg h] at hr
    refine (concatenate_pair_apply_right (t := ⟨3, ![3, 1032, 2048]⟩) (1 : Fin 3) _ x h2 (ix3 k r c) rfl rfl (ix3 k r' c)
      (fun b => match b with | ⟨0, _⟩ => fun _ => rfl | ⟨1, _⟩ => fun hb => absurd rfl hb | ⟨2, _⟩ => fun _ => rfl) ?_)
    show r'.val + 8 = r.val
    omega

/-- Rows reflected at the bottom, field by field. -/
theorem bot3 (y : (⟨3, ![3, 1032, 2048]⟩ : Shape).Idx → α) (h1 : (⟨3, ![3, 1032, 2048]⟩ : Shape).Slices ![0, 1023, 0] ⟨3, ![3, 8, 2048]⟩)
    (h2 : Shape.Concatenates [⟨3, ![3, 1032, 2048]⟩, ⟨3, ![3, 8, 2048]⟩] ⟨3, ![3, 1040, 2048]⟩ 1)
    (k : Fin 3) (r : Fin 1040) (c : Fin 2048) (r' : Fin 1032) (hr : r'.val = if r.val < 1032 then r.val else 2062 - r.val) :
    concatenate ⟨3, ![3, 1040, 2048]⟩ 1 [⟨⟨3, ![3, 1032, 2048]⟩, y⟩, ⟨⟨3, ![3, 8, 2048]⟩, Host.reverse [1] (extractStridedSlice ⟨3, ![3, 8, 2048]⟩ ![0, 1023, 0] y h1)⟩] h2 (ix3 k r c)
      = y (ix3 k r' c) := by
  by_cases h : r.val < 1032
  · rw [if_pos h] at hr
    exact concatenate_pair_apply_left (t := ⟨3, ![3, 1040, 2048]⟩) (1 : Fin 3) y _ h2 (ix3 k r c) rfl (ix3 k r' c)
      (fun b => match b with | ⟨0, _⟩ => rfl | ⟨1, _⟩ => hr | ⟨2, _⟩ => rfl)
  · rw [if_neg h] at hr
    have hr8 : r.val - 1032 < 8 := by have := r.isLt; omega
    refine (concatenate_pair_apply_right (t := ⟨3, ![3, 1040, 2048]⟩) (1 : Fin 3) y _ h2 (ix3 k r c) rfl rfl (ix3 k (⟨r.val - 1032, hr8⟩ : Fin 8) c)
      (fun b => match b with | ⟨0, _⟩ => fun _ => rfl | ⟨1, _⟩ => fun hb => absurd rfl hb | ⟨2, _⟩ => fun _ => rfl) ?_).trans ?_
    · show r.val - 1032 + 1032 = r.val; omega
    · show y _ = y _
      refine congrArg y (funext fun a => Fin.ext ?_)
      match a with
      | ⟨0, _⟩ => show 0 + k.val = k.val; omega
      | ⟨1, _⟩ => show 1023 + (8 - (r.val - 1032 + 1)) = r'.val; omega
      | ⟨2, _⟩ => show 0 + c.val = c.val; omega

/-- Columns reflected on the left, field by field. -/
theorem left3 (z : (⟨3, ![3, 1040, 2048]⟩ : Shape).Idx → α) (h1 : (⟨3, ![3, 1040, 2048]⟩ : Shape).Slices ![0, 0, 1] ⟨3, ![3, 1040, 1]⟩)
    (h2 : Shape.Concatenates [⟨3, ![3, 1040, 1]⟩, ⟨3, ![3, 1040, 2048]⟩] ⟨3, ![3, 1040, 2049]⟩ 2)
    (k : Fin 3) (r : Fin 1040) (c : Fin 2049) (c' : Fin 2048) (hc : c'.val = if c.val = 0 then 1 else c.val - 1) :
    concatenate ⟨3, ![3, 1040, 2049]⟩ 2 [⟨⟨3, ![3, 1040, 1]⟩, Host.reverse [2] (extractStridedSlice ⟨3, ![3, 1040, 1]⟩ ![0, 0, 1] z h1)⟩, ⟨⟨3, ![3, 1040, 2048]⟩, z⟩] h2 (ix3 k r c)
      = z (ix3 k r c') := by
  by_cases h : c.val = 0
  · rw [if_pos h] at hc
    refine (concatenate_pair_apply_left (t := ⟨3, ![3, 1040, 2049]⟩) (2 : Fin 3) _ z h2 (ix3 k r c) rfl (ix3 k r (⟨0, Nat.one_pos⟩ : Fin 1))
      (fun b => match b with | ⟨0, _⟩ => rfl | ⟨1, _⟩ => rfl | ⟨2, _⟩ => h.symm)).trans ?_
    show z _ = z _
    refine congrArg z (funext fun a => Fin.ext ?_)
    match a with
    | ⟨0, _⟩ => show 0 + k.val = k.val; omega
    | ⟨1, _⟩ => show 0 + r.val = r.val; omega
    | ⟨2, _⟩ => show 1 + (1 - (0 + 1)) = c'.val; omega
  · rw [if_neg h] at hc
    refine concatenate_pair_apply_right (t := ⟨3, ![3, 1040, 2049]⟩) (2 : Fin 3) _ z h2 (ix3 k r c) rfl rfl (ix3 k r c')
      (fun b => match b with | ⟨0, _⟩ => fun _ => rfl | ⟨1, _⟩ => fun _ => rfl | ⟨2, _⟩ => fun hb => absurd rfl hb) ?_
    show c'.val + 1 = c.val
    omega

/-- Columns reflected on the right, field by field. -/
theorem right3 (w : (⟨3, ![3, 1040, 2049]⟩ : Shape).Idx → α) (h1 : (⟨3, ![3, 1040, 2049]⟩ : Shape).Slices ![0, 0, 2047] ⟨3, ![3, 1040, 1]⟩)
    (h2 : Shape.Concatenates [⟨3, ![3, 1040, 2049]⟩, ⟨3, ![3, 1040, 1]⟩] ⟨3, ![3, 1040, 2050]⟩ 2)
    (k : Fin 3) (r : Fin 1040) (c : Fin 2050) (c' : Fin 2049) (hc : c'.val = if c.val < 2049 then c.val else 2047) :
    concatenate ⟨3, ![3, 1040, 2050]⟩ 2 [⟨⟨3, ![3, 1040, 2049]⟩, w⟩, ⟨⟨3, ![3, 1040, 1]⟩, Host.reverse [2] (extractStridedSlice ⟨3, ![3, 1040, 1]⟩ ![0, 0, 2047] w h1)⟩] h2 (ix3 k r c)
      = w (ix3 k r c') := by
  by_cases h : c.val < 2049
  · rw [if_pos h] at hc
    exact concatenate_pair_apply_left (t := ⟨3, ![3, 1040, 2050]⟩) (2 : Fin 3) w _ h2 (ix3 k r c) rfl (ix3 k r c')
      (fun b => match b with | ⟨0, _⟩ => rfl | ⟨1, _⟩ => rfl | ⟨2, _⟩ => hc)
  · rw [if_neg h] at hc
    refine (concatenate_pair_apply_right (t := ⟨3, ![3, 1040, 2050]⟩) (2 : Fin 3) w _ h2 (ix3 k r c) rfl rfl (ix3 k r (⟨0, Nat.one_pos⟩ : Fin 1))
      (fun b => match b with | ⟨0, _⟩ => fun _ => rfl | ⟨1, _⟩ => fun _ => rfl | ⟨2, _⟩ => fun hb => absurd rfl hb) ?_).trans ?_
    · show 0 + 2049 = c.val; have := c.isLt; omega
    · show w _ = w _
      refine congrArg w (funext fun a => Fin.ext ?_)
      match a with
      | ⟨0, _⟩ => show 0 + k.val = k.val; omega
      | ⟨1, _⟩ => show 0 + r.val = r.val; omega
      | ⟨2, _⟩ => show 2047 + (1 - (0 + 1)) = c'.val; omega

/-- The dead lanes appended on the right leave the first 2050 columns as they are. -/
theorem lanes3 (x : (⟨3, ![3, 1040, 2050]⟩ : Shape).Idx → α) {u : Shape} (v : u.Idx → α)
    (h : (⟨3, ![3, 1040, 2050]⟩ : Shape).Pads (![0, 0, 0] : Fin 3 → Nat) ![0, 0, 126] ![0, 0, 0] ⟨3, ![3, 1040, 2176]⟩) (hu : 0 < u.numel)
    (k : Fin 3) (r : Fin 1040) (q : Fin 2176) (hq : q.val < 2050) :
    pad ⟨3, ![3, 1040, 2176]⟩ ![0, 0, 0] ![0, 0, 126] ![0, 0, 0] x v h hu (ix3 k r q) = x (ix3 k r ⟨q.val, hq⟩) :=
  pad_apply_of_inside _ _ _ x v h hu _ _ (fun a => match a with
    | ⟨0, _⟩ => by show k.val = 0 + k.val * (0 + 1); omega
    | ⟨1, _⟩ => by show r.val = 0 + r.val * (0 + 1); omega
    | ⟨2, _⟩ => by show q.val = 0 + q.val * (0 + 1); omega)
end Stages3

section Composed3
variable {α : Type}

/-- Eight mirrored rows in front, field by field. -/
def rowsTop3 (x : S3x1024x2048.Idx → α) : S3x1032x2048.Idx → α :=
  concatenate S3x1032x2048 1 [⟨S3x8x2048, Host.reverse [1] (extractStridedSlice S3x8x2048 ![0, 1, 0] x slices_S3x1024x2048_S3x8x2048_0_1_0)⟩, ⟨S3x1024x2048, x⟩] concatenates_S3x8x2048_S3x1024x2048_S3x1032x2048_d1
/-- Eight mirrored rows behind, field by field. -/
def rowsBot3 (y : S3x1032x2048.Idx → α) : S3x1040x2048.Idx → α :=
  concatenate S3x1040x2048 1 [⟨S3x1032x2048, y⟩, ⟨S3x8x2048, Host.reverse [1] (extractStridedSlice S3x8x2048 ![0, 1023, 0] y slices_S3x1032x2048_S3x8x2048_0_1023_0)⟩] concatenates_S3x1032x2048_S3x8x2048_S3x1040x2048_d1
/-- One mirrored column in front, field by field. -/
def colsLeft3 (z : S3x1040x2048.Idx → α) : S3x1040x2049.Idx → α :=
  concatenate S3x1040x2049 2 [⟨S3x1040x1, Host.reverse [2] (extractStridedSlice S3x1040x1 ![0, 0, 1] z slices_S3x1040x2048_S3x1040x1_0_0_1)⟩, ⟨S3x1040x2048, z⟩] concatenates_S3x1040x1_S3x1040x2048_S3x1040x2049_d2
/-- One mirrored column behind, field by field. -/
def colsRight3 (w : S3x1040x2049.Idx → α) : S3x1040x2050.Idx → α :=
  concatenate S3x1040x2050 2 [⟨S3x1040x2049, w⟩, ⟨S3x1040x1, Host.reverse [2] (extractStridedSlice S3x1040x1 ![0, 0, 2047] w slices_S3x1040x2049_S3x1040x1_0_0_2047)⟩] concatenates_S3x1040x2049_S3x1040x1_S3x1040x2050_d2
/-- flow[0] reflected by eight rows and one column on every side, then 126 lanes of `v` appended. -/
def padded3 (flo : S1x3x1024x2048.Idx → α) (v : S_.Idx → α) : S3x1040x2176.Idx → α :=
  pad S3x1040x2176 ![0, 0, 0] ![0, 0, 126] ![0, 0, 0]
    (colsRight3 (colsLeft3 (rowsBot3 (rowsTop3 (shapeCast S3x1024x2048 flo shapeCasts_S1x3x1024x2048_S3x1024x2048)))))
    v pads_S3x1040x2050_S3x1040x2176_000_000_01260 h_S_

theorem padded3_apply (flo : S1x3x1024x2048.Idx → α) (v : S_.Idx → α) (k : Fin 3) (P q : ℕ) (hP : P < 1026) (hq : q < 2050) :
    padded3 flo v (ix3 k (⟨P + 7, by omega⟩ : Fin 1040) (⟨q, by omega⟩ : Fin 2176))
      = flo (ix4 0 k (Cert.Spec.rowSrc P) (Cert.Spec.colSrc q)) := by
  unfold padded3
  refine (lanes3 _ v _ _ _ _ _ hq).trans ?_
  unfold colsRight3
  refine (right3 _ _ _ _ _ _ (⟨if q < 2049 then q else 2047, by split <;> omega⟩ : Fin 2049) rfl).trans ?_
  unfold colsLeft3
  refine (left3 _ _ _ _ _ _ (Cert.Spec.colSrc q) ?_).trans ?_
  · show Cert.Spec.refl1 2048 q % 2048 = if (if q < 2049 then q else 2047) = 0 then 1 else (if q < 2049 then q else 2047) - 1
    unfold Cert.Spec.refl1
    split_ifs <;> first | omega | contradiction
  unfold rowsBot3
  refine (bot3 _ _ _ _ _ _ (⟨if P < 1025 then P + 7 else 1030, by split <;> omega⟩ : Fin 1032) ?_).trans ?_
  · show (if P < 1025 then P + 7 else 1030) = if P + 7 < 1032 then P + 7 else 2062 - (P + 7)
    split_ifs <;> first | omega | contradiction
  unfold rowsTop3
  refine (top3 _ _ _ _ _ _ (Cert.Spec.rowSrc P) ?_).trans ?_
  · show Cert.Spec.refl1 1024 P % 1024 = if (if P < 1025 then P + 7 else 1030) < 8 then 8 - (if P < 1025 then P + 7 else 1030) else (if P < 1025 then P + 7 else 1030) - 8
    unfold Cert.Spec.refl1
    split_ifs <;> first | omega | contradiction
  exact front3 flo _ _ _ _
end Composed3

/-! ## The host operations before the region compute that array -/

section Buffers
variable (W : Valuation τ sig (Elt Ideal))

/-- The first stretch drops flow's leading unit axis. -/
theorem s0_v2 : (after (hostOps0 (F := Ideal)) W (Proc.devRef .tc main_v2) : S3x1024x2048.Idx → EReal)
    = shapeCast S3x1024x2048 (W (Proc.devRef .tc main_arg1)) shapeCasts_S1x3x1024x2048_S3x1024x2048 := by
  after_results
  rfl

theorem s1_v2 : after (hostOps0_1 (F := Ideal)) W (Proc.devRef .tc main_v2) = W (Proc.devRef .tc main_v2) := by
  after_results_simp
theorem s2_v2 : after (hostOps0_2 (F := Ideal)) W (Proc.devRef .tc main_v2) = W (Proc.devRef .tc main_v2) := by
  after_results_simp
theorem s3_v2 : after (hostOps0_3 (F := Ideal)) W (Proc.devRef .tc main_v2) = W (Proc.devRef .tc main_v2) := by
  after_results_simp
theorem s4_v2 : after (hostOps0_4 (F := Ideal)) W (Proc.devRef .tc main_v2) = W (Proc.devRef .tc main_v2) := by
  after_results_simp

/-- The reflection's sixteen operations, four by four. -/
abbrev g1 : List (HloOp τ sig (Elt Ideal)) := (hostOps0_5 (F := Ideal)).take 4
abbrev g2 : List (HloOp τ sig (Elt Ideal)) := ((hostOps0_5 (F := Ideal)).drop 4).take 4
abbrev g3 : List (HloOp τ sig (Elt Ideal)) := ((hostOps0_5 (F := Ideal)).drop 8).take 4
abbrev g4 : List (HloOp τ sig (Elt Ideal)) := (hostOps0_5 (F := Ideal)).drop 12
theorem s5_split : (hostOps0_5 (F := Ideal)) = g1 ++ (g2 ++ (g3 ++ g4)) := rfl

set_option maxHeartbeats 400000 in
theorem g1_v3 : (after g1 W (Proc.devRef .tc main_call2_v3) : S3x1032x2048.Idx → EReal) = rowsTop3 (W (Proc.devRef .tc main_v2)) := by
  simp only [g1, hostOps0_5, List.take_succ_cons, List.take_zero]
  after_results
  rfl
set_option maxHeartbeats 400000 in
theorem g2_v7 : (after g2 W (Proc.devRef .tc main_call2_v7) : S3x1040x2048.Idx → EReal) = rowsBot3 (W (Proc.devRef .tc main_call2_v3)) := by
  simp only [g2, hostOps0_5, List.drop_succ_cons, List.drop_zero, List.take_succ_cons, List.take_zero]
  after_results
  rfl
set_option maxHeartbeats 400000 in
theorem g3_v11 : (after g3 W (Proc.devRef .tc main_call2_v11) : S3x1040x2049.Idx → EReal) = colsLeft3 (W (Proc.devRef .tc main_call2_v7)) := by
  simp only [g3, hostOps0_5, List.drop_succ_cons, List.drop_zero, List.take_succ_cons, List.take_zero]
  after_results
  rfl
set_option maxHeartbeats 400000 in
theorem g4_v5 : (after g4 W (Proc.devRef .tc main_v5) : S3x1040x2050.Idx → EReal) = colsRight3 (W (Proc.devRef .tc main_call2_v11)) := by
  simp only [g4, hostOps0_5, List.drop_succ_cons, List.drop_zero]
  after_results
  rfl

/-- The sixteen operations leave flow[0] reflected. -/
theorem s5_v5 : (after (hostOps0_5 (F := Ideal)) W (Proc.devRef .tc main_v5) : S3x1040x2050.Idx → EReal)
    = colsRight3 (colsLeft3 (rowsBot3 (rowsTop3 (W (Proc.devRef .tc main_v2))))) := by
  rw [s5_split, Cert.Lib.AfterAppend.after_append, Cert.Lib.AfterAppend.after_append, Cert.Lib.AfterAppend.after_append,
    g4_v5, g3_v11, g2_v7, g1_v3]

theorem s6_v5 : after (hostOps0_6 (F := Ideal)) W (Proc.devRef .tc main_v5) = W (Proc.devRef .tc main_v5) := by
  after_results_simp
theorem s6_c2 : (after (hostOps0_6 (F := Ideal)) W (Proc.devRef .tc main_c_2) : S_.Idx → BitVec 32) = constantI S_ 32 0#32 := by
  after_results

/-- The last stretch appends the dead lanes. -/
theorem s7_v6 : (after (hostOps0_7 (F := Ideal)) W (Proc.devRef .tc main_v6) : S3x1040x2176.Idx → EReal)
    = pad S3x1040x2176 ![0, 0, 0] ![0, 0, 126] ![0, 0, 0] (W (Proc.devRef .tc main_v5) : S3x1040x2050.Idx → EReal)
        (sitofp (F := Ideal) .f32 (W (Proc.devRef .tc main_c_2) : S_.Idx → BitVec 32)) pads_S3x1040x2050_S3x1040x2176_000_000_01260 h_S_ := by
  after_results
  rfl
end Buffers

/-- The array the kernel body copies its field tiles from is flow[0] reflected and lane-padded. -/
theorem V6_eq (m : (ℓ : Loc nD τ sig) → Buf (Elt Ideal) ℓ) (c : Dev nD) :
    (V m c main_v6 : S3x1040x2176.Idx → EReal)
      = padded3 (m ((c.tc : Thread nD τ).loc main_arg1)) (sitofp (F := Ideal) .f32 (constantI S_ 32 0#32)) := by
  dsimp only [Gen.V, Gen.V0]
  simp only [List.flatten_cons, List.flatten_nil, List.append_nil, Cert.Lib.AfterAppend.after_append]
  rw [s7_v6, s6_v5, s6_c2, s5_v5, s4_v2, s3_v2, s2_v2, s1_v2, s0_v2]
  rfl

theorem V6_apply (m : (ℓ : Loc nD τ sig) → Buf (Elt Ideal) ℓ) (c : Dev nD) (k : Fin 3) (P q : ℕ) (hP : P < 1026) (hq : q < 2050) :
    (V m c main_v6 : S3x1040x2176.Idx → EReal) (ix3 k (⟨P + 7, by omega⟩ : Fin 1040) (⟨q, by omega⟩ : Fin 2176))
      = Cert.Spec.Fp (m ((c.tc : Thread nD τ).loc main_arg1)) k P q := by
  rw [V6_eq]
  exact padded3_apply _ _ k P q hP hq
end Cert.KernelIdeal.Hand
end
-- ==== Proof.KHost.lean ====
/-
  The two arrays the kernel body reads are built on the host before the launch: the code b = layout[0, 1] and the
  three fields flow[0], each extended by REFLECTION with eight rows above and below and one column left and right
  (the row outside the edge mirrors the row as far inside it), then widened by 126 lanes of zeros.  Read at the
  padded coordinates the body uses (row P + 7 of the array is padded row P, for P in [0, 1026); column q in
  [0, 2050)), the extended array is the argument reflected by ONE cell: only the innermost of the eight mirrored
  rows is ever read.

  The operations are read four at a time.  Each group of four (a slice, a reversal, a concatenation, and a slice
  that is not used) turns the array before it into the array with one side mirrored; the groups are chained over an
  arbitrary state of the buffers, and the resulting composition is read at an index one stage after another.
-/
import proofs.«148698_j59665685676147_2_alg».proof.Proof.Gen.KernelIdeal.Frame.Runs
import proofs.«148698_j59665685676147_2_alg».proof.Proof.KHost6
import proofs.«148698_j59665685676147_2_alg».proof.Proof.Spec
import Idealize.ShloMosaic.Lib.Pipeline.Value
import Idealize.ShloMosaic.Lib.KernelVsHost
import Idealize.ShloMosaic.Lib.ValueIdx
import Idealize.ShloMosaic.Lib.ValueLayout
set_option maxRecDepth 16384
noncomputable section
namespace Cert.KernelIdeal.Hand
open Idealize.ShloMosaic Idealize.ShloMosaic.TcCoe Idealize.SL.Sem Idealize.ShloMosaic.ValueIdx
open Cert.KernelIdeal Cert.KernelIdeal.Gen

section Stages2
variable {α : Type}

/-- The leading unit axes dropped: entry (r, c) of layout[0, 1]. -/
theorem front2 (lay : (⟨4, ![1, 2, 1024, 2048]⟩ : Shape).Idx → α)
    (h1 : (⟨4, ![1, 2, 1024, 2048]⟩ : Shape).Slices ![0, 1, 0, 0] ⟨4, ![1, 1, 1024, 2048]⟩)
    (h2 : (⟨4, ![1, 1, 1024, 2048]⟩ : Shape).ShapeCasts ⟨2, ![1024, 2048]⟩) (r : Fin 1024) (c : Fin 2048) :
    shapeCast ⟨2, ![1024, 2048]⟩ (extractStridedSlice ⟨4, ![1, 1, 1024, 2048]⟩ ![0, 1, 0, 0] lay h1) h2 (ix2 r c)
      = lay (ix4 0 1 r c) := by
  refine (shapeCast_apply _ h2 (ix2 r c) (ix4 (0 : Fin 1) (0 : Fin 1) r c) ?_).trans ?_
  · rw [Shape.rowMajor_val_four, Shape.rowMajor_val_two]
    show ((0 * 1 + 0) * 1024 + r.val) * 2048 + c.val = r.val * 2048 + c.val
    omega
  · exact extractStridedSlice_apply _ lay h1 _ _ (fun a => match a with
      | ⟨0, _⟩ => rfl | ⟨1, _⟩ => rfl | ⟨2, _⟩ => (Nat.zero_add _).symm | ⟨3, _⟩ => (Nat.zero_add _).symm)

/-- Rows reflected at the top: the mirror of rows 1..8 put in front of the array. -/
theorem top2 (x : (⟨2, ![1024, 2048]⟩ : Shape).Idx → α) (h1 : (⟨2, ![1024, 2048]⟩ : Shape).Slices ![1, 0] ⟨2, ![8, 2048]⟩)
    (h2 : Shape.Concatenates [⟨2, ![8, 2048]⟩, ⟨2, ![1024, 2048]⟩] ⟨2, ![1032, 2048]⟩ 0)
    (r : Fin 1032) (c : Fin 2048) (r' : Fin 1024) (hr : r'.val = if r.val < 8 then 8 - r.val else r.val - 8) :
    concatenate ⟨2, ![1032, 2048]⟩ 0 [⟨⟨2, ![8, 2048]⟩, Host.reverse [0] (extractStridedSlice ⟨2, ![8, 2048]⟩ ![1, 0] x h1)⟩, ⟨⟨2, ![1024, 2048]⟩, x⟩] h2 (ix2 r c)
      = x (ix2 r' c) := by
  by_cases h : r.val < 8
  · rw [if_pos h] at hr
    refine (concatenate_pair_apply_left (t := ⟨2, ![1032, 2048]⟩) (0 : Fin 2) _ x h2 (ix2 r c) rfl (ix2 (⟨r.val, h⟩ : Fin 8) c)
      (fun b => match b with | ⟨0, _⟩ => rfl | ⟨1, _⟩ => rfl)).trans ?_
    show x _ = x _
    refine congrArg x (funext fun a => Fin.ext ?_)
    match a with
    | ⟨0, _⟩ =>
      show 1 + (8 - (r.val + 1)) = r'.val
      omega
    | ⟨1, _⟩ => show 0 + c.val = c.val; omega
  · rw [if_neg h] at hr
    refine (concatenate_pair_apply_right (t := ⟨2, ![1032, 2048]⟩) (0 : Fin 2) _ x h2 (ix2 r c) rfl rfl (ix2 r' c)
      (fun b => match b with | ⟨0, _⟩ => fun hb => absurd rfl hb | ⟨1, _⟩ => fun _ => rfl) ?_)
    show r'.val + 8 = r.val
    omega

/-- Rows reflected at the bottom: the mirror of rows 1023..1030 put behind the array. -/
theorem bot2 (y : (⟨2, ![1032, 2048]⟩ : Shape).Idx → α) (h1 : (⟨2, ![1032, 2048]⟩ : Shape).Slices ![1023, 0] ⟨2, ![8, 2048]⟩)
    (h2 : Shape.Concatenates [⟨2, ![1032, 2048]⟩, ⟨2, ![8, 2048]⟩] ⟨2, ![1040, 2048]⟩ 0)
    (r : Fin 1040) (c : Fin 2048) (r' : Fin 1032) (hr : r'.val = if r.val < 1032 then r.val else 2062 - r.val) :
    concatenate ⟨2, ![1040, 2048]⟩ 0 [⟨⟨2, ![1032, 2048]⟩, y⟩, ⟨⟨2, ![8, 2048]⟩, Host.reverse [0] (extractStridedSlice ⟨2, ![8, 2048]⟩ ![1023, 0] y h1)⟩] h2 (ix2 r c)
      = y (ix2 r' c) := by
  by_cases h : r.val < 1032
  · rw [if_pos h] at hr
    exact concatenate_pair_apply_left (t := ⟨2, ![1040, 2048]⟩) (0 : Fin 2) y _ h2 (ix2 r c) rfl (ix2 r' c)
      (fun b => match b with | ⟨0, _⟩ => hr | ⟨1, _⟩ => rfl)
  · rw [if_neg h] at hr
    have hr8 : r.val - 1032 < 8 := by have := r.isLt; omega
    refine (concatenate_pair_apply_right (t := ⟨2, ![1040, 2048]⟩) (0 : Fin 2) y _ h2 (ix2 r c) rfl rfl (ix2 (⟨r.val - 1032, hr8⟩ : Fin 8) c)
      (fun b => match b with | ⟨0, _⟩ => fun hb => absurd rfl hb | ⟨1, _⟩ => fun _ => rfl) ?_).trans ?_
    · show r.val - 1032 + 1032 = r.val; omega
    · show y _ = y _
      refine congrArg y (funext fun a => Fin.ext ?_)
      match a with
      | ⟨0, _⟩ => show 1023 + (8 - (r.val - 1032 + 1)) = r'.val; omega
      | ⟨1, _⟩ => show 0 + c.val = c.val; omega

/-- Columns reflected on the left: column 1 put in front of the array. -/
theorem left2 (z : (⟨2, ![1040, 2048]⟩ : Shape).Idx → α) (h1 : (⟨2, ![1040, 2048]⟩ : Shape).Slices ![0, 1] ⟨2, ![1040, 1]⟩)
    (h2 : Shape.Concatenates [⟨2, ![1040, 1]⟩, ⟨2, ![1040, 2048]⟩] ⟨2, ![1040, 2049]⟩ 1)
    (r : Fin 1040) (c : Fin 2049) (c' : Fin 2048) (hc : c'.val = if c.val = 0 then 1 else c.val - 1) :
    concatenate ⟨2, ![1040, 2049]⟩ 1 [⟨⟨2, ![1040, 1]⟩, Host.reverse [1] (extractStridedSlice ⟨2, ![1040, 1]⟩ ![0, 1] z h1)⟩, ⟨⟨2, ![1040, 2048]⟩, z⟩] h2 (ix2 r c)
      = z (ix2 r c') := by
  by_cases h : c.val = 0
  · rw [if_pos h] at hc
    refine (concatenate_pair_apply_left (t := ⟨2, ![1040, 2049]⟩) (1 : Fin 2) _ z h2 (ix2 r c) rfl (ix2 r (⟨0, Nat.one_pos⟩ : Fin 1))
      (fun b => match b with | ⟨0, _⟩ => rfl | ⟨1, _⟩ => h.symm)).trans ?_
    show z _ = z _
    refine congrArg z (funext fun a => Fin.ext ?_)
    match a with
    | ⟨0, _⟩ => show 0 + r.val = r.val; omega
    | ⟨1, _⟩ => show 1 + (1 - (0 + 1)) = c'.val; omega
  · rw [if_neg h] at hc
    refine concatenate_pair_apply_right (t := ⟨2, ![1040, 2049]⟩) (1 : Fin 2) _ z h2 (ix2 r c) rfl rfl (ix2 r c')
      (fun b => match b with | ⟨0, _⟩ => fun _ => rfl | ⟨1, _⟩ => fun hb => absurd rfl hb) ?_
    show c'.val + 1 = c.val
    omega

/-- Columns reflected on the right: column 2047 put behind the array. -/
theorem right2 (w : (⟨2, ![1040, 2049]⟩ : Shape).Idx → α) (h1 : (⟨2, ![1040, 2049]⟩ : Shape).Slices ![0, 2047] ⟨2, ![1040, 1]⟩)
    (h2 : Shape.Concatenates [⟨2, ![1040, 2049]⟩, ⟨2, ![1040, 1]⟩] ⟨2, ![1040, 2050]⟩ 1)
    (r : Fin 1040) (c : Fin 2050) (c' : Fin 2049) (hc : c'.val = if c.val < 2049 then c.val else 2047) :
    concatenate ⟨2, ![1040, 2050]⟩ 1 [⟨⟨2, ![1040, 2049]⟩, w⟩, ⟨⟨2, ![1040, 1]⟩, Host.reverse [1] (extractStridedSlice ⟨2, ![1040, 1]⟩ ![0, 2047] w h1)⟩] h2 (ix2 r c)
      = w (ix2 r c') := by
  by_cases h : c.val < 2049
  · rw [if_pos h] at hc
    exact concatenate_pair_apply_left (t := ⟨2, ![1040, 2050]⟩) (1 : Fin 2) w _ h2 (ix2 r c) rfl (ix2 r c')
      (fun b => match b with | ⟨0, _⟩ => rfl | ⟨1, _⟩ => hc)
  · rw [if_neg h] at hc
    refine (concatenate_pair_apply_right (t := ⟨2, ![1040, 2050]⟩) (1 : Fin 2) w _ h2 (ix2 r c) rfl rfl (ix2 r (⟨0, Nat.one_pos⟩ : Fin 1))
      (fun b => match b with | ⟨0, _⟩ => fun _ => rfl | ⟨1, _⟩ => fun hb => absurd rfl hb) ?_).trans ?_
    · show 0 + 2049 = c.val; have := c.isLt; omega
    · show w _ = w _
      refine congrArg w (funext fun a => Fin.ext ?_)
      match a with
      | ⟨0, _⟩ => show 0 + r.val = r.val; omega
      | ⟨1, _⟩ => show 2047 + (1 - (0 + 1)) = c'.val; omega

/-- The dead lanes appended on the right leave the first 2050 columns as they are. -/
theorem lanes2 (x : (⟨2, ![1040, 2050]⟩ : Shape).Idx → α) {u : Shape} (v : u.Idx → α)
    (h : (⟨2, ![1040, 2050]⟩ : Shape).Pads (![0, 0] : Fin 2 → Nat) ![0, 126] ![0, 0] ⟨2, ![1040, 2176]⟩) (hu : 0 < u.numel)
    (r : Fin 1040) (q : Fin 2176) (hq : q.val < 2050) :
    pad ⟨2, ![1040, 2176]⟩ ![0, 0] ![0, 126] ![0, 0] x v h hu (ix2 r q) = x (ix2 r ⟨q.val, hq⟩) :=
  pad_apply_of_inside _ _ _ x v h hu _ _ (fun a => match a with
    | ⟨0, _⟩ => by show r.val = 0 + r.val * (0 + 1); omega
    | ⟨1, _⟩ => by show q.val = 0 + q.val * (0 + 1); omega)
end Stages2

section Composed2
variable {α : Type}

/-- Eight mirrored rows in front. -/
def rowsTop2 (x : S1024x2048.Idx → α) : S1032x2048.Idx → α :=
  concatenate S1032x2048 0 [⟨S8x2048, Host.reverse [0] (extractStridedSlice S8x2048 ![1, 0] x slices_S1024x2048_S8x2048_1_0)⟩, ⟨S1024x2048, x⟩] concatenates_S8x2048_S1024x2048_S1032x2048_d0
/-- Eight mirrored rows behind. -/
def rowsBot2 (y : S1032x2048.Idx → α) : S1040x2048.Idx → α :=
  concatenate S1040x2048 0 [⟨S1032x2048, y⟩, ⟨S8x2048, Host.reverse [0] (extractStridedSlice S8x2048 ![1023, 0] y slices_S1032x2048_S8x2048_1023_0)⟩] concatenates_S1032x2048_S8x2048_S1040x2048_d0
/-- One mirrored column in front. -/
def colsLeft2 (z : S1040x2048.Idx → α) : S1040x2049.Idx → α :=
  concatenate S1040x2049 1 [⟨S1040x1, Host.reverse [1] (extractStridedSlice S1040x1 ![0, 1] z slices_S1040x2048_S1040x1_0_1)⟩, ⟨S1040x2048, z⟩] concatenates_S1040x1_S1040x2048_S1040x2049_d1
/-- One mirrored column behind. -/
def colsRight2 (w : S1040x2049.Idx → α) : S1040x2050.Idx → α :=
  concatenate S1040x2050 1 [⟨S1040x2049, w⟩, ⟨S1040x1, Host.reverse [1] (extractStridedSlice S1040x1 ![0, 2047] w slices_S1040x2049_S1040x1_0_2047)⟩] concatenates_S1040x2049_S1040x1_S1040x2050_d1
/-- layout[0, 1] reflected by eight rows and one column on every side, then 126 lanes of `v` appended. -/
def padded2 (lay : S1x2x1024x2048.Idx → α) (v : S_.Idx → α) : S1040x2176.Idx → α :=
  pad S1040x2176 ![0, 0] ![0, 126] ![0, 0]
    (colsRight2 (colsLeft2 (rowsBot2 (rowsTop2
      (shapeCast S1024x2048 (extractStridedSlice S1x1x1024x2048 ![0, 1, 0, 0] lay slices_S1x2x1024x2048_S1x1x1024x2048_0_1_0_0) shapeCasts_S1x1x1024x2048_S1024x2048)))))
    v pads_S1040x2050_S1040x2176_000_01260 h_S_

theorem padded2_apply (lay : S1x2x1024x2048.Idx → α) (v : S_.Idx → α) (P q : ℕ) (hP : P < 1026) (hq : q < 2050) :
    padded2 lay v (ix2 (⟨P + 7, by omega⟩ : Fin 1040) (⟨q, by omega⟩ : Fin 2176))
      = lay (ix4 0 1 (Cert.Spec.rowSrc P) (Cert.Spec.colSrc q)) := by
  unfold padded2
  refine (lanes2 _ v _ _ _ _ hq).trans ?_
  unfold colsRight2
  refine (right2 _ _ _ _ _ (⟨if q < 2049 then q else 2047, by split <;> omega⟩ : Fin 2049) rfl).trans ?_
  unfold colsLeft2
  refine (left2 _ _ _ _ _ (Cert.Spec.colSrc q) ?_).trans ?_
  · show Cert.Spec.refl1 2048 q % 2048 = if (if q < 2049 then q else 2047) = 0 then 1 else (if q < 2049 then q else 2047) - 1
    unfold Cert.Spec.refl1
    split_ifs <;> first | omega | contradiction
  unfold rowsBot2
  refine (bot2 _ _ _ _ _ (⟨if P < 1025 then P + 7 else 1030, by split <;> omega⟩ : Fin 1032) ?_).trans ?_
  · show (if P < 1025 then P + 7 else 1030) = if P + 7 < 1032 then P + 7 else 2062 - (P + 7)
    split_ifs <;> first | omega | contradiction
  unfold rowsTop2
  refine (top2 _ _ _ _ _ (Cert.Spec.rowSrc P) ?_).trans ?_
  · show Cert.Spec.refl1 1024 P % 1024 = if (if P < 1025 then P + 7 else 1030) < 8 then 8 - (if P < 1025 then P + 7 else 1030) else (if P < 1025 then P + 7 else 1030) - 8
    unfold Cert.Spec.refl1
    split_ifs <;> first | omega | contradiction
  exact front2 lay _ _ _ _
end Composed2

section Groups2
open Idealize.ShloMosaic.StableHlo
variable (W : Valuation τ sig (Elt Ideal))

/-- layout[0, 1] as the first host operations leave it. -/
theorem grp_v1 : (after hostOps0 W (Proc.devRef .tc main_v1) : S1024x2048.Idx → BitVec 32)
    = shapeCast S1024x2048 (extractStridedSlice S1x1x1024x2048 ![0, 1, 0, 0] (W (Proc.devRef .tc main_arg0)) slices_S1x2x1024x2048_S1x1x1024x2048_0_1_0_0) shapeCasts_S1x1x1024x2048_S1024x2048 := by
  simp only [Gen.hostOps0]
  after_results
  rfl

/-- The four operations that put the mirrored rows in front. -/
theorem grp_top : (after ((hostOps0_1 (F := Ideal)).take 4) W (Proc.devRef .tc main_call0_v3) : S1032x2048.Idx → BitVec 32)
    = rowsTop2 (W (Proc.devRef .tc main_v1)) := by
  simp only [Gen.hostOps0_1, List.take_succ_cons, List.take_zero]
  after_results
  rfl

/-- The four operations that put the mirrored rows behind. -/
theorem grp_bot : (after (((hostOps0_1 (F := Ideal)).drop 4).take 4) W (Proc.devRef .tc main_call0_v7) : S1040x2048.Idx → BitVec 32)
    = rowsBot2 (W (Proc.devRef .tc main_call0_v3)) := by
  simp only [Gen.hostOps0_1, List.drop_succ_cons, List.drop_zero, List.take_succ_cons, List.take_zero]
  after_results
  rfl

/-- The four operations that put the mirrored column in front. -/
theorem grp_left : (after (((hostOps0_1 (F := Ideal)).drop 8).take 4) W (Proc.devRef .tc main_call0_v11) : S1040x2049.Idx → BitVec 32)
    = colsLeft2 (W (Proc.devRef .tc main_call0_v7)) := by
  simp only [Gen.hostOps0_1, List.drop_succ_cons, List.drop_zero, List.take_succ_cons, List.take_zero]
  after_results
  rfl

/-- The four operations that put the mirrored column behind. -/
theorem grp_right : (after ((hostOps0_1 (F := Ideal)).drop 12) W (Proc.devRef .tc main_v3) : S1040x2050.Idx → BitVec 32)
    = colsRight2 (W (Proc.devRef .tc main_call0_v11)) := by
  simp only [Gen.hostOps0_1, List.drop_succ_cons, List.drop_zero]
  after_results
  rfl

/-- The sixteen operations of the reflection, four by four. -/
theorem grp_reflect : (after (hostOps0_1 (F := Ideal)) W (Proc.devRef .tc main_v3) : S1040x2050.Idx → BitVec 32)
    = colsRight2 (colsLeft2 (rowsBot2 (rowsTop2 (W (Proc.devRef .tc main_v1))))) := by
  have h : (hostOps0_1 (F := Ideal)) = (hostOps0_1 (F := Ideal)).take 4 ++ (((hostOps0_1 (F := Ideal)).drop 4).take 4
      ++ (((hostOps0_1 (F := Ideal)).drop 8).take 4 ++ (hostOps0_1 (F := Ideal)).drop 12)) := rfl
  rw [h, StableHlo.after_append, StableHlo.after_append, StableHlo.after_append, grp_right, grp_left, grp_bot, grp_top]

/-- The constant in between leaves the reflected array alone. -/
theorem grp_skip : (after (hostOps0_2 (F := Ideal)) W (Proc.devRef .tc main_v3)) = W (Proc.devRef .tc main_v3) := by
  simp only [Gen.hostOps0_2]
  after_results_simp

/-- The dead lanes appended. -/
theorem grp_lanes : (after (hostOps0_3 (F := Ideal)) W (Proc.devRef .tc main_v4) : S1040x2176.Idx → BitVec 32)
    = pad S1040x2176 ![0, 0] ![0, 126] ![0, 0] (W (Proc.devRef .tc main_v3)) (W (Proc.devRef .tc main_c_0))
        pads_S1040x2050_S1040x2176_000_01260 h_S_ := by
  simp only [Gen.hostOps0_3]
  after_results
  rfl

/-- The later host operations, those of the flow array, leave the code array alone. -/
theorem grp_tail : after ((hostOps0_4 (F := Ideal)) ++ (hostOps0_5 ++ (hostOps0_6 ++ hostOps0_7))) W (Proc.devRef .tc main_v4)
    = W (Proc.devRef .tc main_v4) :=
  StableHlo.after_of_forall_not_mem (b := Proc.devRef .tc main_v4) _ _ (List.forall_iff_forall_mem.mp (by
    simp only [hostOps0_4, hostOps0_5, hostOps0_6, hostOps0_7, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The code array from the launch contents: all eight stretches. -/
theorem grp_all : ∃ v : S_.Idx → BitVec 32,
    (after ((hostOps0 (F := Ideal)) ++ (hostOps0_1 ++ (hostOps0_2 ++ (hostOps0_3 ++ (hostOps0_4 ++ (hostOps0_5 ++ (hostOps0_6 ++ hostOps0_7))))))) W
        (Proc.devRef .tc main_v4) : S1040x2176.Idx → BitVec 32)
      = padded2 (W (Proc.devRef .tc main_arg0)) v := by
  refine ⟨(after (hostOps0_2 (F := Ideal)) (after hostOps0_1 (after hostOps0 W)) (Proc.devRef .tc main_c_0) : S_.Idx → BitVec 32), ?_⟩
  rw [StableHlo.after_append, StableHlo.after_append, StableHlo.after_append, StableHlo.after_append, grp_tail, grp_lanes, grp_skip, grp_reflect, grp_v1]
  rfl
end Groups2

/-- The code array the kernel reads, at padded coordinates: layout[0, 1] reflected by one cell. -/
theorem V4_apply (m : (ℓ : Loc nD τ sig) → Buf (Elt Ideal) ℓ) (c : Dev nD) (P q : ℕ) (hP : P < 1026) (hq : q < 2050) :
    (V m c main_v4 : S1040x2176.Idx → BitVec 32) (ix2 (⟨P + 7, by omega⟩ : Fin 1040) (⟨q, by omega⟩ : Fin 2176))
      = Cert.Spec.Bp (m ((c.tc : Thread nD τ).loc main_arg0)) P q := by
  obtain ⟨v, e⟩ := grp_all (fun b => m (c, b))
  have e' : (V m c main_v4 : S1040x2176.Idx → BitVec 32) = padded2 (m ((c.tc : Thread nD τ).loc main_arg0)) v := by
    dsimp only [Gen.V, Gen.V0]
    simp only [List.flatten_cons, List.flatten_nil, List.append_nil]
    exact e
  exact (congrFun e' _).trans (padded2_apply _ _ P q hP hq)

end Cert.KernelIdeal.Hand
end
-- ==== Proof.KExt.lean ====
import proofs.«148698_j59665685676147_2_alg».proof.Proof.Gen.KernelIdeal.Frame.RunA
import proofs.«148698_j59665685676147_2_alg».proof.Proof.Spec
import Idealize.ShloMosaic.Lib.ValueIdx
import Idealize.ShloMosaic.Lib.ValueLayout
import Idealize.ShloMosaic.Lib.Pipeline.Value
set_option maxRecDepth 16384
noncomputable section
namespace Cert.KernelIdeal.Hand
open Idealize.ShloMosaic Idealize.ShloMosaic.TcCoe Idealize.SL.Sem Idealize.ShloMosaic.ValueIdx
open Cert.KernelIdeal Cert.KernelIdeal.Gen

/-! # The extended tile the body works on

At grid point t the body copies rows 64·t … 64·t + 79 of the two padded HBM arrays into scratch and reads rows
7 … 72, lanes 0 … 2049 of the copy: a 66 × 2050 window whose row x is padded row 64·t + 7 + x, that is row 64·t + x
of the field extended by ONE cell. On that window it substitutes the Dirichlet values. Here: the window's code and
its three substituted fields, entry by entry, from the HBM arrays' entries on the window. -/

/-- The row offset the body's copies start at is 64·t. -/
theorem off1_eq (i : grid0.Coords) (t : ℕ) (ht : (i 0).val = t) (ht16 : t < 16) : k0_off1 i = ![64 * t, 0] := by
  funext a
  fin_cases a
  · show (Scalar.muli (BitVec.ofNat 32 (i 0).val) 64#32).toNat = 64 * t
    rw [← ht] at ht16 ⊢
    simp only [Scalar.muli, IntOp.muli, BitVec.toNat_mul, BitVec.toNat_ofNat]
    omega
  · rfl

theorem off2_eq (i : grid0.Coords) (t : ℕ) (ht : (i 0).val = t) (ht16 : t < 16) : k0_off2 i = ![0, 64 * t, 0] := by
  funext a
  fin_cases a
  · rfl
  · show (Scalar.muli (BitVec.ofNat 32 (i 0).val) 64#32).toNat = 64 * t
    rw [← ht] at ht16 ⊢
    simp only [Scalar.muli, IntOp.muli, BitVec.toNat_mul, BitVec.toNat_ofNat]
    omega
  · rfl

variable (c : Dev nD) (i : grid0.Coords) (arg3 : Memref sig .tc .vmem S3x64x2048 .f32) (harg3 : arg3.IsWhole) (arg4 : Memref sig .tc .vmem S64x2048 .f32) (harg4 : arg4.IsWhole) (arg5 : Memref sig .tc .vmem S1x8x128 .f32) (harg5 : arg5.IsWhole) (arg6 : Memref sig .tc .vmem S80x2176 .i32) (harg6 : arg6.IsWhole) (arg7 : Memref sig .tc .vmem S3x80x2176 .f32) (harg7 : arg7.IsWhole)
  (fh0 : HbBuf0 (F := Ideal) c hbM0_0) (fh1 : HbBuf0 (F := Ideal) c hbM0_1)
  (B : ℕ → ℕ → BitVec 32) (Fl : Fin 3 → ℕ → ℕ → EReal) (t : ℕ) (ht : (i 0).val = t) (ht16 : t < 16)
  (h0 : ∀ (x y : ℕ) (hx : x < 66) (hy : y < 2050),
    (fh0 : S1040x2176.Idx → BitVec 32) (ix2 (⟨64 * t + 7 + x, by omega⟩ : Fin 1040) (⟨y, by omega⟩ : Fin 2176)) = B (64 * t + x) y)
  (h1 : ∀ (k : Fin 3) (x y : ℕ) (hx : x < 66) (hy : y < 2050),
    (fh1 : S3x1040x2176.Idx → EReal) (ix3 k (⟨64 * t + 7 + x, by omega⟩ : Fin 1040) (⟨y, by omega⟩ : Fin 2176)) = Fl k (64 * t + x) y)

include ht ht16 h0 in
/-- The code window: entry (x, y) is the padded code at row 64·t + x, column y. -/
theorem ext_code (x : Fin 66) (y : Fin 2050) :
    kernelRun0_A.sl.v6 (F := Ideal) c i arg6 fh0 (ix2 x y) = B (64 * t + x.val) y.val := by
  unfold kernelRun0_A.sl.v6
  rw [View.readCov_eq_canon']
  show View.canon [(⟨Rect.unit (fun _ => 0) S80x2176.size (fun a => Nat.le_of_eq (Nat.zero_add _)), kernelRun0_A.sl.dma0 c i fh0⟩ : View.Piece (Elt Ideal) S80x2176 .i32)] _ = _
  rw [View.canon_unit_zero rfl]
  unfold kernelRun0_A.sl.dma0
  have hoff := off1_eq i t ht ht16
  refine (congrArg (fh0 : S1040x2176.Idx → BitVec 32) ?_).trans (h0 x.val y.val x.isLt y.isLt)
  funext a
  fin_cases a
  · apply Fin.ext
    show k0_off1 i 0 + 1 * (7 + 1 * x.val) = 64 * t + 7 + x.val
    rw [hoff]; show 64 * t + 1 * (7 + 1 * x.val) = _; omega
  · apply Fin.ext
    show k0_off1 i 1 + 1 * (0 + 1 * y.val) = y.val
    rw [hoff]; show 0 + 1 * (0 + 1 * y.val) = _; omega

include ht ht16 h1 in
theorem ext_raw0 (x : Fin 66) (y : Fin 2050) :
    kernelRun0_A.sl.v7 (F := Ideal) c i arg7 fh1 (ix3 (0 : Fin 1) x y) = Fl 0 (64 * t + x.val) y.val := by
  unfold kernelRun0_A.sl.v7
  rw [View.readCov_eq_canon']
  show View.canon [(⟨Rect.unit (fun _ => 0) S3x80x2176.size (fun a => Nat.le_of_eq (Nat.zero_add _)), kernelRun0_A.sl.dma0_1 c i fh1⟩ : View.Piece (Elt Ideal) S3x80x2176 .f32)] _ = _
  rw [View.canon_unit_zero rfl]
  unfold kernelRun0_A.sl.dma0_1
  have hoff := off2_eq i t ht ht16
  refine (congrArg (fh1 : S3x1040x2176.Idx → EReal) ?_).trans (h1 0 x.val y.val x.isLt y.isLt)
  funext a
  fin_cases a
  · apply Fin.ext
    show k0_off2 i 0 + 1 * (0 + 1 * 0) = 0
    rw [hoff]; show 0 + 1 * (0 + 1 * 0) = _; omega
  · apply Fin.ext
    show k0_off2 i 1 + 1 * (7 + 1 * x.val) = 64 * t + 7 + x.val
    rw [hoff]; show 64 * t + 1 * (7 + 1 * x.val) = _; omega
  · apply Fin.ext
    show k0_off2 i 2 + 1 * (0 + 1 * y.val) = y.val
    rw [hoff]; show 0 + 1 * (0 + 1 * y.val) = _; omega

include ht ht16 h1 in
theorem ext_raw1 (x : Fin 66) (y : Fin 2050) :
    kernelRun0_A.sl.v9 (F := Ideal) c i arg7 fh1 (ix3 (0 : Fin 1) x y) = Fl 1 (64 * t + x.val) y.val := by
  unfold kernelRun0_A.sl.v9
  rw [View.readCov_eq_canon']
  show View.canon [(⟨Rect.unit (fun _ => 0) S3x80x2176.size (fun a => Nat.le_of_eq (Nat.zero_add _)), kernelRun0_A.sl.dma0_1 c i fh1⟩ : View.Piece (Elt Ideal) S3x80x2176 .f32)] _ = _
  rw [View.canon_unit_zero rfl]
  unfold kernelRun0_A.sl.dma0_1
  have hoff := off2_eq i t ht ht16
  refine (congrArg (fh1 : S3x1040x2176.Idx → EReal) ?_).trans (h1 1 x.val y.val x.isLt y.isLt)
  funext a
  fin_cases a
  · apply Fin.ext
    show k0_off2 i 0 + 1 * (1 + 1 * 0) = 1
    rw [hoff]; show 0 + 1 * (1 + 1 * 0) = _; omega
  · apply Fin.ext
    show k0_off2 i 1 + 1 * (7 + 1 * x.val) = 64 * t + 7 + x.val
    rw [hoff]; show 64 * t + 1 * (7 + 1 * x.val) = _; omega
  · apply Fin.ext
    show k0_off2 i 2 + 1 * (0 + 1 * y.val) = y.val
    rw [hoff]; show 0 + 1 * (0 + 1 * y.val) = _; omega

include ht ht16 h1 in
theorem ext_raw2 (x : Fin 66) (y : Fin 2050) :
    kernelRun0_A.sl.v11 (F := Ideal) c i arg7 fh1 (ix3 (0 : Fin 1) x y) = Fl 2 (64 * t + x.val) y.val := by
  unfold kernelRun0_A.sl.v11
  rw [View.readCov_eq_canon']
  show View.canon [(⟨Rect.unit (fun _ => 0) S3x80x2176.size (fun a => Nat.le_of_eq (Nat.zero_add _)), kernelRun0_A.sl.dma0_1 c i fh1⟩ : View.Piece (Elt Ideal) S3x80x2176 .f32)] _ = _
  rw [View.canon_unit_zero rfl]
  unfold kernelRun0_A.sl.dma0_1
  have hoff := off2_eq i t ht ht16
  refine (congrArg (fh1 : S3x1040x2176.Idx → EReal) ?_).trans (h1 2 x.val y.val x.isLt y.isLt)
  funext a
  fin_cases a
  · apply Fin.ext
    show k0_off2 i 0 + 1 * (2 + 1 * 0) = 2
    rw [hoff]; show 0 + 1 * (2 + 1 * 0) = _; omega
  · apply Fin.ext
    show k0_off2 i 1 + 1 * (7 + 1 * x.val) = 64 * t + 7 + x.val
    rw [hoff]; show 64 * t + 1 * (7 + 1 * x.val) = _; omega
  · apply Fin.ext
    show k0_off2 i 2 + 1 * (0 + 1 * y.val) = y.val
    rw [hoff]; show 0 + 1 * (0 + 1 * y.val) = _; omega

include ht ht16 h0 h1 in
/-- The u window after the substitution. -/
theorem ext_u (x : Fin 66) (y : Fin 2050) :
    kernelRun0_A.sl.r_1 (F := Ideal) c i arg6 arg7 fh0 fh1 (ix2 x y) = Cert.Spec.up B Fl (64 * t + x.val) y.val := by
  unfold kernelRun0_A.sl.r_1 k0_pay5
  simp only [select_apply, broadcast_apply]
  rw [shapeCast_1ab_ab_apply, ext_raw0 c i arg7 fh1 Fl t ht ht16 h1 x y]
  show Scalar.select (IntOp.cmpi .eq (kernelRun0_A.sl.v6 (F := Ideal) c i arg6 fh0 (ix2 x y)) 2#32) _ (Scalar.select (IntOp.cmpi .eq (kernelRun0_A.sl.v6 (F := Ideal) c i arg6 fh0 (ix2 x y)) 1#32) _ _) = _
  rw [ext_code c i arg6 fh0 B t ht ht16 h0 x y]
  rfl

include ht ht16 h0 h1 in
/-- The v window after the substitution. -/
theorem ext_v (x : Fin 66) (y : Fin 2050) :
    kernelRun0_A.sl.r_2 (F := Ideal) c i arg6 arg7 fh0 fh1 (ix2 x y) = Cert.Spec.vp B Fl (64 * t + x.val) y.val := by
  unfold kernelRun0_A.sl.r_2 k0_pay6
  simp only [select_apply, broadcast_apply]
  rw [shapeCast_1ab_ab_apply, ext_raw1 c i arg7 fh1 Fl t ht ht16 h1 x y]
  show Scalar.select (IntOp.ori (IntOp.cmpi .eq (kernelRun0_A.sl.v6 (F := Ideal) c i arg6 fh0 (ix2 x y)) 1#32) (IntOp.cmpi .eq (kernelRun0_A.sl.v6 (F := Ideal) c i arg6 fh0 (ix2 x y)) 2#32)) _ _ = _
  rw [ext_code c i arg6 fh0 B t ht ht16 h0 x y]
  rfl

include ht ht16 h0 h1 in
/-- The p window after the substitution. -/
theorem ext_p (x : Fin 66) (y : Fin 2050) :
    kernelRun0_A.sl.r_3 (F := Ideal) c i arg6 arg7 fh0 fh1 (ix2 x y) = Cert.Spec.pp B Fl (64 * t + x.val) y.val := by
  unfold kernelRun0_A.sl.r_3 k0_pay8 kernelRun0_A.sl.r k0_pay4 k0_pay7
  simp only [select_apply, broadcast_apply]
  rw [shapeCast_1ab_ab_apply, ext_raw2 c i arg7 fh1 Fl t ht ht16 h1 x y]
  show Scalar.select (IntOp.ori (IntOp.cmpi .eq (kernelRun0_A.sl.v6 (F := Ideal) c i arg6 fh0 (ix2 x y)) 2#32) (IntOp.cmpi .eq (kernelRun0_A.sl.v6 (F := Ideal) c i arg6 fh0 (ix2 x y)) 3#32)) _ _ = _
  rw [ext_code c i arg6 fh0 B t ht ht16 h0 x y]
  rfl
end Cert.KernelIdeal.Hand
end
-- ==== Proof.KTile.lean ====
import proofs.«148698_j59665685676147_2_alg».proof.Proof.Gen.KernelIdeal.Frame
import proofs.«148698_j59665685676147_2_alg».proof.Proof.KExt
import Idealize.ShloMosaic.Lib.Pipeline.Value
import Idealize.ShloMosaic.Lib.ValueLayout
set_option maxRecDepth 16384
noncomputable section
namespace Cert.KernelIdeal.Hand
open Idealize.ShloMosaic Idealize.ShloMosaic.TcCoe Idealize.SL.Sem Idealize.ShloMosaic.ValueIdx
open Cert.KernelIdeal Cert.KernelIdeal.Gen

/-- the interior slice at an index: the operand one row down, one column right -/
theorem slice11_apply {α : Type} (v : S66x2050.Idx → α) (r : Fin 64) (q : Fin 2048) :
    extractStridedSlice S64x2048 ![1, 1] v slices_S66x2050_o1_1_S64x2048 (ix2 r q)
      = v (ix2 (⟨r.val + 1, by omega⟩ : Fin 66) (⟨q.val + 1, by omega⟩ : Fin 2050)) := by
  refine extractStridedSlice_apply _ v _ _ _ (fun a => ?_)
  fin_cases a
  · show r.val + 1 = 1 + r.val; omega
  · show q.val + 1 = 1 + q.val; omega

/-- the interior codes at an index -/
theorem pay9_apply (v : Vec Ideal S66x2050 .i32) (r : Fin 64) (q : Fin 2048) :
    k0_pay9 (F := Ideal) v (ix2 r q) = v (ix2 (⟨r.val + 1, by omega⟩ : Fin 66) (⟨q.val + 1, by omega⟩ : Fin 2050)) :=
  slice11_apply v r q

/-- the stored mask tile at an index: the code where its bit is set, 0 elsewhere, as a number -/
theorem pay1_apply (w : IVec S64x2048 32) (j : S64x2048.Idx) :
    k0_pay1 (F := Ideal) w (k0_pay21 w) j
      = FloatOps.sitofp (F := Ideal) .f32 (Scalar.select (Cert.Spec.maskS (w j)) (w j) 0#32) := by
  rfl

/-- the interior of the first substituted field at an index -/
theorem pay14_apply (v : FVec Ideal S66x2050 .f32) (r : Fin 64) (q : Fin 2048) :
    k0_pay14 (F := Ideal) v (ix2 r q) = v (ix2 (⟨r.val + 1, by omega⟩ : Fin 66) (⟨q.val + 1, by omega⟩ : Fin 2050)) :=
  slice11_apply v r q

/-- the interior of the second substituted field at an index -/
theorem pay15_apply (v : FVec Ideal S66x2050 .f32) (r : Fin 64) (q : Fin 2048) :
    k0_pay15 (F := Ideal) v (ix2 r q) = v (ix2 (⟨r.val + 1, by omega⟩ : Fin 66) (⟨q.val + 1, by omega⟩ : Fin 2050)) :=
  slice11_apply v r q

/-- three [1,64,2048] pieces stacked along the leading axis, read at an index: the piece the leading coordinate names -/
theorem concat3_apply {α : Type} (x0 x1 x2 : S1x64x2048.Idx → α)
    (h : Shape.Concatenates (([⟨S1x64x2048, x0⟩, ⟨S1x64x2048, x1⟩, ⟨S1x64x2048, x2⟩] : List ((s : Shape) × (s.Idx → α))).map (·.1)) S3x64x2048 0)
    (k : Fin 3) (r : Fin 64) (q : Fin 2048) :
    concatenate S3x64x2048 0 [⟨S1x64x2048, x0⟩, ⟨S1x64x2048, x1⟩, ⟨S1x64x2048, x2⟩] h (ix3 k r q)
      = (match k with
          | ⟨0, _⟩ => x0 (ix3 (0 : Fin 1) r q)
          | ⟨1, _⟩ => x1 (ix3 (0 : Fin 1) r q)
          | ⟨_ + 2, _⟩ => x2 (ix3 (0 : Fin 1) r q)) := by
  have hi : ∀ (kk : Fin 3) (b : Fin 3), b.cast (rfl : (3 : ℕ) = 3) ≠ (0 : Fin 3) →
      ((ix3 (0 : Fin 1) r q : S1x64x2048.Idx) b).val = ((ix3 kk r q : S3x64x2048.Idx) (b.cast rfl)).val := by
    intro kk b hb
    fin_cases b
    · exact absurd rfl hb
    · rfl
    · rfl
  fin_cases k
  · exact concatenate_apply_piece (t := S3x64x2048) 0 [⟨S1x64x2048, x0⟩, ⟨S1x64x2048, x1⟩, ⟨S1x64x2048, x2⟩] h (ix3 (0 : Fin 3) r q)
      0 (by show (0 : ℕ) < 3; decide) S1x64x2048 x0 rfl rfl 0 rfl (ix3 (0 : Fin 1) r q) (hi 0) rfl
  · exact concatenate_apply_piece (t := S3x64x2048) 0 [⟨S1x64x2048, x0⟩, ⟨S1x64x2048, x1⟩, ⟨S1x64x2048, x2⟩] h (ix3 (1 : Fin 3) r q)
      1 (by show (1 : ℕ) < 3; decide) S1x64x2048 x1 rfl rfl 1 rfl (ix3 (0 : Fin 1) r q) (hi 1) rfl
  · exact concatenate_apply_piece (t := S3x64x2048) 0 [⟨S1x64x2048, x0⟩, ⟨S1x64x2048, x1⟩, ⟨S1x64x2048, x2⟩] h (ix3 (2 : Fin 3) r q)
      2 (by show (2 : ℕ) < 3; decide) S1x64x2048 x2 rfl rfl 2 rfl (ix3 (0 : Fin 1) r q) (hi 2) rfl

/-- the three-field tile at an index: field k of the three stacked along the leading axis -/
theorem pay2_apply (v34 : FVec Ideal S66x2050 .f32) (v94 v95 : FVec Ideal S64x2048 .f32) (k : Fin 3) (r : Fin 64) (q : Fin 2048) :
    k0_pay2 (F := Ideal) v34 v94 v95 (ix3 k r q)
      = (match k with
          | ⟨0, _⟩ => v94 (ix2 r q)
          | ⟨1, _⟩ => v95 (ix2 r q)
          | ⟨_ + 2, _⟩ => v34 (ix2 (⟨r.val + 1, by omega⟩ : Fin 66) (⟨q.val + 1, by omega⟩ : Fin 2050))) := by
  refine (concat3_apply _ _ _ concatenates_S1x64x2048_S1x64x2048_S1x64x2048_S3x64x2048_d0 k r q).trans ?_
  fin_cases k
  · exact shapeCast_ab_1ab_apply v94 _ 0 r q
  · exact shapeCast_ab_1ab_apply v95 _ 0 r q
  · refine (shapeCast_ab_1ab_apply _ _ 0 r q).trans ?_
    exact slice11_apply v34 r q

variable (c : Dev nD) (i : grid0.Coords) (arg3 : Memref sig .tc .vmem S3x64x2048 .f32) (harg3 : arg3.IsWhole) (arg4 : Memref sig .tc .vmem S64x2048 .f32) (harg4 : arg4.IsWhole) (arg5 : Memref sig .tc .vmem S1x8x128 .f32) (harg5 : arg5.IsWhole) (arg6 : Memref sig .tc .vmem S80x2176 .i32) (harg6 : arg6.IsWhole) (arg7 : Memref sig .tc .vmem S3x80x2176 .f32) (harg7 : arg7.IsWhole)
  (fh0 : HbBuf0 (F := Ideal) c hbM0_0) (fh1 : HbBuf0 (F := Ideal) c hbM0_1)
  (B : ℕ → ℕ → BitVec 32) (Fl : Fin 3 → ℕ → ℕ → EReal) (t : ℕ) (ht : (i 0).val = t) (ht16 : t < 16)
  (h0 : ∀ (x y : ℕ) (hx : x < 66) (hy : y < 2050),
    (fh0 : S1040x2176.Idx → BitVec 32) (ix2 (⟨64 * t + 7 + x, by omega⟩ : Fin 1040) (⟨y, by omega⟩ : Fin 2176)) = B (64 * t + x) y)
  (h1 : ∀ (k : Fin 3) (x y : ℕ) (hx : x < 66) (hy : y < 2050),
    (fh1 : S3x1040x2176.Idx → EReal) (ix3 k (⟨64 * t + 7 + x, by omega⟩ : Fin 1040) (⟨y, by omega⟩ : Fin 2176)) = Fl k (64 * t + x) y)

include ht ht16 h0 h1 in
theorem tile_flow (k : Fin 3) (r : Fin 64) (q : Fin 2048) :
    out0_A_0 (F := Ideal) c i arg3 harg3 arg4 harg4 arg5 harg5 arg6 harg6 arg7 harg7 fh0 fh1 (ix3 k r q)
      = Cert.Spec.fld B Fl k (64 * t + r.val + 1) (q.val + 1) := by
  have hz : (![0, 0, 0] : Fin 3 → ℕ) = fun _ => 0 := by funext a; fin_cases a <;> rfl
  unfold out0_A_0
  rw [View.read_writes_eq_canon _ _ _ (cover0_A_0 c i arg3 harg3 arg4 harg4 arg5 harg5 arg6 harg6 arg7 harg7 fh0 fh1)]
  unfold kernelRun0_A; dsimp only
  rw [View.canon_unit_zero hz]
  unfold kernelRun0_A.sl.r_9 kernelRun0_A.sl.r_10
  refine (pay2_apply _ _ _ k r q).trans ?_
  fin_cases k
  · show k0_pay14 (kernelRun0_A.sl.r_1 c i arg6 arg7 fh0 fh1) (ix2 r q) = Cert.Spec.up B Fl (64 * t + r.val + 1) (q.val + 1)
    rw [pay14_apply, ext_u c i arg6 arg7 fh0 fh1 B Fl t ht ht16 h0 h1]
    rfl
  · show k0_pay15 (kernelRun0_A.sl.r_2 c i arg6 arg7 fh0 fh1) (ix2 r q) = Cert.Spec.vp B Fl (64 * t + r.val + 1) (q.val + 1)
    rw [pay15_apply, ext_v c i arg6 arg7 fh0 fh1 B Fl t ht ht16 h0 h1]
    rfl
  · refine (ext_p c i arg6 arg7 fh0 fh1 B Fl t ht ht16 h0 h1 _ _).trans ?_
    rfl

include ht ht16 h0 h1 in
theorem tile_mask (r : Fin 64) (q : Fin 2048) :
    out0_A_1 (F := Ideal) c i arg3 harg3 arg4 harg4 arg5 harg5 arg6 harg6 arg7 harg7 fh0 fh1 (ix2 r q)
      = Cert.Spec.maskVal B (64 * t + r.val) q.val := by
  have hz : (![0, 0] : Fin 2 → ℕ) = fun _ => 0 := by funext a; fin_cases a <;> rfl
  unfold out0_A_1
  rw [View.read_writes_eq_canon _ _ _ (cover0_A_1 c i arg3 harg3 arg4 harg4 arg5 harg5 arg6 harg6 arg7 harg7 fh0 fh1)]
  unfold kernelRun0_A; dsimp only
  rw [View.canon_unit_zero hz]
  unfold kernelRun0_A.sl.r_16 kernelRun0_A.sl.r_4
  refine (pay1_apply _ _).trans ?_
  rw [pay9_apply, ext_code c i arg6 fh0 B t ht ht16 h0]
  rfl
end Cert.KernelIdeal.Hand
end
-- ==== Proof.LibAxisSum.lean ====
import Idealize.ShloMosaic.PureOps.Ideal.Laws
import Idealize.ShloMosaic.Lib.ValueIdx
import Idealize.ShloMosaic.Lib.Pipeline.Value

/-!
# A kernel's one-axis sums and keepdims casts, read at an entry

Over the extended reals a `vector.multi_reduction <add>` over one axis, from the zero word, is at each remaining
index the plain sum over that axis's coordinate. Stated here with the indices spelt by coordinates, for the
leading axis of arrays of rank 4, 3 and 2 and for the trailing axis of a rank-2 array, at any extents; and the cast
of a vector to a one-lane column, which a sum with kept dimensions goes through, read at an entry.
-/

noncomputable section

open scoped BigOperators

namespace Cert.Lib

open Idealize.ShloMosaic Idealize.ShloMosaic.ValueIdx

/-- The sum over the leading axis of a rank-4 array. -/
theorem sum_lead4 {a b c d : ℕ} (v : FVec Ideal ⟨4, ![a, b, c, d]⟩ .f32)
    (h : Shape.Reduces ⟨4, ![a, b, c, d]⟩ [0] ⟨3, ![b, c, d]⟩) (hφ : FKind.Formats .f32)
    (hacc : (0x00000000#32 : BitVec 32) = FKind.add.neutral .f32 hφ) (p : Fin b) (q : Fin c) (r : Fin d) :
    multiReduction .add [0] ⟨3, ![b, c, d]⟩ v 0x00000000#32 h hφ hacc (ix3 p q r) = ∑ k : Fin a, v (ix4 k p q r) :=
  (Ideal.multiReduction_add_single v _ h hφ hacc (ix3 p q r)).trans
    (Finset.sum_congr rfl fun k _ => congrArg v (funext fun e => match e with
      | ⟨0, _⟩ => rfl | ⟨1, _⟩ => rfl | ⟨2, _⟩ => rfl | ⟨3, _⟩ => rfl))

/-- The sum over the leading axis of a rank-3 array. -/
theorem sum_lead3 {a b c : ℕ} (v : FVec Ideal ⟨3, ![a, b, c]⟩ .f32)
    (h : Shape.Reduces ⟨3, ![a, b, c]⟩ [0] ⟨2, ![b, c]⟩) (hφ : FKind.Formats .f32)
    (hacc : (0x00000000#32 : BitVec 32) = FKind.add.neutral .f32 hφ) (p : Fin b) (q : Fin c) :
    multiReduction .add [0] ⟨2, ![b, c]⟩ v 0x00000000#32 h hφ hacc (ix2 p q) = ∑ k : Fin a, v (ix3 k p q) :=
  (Ideal.multiReduction_add_single v _ h hφ hacc (ix2 p q)).trans
    (Finset.sum_congr rfl fun k _ => congrArg v (funext fun e => match e with
      | ⟨0, _⟩ => rfl | ⟨1, _⟩ => rfl | ⟨2, _⟩ => rfl))

/-- The sum over the leading axis of a rank-2 array. -/
theorem sum_lead2 {a b : ℕ} (v : FVec Ideal ⟨2, ![a, b]⟩ .f32)
    (h : Shape.Reduces ⟨2, ![a, b]⟩ [0] ⟨1, ![b]⟩) (hφ : FKind.Formats .f32)
    (hacc : (0x00000000#32 : BitVec 32) = FKind.add.neutral .f32 hφ) (p : Fin b) :
    multiReduction .add [0] ⟨1, ![b]⟩ v 0x00000000#32 h hφ hacc (ix1 p) = ∑ k : Fin a, v (ix2 k p) :=
  (Ideal.multiReduction_add_single v _ h hφ hacc (ix1 p)).trans
    (Finset.sum_congr rfl fun k _ => congrArg v (funext fun e => match e with
      | ⟨0, _⟩ => rfl | ⟨1, _⟩ => rfl))

/-- The sum over the trailing axis of a rank-2 array. -/
theorem sum_trail2 {a b : ℕ} (v : FVec Ideal ⟨2, ![a, b]⟩ .f32)
    (h : Shape.Reduces ⟨2, ![a, b]⟩ [1] ⟨1, ![a]⟩) (hφ : FKind.Formats .f32)
    (hacc : (0x00000000#32 : BitVec 32) = FKind.add.neutral .f32 hφ) (p : Fin a) :
    multiReduction .add [1] ⟨1, ![a]⟩ v 0x00000000#32 h hφ hacc (ix1 p) = ∑ k : Fin b, v (ix2 p k) :=
  (Ideal.multiReduction_add_single v _ h hφ hacc (ix1 p)).trans
    (Finset.sum_congr rfl fun k _ => congrArg v (funext fun e => match e with
      | ⟨0, _⟩ => rfl | ⟨1, _⟩ => rfl))

/-- A vector cast to a one-lane column reads, at row `p`, the vector's entry `p`. -/
theorem cast_column_apply {α : Type} {a : ℕ} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) :=
  shapeCast_apply v h (ix2 p (0 : Fin 1)) (ix1 p) (by
    rw [Shape.rowMajor_val_one, Shape.rowMajor_val_two]
    show p.val = p.val * 1 + 0
    omega)

end Cert.Lib

end
-- ==== Proof.KTilePart.lean ====
import proofs.«148698_j59665685676147_2_alg».proof.Proof.Gen.KernelIdeal.Frame
import proofs.«148698_j59665685676147_2_alg».proof.Proof.KExt
import proofs.«148698_j59665685676147_2_alg».proof.Proof.LibAxisSum
set_option maxRecDepth 16384
noncomputable section
namespace Cert.KernelIdeal.Hand
open Idealize.ShloMosaic Idealize.ShloMosaic.TcCoe Idealize.SL.Sem Idealize.ShloMosaic.ValueIdx
open Cert.KernelIdeal Cert.KernelIdeal.Gen

/-- A slice of the extended tile read at a cell: the tile at the shifted cell. -/
theorem slice11 {α : Type} (v : S66x2050.Idx → α) (r : Fin 64) (q : Fin 2048) :
    extractStridedSlice S64x2048 ![1, 1] v slices_S66x2050_o1_1_S64x2048 (ix2 r q)
      = v (ix2 (⟨r.val + 1, by omega⟩ : Fin 66) (⟨q.val + 1, by omega⟩ : Fin 2050)) :=
  extractStridedSlice_apply _ v _ (ix2 r q) _ (fun d => match d with
    | ⟨0, _⟩ => Nat.add_comm _ _ | ⟨1, _⟩ => Nat.add_comm _ _)
theorem slice12 {α : Type} (v : S66x2050.Idx → α) (r : Fin 64) (q : Fin 2048) :
    extractStridedSlice S64x2048 ![1, 2] v slices_S66x2050_o1_2_S64x2048 (ix2 r q)
      = v (ix2 (⟨r.val + 1, by omega⟩ : Fin 66) (⟨q.val + 2, by omega⟩ : Fin 2050)) :=
  extractStridedSlice_apply _ v _ (ix2 r q) _ (fun d => match d with
    | ⟨0, _⟩ => Nat.add_comm _ _ | ⟨1, _⟩ => Nat.add_comm _ _)
theorem slice10 {α : Type} (v : S66x2050.Idx → α) (r : Fin 64) (q : Fin 2048) :
    extractStridedSlice S64x2048 ![1, 0] v slices_S66x2050_o1_0_S64x2048 (ix2 r q)
      = v (ix2 (⟨r.val + 1, by omega⟩ : Fin 66) (⟨q.val, by omega⟩ : Fin 2050)) :=
  extractStridedSlice_apply _ v _ (ix2 r q) _ (fun d => match d with
    | ⟨0, _⟩ => Nat.add_comm _ _ | ⟨1, _⟩ => (Nat.zero_add _).symm)
theorem slice01 {α : Type} (v : S66x2050.Idx → α) (r : Fin 64) (q : Fin 2048) :
    extractStridedSlice S64x2048 ![0, 1] v slices_S66x2050_o0_1_S64x2048 (ix2 r q)
      = v (ix2 (⟨r.val, by omega⟩ : Fin 66) (⟨q.val + 1, by omega⟩ : Fin 2050)) :=
  extractStridedSlice_apply _ v _ (ix2 r q) _ (fun d => match d with
    | ⟨0, _⟩ => (Nat.zero_add _).symm | ⟨1, _⟩ => Nat.add_comm _ _)
theorem slice21 {α : Type} (v : S66x2050.Idx → α) (r : Fin 64) (q : Fin 2048) :
    extractStridedSlice S64x2048 ![2, 1] v slices_S66x2050_o2_1_S64x2048 (ix2 r q)
      = v (ix2 (⟨r.val + 2, by omega⟩ : Fin 66) (⟨q.val + 1, by omega⟩ : Fin 2050)) :=
  extractStridedSlice_apply _ v _ (ix2 r q) _ (fun d => match d with
    | ⟨0, _⟩ => Nat.add_comm _ _ | ⟨1, _⟩ => Nat.add_comm _ _)

/-- The sum of a tile kept as a one-by-one array: lanes first, then rows. -/
theorem cell_sum (X : FVec Ideal S64x2048 .f32) :
    shapeCast S1x1 (multiReduction .add [0] S1 (shapeCast S64x1 (multiReduction .add [1] S64 X 0x00000000#32 reduces_S64x2048_S64 (.inl rfl) rfl) shapeCasts_S64_S64x1) 0x00000000#32 reduces_S64x1_S1 (.inl rfl) rfl) shapeCasts_S1_S1x1 (ix2 (0 : Fin 1) (0 : Fin 1))
      = ∑ r : Fin 64, ∑ q : Fin 2048, X (ix2 r q) := by
  refine (shapeCast_apply _ _ (ix2 (0 : Fin 1) (0 : Fin 1)) (ix1 (0 : Fin 1)) (by
    rw [Shape.rowMajor_val_one, Shape.rowMajor_val_two]; rfl)).trans ?_
  refine (Cert.Lib.sum_lead2 _ _ _ _ (0 : Fin 1)).trans ?_
  refine Finset.sum_congr rfl fun r _ => ?_
  refine (Cert.Lib.cast_column_apply _ _ r).trans ?_
  exact Cert.Lib.sum_trail2 _ _ _ _ r

/-- The staged block at lane 0 of row 0: the first of the three one-by-one cells. -/
theorem pay3_at0 (v215 v216 : FVec Ideal S64x2048 .f32) (v220 : FVec Ideal S1x1 .f32) :
    k0_pay3 v215 v216 v220 (ix3 (0 : Fin 1) (0 : Fin 8) (0 : Fin 128)) = v220 (ix2 (0 : Fin 1) (0 : Fin 1)) := by
  unfold k0_pay3
  refine (shapeCast_apply _ _ (ix3 (0 : Fin 1) (0 : Fin 8) (0 : Fin 128)) (ix2 (0 : Fin 8) (0 : Fin 128)) (by
    rw [Shape.rowMajor_val_two, Shape.rowMajor_val_three]; rfl)).trans ?_
  refine (concatenate_pair_apply_left (t := S8x128) (s₁ := S1x128) (s₂ := S7x128) _ _ _ _ (ix2 (0 : Fin 8) (0 : Fin 128)) rfl (ix2 (0 : Fin 1) (0 : Fin 128))
    (fun b => match b with | ⟨0, _⟩ => rfl | ⟨1, _⟩ => rfl)).trans ?_
  refine (concatenate_pair_apply_left (t := S1x128) (s₁ := S1x3) (s₂ := S1x125) _ _ _ _ (ix2 (0 : Fin 1) (0 : Fin 128)) rfl (ix2 (0 : Fin 1) (0 : Fin 3))
    (fun b => match b with | ⟨0, _⟩ => rfl | ⟨1, _⟩ => rfl)).trans ?_
  exact concatenate_apply_piece (t := S1x3) _ _ _ (ix2 (0 : Fin 1) (0 : Fin 3)) 0 (by show (0 : ℕ) < 3; omega) S1x1 v220 rfl rfl 0 rfl
    (ix2 (0 : Fin 1) (0 : Fin 1)) (fun b => match b with | ⟨0, _⟩ => fun _ => rfl | ⟨1, _⟩ => fun h => absurd rfl h) rfl

/-- Lane 1 of row 0: the sum of the second squared residual over the tile. -/
theorem pay3_at1 (v215 v216 : FVec Ideal S64x2048 .f32) (v220 : FVec Ideal S1x1 .f32) :
    k0_pay3 v215 v216 v220 (ix3 (0 : Fin 1) (0 : Fin 8) (1 : Fin 128)) = ∑ r : Fin 64, ∑ q : Fin 2048, v215 (ix2 r q) := by
  unfold k0_pay3
  refine (shapeCast_apply _ _ (ix3 (0 : Fin 1) (0 : Fin 8) (1 : Fin 128)) (ix2 (0 : Fin 8) (1 : Fin 128)) (by
    rw [Shape.rowMajor_val_two, Shape.rowMajor_val_three]; rfl)).trans ?_
  refine (concatenate_pair_apply_left (t := S8x128) (s₁ := S1x128) (s₂ := S7x128) _ _ _ _ (ix2 (0 : Fin 8) (1 : Fin 128)) rfl (ix2 (0 : Fin 1) (1 : Fin 128))
    (fun b => match b with | ⟨0, _⟩ => rfl | ⟨1, _⟩ => rfl)).trans ?_
  refine (concatenate_pair_apply_left (t := S1x128) (s₁ := S1x3) (s₂ := S1x125) _ _ _ _ (ix2 (0 : Fin 1) (1 : Fin 128)) rfl (ix2 (0 : Fin 1) (1 : Fin 3))
    (fun b => match b with | ⟨0, _⟩ => rfl | ⟨1, _⟩ => rfl)).trans ?_
  refine (concatenate_apply_piece (t := S1x3) _ _ _ (ix2 (0 : Fin 1) (1 : Fin 3)) 1 (by show (1 : ℕ) < 3; omega) S1x1 _ rfl rfl 1 rfl
    (ix2 (0 : Fin 1) (0 : Fin 1)) (fun b => match b with | ⟨0, _⟩ => fun _ => rfl | ⟨1, _⟩ => fun h => absurd rfl h) rfl).trans ?_
  exact cell_sum v215

/-- Lane 2 of row 0: the sum of the third squared residual over the tile. -/
theorem pay3_at2 (v215 v216 : FVec Ideal S64x2048 .f32) (v220 : FVec Ideal S1x1 .f32) :
    k0_pay3 v215 v216 v220 (ix3 (0 : Fin 1) (0 : Fin 8) (2 : Fin 128)) = ∑ r : Fin 64, ∑ q : Fin 2048, v216 (ix2 r q) := by
  unfold k0_pay3
  refine (shapeCast_apply _ _ (ix3 (0 : Fin 1) (0 : Fin 8) (2 : Fin 128)) (ix2 (0 : Fin 8) (2 : Fin 128)) (by
    rw [Shape.rowMajor_val_two, Shape.rowMajor_val_three]; rfl)).trans ?_
  refine (concatenate_pair_apply_left (t := S8x128) (s₁ := S1x128) (s₂ := S7x128) _ _ _ _ (ix2 (0 : Fin 8) (2 : Fin 128)) rfl (ix2 (0 : Fin 1) (2 : Fin 128))
    (fun b => match b with | ⟨0, _⟩ => rfl | ⟨1, _⟩ => rfl)).trans ?_
  refine (concatenate_pair_apply_left (t := S1x128) (s₁ := S1x3) (s₂ := S1x125) _ _ _ _ (ix2 (0 : Fin 1) (2 : Fin 128)) rfl (ix2 (0 : Fin 1) (2 : Fin 3))
    (fun b => match b with | ⟨0, _⟩ => rfl | ⟨1, _⟩ => rfl)).trans ?_
  refine (concatenate_apply_piece (t := S1x3) _ _ _ (ix2 (0 : Fin 1) (2 : Fin 3)) 2 (by show (2 : ℕ) < 3; omega) S1x1 _ rfl rfl 2 rfl
    (ix2 (0 : Fin 1) (0 : Fin 1)) (fun b => match b with | ⟨0, _⟩ => fun _ => rfl | ⟨1, _⟩ => fun h => absurd rfl h) rfl).trans ?_
  exact cell_sum v216

theorem cmpi_at {s : Shape} {w : ℕ} (p : CmpIPredicate) (x y : IVec s w) (j : s.Idx) :
    cmpi p x y j = IntOp.cmpi p (x j) (y j) := rfl
theorem ori_at {s : Shape} {w : ℕ} (x y : IVec s w) (j : s.Idx) : ori x y j = IntOp.ori (x j) (y j) := rfl

/-- The code of the cell. -/
theorem pay9_at (v6 : Vec Ideal S66x2050 .i32) (r : Fin 64) (q : Fin 2048) : k0_pay9 v6 (ix2 r q) = v6 (ix2 (⟨r.val + 1, by omega⟩ : Fin 66) (⟨q.val + 1, by omega⟩ : Fin 2050)) := slice11 v6 r q
theorem pay14_at (v20 : FVec Ideal S66x2050 .f32) (r : Fin 64) (q : Fin 2048) : k0_pay14 v20 (ix2 r q) = v20 (ix2 (⟨r.val + 1, by omega⟩ : Fin 66) (⟨q.val + 1, by omega⟩ : Fin 2050)) := slice11 v20 r q
theorem pay15_at (v27 : FVec Ideal S66x2050 .f32) (r : Fin 64) (q : Fin 2048) : k0_pay15 v27 (ix2 r q) = v27 (ix2 (⟨r.val + 1, by omega⟩ : Fin 66) (⟨q.val + 1, by omega⟩ : Fin 2050)) := slice11 v27 r q

/-- The lane-wise pressure difference: forward, backward or centred by the code. -/
theorem pay10_at (v6 : Vec Ideal S66x2050 .i32) (v12 : FVec Ideal S66x2050 .f32) (v28 : IVec S66x2050 32)
    (P : FVec Ideal S66x2050 .f32) (hP : k0_pay8 v6 v12 v28 = P) (r : Fin 64) (q : Fin 2048) :
    k0_pay10 v6 v12 v28 (ix2 r q)
      = Scalar.select (Cert.Spec.in3 (v6 (ix2 (⟨r.val + 1, by omega⟩ : Fin 66) (⟨q.val + 1, by omega⟩ : Fin 2050))) 4#32 8#32 11#32) (P (ix2 (⟨r.val + 1, by omega⟩ : Fin 66) (⟨q.val + 2, by omega⟩ : Fin 2050)) - P (ix2 (⟨r.val + 1, by omega⟩ : Fin 66) (⟨q.val + 1, by omega⟩ : Fin 2050)))
          (Scalar.select (Cert.Spec.in3 (v6 (ix2 (⟨r.val + 1, by omega⟩ : Fin 66) (⟨q.val + 1, by omega⟩ : Fin 2050))) 6#32 9#32 10#32) (P (ix2 (⟨r.val + 1, by omega⟩ : Fin 66) (⟨q.val + 1, by omega⟩ : Fin 2050)) - P (ix2 (⟨r.val + 1, by omega⟩ : Fin 66) (⟨q.val, by omega⟩ : Fin 2050)))
            (Cert.Spec.half * (P (ix2 (⟨r.val + 1, by omega⟩ : Fin 66) (⟨q.val + 2, by omega⟩ : Fin 2050)) - P (ix2 (⟨r.val + 1, by omega⟩ : Fin 66) (⟨q.val, by omega⟩ : Fin 2050))))) := by
  subst hP
  unfold k0_pay10
  simp only [select_apply, ori_at, cmpi_at, broadcast_apply, subf_apply, mulf_apply, addf_apply, divf_apply, pay9_at, pay14_at, pay15_at, slice12, slice11, slice10, slice01, slice21]
  rfl

theorem pay11_at (v6 : Vec Ideal S66x2050 .i32) (r : Fin 64) (q : Fin 2048) :
    k0_pay11 v6 (ix2 r q) = Cert.Spec.in3 (v6 (ix2 (⟨r.val + 1, by omega⟩ : Fin 66) (⟨q.val + 1, by omega⟩ : Fin 2050))) 7#32 10#32 11#32 := by
  unfold k0_pay11
  simp only [select_apply, ori_at, cmpi_at, broadcast_apply, subf_apply, mulf_apply, addf_apply, divf_apply, pay9_at, pay14_at, pay15_at, slice12, slice11, slice10, slice01, slice21]
  rfl

theorem pay12_at (v6 : Vec Ideal S66x2050 .i32) (v12 : FVec Ideal S66x2050 .f32) (v28 : IVec S66x2050 32)
    (P : FVec Ideal S66x2050 .f32) (hP : k0_pay8 v6 v12 v28 = P) (r : Fin 64) (q : Fin 2048) :
    k0_pay12 v6 v12 v28 (ix2 r q) = P (ix2 (⟨r.val, by omega⟩ : Fin 66) (⟨q.val + 1, by omega⟩ : Fin 2050)) - P (ix2 (⟨r.val + 1, by omega⟩ : Fin 66) (⟨q.val + 1, by omega⟩ : Fin 2050)) := by
  subst hP
  unfold k0_pay12
  simp only [select_apply, ori_at, cmpi_at, broadcast_apply, subf_apply, mulf_apply, addf_apply, divf_apply, pay9_at, pay14_at, pay15_at, slice12, slice11, slice10, slice01, slice21]

/-- The row-wise pressure difference: forward, backward or centred by the code. -/
theorem pay13_at (v34 : FVec Ideal S66x2050 .f32) (v35 : IVec S64x2048 32) (v72 : IVec S64x2048 1)
    (v75 : FVec Ideal S64x2048 .f32) (w : BitVec 32) (r : Fin 64) (q : Fin 2048) :
    k0_pay13 v34 v35 v72 v75 w (ix2 r q)
      = Scalar.select (v72 (ix2 r q)) (v75 (ix2 r q))
          (Scalar.select (Cert.Spec.in3 (v35 (ix2 r q)) w 8#32 9#32) (v34 (ix2 (⟨r.val + 1, by omega⟩ : Fin 66) (⟨q.val + 1, by omega⟩ : Fin 2050)) - v34 (ix2 (⟨r.val + 2, by omega⟩ : Fin 66) (⟨q.val + 1, by omega⟩ : Fin 2050)))
            (Cert.Spec.half * (v34 (ix2 (⟨r.val + 2, by omega⟩ : Fin 66) (⟨q.val + 1, by omega⟩ : Fin 2050)) - v34 (ix2 (⟨r.val, by omega⟩ : Fin 66) (⟨q.val + 1, by omega⟩ : Fin 2050))))) := by
  unfold k0_pay13
  simp only [select_apply, ori_at, cmpi_at, broadcast_apply, subf_apply, mulf_apply, addf_apply, divf_apply, pay9_at, pay14_at, pay15_at, slice12, slice11, slice10, slice01, slice21]
  rfl

/-- Transport and pressure terms of the first momentum residual. -/
theorem pay16_at (v20 v27 : FVec Ideal S66x2050 .f32) (v64 : FVec Ideal S64x2048 .f32) (r : Fin 64) (q : Fin 2048) :
    k0_pay16 v20 v27 v64 (ix2 r q)
      = Ideal.div (v20 (ix2 (⟨r.val + 1, by omega⟩ : Fin 66) (⟨q.val + 1, by omega⟩ : Fin 2050)) * (Cert.Spec.half * (v20 (ix2 (⟨r.val + 1, by omega⟩ : Fin 66) (⟨q.val + 2, by omega⟩ : Fin 2050)) - v20 (ix2 (⟨r.val + 1, by omega⟩ : Fin 66) (⟨q.val, by omega⟩ : Fin 2050))))) Cert.Spec.hh
        + Ideal.div (v27 (ix2 (⟨r.val + 1, by omega⟩ : Fin 66) (⟨q.val + 1, by omega⟩ : Fin 2050)) * (Cert.Spec.half * (v20 (ix2 (⟨r.val + 2, by omega⟩ : Fin 66) (⟨q.val + 1, by omega⟩ : Fin 2050)) - v20 (ix2 (⟨r.val, by omega⟩ : Fin 66) (⟨q.val + 1, by omega⟩ : Fin 2050))))) Cert.Spec.hh
        + Ideal.div (v64 (ix2 r q)) Cert.Spec.hh := by
  unfold k0_pay16
  simp only [select_apply, ori_at, cmpi_at, broadcast_apply, subf_apply, mulf_apply, addf_apply, divf_apply, pay9_at, pay14_at, pay15_at, slice12, slice11, slice10, slice01, slice21]
  rfl

/-- The five-point Laplacian. -/
theorem pay17_at (v20 : FVec Ideal S66x2050 .f32) (r : Fin 64) (q : Fin 2048) :
    k0_pay17 v20 (ix2 r q)
      = v20 (ix2 (⟨r.val, by omega⟩ : Fin 66) (⟨q.val + 1, by omega⟩ : Fin 2050)) + v20 (ix2 (⟨r.val + 2, by omega⟩ : Fin 66) (⟨q.val + 1, by omega⟩ : Fin 2050)) + v20 (ix2 (⟨r.val + 1, by omega⟩ : Fin 66) (⟨q.val, by omega⟩ : Fin 2050)) + v20 (ix2 (⟨r.val + 1, by omega⟩ : Fin 66) (⟨q.val + 2, by omega⟩ : Fin 2050)) - Cert.Spec.four * v20 (ix2 (⟨r.val + 1, by omega⟩ : Fin 66) (⟨q.val + 1, by omega⟩ : Fin 2050)) := by
  unfold k0_pay17
  simp only [select_apply, ori_at, cmpi_at, broadcast_apply, subf_apply, mulf_apply, addf_apply, divf_apply, pay9_at, pay14_at, pay15_at, slice12, slice11, slice10, slice01, slice21]
  rfl

theorem pay18_at (v115 v126 : FVec Ideal S64x2048 .f32) (j : S64x2048.Idx) :
    k0_pay18 v115 v126 j = v115 j - Ideal.div (Cert.Spec.nu * v126 j) Cert.Spec.hh2 := rfl

/-- The second momentum residual. -/
theorem pay19_at (v27 : FVec Ideal S66x2050 .f32) (v93 v94 v95 : FVec Ideal S64x2048 .f32) (r : Fin 64) (q : Fin 2048) :
    k0_pay19 v27 v93 v94 v95 (ix2 r q)
      = Ideal.div (v94 (ix2 r q) * (Cert.Spec.half * (v27 (ix2 (⟨r.val + 1, by omega⟩ : Fin 66) (⟨q.val + 2, by omega⟩ : Fin 2050)) - v27 (ix2 (⟨r.val + 1, by omega⟩ : Fin 66) (⟨q.val, by omega⟩ : Fin 2050))))) Cert.Spec.hh
        + Ideal.div (v95 (ix2 r q) * (Cert.Spec.half * (v27 (ix2 (⟨r.val + 2, by omega⟩ : Fin 66) (⟨q.val + 1, by omega⟩ : Fin 2050)) - v27 (ix2 (⟨r.val, by omega⟩ : Fin 66) (⟨q.val + 1, by omega⟩ : Fin 2050))))) Cert.Spec.hh
        + Ideal.div (v93 (ix2 r q)) Cert.Spec.hh
        - Ideal.div (Cert.Spec.nu * (v27 (ix2 (⟨r.val, by omega⟩ : Fin 66) (⟨q.val + 1, by omega⟩ : Fin 2050)) + v27 (ix2 (⟨r.val + 2, by omega⟩ : Fin 66) (⟨q.val + 1, by omega⟩ : Fin 2050)) + v27 (ix2 (⟨r.val + 1, by omega⟩ : Fin 66) (⟨q.val, by omega⟩ : Fin 2050)) + v27 (ix2 (⟨r.val + 1, by omega⟩ : Fin 66) (⟨q.val + 2, by omega⟩ : Fin 2050)) - Cert.Spec.four * v27 (ix2 (⟨r.val + 1, by omega⟩ : Fin 66) (⟨q.val + 1, by omega⟩ : Fin 2050)))) Cert.Spec.hh2 := by
  unfold k0_pay19
  simp only [select_apply, ori_at, cmpi_at, broadcast_apply, subf_apply, mulf_apply, addf_apply, divf_apply, pay9_at, pay14_at, pay15_at, slice12, slice11, slice10, slice01, slice21]
  rfl

theorem pay20_at (v20 : FVec Ideal S66x2050 .f32) (r : Fin 64) (q : Fin 2048) :
    k0_pay20 v20 (ix2 r q) = Ideal.div (Cert.Spec.half * (v20 (ix2 (⟨r.val + 1, by omega⟩ : Fin 66) (⟨q.val + 2, by omega⟩ : Fin 2050)) - v20 (ix2 (⟨r.val + 1, by omega⟩ : Fin 66) (⟨q.val, by omega⟩ : Fin 2050)))) Cert.Spec.hh := by
  unfold k0_pay20
  simp only [select_apply, ori_at, cmpi_at, broadcast_apply, subf_apply, mulf_apply, addf_apply, divf_apply, pay9_at, pay14_at, pay15_at, slice12, slice11, slice10, slice01, slice21]
  rfl

theorem pay21_at (v35 : IVec S64x2048 32) (j : S64x2048.Idx) : k0_pay21 v35 j = Cert.Spec.maskS (v35 j) := rfl
theorem pay22_at (v35 : IVec S64x2048 32) (j : S64x2048.Idx) : k0_pay22 (F := Ideal) v35 j = Cert.Spec.mfS (v35 j) := rfl
theorem pay23_at (v35 : IVec S64x2048 32) (v167 : FVec Ideal S64x2048 .f32) (j : S64x2048.Idx) :
    k0_pay23 v35 v167 j = (Cert.Spec.mfS (v35 j) * v167 j) * (Cert.Spec.mfS (v35 j) * v167 j) := rfl

theorem pay24_at (v27 : FVec Ideal S66x2050 .f32) (v35 : IVec S64x2048 32) (v174 : FVec Ideal S64x2048 .f32) (r : Fin 64) (q : Fin 2048) :
    k0_pay24 v27 v35 v174 (ix2 r q)
      = (Cert.Spec.mfS (v35 (ix2 r q)) * (v174 (ix2 r q) + Ideal.div (Cert.Spec.half * (v27 (ix2 (⟨r.val + 2, by omega⟩ : Fin 66) (⟨q.val + 1, by omega⟩ : Fin 2050)) - v27 (ix2 (⟨r.val, by omega⟩ : Fin 66) (⟨q.val + 1, by omega⟩ : Fin 2050)))) Cert.Spec.hh))
        * (Cert.Spec.mfS (v35 (ix2 r q)) * (v174 (ix2 r q) + Ideal.div (Cert.Spec.half * (v27 (ix2 (⟨r.val + 2, by omega⟩ : Fin 66) (⟨q.val + 1, by omega⟩ : Fin 2050)) - v27 (ix2 (⟨r.val, by omega⟩ : Fin 66) (⟨q.val + 1, by omega⟩ : Fin 2050)))) Cert.Spec.hh)) := by
  unfold k0_pay24
  simp only [select_apply, ori_at, cmpi_at, broadcast_apply, subf_apply, mulf_apply, addf_apply, divf_apply, pay9_at, pay14_at, pay15_at, slice12, slice11, slice10, slice01, slice21]
  rfl

/-- The sum over the tile of the first squared masked residual. -/
theorem pay25_at (v35 : IVec S64x2048 32) (v131 : FVec Ideal S64x2048 .f32) :
    k0_pay25 v35 v131 (ix2 (0 : Fin 1) (0 : Fin 1))
      = ∑ r : Fin 64, ∑ q : Fin 2048,
          (Cert.Spec.mfS (v35 (ix2 r q)) * v131 (ix2 r q)) * (Cert.Spec.mfS (v35 (ix2 r q)) * v131 (ix2 r q)) :=
  cell_sum _

variable (c : Dev nD) (i : grid0.Coords) (arg3 : Memref sig .tc .vmem S3x64x2048 .f32) (harg3 : arg3.IsWhole) (arg4 : Memref sig .tc .vmem S64x2048 .f32) (harg4 : arg4.IsWhole) (arg5 : Memref sig .tc .vmem S1x8x128 .f32) (harg5 : arg5.IsWhole) (arg6 : Memref sig .tc .vmem S80x2176 .i32) (harg6 : arg6.IsWhole) (arg7 : Memref sig .tc .vmem S3x80x2176 .f32) (harg7 : arg7.IsWhole)
  (fh0 : HbBuf0 (F := Ideal) c hbM0_0) (fh1 : HbBuf0 (F := Ideal) c hbM0_1)
  (B : ℕ → ℕ → BitVec 32) (Fl : Fin 3 → ℕ → ℕ → EReal) (t : ℕ) (ht : (i 0).val = t) (ht16 : t < 16)
  (h0 : ∀ (x y : ℕ) (hx : x < 66) (hy : y < 2050),
    (fh0 : S1040x2176.Idx → BitVec 32) (ix2 (⟨64 * t + 7 + x, by omega⟩ : Fin 1040) (⟨y, by omega⟩ : Fin 2176)) = B (64 * t + x) y)
  (h1 : ∀ (k : Fin 3) (x y : ℕ) (hx : x < 66) (hy : y < 2050),
    (fh1 : S3x1040x2176.Idx → EReal) (ix3 k (⟨64 * t + 7 + x, by omega⟩ : Fin 1040) (⟨y, by omega⟩ : Fin 2176)) = Fl k (64 * t + x) y)

include ht ht16 h0 in
/-- The code tile read at an extended-tile cell. -/
theorem code_at (x y : ℕ) (hx : x < 66) (hy : y < 2050) :
    kernelRun0_A.sl.v6 (F := Ideal) c i arg6 fh0 (ix2 (⟨x, hx⟩ : Fin 66) (⟨y, hy⟩ : Fin 2050)) = B (64 * t + x) y :=
  ext_code c i arg6 fh0 B t ht ht16 h0 ⟨x, hx⟩ ⟨y, hy⟩

include ht ht16 h0 h1 in
/-- The three substituted fields read at an extended-tile cell. -/
theorem u_at (x y : ℕ) (hx : x < 66) (hy : y < 2050) :
    kernelRun0_A.sl.r_1 (F := Ideal) c i arg6 arg7 fh0 fh1 (ix2 (⟨x, hx⟩ : Fin 66) (⟨y, hy⟩ : Fin 2050)) = Cert.Spec.up B Fl (64 * t + x) y :=
  ext_u c i arg6 arg7 fh0 fh1 B Fl t ht ht16 h0 h1 ⟨x, hx⟩ ⟨y, hy⟩
include ht ht16 h0 h1 in
theorem v_at (x y : ℕ) (hx : x < 66) (hy : y < 2050) :
    kernelRun0_A.sl.r_2 (F := Ideal) c i arg6 arg7 fh0 fh1 (ix2 (⟨x, hx⟩ : Fin 66) (⟨y, hy⟩ : Fin 2050)) = Cert.Spec.vp B Fl (64 * t + x) y :=
  ext_v c i arg6 arg7 fh0 fh1 B Fl t ht ht16 h0 h1 ⟨x, hx⟩ ⟨y, hy⟩
include ht ht16 h0 h1 in
theorem p_at (x y : ℕ) (hx : x < 66) (hy : y < 2050) :
    kernelRun0_A.sl.r_3 (F := Ideal) c i arg6 arg7 fh0 fh1 (ix2 (⟨x, hx⟩ : Fin 66) (⟨y, hy⟩ : Fin 2050)) = Cert.Spec.pp B Fl (64 * t + x) y :=
  ext_p c i arg6 arg7 fh0 fh1 B Fl t ht ht16 h0 h1 ⟨x, hx⟩ ⟨y, hy⟩

include ht ht16 h0 in
/-- The interior code tile at a cell is the code of that grid cell. -/
theorem r4_at (r : Fin 64) (q : Fin 2048) : kernelRun0_A.sl.r_4 (F := Ideal) c i arg6 fh0 (ix2 r q) = Cert.Spec.code B (64 * t + r.val) q.val :=
  (pay9_at _ r q).trans (code_at c i arg6 fh0 B t ht ht16 h0 (r.val + 1) (q.val + 1) (by omega) (by omega))

include ht ht16 h0 h1 in
/-- The lane-wise pressure difference at a cell. -/
theorem r5_at (r : Fin 64) (q : Fin 2048) : kernelRun0_A.sl.r_5 (F := Ideal) c i arg6 arg7 fh0 fh1 (ix2 r q) = Cert.Spec.dpx B Fl (64 * t + r.val) q.val := by
  refine (pay10_at _ _ _ (kernelRun0_A.sl.r_3 (F := Ideal) c i arg6 arg7 fh0 fh1) rfl r q).trans ?_
  simp only [code_at c i arg6 fh0 B t ht ht16 h0, p_at c i arg6 arg7 fh0 fh1 B Fl t ht ht16 h0 h1]
  rfl

include ht ht16 h0 in
theorem r6_at (r : Fin 64) (q : Fin 2048) : kernelRun0_A.sl.r_6 (F := Ideal) c i arg6 fh0 (ix2 r q) = Cert.Spec.in3 (Cert.Spec.code B (64 * t + r.val) q.val) 7#32 10#32 11#32 :=
  (pay11_at _ r q).trans (congrArg (fun b => Cert.Spec.in3 b 7#32 10#32 11#32)
    (code_at c i arg6 fh0 B t ht ht16 h0 (r.val + 1) (q.val + 1) (by omega) (by omega)))

include ht ht16 h0 h1 in
theorem r7_at (r : Fin 64) (q : Fin 2048) : kernelRun0_A.sl.r_7 (F := Ideal) c i arg6 arg7 fh0 fh1 (ix2 r q) = Cert.Spec.fdy (Cert.Spec.pp B Fl) (64 * t + r.val) q.val := by
  refine (pay12_at _ _ _ (kernelRun0_A.sl.r_3 (F := Ideal) c i arg6 arg7 fh0 fh1) rfl r q).trans ?_
  simp only [p_at c i arg6 arg7 fh0 fh1 B Fl t ht ht16 h0 h1]
  rfl

include ht ht16 h0 h1 in
/-- The row-wise pressure difference at a cell. -/
theorem r8_at (r : Fin 64) (q : Fin 2048) : kernelRun0_A.sl.r_8 (F := Ideal) c i arg6 arg7 fh0 fh1 (ix2 r q) = Cert.Spec.dpy B Fl (64 * t + r.val) q.val := by
  refine (pay13_at _ _ _ _ _ r q).trans ?_
  simp only [r6_at c i arg6 fh0 B t ht ht16 h0, r7_at c i arg6 arg7 fh0 fh1 B Fl t ht ht16 h0 h1, r4_at c i arg6 fh0 B t ht ht16 h0, p_at c i arg6 arg7 fh0 fh1 B Fl t ht ht16 h0 h1]
  rfl

include ht ht16 h0 h1 in
theorem r9_at (r : Fin 64) (q : Fin 2048) : kernelRun0_A.sl.r_9 (F := Ideal) c i arg6 arg7 fh0 fh1 (ix2 r q) = Cert.Spec.up B Fl (64 * t + r.val + 1) (q.val + 1) :=
  (pay14_at _ r q).trans (u_at c i arg6 arg7 fh0 fh1 B Fl t ht ht16 h0 h1 (r.val + 1) (q.val + 1) (by omega) (by omega))
include ht ht16 h0 h1 in
theorem r10_at (r : Fin 64) (q : Fin 2048) : kernelRun0_A.sl.r_10 (F := Ideal) c i arg6 arg7 fh0 fh1 (ix2 r q) = Cert.Spec.vp B Fl (64 * t + r.val + 1) (q.val + 1) :=
  (pay15_at _ r q).trans (v_at c i arg6 arg7 fh0 fh1 B Fl t ht ht16 h0 h1 (r.val + 1) (q.val + 1) (by omega) (by omega))

include ht ht16 h0 h1 in
theorem r11_at (r : Fin 64) (q : Fin 2048) : kernelRun0_A.sl.r_11 (F := Ideal) c i arg6 arg7 fh0 fh1 (ix2 r q)
    = Ideal.div (Cert.Spec.up B Fl (64 * t + r.val + 1) (q.val + 1) * Cert.Spec.dx (Cert.Spec.up B Fl) (64 * t + r.val) q.val) Cert.Spec.hh
      + Ideal.div (Cert.Spec.vp B Fl (64 * t + r.val + 1) (q.val + 1) * Cert.Spec.dy (Cert.Spec.up B Fl) (64 * t + r.val) q.val) Cert.Spec.hh
      + Ideal.div (Cert.Spec.dpx B Fl (64 * t + r.val) q.val) Cert.Spec.hh := by
  refine (pay16_at _ _ _ r q).trans ?_
  simp only [u_at c i arg6 arg7 fh0 fh1 B Fl t ht ht16 h0 h1, v_at c i arg6 arg7 fh0 fh1 B Fl t ht ht16 h0 h1, r5_at c i arg6 arg7 fh0 fh1 B Fl t ht ht16 h0 h1]
  rfl

include ht ht16 h0 h1 in
theorem r12_at (r : Fin 64) (q : Fin 2048) : kernelRun0_A.sl.r_12 (F := Ideal) c i arg6 arg7 fh0 fh1 (ix2 r q) = Cert.Spec.lap (Cert.Spec.up B Fl) (64 * t + r.val) q.val := by
  refine (pay17_at _ r q).trans ?_
  simp only [u_at c i arg6 arg7 fh0 fh1 B Fl t ht ht16 h0 h1]
  rfl

include ht ht16 h0 h1 in
/-- The first momentum residual at a cell. -/
theorem r13_at (r : Fin 64) (q : Fin 2048) : kernelRun0_A.sl.r_13 (F := Ideal) c i arg6 arg7 fh0 fh1 (ix2 r q) = Cert.Spec.momU B Fl (64 * t + r.val) q.val := by
  refine (pay18_at _ _ _).trans ?_
  rw [r11_at c i arg6 arg7 fh0 fh1 B Fl t ht ht16 h0 h1, r12_at c i arg6 arg7 fh0 fh1 B Fl t ht ht16 h0 h1]
  rfl

include ht ht16 h0 h1 in
/-- The second momentum residual at a cell. -/
theorem r14_at (r : Fin 64) (q : Fin 2048) : kernelRun0_A.sl.r_14 (F := Ideal) c i arg6 arg7 fh0 fh1 (ix2 r q) = Cert.Spec.momV B Fl (64 * t + r.val) q.val := by
  refine (pay19_at _ _ _ _ r q).trans ?_
  simp only [v_at c i arg6 arg7 fh0 fh1 B Fl t ht ht16 h0 h1, r8_at c i arg6 arg7 fh0 fh1 B Fl t ht ht16 h0 h1, r9_at c i arg6 arg7 fh0 fh1 B Fl t ht ht16 h0 h1, r10_at c i arg6 arg7 fh0 fh1 B Fl t ht ht16 h0 h1]
  rfl

include ht ht16 h0 h1 in
theorem r15_at (r : Fin 64) (q : Fin 2048) : kernelRun0_A.sl.r_15 (F := Ideal) c i arg6 arg7 fh0 fh1 (ix2 r q) = Ideal.div (Cert.Spec.dx (Cert.Spec.up B Fl) (64 * t + r.val) q.val) Cert.Spec.hh := by
  refine (pay20_at _ r q).trans ?_
  simp only [u_at c i arg6 arg7 fh0 fh1 B Fl t ht ht16 h0 h1]
  rfl

include ht ht16 h0 h1 in
/-- The squared masked second momentum residual at a cell. -/
theorem r17_at (r : Fin 64) (q : Fin 2048) : kernelRun0_A.sl.r_17 (F := Ideal) c i arg6 arg7 fh0 fh1 (ix2 r q) = Cert.Spec.sqV B Fl (64 * t + r.val) q.val := by
  refine (pay23_at _ _ _).trans ?_
  rw [r4_at c i arg6 fh0 B t ht ht16 h0, r14_at c i arg6 arg7 fh0 fh1 B Fl t ht ht16 h0 h1]
  rfl

include ht ht16 h0 h1 in
/-- The squared masked continuity residual at a cell. -/
theorem r18_at (r : Fin 64) (q : Fin 2048) : kernelRun0_A.sl.r_18 (F := Ideal) c i arg6 arg7 fh0 fh1 (ix2 r q) = Cert.Spec.sqC B Fl (64 * t + r.val) q.val := by
  refine (pay24_at _ _ _ r q).trans ?_
  simp only [v_at c i arg6 arg7 fh0 fh1 B Fl t ht ht16 h0 h1, r4_at c i arg6 fh0 B t ht ht16 h0, r15_at c i arg6 arg7 fh0 fh1 B Fl t ht ht16 h0 h1]
  rfl

include ht ht16 h0 h1 in
/-- The one-by-one cell holding the tile's sum of the squared masked first momentum residual. -/
theorem r19_at : kernelRun0_A.sl.r_19 (F := Ideal) c i arg6 arg7 fh0 fh1 (ix2 (0 : Fin 1) (0 : Fin 1))
    = ∑ r : Fin 64, ∑ q : Fin 2048, Cert.Spec.sqU B Fl (64 * t + r.val) q.val := by
  refine (pay25_at _ _).trans ?_
  refine Finset.sum_congr rfl fun r _ => Finset.sum_congr rfl fun q _ => ?_
  rw [r4_at c i arg6 fh0 B t ht ht16 h0, r13_at c i arg6 arg7 fh0 fh1 B Fl t ht ht16 h0 h1]
  rfl

include ht ht16 h0 h1 in
theorem tile_part :
    out0_A_2 (F := Ideal) c i arg3 harg3 arg4 harg4 arg5 harg5 arg6 harg6 arg7 harg7 fh0 fh1 (ix3 (0 : Fin 1) (0 : Fin 8) (0 : Fin 128))
        = ∑ r : Fin 64, ∑ q : Fin 2048, Cert.Spec.sqU B Fl (64 * t + r.val) q.val
    ∧ out0_A_2 (F := Ideal) c i arg3 harg3 arg4 harg4 arg5 harg5 arg6 harg6 arg7 harg7 fh0 fh1 (ix3 (0 : Fin 1) (0 : Fin 8) (1 : Fin 128))
        = ∑ r : Fin 64, ∑ q : Fin 2048, Cert.Spec.sqV B Fl (64 * t + r.val) q.val
    ∧ out0_A_2 (F := Ideal) c i arg3 harg3 arg4 harg4 arg5 harg5 arg6 harg6 arg7 harg7 fh0 fh1 (ix3 (0 : Fin 1) (0 : Fin 8) (2 : Fin 128))
        = ∑ r : Fin 64, ∑ q : Fin 2048, Cert.Spec.sqC B Fl (64 * t + r.val) q.val := by
  have hz : (![0, 0, 0] : Fin 3 → ℕ) = fun _ => 0 := by
    funext a; match a with | ⟨0, _⟩ => rfl | ⟨1, _⟩ => rfl | ⟨2, _⟩ => rfl
  unfold out0_A_2
  rw [View.read_writes_eq_canon _ _ _ (cover0_A_2 c i arg3 harg3 arg4 harg4 arg5 harg5 arg6 harg6 arg7 harg7 fh0 fh1)]
  unfold kernelRun0_A
  dsimp only
  rw [View.canon_unit_zero hz]
  refine ⟨?_, ?_, ?_⟩
  · exact (pay3_at0 _ _ _).trans (r19_at c i arg6 arg7 fh0 fh1 B Fl t ht ht16 h0 h1)
  · exact (pay3_at1 _ _ _).trans (Finset.sum_congr rfl fun r _ => Finset.sum_congr rfl fun q _ => r17_at c i arg6 arg7 fh0 fh1 B Fl t ht ht16 h0 h1 r q)
  · exact (pay3_at2 _ _ _).trans (Finset.sum_congr rfl fun r _ => Finset.sum_congr rfl fun q _ => r18_at c i arg6 arg7 fh0 fh1 B Fl t ht ht16 h0 h1 r q)
end Cert.KernelIdeal.Hand
end
-- ==== Proof.KRunWin.lean ====
/-
  From blocks to arrays.  The call runs over a line of 16 grid points; point t writes rows 64 t … 64 t + 63 of the
  three substituted fields (first output), the same rows of the equation mask (second output), and one [1, 8, 128]
  block t of partial sums (third output).  What point t leaves in each block is known entry by entry (the tile
  lemmas, fed with the reflected code and fields at the padded rows 64 t … 64 t + 65).  Since row R lies in the block
  of point R / 64 and every block is a restriction of one whole-array function, the first two arrays end as that
  function: the substituted fields at the grid cells, and the mask.  The third array ends with block t holding what
  point t left, so its entries (t, 0, 0), (t, 0, 1), (t, 0, 2) are the three squared residuals summed over tile t.
-/
import proofs.«148698_j59665685676147_2_alg».proof.Proof.Gen.KernelIdeal.Frame
import proofs.«148698_j59665685676147_2_alg».proof.Proof.KHost
import proofs.«148698_j59665685676147_2_alg».proof.Proof.KTile
import proofs.«148698_j59665685676147_2_alg».proof.Proof.KTilePart
import proofs.«148698_j59665685676147_2_alg».proof.Proof.Spec
import Idealize.ShloMosaic.Lib.Pipeline.Value
set_option maxRecDepth 16384
noncomputable section
namespace Cert.KernelIdeal.Hand
open Idealize.ShloMosaic Idealize.ShloMosaic.TcCoe Idealize.SL.Sem Idealize.ShloMosaic.ValueIdx
open Cert.KernelIdeal Cert.KernelIdeal.Gen
open Idealize.ShloMosaic.Pipeline (Dat)

variable (m : (ℓ : Loc nD τ sig) → Buf (Elt Ideal) ℓ)

/-- The grid is a line of 16 points: point t has coordinate t, and each output window's block index at t is t on the
    row axis (the block axis of the partial sums), 0 elsewhere. -/
theorem idx_facts : ∀ t : Fin cfg0.N, (grid0.coords t 0).val = t.val
    ∧ win0_0.index t (0 : Fin 3) = 0 ∧ win0_0.index t (1 : Fin 3) = t.val ∧ win0_0.index t (2 : Fin 3) = 0
    ∧ win0_1.index t (0 : Fin 2) = t.val ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- A grid point is below 16. -/
theorem lt16 (t : Fin cfg0.N) : t.val < 16 := by
  have h := t.isLt; have e : cfg0.N = 16 := N_0; omega

/-- The padded code array at the rows of tile t is the reflected code. -/
theorem hB (c : Dev nD) (t : ℕ) (ht : t < 16) : ∀ (x y : ℕ) (hx : x < 66) (hy : y < 2050),
    (V m c main_v4 : S1040x2176.Idx → BitVec 32) (ix2 (⟨64 * t + 7 + x, by omega⟩ : Fin 1040) (⟨y, by omega⟩ : Fin 2176))
      = Cert.Spec.Bp (m ((c.tc : Thread nD τ).loc main_arg0)) (64 * t + x) y := fun x y hx hy =>
  (congrArg (fun a : Fin 1040 => (V m c main_v4 : S1040x2176.Idx → BitVec 32) (ix2 a (⟨y, by omega⟩ : Fin 2176)))
    (Fin.ext (by show 64 * t + 7 + x = 64 * t + x + 7; omega))).trans (V4_apply m c (64 * t + x) y (by omega) hy)

/-- The padded field arrays at the rows of tile t are the reflected fields. -/
theorem hFl (c : Dev nD) (t : ℕ) (ht : t < 16) : ∀ (k : Fin 3) (x y : ℕ) (hx : x < 66) (hy : y < 2050),
    (V m c main_v6 : S3x1040x2176.Idx → EReal) (ix3 k (⟨64 * t + 7 + x, by omega⟩ : Fin 1040) (⟨y, by omega⟩ : Fin 2176))
      = Cert.Spec.Fp (m ((c.tc : Thread nD τ).loc main_arg1)) k (64 * t + x) y := fun k x y hx hy =>
  (congrArg (fun a : Fin 1040 => (V m c main_v6 : S3x1040x2176.Idx → EReal) (ix3 k a (⟨y, by omega⟩ : Fin 2176)))
    (Fin.ext (by show 64 * t + 7 + x = 64 * t + x + 7; omega))).trans (V6_apply m c k (64 * t + x) y (by omega) hy)

/-- What point t leaves in the mask window's block, entry by entry. -/
theorem tile1 (c : Dev nD) (t : Fin cfg0.N) (r : Fin 64) (q : Fin 2048) :
    (outsAt0 m c t).2.1 (ix2 r q)
      = Cert.Spec.maskVal (Cert.Spec.Bp (m ((c.tc : Thread nD τ).loc main_arg0))) (64 * t.val + r.val) q.val := by
  unfold outsAt0; dsimp only
  exact tile_mask c (grid0.coords t) (ms0_0 t) (hs0_0 t) (ms0_1 t) (hs0_1 t) (ms0_2 t) (hs0_2 t) scM0_0 (Memref.isWhole_whole _) scM0_1 (Memref.isWhole_whole _)
    (V m c main_v4) (V m c main_v6) (Cert.Spec.Bp (m ((c.tc : Thread nD τ).loc main_arg0))) (Cert.Spec.Fp (m ((c.tc : Thread nD τ).loc main_arg1)))
    t.val (idx_facts t).1 (lt16 t) (hB m c t.val (lt16 t)) (hFl m c t.val (lt16 t)) r q

/-- Point t writes back rows 64 t … 64 t + 63 of the mask: entry (r, q) of its block is entry (64 t + r, q) of the array. -/
theorem flushed1_eq (c : Dev nD) (t : Fin cfg0.N) :
    (dats m 0 c).flushed 1 t = ((cfg0.win 1).blk t).view.read (Elt Ideal) (Cert.Spec.eqmask (m ((c.tc : Thread nD τ).loc main_arg0))) := by
  show (cfg0.win 1).cut (grid0.coords t) ((dats m 0 c).after 1 t) = _
  rw [after0_1]
  funext y
  obtain ⟨-, -, -, -, e0, e1, -⟩ := idx_facts t
  have h16 := lt16 t
  have hy0 : (y 0).val < 64 := (y 0).isLt
  have hy1 : (y 1).val < 2048 := (y 1).isLt
  have ex : (cfg0.win 1).xinj (grid0.coords t) y = ix2 (⟨(y 0).val, hy0⟩ : Fin 64) (⟨(y 1).val, hy1⟩ : Fin 2048) :=
    funext fun a => by match a with | ⟨0, _⟩ => rfl | ⟨1, _⟩ => rfl
  have ee : ((cfg0.win 1).blk t).view.emb y = ix2 (⟨64 * t.val + (y 0).val, by omega⟩ : Fin 1024) (⟨(y 1).val, hy1⟩ : Fin 2048) :=
    funext fun a => Fin.ext (by
      match a with
      | ⟨0, _⟩ => show win0_1.index t (0 : Fin 2) * 64 + 1 * (y 0).val = 64 * t.val + (y 0).val; omega
      | ⟨1, _⟩ => show win0_1.index t (1 : Fin 2) * 2048 + 1 * (y 1).val = (y 1).val; omega)
  show (outsAt0 m c t).2.1 ((cfg0.win 1).xinj (grid0.coords t) y) = Cert.Spec.eqmask (m ((c.tc : Thread nD τ).loc main_arg0)) (((cfg0.win 1).blk t).view.emb y)
  rw [ex, ee]
  exact tile1 m c t _ _

/-- An index of the mask array is in point t's block iff each coordinate is in the block's range on its axis. -/
theorem mem_blk1 (t : Fin cfg0.N) (i : S1024x2048.Idx) :
    i ∈ ((cfg0.win 1).blk t).view.set ↔ ∀ a : Fin 2, win0_1.index t a * S64x2048.size a ≤ (i a).val ∧ (i a).val < win0_1.index t a * S64x2048.size a + S64x2048.size a := by
  show i ∈ ((View.whole main_v7_1).slice (win0_1.rect t)).set ↔ _
  rw [View.set_slice_whole, Rect.mem_set_unit]
  exact Iff.rfl

/-- Row R of the mask array lies in the block of point R / 64. -/
theorem cover1 (i : S1024x2048.Idx) : ∃ t : Fin cfg0.N, (cfg0.win 1).flush t = true ∧ i ∈ ((cfg0.win 1).blk t).view.set := by
  have hi0 : (i 0).val < 1024 := (i 0).isLt
  have hi1 : (i 1).val < 2048 := (i 1).isLt
  have hN : cfg0.N = 16 := N_0
  refine ⟨⟨(i 0).val / 64, by omega⟩, flush0_1 _, ?_⟩
  rw [mem_blk1]
  obtain ⟨-, -, -, -, e0, e1, -⟩ := idx_facts ⟨(i 0).val / 64, by omega⟩
  intro a
  match a with
  | ⟨0, _⟩ => show win0_1.index _ (0 : Fin 2) * 64 ≤ (i 0).val ∧ (i 0).val < win0_1.index _ (0 : Fin 2) * 64 + 64; rw [e0]; show (i 0).val / 64 * 64 ≤ (i 0).val ∧ (i 0).val < (i 0).val / 64 * 64 + 64; omega
  | ⟨1, _⟩ => show win0_1.index _ (1 : Fin 2) * 2048 ≤ (i 1).val ∧ (i 1).val < win0_1.index _ (1 : Fin 2) * 2048 + 2048; rw [e1]; omega

/-- The mask array after the run: the code where the equations are imposed, as a number. -/
theorem final1 (c : Dev nD) : (dats m 0 c).arrAt 1 cfg0.N = Cert.Spec.eqmask (m ((c.tc : Thread nD τ).loc main_arg0)) :=
  (dats m 0 c).arrAt_eq_of_cover 1 _ (fun t _ => flushed1_eq m c t) cover1

/-! ## The flow window: the three substituted fields on the grid -/

/-- The flow array as one function of the arguments. -/
def flowArr (c : Dev nD) : S3x1024x2048.Idx → EReal := fun i =>
  Cert.Spec.fld (Cert.Spec.Bp (m ((c.tc : Thread nD τ).loc main_arg0))) (Cert.Spec.Fp (m ((c.tc : Thread nD τ).loc main_arg1))) (i 0) ((i 1).val + 1) ((i 2).val + 1)

/-- What point t leaves in the flow window's block, entry by entry. -/
theorem tile0 (c : Dev nD) (t : Fin cfg0.N) (k : Fin 3) (r : Fin 64) (q : Fin 2048) :
    (outsAt0 m c t).1 (ix3 k r q)
      = Cert.Spec.fld (Cert.Spec.Bp (m ((c.tc : Thread nD τ).loc main_arg0))) (Cert.Spec.Fp (m ((c.tc : Thread nD τ).loc main_arg1))) k (64 * t.val + r.val + 1) (q.val + 1) := by
  unfold outsAt0; dsimp only
  exact tile_flow c (grid0.coords t) (ms0_0 t) (hs0_0 t) (ms0_1 t) (hs0_1 t) (ms0_2 t) (hs0_2 t) scM0_0 (Memref.isWhole_whole _) scM0_1 (Memref.isWhole_whole _)
    (V m c main_v4) (V m c main_v6) (Cert.Spec.Bp (m ((c.tc : Thread nD τ).loc main_arg0))) (Cert.Spec.Fp (m ((c.tc : Thread nD τ).loc main_arg1)))
    t.val (idx_facts t).1 (lt16 t) (hB m c t.val (lt16 t)) (hFl m c t.val (lt16 t)) k r q

/-- Point t writes back rows 64 t … 64 t + 63 of each field: entry (k, r, q) of its block is entry (k, 64 t + r, q) of the array. -/
theorem flushed0_eq (c : Dev nD) (t : Fin cfg0.N) :
    (dats m 0 c).flushed 0 t = ((cfg0.win 0).blk t).view.read (Elt Ideal) (flowArr m c) := by
  show (cfg0.win 0).cut (grid0.coords t) ((dats m 0 c).after 0 t) = _
  rw [after0_0]
  funext y
  obtain ⟨-, e0, e1, e2, -⟩ := idx_facts t
  have h16 := lt16 t
  have hy0 : (y 0).val < 3 := (y 0).isLt
  have hy1 : (y 1).val < 64 := (y 1).isLt
  have hy2 : (y 2).val < 2048 := (y 2).isLt
  have ex : (cfg0.win 0).xinj (grid0.coords t) y = ix3 (⟨(y 0).val, hy0⟩ : Fin 3) (⟨(y 1).val, hy1⟩ : Fin 64) (⟨(y 2).val, hy2⟩ : Fin 2048) :=
    funext fun a => by match a with | ⟨0, _⟩ => rfl | ⟨1, _⟩ => rfl | ⟨2, _⟩ => rfl
  have ee : ((cfg0.win 0).blk t).view.emb y = ix3 (⟨(y 0).val, hy0⟩ : Fin 3) (⟨64 * t.val + (y 1).val, by omega⟩ : Fin 1024) (⟨(y 2).val, hy2⟩ : Fin 2048) :=
    funext fun a => Fin.ext (by
      match a with
      | ⟨0, _⟩ => show win0_0.index t (0 : Fin 3) * 3 + 1 * (y 0).val = (y 0).val; omega
      | ⟨1, _⟩ => show win0_0.index t (1 : Fin 3) * 64 + 1 * (y 1).val = 64 * t.val + (y 1).val; omega
      | ⟨2, _⟩ => show win0_0.index t (2 : Fin 3) * 2048 + 1 * (y 2).val = (y 2).val; omega)
  show (outsAt0 m c t).1 ((cfg0.win 0).xinj (grid0.coords t) y) = flowArr m c (((cfg0.win 0).blk t).view.emb y)
  rw [ex, ee]
  exact tile0 m c t _ _ _

/-- An index of the flow array is in point t's block iff each coordinate is in the block's range on its axis. -/
theorem mem_blk0 (t : Fin cfg0.N) (i : S3x1024x2048.Idx) :
    i ∈ ((cfg0.win 0).blk t).view.set ↔ ∀ a : Fin 3, win0_0.index t a * S3x64x2048.size a ≤ (i a).val ∧ (i a).val < win0_0.index t a * S3x64x2048.size a + S3x64x2048.size a := by
  show i ∈ ((View.whole main_v7_0).slice (win0_0.rect t)).set ↔ _
  rw [View.set_slice_whole, Rect.mem_set_unit]
  exact Iff.rfl

/-- Row R of each field lies in the block of point R / 64. -/
theorem cover0 (i : S3x1024x2048.Idx) : ∃ t : Fin cfg0.N, (cfg0.win 0).flush t = true ∧ i ∈ ((cfg0.win 0).blk t).view.set := by
  have hi0 : (i 0).val < 3 := (i 0).isLt
  have hi1 : (i 1).val < 1024 := (i 1).isLt
  have hi2 : (i 2).val < 2048 := (i 2).isLt
  have hN : cfg0.N = 16 := N_0
  refine ⟨⟨(i 1).val / 64, by omega⟩, flush0_0 _, ?_⟩
  rw [mem_blk0]
  obtain ⟨-, e0, e1, e2, -⟩ := idx_facts ⟨(i 1).val / 64, by omega⟩
  intro a
  match a with
  | ⟨0, _⟩ => show win0_0.index _ (0 : Fin 3) * 3 ≤ (i 0).val ∧ (i 0).val < win0_0.index _ (0 : Fin 3) * 3 + 3; rw [e0]; omega
  | ⟨1, _⟩ => show win0_0.index _ (1 : Fin 3) * 64 ≤ (i 1).val ∧ (i 1).val < win0_0.index _ (1 : Fin 3) * 64 + 64; rw [e1]; show (i 1).val / 64 * 64 ≤ (i 1).val ∧ (i 1).val < (i 1).val / 64 * 64 + 64; omega
  | ⟨2, _⟩ => show win0_0.index _ (2 : Fin 3) * 2048 ≤ (i 2).val ∧ (i 2).val < win0_0.index _ (2 : Fin 3) * 2048 + 2048; rw [e2]; omega

/-- The flow array after the run: the substituted fields. -/
theorem final0 (c : Dev nD) : (dats m 0 c).arrAt 0 cfg0.N = flowArr m c :=
  (dats m 0 c).arrAt_eq_of_cover 0 _ (fun t _ => flushed0_eq m c t) cover0

/-! ## The partial sums: block t of the third array is what point t left -/

/-- The array of partial sums, block t from point t. -/
def partArr (c : Dev nD) : S16x8x128.Idx → EReal := fun i =>
  (outsAt0 m c ⟨(i 0).val, by have h : (i 0).val < 16 := (i 0).isLt; have e : cfg0.N = 16 := N_0; omega⟩).2.2 (ix3 (0 : Fin 1) (i 1) (i 2))

/-- Point t writes back block t of the partial sums: entry (0, a, b) of its block is entry (t, a, b) of the array. -/
theorem flushed2_eq (c : Dev nD) (t : Fin cfg0.N) :
    (dats m 0 c).flushed 2 t = ((cfg0.win 2).blk t).view.read (Elt Ideal) (partArr m c) := by
  show (cfg0.win 2).cut (grid0.coords t) ((dats m 0 c).after 2 t) = _
  rw [after0_2]
  funext y
  obtain ⟨-, -, -, -, -, -, e0, e1, e2⟩ := idx_facts t
  have h16 := lt16 t
  have hy0 : (y 0).val < 1 := (y 0).isLt
  have hy1 : (y 1).val < 8 := (y 1).isLt
  have hy2 : (y 2).val < 128 := (y 2).isLt
  have ex : (cfg0.win 2).xinj (grid0.coords t) y = ix3 (0 : Fin 1) (⟨(y 1).val, hy1⟩ : Fin 8) (⟨(y 2).val, hy2⟩ : Fin 128) :=
    funext fun a => by match a with | ⟨0, _⟩ => exact Fin.ext (by show (y 0).val = 0; omega) | ⟨1, _⟩ => rfl | ⟨2, _⟩ => rfl
  have ee : ((cfg0.win 2).blk t).view.emb y = ix3 (⟨t.val, h16⟩ : Fin 16) (⟨(y 1).val, hy1⟩ : Fin 8) (⟨(y 2).val, hy2⟩ : Fin 128) :=
    funext fun a => Fin.ext (by
      match a with
      | ⟨0, _⟩ => show win0_2.index t (0 : Fin 3) * 1 + 1 * (y 0).val = t.val; omega
      | ⟨1, _⟩ => show win0_2.index t (1 : Fin 3) * 8 + 1 * (y 1).val = (y 1).val; omega
      | ⟨2, _⟩ => show win0_2.index t (2 : Fin 3) * 128 + 1 * (y 2).val = (y 2).val; omega)
  show (outsAt0 m c t).2.2 ((cfg0.win 2).xinj (grid0.coords t) y) = partArr m c (((cfg0.win 2).blk t).view.emb y)
  rw [ex, ee]
  rfl

/-- An index of the partial-sum array is in point t's block iff each coordinate is in the block's range on its axis. -/
theorem mem_blk2 (t : Fin cfg0.N) (i : S16x8x128.Idx) :
    i ∈ ((cfg0.win 2).blk t).view.set ↔ ∀ a : Fin 3, win0_2.index t a * S1x8x128.size a ≤ (i a).val ∧ (i a).val < win0_2.index t a * S1x8x128.size a + S1x8x128.size a := by
  show i ∈ ((View.whole main_v7_2).slice (win0_2.rect t)).set ↔ _
  rw [View.set_slice_whole, Rect.mem_set_unit]
  exact Iff.rfl

/-- Entry (t, a, b) of the partial sums lies in the block of point t. -/
theorem cover2 (i : S16x8x128.Idx) : ∃ t : Fin cfg0.N, (cfg0.win 2).flush t = true ∧ i ∈ ((cfg0.win 2).blk t).view.set := by
  have hi0 : (i 0).val < 16 := (i 0).isLt
  have hi1 : (i 1).val < 8 := (i 1).isLt
  have hi2 : (i 2).val < 128 := (i 2).isLt
  have hN : cfg0.N = 16 := N_0
  refine ⟨⟨(i 0).val, by omega⟩, flush0_2 _, ?_⟩
  rw [mem_blk2]
  obtain ⟨-, -, -, -, -, -, e0, e1, e2⟩ := idx_facts ⟨(i 0).val, by omega⟩
  intro a
  match a with
  | ⟨0, _⟩ => show win0_2.index _ (0 : Fin 3) * 1 ≤ (i 0).val ∧ (i 0).val < win0_2.index _ (0 : Fin 3) * 1 + 1; rw [e0]; show (i 0).val * 1 ≤ (i 0).val ∧ (i 0).val < (i 0).val * 1 + 1; omega
  | ⟨1, _⟩ => show win0_2.index _ (1 : Fin 3) * 8 ≤ (i 1).val ∧ (i 1).val < win0_2.index _ (1 : Fin 3) * 8 + 8; rw [e1]; omega
  | ⟨2, _⟩ => show win0_2.index _ (2 : Fin 3) * 128 ≤ (i 2).val ∧ (i 2).val < win0_2.index _ (2 : Fin 3) * 128 + 128; rw [e2]; omega

/-- The partial-sum array after the run: block t is what point t left. -/
theorem final2 (c : Dev nD) : (dats m 0 c).arrAt 2 cfg0.N = partArr m c :=
  (dats m 0 c).arrAt_eq_of_cover 2 _ (fun t _ => flushed2_eq m c t) cover2

/-- Entries (t, 0, 0..2) of the partial sums: the three squared residuals summed over tile t's rows. -/
theorem partArr_apply (c : Dev nD) (t : Fin 16) :
    partArr m c (ix3 t (0 : Fin 8) (0 : Fin 128))
        = ∑ r : Fin 64, ∑ q : Fin 2048, Cert.Spec.sqU (Cert.Spec.Bp (m ((c.tc : Thread nD τ).loc main_arg0))) (Cert.Spec.Fp (m ((c.tc : Thread nD τ).loc main_arg1))) (64 * t.val + r.val) q.val
    ∧ partArr m c (ix3 t (0 : Fin 8) (1 : Fin 128))
        = ∑ r : Fin 64, ∑ q : Fin 2048, Cert.Spec.sqV (Cert.Spec.Bp (m ((c.tc : Thread nD τ).loc main_arg0))) (Cert.Spec.Fp (m ((c.tc : Thread nD τ).loc main_arg1))) (64 * t.val + r.val) q.val
    ∧ partArr m c (ix3 t (0 : Fin 8) (2 : Fin 128))
        = ∑ r : Fin 64, ∑ q : Fin 2048, Cert.Spec.sqC (Cert.Spec.Bp (m ((c.tc : Thread nD τ).loc main_arg0))) (Cert.Spec.Fp (m ((c.tc : Thread nD τ).loc main_arg1))) (64 * t.val + r.val) q.val := by
  have hN : cfg0.N = 16 := N_0
  have ht : t.val < cfg0.N := by have := t.isLt; omega
  unfold partArr outsAt0; dsimp only
  exact tile_part c (grid0.coords ⟨t.val, ht⟩) (ms0_0 ⟨t.val, ht⟩) (hs0_0 ⟨t.val, ht⟩) (ms0_1 ⟨t.val, ht⟩) (hs0_1 ⟨t.val, ht⟩) (ms0_2 ⟨t.val, ht⟩) (hs0_2 ⟨t.val, ht⟩) scM0_0 (Memref.isWhole_whole _) scM0_1 (Memref.isWhole_whole _)
    (V m c main_v4) (V m c main_v6) (Cert.Spec.Bp (m ((c.tc : Thread nD τ).loc main_arg0))) (Cert.Spec.Fp (m ((c.tc : Thread nD τ).loc main_arg1)))
    t.val (idx_facts ⟨t.val, ht⟩).1 t.isLt (hB m c t.val t.isLt) (hFl m c t.val t.isLt)
end Cert.KernelIdeal.Hand
end
-- ==== Proof.LibBlockSum.lean ====
/-
  A sum over `Fin (B * R)` read block by block: the index `i` is `b * R + r` for exactly one block `b : Fin B`
  and one offset `r : Fin R`, so summing the blocks' sums is summing everything.  Stated in any commutative
  additive monoid (the extended reals are one: no finiteness is needed to regroup a sum).
-/
import Mathlib.Algebra.BigOperators.Fin
import Mathlib.Logic.Equiv.Fin.Basic

namespace Cert.Lib

/-- `∑ b, ∑ r, g (b * R + r) = ∑ i, g i` over `Fin (B * R)`, the index built by `finProdFinEquiv`
    (whose value is `r + R * b`). -/
theorem sum_blocks {M : Type*} [AddCommMonoid M] (B R : ℕ) (g : Fin (B * R) → M) :
    ∑ b : Fin B, ∑ r : Fin R, g (finProdFinEquiv (b, r)) = ∑ i : Fin (B * R), g i := by
  rw [← Fintype.sum_prod_type' (f := fun b r => g (finProdFinEquiv (b, r)))]
  exact Equiv.sum_comp finProdFinEquiv g

/-- The same with the block's entry named by its value: any `idx b r` whose value is `b * R + r`. -/
theorem sum_blocks_val {M : Type*} [AddCommMonoid M] (B R : ℕ) (g : Fin (B * R) → M)
    (idx : Fin B → Fin R → Fin (B * R)) (hidx : ∀ b r, (idx b r).val = b.val * R + r.val) :
    ∑ b : Fin B, ∑ r : Fin R, g (idx b r) = ∑ i : Fin (B * R), g i := by
  rw [← sum_blocks B R g]
  refine Finset.sum_congr rfl fun b _ => Finset.sum_congr rfl fun r _ => congrArg g (Fin.ext ?_)
  rw [hidx]; simp [finProdFinEquiv, Nat.mul_comm, Nat.add_comm]

/-- The same over `Fin N` with `N = B * R` given as an equation (so that `N` may be a literal). -/
theorem sum_blocks_of_eq {M : Type*} [AddCommMonoid M] {B R N : ℕ} (hN : B * R = N) (g : Fin N → M)
    (idx : Fin B → Fin R → Fin N) (hidx : ∀ b r, (idx b r).val = b.val * R + r.val) :
    ∑ b : Fin B, ∑ r : Fin R, g (idx b r) = ∑ i : Fin N, g i := by
  subst hN
  exact sum_blocks_val B R g idx hidx

end Cert.Lib
-- ==== Proof.KRunTail.lean ====
/-
  The host operations after the call.  They read the partial-sum array: entries (t, 0, 0..2) are sliced out, reshaped to
  a [16, 3] matrix and summed over t from zero; each of the three column sums is divided by the number of grid cells and
  the three quotients are added.  The second result is the flow array with a leading unit axis.  Here the two results
  are written as functions of the two arrays they read, and the first is read at the extended reals: a sum over the 16
  tiles of a sum over a tile's 64 rows is the sum over the 1024 rows.
-/
import proofs.«148698_j59665685676147_2_alg».proof.Proof.Gen.KernelIdeal.Launch
import proofs.«148698_j59665685676147_2_alg».proof.Proof.Spec
import proofs.«148698_j59665685676147_2_alg».proof.Proof.LibBlockSum
import Idealize.ShloMosaic.Lib.Pipeline.Value
import Idealize.ShloMosaic.Lib.StableHlo.Run
import Idealize.ShloMosaic.Lib.IdealHost
import Idealize.ShloMosaic.PureOps.Ideal.Laws
set_option maxRecDepth 16384
noncomputable section
namespace Cert.KernelIdeal.Hand
open Idealize.ShloMosaic Idealize.ShloMosaic.TcCoe Idealize.SL.Sem Idealize.ShloMosaic.ValueIdx
open Cert.KernelIdeal Cert.KernelIdeal.Gen
open Idealize.ShloMosaic.Pipeline (Dat)

open Idealize.ShloMosaic.StableHlo

/-! ## The host operations after the call, as functions of the two arrays they read -/

/-- The three column sums of the partial-sum array's entries (t, 0, 0..2): slice, reshape to [16, 3], sum over t. -/
def partVec (A2 : S16x8x128.Idx → EReal) : S3.Idx → EReal :=
  Host.reduceAdd (F := Ideal) (shapeCast S16x3 (extractStridedSlice S16x1x3 ![0, 0, 0] A2 slices_S16x8x128_S16x1x3_0_0_0) shapeCasts_S16x1x3_S16x3)
    (constant (F := Ideal) S_ .f32 0x00000000#32) reducesTo_S16x3_S3_d0 h_S_

/-- The loss from the partial sums: each column sum divided by the number of cells, the three added. -/
def lossTail (A2 : S16x8x128.Idx → EReal) : S_.Idx → EReal :=
  addf (F := Ideal)
    (addf (F := Ideal)
      (Host.divf (F := Ideal) (shapeCast S_ (extractStridedSlice S1 ![0] (partVec A2) slices_S3_S1_0) shapeCasts_S1_S_) (constant (F := Ideal) S_ .f32 0x4A000000#32))
      (Host.divf (F := Ideal) (shapeCast S_ (extractStridedSlice S1 ![1] (partVec A2) slices_S3_S1_1) shapeCasts_S1_S_) (constant (F := Ideal) S_ .f32 0x4A000000#32)))
    (Host.divf (F := Ideal) (shapeCast S_ (extractStridedSlice S1 ![2] (partVec A2) slices_S3_S1_2) shapeCasts_S1_S_) (constant (F := Ideal) S_ .f32 0x4A000000#32))

set_option maxHeartbeats 400000 in
/-- The first result after the host operations, from any contents of the buffers: the loss tail of the partial-sum array. -/
theorem tail21 (W : Valuation τ sig (Elt Ideal)) :
    StableHlo.after (hostOps1 (F := Ideal)) W (Proc.devRef .tc main_v21) = lossTail (W (Proc.devRef .tc main_v7_2)) := by
  after_results
  rfl

set_option maxHeartbeats 400000 in
/-- The second result after the host operations: the flow array broadcast under a leading unit axis. -/
theorem tail22 (W : Valuation τ sig (Elt Ideal)) :
    StableHlo.after (hostOps1 (F := Ideal)) W (Proc.devRef .tc main_v22)
      = broadcastInDim S1x3x1024x2048 ![1, 2, 3] bcast_S3x1024x2048_S1x3x1024x2048_1_2_3 (W (Proc.devRef .tc main_v7_0)) := by
  after_results

/-- Entry l of the column sums. -/
theorem partVec_apply (A2 : S16x8x128.Idx → EReal) (l : Fin 3) :
    partVec A2 (ix1 l) = ∑ t : Fin 16, A2 (ix3 t (0 : Fin 8) (⟨l.val, by omega⟩ : Fin 128)) := by
  have hR : S16x3.Reduces [0] S3 := by decide
  unfold partVec
  rw [hostReduceAdd_apply, Ideal.hostReduceAdd_single reducesTo_S16x3_S3_d0 hR]
  rw [constant_apply, Ideal.ofBits_zero_f32, zero_add]
  refine Finset.sum_congr rfl fun t _ => ?_
  refine (shapeCast_apply _ shapeCasts_S16x1x3_S16x3 _ (ix3 t (0 : Fin 1) l) ?_).trans
    (extractStridedSlice_apply ![0, 0, 0] A2 slices_S16x8x128_S16x1x3_0_0_0 _ _ ?_)
  · rw [Shape.rowMajor_val_three, Shape.rowMajor_val_two]
    show (t.val * 1 + 0) * 3 + l.val = t.val * 3 + l.val
    omega
  · intro a
    match a with
    | ⟨0, _⟩ => show t.val = 0 + t.val; omega
    | ⟨1, _⟩ => show 0 = 0 + 0; rfl
    | ⟨2, _⟩ => show l.val = 0 + l.val; omega

/-- A one-entry slice of a 3-vector reshaped to a scalar is that entry. -/
theorem pick (R : S3.Idx → EReal) (off : Fin 1 → Nat) (h : S3.Slices off S1) (l : Fin 3) (hl : off 0 = l.val) (j : S_.Idx) :
    shapeCast S_ (extractStridedSlice S1 off R h) shapeCasts_S1_S_ j = R (ix1 l) := by
  refine (shapeCast_apply _ shapeCasts_S1_S_ j (ix1 (0 : Fin 1)) ?_).trans (extractStridedSlice_apply off R h (ix1 0) (ix1 l) ?_)
  · rw [Shape.rowMajor_val_one]
    exact (Shape.rowMajorPi_zero _ _).symm
  · intro a
    match a with
    | ⟨0, _⟩ => show l.val = off 0 + 0; omega

/-- The loss tail, read: the three sums over t of the entries (t, 0, l), each divided by the number of cells. -/
theorem lossTail_apply (A2 : S16x8x128.Idx → EReal) (j : S_.Idx) :
    lossTail A2 j
      = Ideal.div (∑ t : Fin 16, A2 (ix3 t (0 : Fin 8) (0 : Fin 128))) Cert.Spec.cells
        + Ideal.div (∑ t : Fin 16, A2 (ix3 t (0 : Fin 8) (1 : Fin 128))) Cert.Spec.cells
        + Ideal.div (∑ t : Fin 16, A2 (ix3 t (0 : Fin 8) (2 : Fin 128))) Cert.Spec.cells := by
  unfold lossTail
  rw [addf_apply, addf_apply, hostDivf_apply, hostDivf_apply, hostDivf_apply, constant_apply,
    pick (partVec A2) ![0] slices_S3_S1_0 0 rfl j, pick (partVec A2) ![1] slices_S3_S1_1 1 rfl j,
    pick (partVec A2) ![2] slices_S3_S1_2 2 rfl j, partVec_apply, partVec_apply, partVec_apply]
  rfl

/-- Summing the 16 tiles' sums over their 64 rows is summing over the 1024 rows. -/
theorem sum_tiles (f : ℕ → ℕ → EReal) :
    ∑ t : Fin 16, ∑ r : Fin 64, ∑ q : Fin 2048, f (64 * t.val + r.val) q.val = Cert.Spec.total f :=
  Cert.Lib.sum_blocks_of_eq (B := 16) (R := 64) (N := 1024) rfl (fun R : Fin 1024 => ∑ q : Fin 2048, f R.val q.val)
    (fun t r => ⟨64 * t.val + r.val, by omega⟩) (fun t r => by show 64 * t.val + r.val = t.val * 64 + r.val; omega)
end Cert.KernelIdeal.Hand
end
-- ==== Proof.KRun.lean ====
/-
  The run of the program at the extended reals, read.  After the call the three output arrays hold the substituted
  fields, the equation mask and the per-tile partial sums; the host operations that follow turn the partial sums into
  the loss (the three mean squared residuals added) and give the flow array its leading unit axis.  The two argument
  arrays are never written.
-/
import proofs.«148698_j59665685676147_2_alg».proof.Proof.Gen.KernelIdeal.Frame
import proofs.«148698_j59665685676147_2_alg».proof.Proof.KRunWin
import proofs.«148698_j59665685676147_2_alg».proof.Proof.KRunTail
import proofs.«148698_j59665685676147_2_alg».proof.Proof.Spec
import Idealize.ShloMosaic.Lib.Pipeline.Value
import Idealize.ShloMosaic.Lib.StableHlo.Run
set_option maxRecDepth 16384
noncomputable section
namespace Cert.KernelIdeal.Hand
open Idealize.ShloMosaic Idealize.ShloMosaic.TcCoe Idealize.SL.Sem Idealize.ShloMosaic.ValueIdx
open Cert.KernelIdeal Cert.KernelIdeal.Gen
open Idealize.ShloMosaic.Pipeline (Dat)

/-- The first result: the column sums of the partial sums are the three totals over the grid, so the host's quotients
    and additions give the loss. -/
theorem tail_loss (m : (ℓ : Loc nD τ sig) → Buf (Elt Ideal) ℓ) (c : Dev nD) : Pipeline.afterTail₀ cfgs (dats m) 0 (V0 m) [hostOps1] c main_v21
    = Cert.Spec.loss (m ((c.tc : Thread nD τ).loc main_arg0)) (m ((c.tc : Thread nD τ).loc main_arg1)) := by
  unfold Pipeline.afterTail₀
  show StableHlo.after hostOps1 _ (Proc.devRef .tc main_v21) = _
  rw [tail21]
  have hA : Pipeline.withArrays (cfgs 0).spec c (V0 m c) (fun w => (dats m 0 c).arrAt w (cfgs 0).N) (Proc.devRef .tc main_v7_2) = partArr m c :=
    (Pipeline.withArrays_arr spec0 winFacts0.arr_inj c _ _ 2).trans (final2 m c)
  rw [hA]
  funext j
  rw [lossTail_apply]
  simp only [(partArr_apply m c _).1, (partArr_apply m c _).2.1, (partArr_apply m c _).2.2, sum_tiles]
  rfl

/-- The second result: the flow array under a leading unit axis, entry (0, k, R, C) from entry (k, R, C). -/
theorem tail_flow (m : (ℓ : Loc nD τ sig) → Buf (Elt Ideal) ℓ) (c : Dev nD) : Pipeline.afterTail₀ cfgs (dats m) 0 (V0 m) [hostOps1] c main_v22
    = Cert.Spec.flowbc (m ((c.tc : Thread nD τ).loc main_arg0)) (m ((c.tc : Thread nD τ).loc main_arg1)) := by
  unfold Pipeline.afterTail₀
  show StableHlo.after hostOps1 _ (Proc.devRef .tc main_v22) = _
  rw [tail22]
  have hA : Pipeline.withArrays (cfgs 0).spec c (V0 m c) (fun w => (dats m 0 c).arrAt w (cfgs 0).N) (Proc.devRef .tc main_v7_0) = flowArr m c :=
    (Pipeline.withArrays_arr spec0 winFacts0.arr_inj c _ _ 0).trans (final0 m c)
  rw [hA]
  funext i
  exact broadcastInDim_apply ![1, 2, 3] bcast_S3x1024x2048_S1x3x1024x2048_1_2_3 (flowArr m c) i (ix3 (i 1) (i 2) (i 3)) (fun a => by
    match a with
    | ⟨0, _⟩ => rfl
    | ⟨1, _⟩ => rfl
    | ⟨2, _⟩ => rfl)

/-- Every weakly fair execution terminates with the loss, the substituted fields and the equation mask in the three
    result buffers, and the two arguments as launched. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v21) = Cert.Spec.loss (m ((c.tc : Thread nD τ).loc main_arg0)) (m ((c.tc : Thread nD τ).loc main_arg1))
      ∧ r.2.mem ((c.tc : Thread nD τ).loc main_v22) = Cert.Spec.flowbc (m ((c.tc : Thread nD τ).loc main_arg0)) (m ((c.tc : Thread nD τ).loc main_arg1))
      ∧ r.2.mem ((c.tc : Thread nD τ).loc main_v7_1) = Cert.Spec.eqmask (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v21 (Pipeline.mem_restRefs_of main_v21 (by decide) (by decide))).trans (tail_loss m c),
     ((h c).2 main_v22 (Pipeline.mem_restRefs_of main_v22 (by decide) (by decide))).trans (tail_flow m c),
     ((h c).1 1).trans (final1 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)
end Cert.KernelIdeal.Hand
end
-- ==== Proof.ROps.lean ====
/- The reference program's @main as three stretches of host operations in order (a called function's operations stand at its call),
   and that each touches TensorCore buffers only. -/
import proofs.«148698_j59665685676147_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- operations 1 to 43 of the stretch below. -/
abbrev opsA_0 : List (HloOp τ sig (Elt F)) :=
  [ StableHlo.unary main_arg0 main_v0 ((extractStridedSlice S1x1x1024x2048 ![0, 1, 0, 0] · slices_S1x2x1024x2048_S1x1x1024x2048_0_1_0_0) : (⟨S1x2x1024x2048, .i32⟩ : BufTy).Contents (Elt F) → (⟨S1x1x1024x2048, .i32⟩ : BufTy).Contents (Elt F)),
    StableHlo.reshape main_v0 main_v1 rfl shapeCasts_S1x1x1024x2048_S1024x2048,
    StableHlo.nullary main_c (constantI S_ 32 2#32),
    StableHlo.unary main_c main_v2 (broadcastInDim S1024x2048 ![] bcast_S_S1024x2048 : (⟨S_, .i32⟩ : BufTy).Contents (Elt F) → (⟨S1024x2048, .i32⟩ : BufTy).Contents (Elt F)),
    StableHlo.binary main_v1 main_v2 main_v3 (cmpi .eq : (⟨S1024x2048, .i32⟩ : BufTy).Contents (Elt F) → (⟨S1024x2048, .i32⟩ : BufTy).Contents (Elt F) → (⟨S1024x2048, .i1⟩ : BufTy).Contents (Elt F)),
    StableHlo.nullary main_c_0 (constantI S_ 32 1#32),
    StableHlo.unary main_c_0 main_v4 (broadcastInDim S1024x2048 ![] bcast_S_S1024x2048 : (⟨S_, .i32⟩ : BufTy).Contents (Elt F) → (⟨S1024x2048, .i32⟩ : BufTy).Contents (Elt F)),
    StableHlo.binary main_v1 main_v4 main_v5 (cmpi .eq : (⟨S1024x2048, .i32⟩ : BufTy).Contents (Elt F) → (⟨S1024x2048, .i32⟩ : BufTy).Contents (Elt F) → (⟨S1024x2048, .i1⟩ : BufTy).Contents (Elt F)),
    StableHlo.unary main_arg1 main_v6 ((extractStridedSlice S1x1x1024x2048 ![0, 0, 0, 0] · slices_S1x3x1024x2048_S1x1x1024x2048_0_0_0_0) : (⟨S1x3x1024x2048, .f32⟩ : BufTy).Contents (Elt F) → (⟨S1x1x1024x2048, .f32⟩ : BufTy).Contents (Elt F)),
    StableHlo.reshape main_v6 main_v7 rfl shapeCasts_S1x1x1024x2048_S1x1024x2048,
    StableHlo.nullary main_cst (constant S_ .f32 0x40400000#32),
    StableHlo.TRef.unary (.of main_cst : StableHlo.TRef sig ⟨S_, .f32⟩) (.of main_call0_v0 : StableHlo.TRef sig ⟨S_, .f32⟩) id,
    StableHlo.TRef.unary (.of main_v5 : StableHlo.TRef sig ⟨S1024x2048, .i1⟩) (.of main_call0_v1 : StableHlo.TRef sig ⟨S1x1024x2048, .i1⟩) (broadcastInDim S1x1024x2048 ![1, 2] bcast_S1024x2048_S1x1024x2048_1_2),
    StableHlo.TRef.unary (.of main_call0_v0 : StableHlo.TRef sig ⟨S_, .f32⟩) (.of main_call0_v2 : StableHlo.TRef sig ⟨S1x1024x2048, .f32⟩) (broadcastInDim S1x1024x2048 ![] bcast_S_S1x1024x2048),
    StableHlo.TRef.ternary (.of main_call0_v1 : StableHlo.TRef sig ⟨S1x1024x2048, .i1⟩) (.of main_call0_v2 : StableHlo.TRef sig ⟨S1x1024x2048, .f32⟩) (.of main_v7 : StableHlo.TRef sig ⟨S1x1024x2048, .f32⟩) (.of main_v8 : StableHlo.TRef sig ⟨S1x1024x2048, .f32⟩) select,
    StableHlo.nullary main_cst_1 (constant S_ .f32 0x00000000#32),
    StableHlo.TRef.unary (.of main_cst_1 : StableHlo.TRef sig ⟨S_, .f32⟩) (.of main_call1_v0 : StableHlo.TRef sig ⟨S_, .f32⟩) id,
    StableHlo.TRef.unary (.of main_v3 : StableHlo.TRef sig ⟨S1024x2048, .i1⟩) (.of main_call1_v1 : StableHlo.TRef sig ⟨S1x1024x2048, .i1⟩) (broadcastInDim S1x1024x2048 ![1, 2] bcast_S1024x2048_S1x1024x2048_1_2),
    StableHlo.TRef.unary (.of main_call1_v0 : StableHlo.TRef sig ⟨S_, .f32⟩) (.of main_call1_v2 : StableHlo.TRef sig ⟨S1x1024x2048, .f32⟩) (broadcastInDim S1x1024x2048 ![] bcast_S_S1x1024x2048),
    StableHlo.TRef.ternary (.of main_call1_v1 : StableHlo.TRef sig ⟨S1x1024x2048, .i1⟩) (.of main_call1_v2 : StableHlo.TRef sig ⟨S1x1024x2048, .f32⟩) (.of main_v8 : StableHlo.TRef sig ⟨S1x1024x2048, .f32⟩) (.of main_v9 : StableHlo.TRef sig ⟨S1x1024x2048, .f32⟩) select,
    StableHlo.nullary main_c_2 (constantI S_ 32 1#32),
    StableHlo.unary main_c_2 main_v10 (broadcastInDim S1024x2048 ![] bcast_S_S1024x2048 : (⟨S_, .i32⟩ : BufTy).Contents (Elt F) → (⟨S1024x2048, .i32⟩ : BufTy).Contents (Elt F)),
    StableHlo.binary main_v1 main_v10 main_v11 (cmpi .eq : (⟨S1024x2048, .i32⟩ : BufTy).Contents (Elt F) → (⟨S1024x2048, .i32⟩ : BufTy).Contents (Elt F) → (⟨S1024x2048, .i1⟩ : BufTy).Contents (Elt F)),
    StableHlo.nullary main_c_3 (constantI S_ 32 2#32),
    StableHlo.unary main_c_3 main_v12 (broadcastInDim S1024x2048 ![] bcast_S_S1024x2048 : (⟨S_, .i32⟩ : BufTy).Contents (Elt F) → (⟨S1024x2048, .i32⟩ : BufTy).Contents (Elt F)),
    StableHlo.binary main_v1 main_v12 main_v13 (cmpi .eq : (⟨S1024x2048, .i32⟩ : BufTy).Contents (Elt F) → (⟨S1024x2048, .i32⟩ : BufTy).Contents (Elt F) → (⟨S1024x2048, .i1⟩ : BufTy).Contents (Elt F)),
    StableHlo.binary main_v11 main_v13 main_v14 (ori : (⟨S1024x2048, .i1⟩ : BufTy).Contents (Elt F) → (⟨S1024x2048, .i1⟩ : BufTy).Contents (Elt F) → (⟨S1024x2048, .i1⟩ : BufTy).Contents (Elt F)),
    StableHlo.unary main_arg1 main_v15 ((extractStridedSlice S1x1x1024x2048 ![0, 1, 0, 0] · slices_S1x3x1024x2048_S1x1x1024x2048_0_1_0_0) : (⟨S1x3x1024x2048, .f32⟩ : BufTy).Contents (Elt F) → (⟨S1x1x1024x2048, .f32⟩ : BufTy).Contents (Elt F)),
    StableHlo.reshape main_v15 main_v16 rfl shapeCasts_S1x1x1024x2048_S1x1024x2048,
    StableHlo.nullary main_cst_4 (constant S_ .f32 0x00000000#32),
    StableHlo.TRef.unary (.of main_cst_4 : StableHlo.TRef sig ⟨S_, .f32⟩) (.of main_call2_v0 : StableHlo.TRef sig ⟨S_, .f32⟩) id,
    StableHlo.TRef.unary (.of main_v14 : StableHlo.TRef sig ⟨S1024x2048, .i1⟩) (.of main_call2_v1 : StableHlo.TRef sig ⟨S1x1024x2048, .i1⟩) (broadcastInDim S1x1024x2048 ![1, 2] bcast_S1024x2048_S1x1024x2048_1_2),
    StableHlo.TRef.unary (.of main_call2_v0 : StableHlo.TRef sig ⟨S_, .f32⟩) (.of main_call2_v2 : StableHlo.TRef sig ⟨S1x1024x2048, .f32⟩) (broadcastInDim S1x1024x2048 ![] bcast_S_S1x1024x2048),
    StableHlo.TRef.ternary (.of main_call2_v1 : StableHlo.TRef sig ⟨S1x1024x2048, .i1⟩) (.of main_call2_v2 : StableHlo.TRef sig ⟨S1x1024x2048, .f32⟩) (.of main_v16 : StableHlo.TRef sig ⟨S1x1024x2048, .f32⟩) (.of main_v17 : StableHlo.TRef sig ⟨S1x1024x2048, .f32⟩) select,
    StableHlo.nullary main_c_5 (constantI S_ 32 2#32),
    StableHlo.unary main_c_5 main_v18 (broadcastInDim S1024x2048 ![] bcast_S_S1024x2048 : (⟨S_, .i32⟩ : BufTy).Contents (Elt F) → (⟨S1024x2048, .i32⟩ : BufTy).Contents (Elt F)),
    StableHlo.binary main_v1 main_v18 main_v19 (cmpi .eq : (⟨S1024x2048, .i32⟩ : BufTy).Contents (Elt F) → (⟨S1024x2048, .i32⟩ : BufTy).Contents (Elt F) → (⟨S1024x2048, .i1⟩ : BufTy).Contents (Elt F)),
    StableHlo.nullary main_c_6 (constantI S_ 32 3#32),
    StableHlo.unary main_c_6 main_v20 (broadcastInDim S1024x2048 ![] bcast_S_S1024x2048 : (⟨S_, .i32⟩ : BufTy).Contents (Elt F) → (⟨S1024x2048, .i32⟩ : BufTy).Contents (Elt F)),
    StableHlo.binary main_v1 main_v20 main_v21 (cmpi .eq : (⟨S1024x2048, .i32⟩ : BufTy).Contents (Elt F) → (⟨S1024x2048, .i32⟩ : BufTy).Contents (Elt F) → (⟨S1024x2048, .i1⟩ : BufTy).Contents (Elt F)),
    StableHlo.binary main_v19 main_v21 main_v22 (ori : (⟨S1024x2048, .i1⟩ : BufTy).Contents (Elt F) → (⟨S1024x2048, .i1⟩ : BufTy).Contents (Elt F) → (⟨S1024x2048, .i1⟩ : BufTy).Contents (Elt F)),
    StableHlo.unary main_arg1 main_v23 ((extractStridedSlice S1x1x1024x2048 ![0, 2, 0, 0] · slices_S1x3x1024x2048_S1x1x1024x2048_0_2_0_0) : (⟨S1x3x1024x2048, .f32⟩ : BufTy).Contents (Elt F) → (⟨S1x1x1024x2048, .f32⟩ : BufTy).Contents (Elt F)),
    StableHlo.reshape main_v23 main_v24 rfl shapeCasts_S1x1x1024x2048_S1x1024x2048 ]

theorem opsA_0_sub : (opsA_0 : List (HloOp τ sig (Elt F))).Forall fun op => op.bufs ⊆ StableHlo.tcRefs τ sig :=
  ⟨StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.nullary_bufs_sub .., StableHlo.unary_bufs_sub .., StableHlo.unary_bufs_sub .., StableHlo.unary_bufs_sub .., StableHlo.ternary_bufs_sub .., StableHlo.nullary_bufs_sub .., StableHlo.unary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.reshape_bufs_sub .., StableHlo.nullary_bufs_sub .., StableHlo.unary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.reshape_bufs_sub ..⟩

/-- operations 44 to 57 of the stretch below. -/
abbrev opsA_1 : List (HloOp τ sig (Elt F)) :=
  [ StableHlo.nullary main_cst_7 (constant S_ .f32 0x00000000#32),
    StableHlo.TRef.unary (.of main_cst_7 : StableHlo.TRef sig ⟨S_, .f32⟩) (.of main_call3_v0 : StableHlo.TRef sig ⟨S_, .f32⟩) id,
    StableHlo.TRef.unary (.of main_v22 : StableHlo.TRef sig ⟨S1024x2048, .i1⟩) (.of main_call3_v1 : StableHlo.TRef sig ⟨S1x1024x2048, .i1⟩) (broadcastInDim S1x1024x2048 ![1, 2] bcast_S1024x2048_S1x1024x2048_1_2),
    StableHlo.TRef.unary (.of main_call3_v0 : StableHlo.TRef sig ⟨S_, .f32⟩) (.of main_call3_v2 : StableHlo.TRef sig ⟨S1x1024x2048, .f32⟩) (broadcastInDim S1x1024x2048 ![] bcast_S_S1x1024x2048),
    StableHlo.TRef.ternary (.of main_call3_v1 : StableHlo.TRef sig ⟨S1x1024x2048, .i1⟩) (.of main_call3_v2 : StableHlo.TRef sig ⟨S1x1024x2048, .f32⟩) (.of main_v24 : StableHlo.TRef sig ⟨S1x1024x2048, .f32⟩) (.of main_v25 : StableHlo.TRef sig ⟨S1x1024x2048, .f32⟩) select,
    StableHlo.unary main_v9 main_v26 (broadcastInDim S1x1x1024x2048 ![0, 2, 3] bcast_S1x1024x2048_S1x1x1024x2048_0_2_3 : (⟨S1x1024x2048, .f32⟩ : BufTy).Contents (Elt F) → (⟨S1x1x1024x2048, .f32⟩ : BufTy).Contents (Elt F)),
    StableHlo.unary main_v17 main_v27 (broadcastInDim S1x1x1024x2048 ![0, 2, 3] bcast_S1x1024x2048_S1x1x1024x2048_0_2_3 : (⟨S1x1024x2048, .f32⟩ : BufTy).Contents (Elt F) → (⟨S1x1x1024x2048, .f32⟩ : BufTy).Contents (Elt F)),
    StableHlo.unary main_v25 main_v28 (broadcastInDim S1x1x1024x2048 ![0, 2, 3] bcast_S1x1024x2048_S1x1x1024x2048_0_2_3 : (⟨S1x1024x2048, .f32⟩ : BufTy).Contents (Elt F) → (⟨S1x1x1024x2048, .f32⟩ : BufTy).Contents (Elt F)),
    StableHlo.nary ![main_v26, main_v27, main_v28] main_v29 (fun u => concatenate S1x3x1024x2048 1 [⟨S1x1x1024x2048, u 0⟩, ⟨S1x1x1024x2048, u 1⟩, ⟨S1x1x1024x2048, u 2⟩] concatenates_S1x1x1024x2048_S1x1x1024x2048_S1x1x1024x2048_S1x3x1024x2048_d1),
    StableHlo.unary main_v29 main_v30 ((extractStridedSlice S1x1x1024x2048 ![0, 0, 0, 0] · slices_S1x3x1024x2048_S1x1x1024x2048_0_0_0_0) : (⟨S1x3x1024x2048, .f32⟩ : BufTy).Contents (Elt F) → (⟨S1x1x1024x2048, .f32⟩ : BufTy).Contents (Elt F)),
    StableHlo.reshape main_v30 main_v31 rfl shapeCasts_S1x1x1024x2048_S1x1024x2048,
    StableHlo.unary main_v29 main_v32 ((extractStridedSlice S1x1x1024x2048 ![0, 1, 0, 0] · slices_S1x3x1024x2048_S1x1x1024x2048_0_1_0_0) : (⟨S1x3x1024x2048, .f32⟩ : BufTy).Contents (Elt F) → (⟨S1x1x1024x2048, .f32⟩ : BufTy).Contents (Elt F)),
    StableHlo.reshape main_v32 main_v33 rfl shapeCasts_S1x1x1024x2048_S1x1024x2048,
    StableHlo.nullary main_c_8 (constantI S_ 32 0#32) ]

theorem opsA_1_sub : (opsA_1 : List (HloOp τ sig (Elt F))).Forall fun op => op.bufs ⊆ StableHlo.tcRefs τ sig :=
  ⟨StableHlo.nullary_bufs_sub .., StableHlo.unary_bufs_sub .., StableHlo.unary_bufs_sub .., StableHlo.unary_bufs_sub .., StableHlo.ternary_bufs_sub .., StableHlo.unary_bufs_sub .., StableHlo.unary_bufs_sub .., StableHlo.unary_bufs_sub .., StableHlo.nary_bufs_sub .., StableHlo.unary_bufs_sub .., StableHlo.reshape_bufs_sub .., StableHlo.unary_bufs_sub .., StableHlo.reshape_bufs_sub .., StableHlo.nullary_bufs_sub ..⟩

/-- 57 operations: the boundary codes, the Dirichlet substitution and the three substituted fields stacked (up to the reflection). -/
abbrev opsA : List (HloOp τ sig (Elt F)) := opsA_0 ++ opsA_1

/-- operations 1 to 16 of the stretch below. -/
abbrev opsB_0 : List (HloOp τ sig (Elt F)) :=
  [ StableHlo.TRef.unary (.of main_v29 : StableHlo.TRef sig ⟨S1x3x1024x2048, .f32⟩) (.of main_call4_v0 : StableHlo.TRef sig ⟨S1x3x1x2048, .f32⟩) (extractStridedSlice S1x3x1x2048 ![0, 0, 0, 0] · slices_S1x3x1024x2048_S1x3x1x2048_0_0_0_0),
    StableHlo.TRef.unary (.of main_v29 : StableHlo.TRef sig ⟨S1x3x1024x2048, .f32⟩) (.of main_call4_v1 : StableHlo.TRef sig ⟨S1x3x1x2048, .f32⟩) (extractStridedSlice S1x3x1x2048 ![0, 0, 1, 0] · slices_S1x3x1024x2048_S1x3x1x2048_0_0_1_0),
    StableHlo.TRef.unary (.of main_call4_v1 : StableHlo.TRef sig ⟨S1x3x1x2048, .f32⟩) (.of main_call4_v2 : StableHlo.TRef sig ⟨S1x3x1x2048, .f32⟩) (Host.reverse [2]),
    StableHlo.TRef.binary (.of main_call4_v2 : StableHlo.TRef sig ⟨S1x3x1x2048, .f32⟩) (.of main_v29 : StableHlo.TRef sig ⟨S1x3x1024x2048, .f32⟩) (.of main_call4_v3 : StableHlo.TRef sig ⟨S1x3x1025x2048, .f32⟩) (fun a b => concatenate S1x3x1025x2048 2 [⟨S1x3x1x2048, a⟩, ⟨S1x3x1024x2048, b⟩] concatenates_S1x3x1x2048_S1x3x1024x2048_S1x3x1025x2048_d2),
    StableHlo.TRef.unary (.of main_call4_v3 : StableHlo.TRef sig ⟨S1x3x1025x2048, .f32⟩) (.of main_call4_v4 : StableHlo.TRef sig ⟨S1x3x1x2048, .f32⟩) (extractStridedSlice S1x3x1x2048 ![0, 0, 1024, 0] · slices_S1x3x1025x2048_S1x3x1x2048_0_0_1024_0),
    StableHlo.TRef.unary (.of main_call4_v3 : StableHlo.TRef sig ⟨S1x3x1025x2048, .f32⟩) (.of main_call4_v5 : StableHlo.TRef sig ⟨S1x3x1x2048, .f32⟩) (extractStridedSlice S1x3x1x2048 ![0, 0, 1023, 0] · slices_S1x3x1025x2048_S1x3x1x2048_0_0_1023_0),
    StableHlo.TRef.unary (.of main_call4_v5 : StableHlo.TRef sig ⟨S1x3x1x2048, .f32⟩) (.of main_call4_v6 : StableHlo.TRef sig ⟨S1x3x1x2048, .f32⟩) (Host.reverse [2]),
    StableHlo.TRef.binary (.of main_call4_v3 : StableHlo.TRef sig ⟨S1x3x1025x2048, .f32⟩) (.of main_call4_v6 : StableHlo.TRef sig ⟨S1x3x1x2048, .f32⟩) (.of main_call4_v7 : StableHlo.TRef sig ⟨S1x3x1026x2048, .f32⟩) (fun a b => concatenate S1x3x1026x2048 2 [⟨S1x3x1025x2048, a⟩, ⟨S1x3x1x2048, b⟩] concatenates_S1x3x1025x2048_S1x3x1x2048_S1x3x1026x2048_d2),
    StableHlo.TRef.unary (.of main_call4_v7 : StableHlo.TRef sig ⟨S1x3x1026x2048, .f32⟩) (.of main_call4_v8 : StableHlo.TRef sig ⟨S1x3x1026x1, .f32⟩) (extractStridedSlice S1x3x1026x1 ![0, 0, 0, 0] · slices_S1x3x1026x2048_S1x3x1026x1_0_0_0_0),
    StableHlo.TRef.unary (.of main_call4_v7 : StableHlo.TRef sig ⟨S1x3x1026x2048, .f32⟩) (.of main_call4_v9 : StableHlo.TRef sig ⟨S1x3x1026x1, .f32⟩) (extractStridedSlice S1x3x1026x1 ![0, 0, 0, 1] · slices_S1x3x1026x2048_S1x3x1026x1_0_0_0_1),
    StableHlo.TRef.unary (.of main_call4_v9 : StableHlo.TRef sig ⟨S1x3x1026x1, .f32⟩) (.of main_call4_v10 : StableHlo.TRef sig ⟨S1x3x1026x1, .f32⟩) (Host.reverse [3]),
    StableHlo.TRef.binary (.of main_call4_v10 : StableHlo.TRef sig ⟨S1x3x1026x1, .f32⟩) (.of main_call4_v7 : StableHlo.TRef sig ⟨S1x3x1026x2048, .f32⟩) (.of main_call4_v11 : StableHlo.TRef sig ⟨S1x3x1026x2049, .f32⟩) (fun a b => concatenate S1x3x1026x2049 3 [⟨S1x3x1026x1, a⟩, ⟨S1x3x1026x2048, b⟩] concatenates_S1x3x1026x1_S1x3x1026x2048_S1x3x1026x2049_d3),
    StableHlo.TRef.unary (.of main_call4_v11 : StableHlo.TRef sig ⟨S1x3x1026x2049, .f32⟩) (.of main_call4_v12 : StableHlo.TRef sig ⟨S1x3x1026x1, .f32⟩) (extractStridedSlice S1x3x1026x1 ![0, 0, 0, 2048] · slices_S1x3x1026x2049_S1x3x1026x1_0_0_0_2048),
    StableHlo.TRef.unary (.of main_call4_v11 : StableHlo.TRef sig ⟨S1x3x1026x2049, .f32⟩) (.of main_call4_v13 : StableHlo.TRef sig ⟨S1x3x1026x1, .f32⟩) (extractStridedSlice S1x3x1026x1 ![0, 0, 0, 2047] · slices_S1x3x1026x2049_S1x3x1026x1_0_0_0_2047),
    StableHlo.TRef.unary (.of main_call4_v13 : StableHlo.TRef sig ⟨S1x3x1026x1, .f32⟩) (.of main_call4_v14 : StableHlo.TRef sig ⟨S1x3x1026x1, .f32⟩) (Host.reverse [3]),
    StableHlo.TRef.binary (.of main_call4_v11 : StableHlo.TRef sig ⟨S1x3x1026x2049, .f32⟩) (.of main_call4_v14 : StableHlo.TRef sig ⟨S1x3x1026x1, .f32⟩) (.of main_v34 : StableHlo.TRef sig ⟨S1x3x1026x2050, .f32⟩) (fun a b => concatenate S1x3x1026x2050 3 [⟨S1x3x1026x2049, a⟩, ⟨S1x3x1026x1, b⟩] concatenates_S1x3x1026x2049_S1x3x1026x1_S1x3x1026x2050_d3) ]

theorem opsB_0_sub : (opsB_0 : List (HloOp τ sig (Elt F))).Forall fun op => op.bufs ⊆ StableHlo.tcRefs τ sig :=
  ⟨StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub ..⟩

/-- 16 operations: the reflection by one cell on the two grid axes, as the slices, reversals and concatenations it is printed as. -/
abbrev opsB : List (HloOp τ sig (Elt F)) := opsB_0

/-- operations 1 to 43 of the stretch below. -/
abbrev opsC_0 : List (HloOp τ sig (Elt F)) :=
  [ StableHlo.unary main_v34 main_v35 ((extractStridedSlice S1x1x1026x2050 ![0, 0, 0, 0] · slices_S1x3x1026x2050_S1x1x1026x2050_0_0_0_0) : (⟨S1x3x1026x2050, .f32⟩ : BufTy).Contents (Elt F) → (⟨S1x1x1026x2050, .f32⟩ : BufTy).Contents (Elt F)),
    StableHlo.reshape main_v35 main_v36 rfl shapeCasts_S1x1x1026x2050_S1x1026x2050,
    StableHlo.unary main_v34 main_v37 ((extractStridedSlice S1x1x1026x2050 ![0, 1, 0, 0] · slices_S1x3x1026x2050_S1x1x1026x2050_0_1_0_0) : (⟨S1x3x1026x2050, .f32⟩ : BufTy).Contents (Elt F) → (⟨S1x1x1026x2050, .f32⟩ : BufTy).Contents (Elt F)),
    StableHlo.reshape main_v37 main_v38 rfl shapeCasts_S1x1x1026x2050_S1x1026x2050,
    StableHlo.unary main_v34 main_v39 ((extractStridedSlice S1x1x1026x2050 ![0, 2, 0, 0] · slices_S1x3x1026x2050_S1x1x1026x2050_0_2_0_0) : (⟨S1x3x1026x2050, .f32⟩ : BufTy).Contents (Elt F) → (⟨S1x1x1026x2050, .f32⟩ : BufTy).Contents (Elt F)),
    StableHlo.reshape main_v39 main_v40 rfl shapeCasts_S1x1x1026x2050_S1x1026x2050,
    StableHlo.nullary main_c_9 (constantI S_ 32 4#32),
    StableHlo.unary main_c_9 main_v41 (broadcastInDim S1024x2048 ![] bcast_S_S1024x2048 : (⟨S_, .i32⟩ : BufTy).Contents (Elt F) → (⟨S1024x2048, .i32⟩ : BufTy).Contents (Elt F)),
    StableHlo.binary main_v1 main_v41 main_v42 (cmpi .eq : (⟨S1024x2048, .i32⟩ : BufTy).Contents (Elt F) → (⟨S1024x2048, .i32⟩ : BufTy).Contents (Elt F) → (⟨S1024x2048, .i1⟩ : BufTy).Contents (Elt F)),
    StableHlo.nullary main_c_10 (constantI S_ 32 8#32),
    StableHlo.unary main_c_10 main_v43 (broadcastInDim S1024x2048 ![] bcast_S_S1024x2048 : (⟨S_, .i32⟩ : BufTy).Contents (Elt F) → (⟨S1024x2048, .i32⟩ : BufTy).Contents (Elt F)),
    StableHlo.binary main_v1 main_v43 main_v44 (cmpi .eq : (⟨S1024x2048, .i32⟩ : BufTy).Contents (Elt F) → (⟨S1024x2048, .i32⟩ : BufTy).Contents (Elt F) → (⟨S1024x2048, .i1⟩ : BufTy).Contents (Elt F)),
    StableHlo.binary main_v42 main_v44 main_v45 (ori : (⟨S1024x2048, .i1⟩ : BufTy).Contents (Elt F) → (⟨S1024x2048, .i1⟩ : BufTy).Contents (Elt F) → (⟨S1024x2048, .i1⟩ : BufTy).Contents (Elt F)),
    StableHlo.nullary main_c_11 (constantI S_ 32 11#32),
    StableHlo.unary main_c_11 main_v46 (broadcastInDim S1024x2048 ![] bcast_S_S1024x2048 : (⟨S_, .i32⟩ : BufTy).Contents (Elt F) → (⟨S1024x2048, .i32⟩ : BufTy).Contents (Elt F)),
    StableHlo.binary main_v1 main_v46 main_v47 (cmpi .eq : (⟨S1024x2048, .i32⟩ : BufTy).Contents (Elt F) → (⟨S1024x2048, .i32⟩ : BufTy).Contents (Elt F) → (⟨S1024x2048, .i1⟩ : BufTy).Contents (Elt F)),
    StableHlo.binary main_v45 main_v47 main_v48 (ori : (⟨S1024x2048, .i1⟩ : BufTy).Contents (Elt F) → (⟨S1024x2048, .i1⟩ : BufTy).Contents (Elt F) → (⟨S1024x2048, .i1⟩ : BufTy).Contents (Elt F)),
    StableHlo.unary main_v40 main_v49 ((extractStridedSlice S1x1024x2048 ![0, 1, 2] · slices_S1x1026x2050_S1x1024x2048_0_1_2) : (⟨S1x1026x2050, .f32⟩ : BufTy).Contents (Elt F) → (⟨S1x1024x2048, .f32⟩ : BufTy).Contents (Elt F)),
    StableHlo.unary main_v40 main_v50 ((extractStridedSlice S1x1024x2048 ![0, 1, 1] · slices_S1x1026x2050_S1x1024x2048_0_1_1) : (⟨S1x1026x2050, .f32⟩ : BufTy).Contents (Elt F) → (⟨S1x1024x2048, .f32⟩ : BufTy).Contents (Elt F)),
    StableHlo.binary main_v49 main_v50 main_v51 (subf : (⟨S1x1024x2048, .f32⟩ : BufTy).Contents (Elt F) → (⟨S1x1024x2048, .f32⟩ : BufTy).Contents (Elt F) → (⟨S1x1024x2048, .f32⟩ : BufTy).Contents (Elt F)),
    StableHlo.nullary main_c_12 (constantI S_ 32 6#32),
    StableHlo.unary main_c_12 main_v52 (broadcastInDim S1024x2048 ![] bcast_S_S1024x2048 : (⟨S_, .i32⟩ : BufTy).Contents (Elt F) → (⟨S1024x2048, .i32⟩ : BufTy).Contents (Elt F)),
    StableHlo.binary main_v1 main_v52 main_v53 (cmpi .eq : (⟨S1024x2048, .i32⟩ : BufTy).Contents (Elt F) → (⟨S1024x2048, .i32⟩ : BufTy).Contents (Elt F) → (⟨S1024x2048, .i1⟩ : BufTy).Contents (Elt F)),
    StableHlo.nullary main_c_13 (constantI S_ 32 9#32),
    StableHlo.unary main_c_13 main_v54 (broadcastInDim S1024x2048 ![] bcast_S_S1024x2048 : (⟨S_, .i32⟩ : BufTy).Contents (Elt F) → (⟨S1024x2048, .i32⟩ : BufTy).Contents (Elt F)),
    StableHlo.binary main_v1 main_v54 main_v55 (cmpi .eq : (⟨S1024x2048, .i32⟩ : BufTy).Contents (Elt F) → (⟨S1024x2048, .i32⟩ : BufTy).Contents (Elt F) → (⟨S1024x2048, .i1⟩ : BufTy).Contents (Elt F)),
    StableHlo.binary main_v53 main_v55 main_v56 (ori : (⟨S1024x2048, .i1⟩ : BufTy).Contents (Elt F) → (⟨S1024x2048, .i1⟩ : BufTy).Contents (Elt F) → (⟨S1024x2048, .i1⟩ : BufTy).Contents (Elt F)),
    StableHlo.nullary main_c_14 (constantI S_ 32 10#32),
    StableHlo.unary main_c_14 main_v57 (broadcastInDim S1024x2048 ![] bcast_S_S1024x2048 : (⟨S_, .i32⟩ : BufTy).Contents (Elt F) → (⟨S1024x2048, .i32⟩ : BufTy).Contents (Elt F)),
    StableHlo.binary main_v1 main_v57 main_v58 (cmpi .eq : (⟨S1024x2048, .i32⟩ : BufTy).Contents (Elt F) → (⟨S1024x2048, .i32⟩ : BufTy).Contents (Elt F) → (⟨S1024x2048, .i1⟩ : BufTy).Contents (Elt F)),
    StableHlo.binary main_v56 main_v58 main_v59 (ori : (⟨S1024x2048, .i1⟩ : BufTy).Contents (Elt F) → (⟨S1024x2048, .i1⟩ : BufTy).Contents (Elt F) → (⟨S1024x2048, .i1⟩ : BufTy).Contents (Elt F)),
    StableHlo.unary main_v40 main_v60 ((extractStridedSlice S1x1024x2048 ![0, 1, 1] · slices_S1x1026x2050_S1x1024x2048_0_1_1) : (⟨S1x1026x2050, .f32⟩ : BufTy).Contents (Elt F) → (⟨S1x1024x2048, .f32⟩ : BufTy).Contents (Elt F)),
    StableHlo.unary main_v40 main_v61 ((extractStridedSlice S1x1024x2048 ![0, 1, 0] · slices_S1x1026x2050_S1x1024x2048_0_1_0) : (⟨S1x1026x2050, .f32⟩ : BufTy).Contents (Elt F) → (⟨S1x1024x2048, .f32⟩ : BufTy).Contents (Elt F)),
    StableHlo.binary main_v60 main_v61 main_v62 (subf : (⟨S1x1024x2048, .f32⟩ : BufTy).Contents (Elt F) → (⟨S1x1024x2048, .f32⟩ : BufTy).Contents (Elt F) → (⟨S1x1024x2048, .f32⟩ : BufTy).Contents (Elt F)),
    StableHlo.unary main_v40 main_v63 ((extractStridedSlice S1x1024x2048 ![0, 1, 2] · slices_S1x1026x2050_S1x1024x2048_0_1_2) : (⟨S1x1026x2050, .f32⟩ : BufTy).Contents (Elt F) → (⟨S1x1024x2048, .f32⟩ : BufTy).Contents (Elt F)),
    StableHlo.unary main_v40 main_v64 ((extractStridedSlice S1x1024x2048 ![0, 1, 0] · slices_S1x1026x2050_S1x1024x2048_0_1_0) : (⟨S1x1026x2050, .f32⟩ : BufTy).Contents (Elt F) → (⟨S1x1024x2048, .f32⟩ : BufTy).Contents (Elt F)),
    StableHlo.binary main_v63 main_v64 main_v65 (subf : (⟨S1x1024x2048, .f32⟩ : BufTy).Contents (Elt F) → (⟨S1x1024x2048, .f32⟩ : BufTy).Contents (Elt F) → (⟨S1x1024x2048, .f32⟩ : BufTy).Contents (Elt F)),
    StableHlo.nullary main_cst_15 (constant S_ .f32 0x3F000000#32),
    StableHlo.unary main_cst_15 main_v66 (broadcastInDim S1x1024x2048 ![] bcast_S_S1x1024x2048 : (⟨S_, .f32⟩ : BufTy).Contents (Elt F) → (⟨S1x1024x2048, .f32⟩ : BufTy).Contents (Elt F)),
    StableHlo.binary main_v66 main_v65 main_v67 (mulf : (⟨S1x1024x2048, .f32⟩ : BufTy).Contents (Elt F) → (⟨S1x1024x2048, .f32⟩ : BufTy).Contents (Elt F) → (⟨S1x1024x2048, .f32⟩ : BufTy).Contents (Elt F)),
    StableHlo.TRef.unary (.of main_v59 : StableHlo.TRef sig ⟨S1024x2048, .i1⟩) (.of main_call5_v0 : StableHlo.TRef sig ⟨S1x1024x2048, .i1⟩) (broadcastInDim S1x1024x2048 ![1, 2] bcast_S1024x2048_S1x1024x2048_1_2),
    StableHlo.TRef.ternary (.of main_call5_v0 : StableHlo.TRef sig ⟨S1x1024x2048, .i1⟩) (.of main_v62 : StableHlo.TRef sig ⟨S1x1024x2048, .f32⟩) (.of main_v67 : StableHlo.TRef sig ⟨S1x1024x2048, .f32⟩) (.of main_v68 : StableHlo.TRef sig ⟨S1x1024x2048, .f32⟩) select,
    StableHlo.TRef.unary (.of main_v48 : StableHlo.TRef sig ⟨S1024x2048, .i1⟩) (.of main_call6_v0 : StableHlo.TRef sig ⟨S1x1024x2048, .i1⟩) (broadcastInDim S1x1024x2048 ![1, 2] bcast_S1024x2048_S1x1024x2048_1_2) ]

theorem opsC_0_sub : (opsC_0 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.ternary_bufs_sub .., StableHlo.unary_bufs_sub ..⟩

/-- operations 44 to 86 of the stretch below. -/
abbrev opsC_1 : List (HloOp τ sig (Elt F)) :=
  [ StableHlo.TRef.ternary (.of main_call6_v0 : StableHlo.TRef sig ⟨S1x1024x2048, .i1⟩) (.of main_v51 : StableHlo.TRef sig ⟨S1x1024x2048, .f32⟩) (.of main_v68 : StableHlo.TRef sig ⟨S1x1024x2048, .f32⟩) (.of main_v69 : StableHlo.TRef sig ⟨S1x1024x2048, .f32⟩) select,
    StableHlo.nullary main_c_16 (constantI S_ 32 7#32),
    StableHlo.unary main_c_16 main_v70 (broadcastInDim S1024x2048 ![] bcast_S_S1024x2048 : (⟨S_, .i32⟩ : BufTy).Contents (Elt F) → (⟨S1024x2048, .i32⟩ : BufTy).Contents (Elt F)),
    StableHlo.binary main_v1 main_v70 main_v71 (cmpi .eq : (⟨S1024x2048, .i32⟩ : BufTy).Contents (Elt F) → (⟨S1024x2048, .i32⟩ : BufTy).Contents (Elt F) → (⟨S1024x2048, .i1⟩ : BufTy).Contents (Elt F)),
    StableHlo.nullary main_c_17 (constantI S_ 32 10#32),
    StableHlo.unary main_c_17 main_v72 (broadcastInDim S1024x2048 ![] bcast_S_S1024x2048 : (⟨S_, .i32⟩ : BufTy).Contents (Elt F) → (⟨S1024x2048, .i32⟩ : BufTy).Contents (Elt F)),
    StableHlo.binary main_v1 main_v72 main_v73 (cmpi .eq : (⟨S1024x2048, .i32⟩ : BufTy).Contents (Elt F) → (⟨S1024x2048, .i32⟩ : BufTy).Contents (Elt F) → (⟨S1024x2048, .i1⟩ : BufTy).Contents (Elt F)),
    StableHlo.binary main_v71 main_v73 main_v74 (ori : (⟨S1024x2048, .i1⟩ : BufTy).Contents (Elt F) → (⟨S1024x2048, .i1⟩ : BufTy).Contents (Elt F) → (⟨S1024x2048, .i1⟩ : BufTy).Contents (Elt F)),
    StableHlo.nullary main_c_18 (constantI S_ 32 11#32),
    StableHlo.unary main_c_18 main_v75 (broadcastInDim S1024x2048 ![] bcast_S_S1024x2048 : (⟨S_, .i32⟩ : BufTy).Contents (Elt F) → (⟨S1024x2048, .i32⟩ : BufTy).Contents (Elt F)),
    StableHlo.binary main_v1 main_v75 main_v76 (cmpi .eq : (⟨S1024x2048, .i32⟩ : BufTy).Contents (Elt F) → (⟨S1024x2048, .i32⟩ : BufTy).Contents (Elt F) → (⟨S1024x2048, .i1⟩ : BufTy).Contents (Elt F)),
    StableHlo.binary main_v74 main_v76 main_v77 (ori : (⟨S1024x2048, .i1⟩ : BufTy).Contents (Elt F) → (⟨S1024x2048, .i1⟩ : BufTy).Contents (Elt F) → (⟨S1024x2048, .i1⟩ : BufTy).Contents (Elt F)),
    StableHlo.unary main_v40 main_v78 ((extractStridedSlice S1x1024x2048 ![0, 0, 1] · slices_S1x1026x2050_S1x1024x2048_0_0_1) : (⟨S1x1026x2050, .f32⟩ : BufTy).Contents (Elt F) → (⟨S1x1024x2048, .f32⟩ : BufTy).Contents (Elt F)),
    StableHlo.unary main_v40 main_v79 ((extractStridedSlice S1x1024x2048 ![0, 1, 1] · slices_S1x1026x2050_S1x1024x2048_0_1_1) : (⟨S1x1026x2050, .f32⟩ : BufTy).Contents (Elt F) → (⟨S1x1024x2048, .f32⟩ : BufTy).Contents (Elt F)),
    StableHlo.binary main_v78 main_v79 main_v80 (subf : (⟨S1x1024x2048, .f32⟩ : BufTy).Contents (Elt F) → (⟨S1x1024x2048, .f32⟩ : BufTy).Contents (Elt F) → (⟨S1x1024x2048, .f32⟩ : BufTy).Contents (Elt F)),
    StableHlo.nullary main_c_19 (constantI S_ 32 5#32),
    StableHlo.unary main_c_19 main_v81 (broadcastInDim S1024x2048 ![] bcast_S_S1024x2048 : (⟨S_, .i32⟩ : BufTy).Contents (Elt F) → (⟨S1024x2048, .i32⟩ : BufTy).Contents (Elt F)),
    StableHlo.binary main_v1 main_v81 main_v82 (cmpi .eq : (⟨S1024x2048, .i32⟩ : BufTy).Contents (Elt F) → (⟨S1024x2048, .i32⟩ : BufTy).Contents (Elt F) → (⟨S1024x2048, .i1⟩ : BufTy).Contents (Elt F)),
    StableHlo.nullary main_c_20 (constantI S_ 32 8#32),
    StableHlo.unary main_c_20 main_v83 (broadcastInDim S1024x2048 ![] bcast_S_S1024x2048 : (⟨S_, .i32⟩ : BufTy).Contents (Elt F) → (⟨S1024x2048, .i32⟩ : BufTy).Contents (Elt F)),
    StableHlo.binary main_v1 main_v83 main_v84 (cmpi .eq : (⟨S1024x2048, .i32⟩ : BufTy).Contents (Elt F) → (⟨S1024x2048, .i32⟩ : BufTy).Contents (Elt F) → (⟨S1024x2048, .i1⟩ : BufTy).Contents (Elt F)),
    StableHlo.binary main_v82 main_v84 main_v85 (ori : (⟨S1024x2048, .i1⟩ : BufTy).Contents (Elt F) → (⟨S1024x2048, .i1⟩ : BufTy).Contents (Elt F) → (⟨S1024x2048, .i1⟩ : BufTy).Contents (Elt F)),
    StableHlo.nullary main_c_21 (constantI S_ 32 9#32),
    StableHlo.unary main_c_21 main_v86 (broadcastInDim S1024x2048 ![] bcast_S_S1024x2048 : (⟨S_, .i32⟩ : BufTy).Contents (Elt F) → (⟨S1024x2048, .i32⟩ : BufTy).Contents (Elt F)),
    StableHlo.binary main_v1 main_v86 main_v87 (cmpi .eq : (⟨S1024x2048, .i32⟩ : BufTy).Contents (Elt F) → (⟨S1024x2048, .i32⟩ : BufTy).Contents (Elt F) → (⟨S1024x2048, .i1⟩ : BufTy).Contents (Elt F)),
    StableHlo.binary main_v85 main_v87 main_v88 (ori : (⟨S1024x2048, .i1⟩ : BufTy).Contents (Elt F) → (⟨S1024x2048, .i1⟩ : BufTy).Contents (Elt F) → (⟨S1024x2048, .i1⟩ : BufTy).Contents (Elt F)),
    StableHlo.unary main_v40 main_v89 ((extractStridedSlice S1x1024x2048 ![0, 1, 1] · slices_S1x1026x2050_S1x1024x2048_0_1_1) : (⟨S1x1026x2050, .f32⟩ : BufTy).Contents (Elt F) → (⟨S1x1024x2048, .f32⟩ : BufTy).Contents (Elt F)),
    StableHlo.unary main_v40 main_v90 ((extractStridedSlice S1x1024x2048 ![0, 2, 1] · slices_S1x1026x2050_S1x1024x2048_0_2_1) : (⟨S1x1026x2050, .f32⟩ : BufTy).Contents (Elt F) → (⟨S1x1024x2048, .f32⟩ : BufTy).Contents (Elt F)),
    StableHlo.binary main_v89 main_v90 main_v91 (subf : (⟨S1x1024x2048, .f32⟩ : BufTy).Contents (Elt F) → (⟨S1x1024x2048, .f32⟩ : BufTy).Contents (Elt F) → (⟨S1x1024x2048, .f32⟩ : BufTy).Contents (Elt F)),
    StableHlo.unary main_v40 main_v92 ((extractStridedSlice S1x1024x2048 ![0, 2, 1] · slices_S1x1026x2050_S1x1024x2048_0_2_1) : (⟨S1x1026x2050, .f32⟩ : BufTy).Contents (Elt F) → (⟨S1x1024x2048, .f32⟩ : BufTy).Contents (Elt F)),
    StableHlo.unary main_v40 main_v93 ((extractStridedSlice S1x1024x2048 ![0, 0, 1] · slices_S1x1026x2050_S1x1024x2048_0_0_1) : (⟨S1x1026x2050, .f32⟩ : BufTy).Contents (Elt F) → (⟨S1x1024x2048, .f32⟩ : BufTy).Contents (Elt F)),
    StableHlo.binary main_v92 main_v93 main_v94 (subf : (⟨S1x1024x2048, .f32⟩ : BufTy).Contents (Elt F) → (⟨S1x1024x2048, .f32⟩ : BufTy).Contents (Elt F) → (⟨S1x1024x2048, .f32⟩ : BufTy).Contents (Elt F)),
    StableHlo.nullary main_cst_22 (constant S_ .f32 0x3F000000#32),
    StableHlo.unary main_cst_22 main_v95 (broadcastInDim S1x1024x2048 ![] bcast_S_S1x1024x2048 : (⟨S_, .f32⟩ : BufTy).Contents (Elt F) → (⟨S1x1024x2048, .f32⟩ : BufTy).Contents (Elt F)),
    StableHlo.binary main_v95 main_v94 main_v96 (mulf : (⟨S1x1024x2048, .f32⟩ : BufTy).Contents (Elt F) → (⟨S1x1024x2048, .f32⟩ : BufTy).Contents (Elt F) → (⟨S1x1024x2048, .f32⟩ : BufTy).Contents (Elt F)),
    StableHlo.TRef.unary (.of main_v88 : StableHlo.TRef sig ⟨S1024x2048, .i1⟩) (.of main_call7_v0 : StableHlo.TRef sig ⟨S1x1024x2048, .i1⟩) (broadcastInDim S1x1024x2048 ![1, 2] bcast_S1024x2048_S1x1024x2048_1_2),
    StableHlo.TRef.ternary (.of main_call7_v0 : StableHlo.TRef sig ⟨S1x1024x2048, .i1⟩) (.of main_v91 : StableHlo.TRef sig ⟨S1x1024x2048, .f32⟩) (.of main_v96 : StableHlo.TRef sig ⟨S1x1024x2048, .f32⟩) (.of main_v97 : StableHlo.TRef sig ⟨S1x1024x2048, .f32⟩) select,
    StableHlo.TRef.unary (.of main_v77 : StableHlo.TRef sig ⟨S1024x2048, .i1⟩) (.of main_call8_v0 : StableHlo.TRef sig ⟨S1x1024x2048, .i1⟩) (broadcastInDim S1x1024x2048 ![1, 2] bcast_S1024x2048_S1x1024x2048_1_2),
    StableHlo.TRef.ternary (.of main_call8_v0 : StableHlo.TRef sig ⟨S1x1024x2048, .i1⟩) (.of main_v80 : StableHlo.TRef sig ⟨S1x1024x2048, .f32⟩) (.of main_v97 : StableHlo.TRef sig ⟨S1x1024x2048, .f32⟩) (.of main_v98 : StableHlo.TRef sig ⟨S1x1024x2048, .f32⟩) select,
    StableHlo.unary main_v36 main_v99 ((extractStridedSlice S1x1024x2048 ![0, 1, 2] · slices_S1x1026x2050_S1x1024x2048_0_1_2) : (⟨S1x1026x2050, .f32⟩ : BufTy).Contents (Elt F) → (⟨S1x1024x2048, .f32⟩ : BufTy).Contents (Elt F)),
    StableHlo.unary main_v36 main_v100 ((extractStridedSlice S1x1024x2048 ![0, 1, 0] · slices_S1x1026x2050_S1x1024x2048_0_1_0) : (⟨S1x1026x2050, .f32⟩ : BufTy).Contents (Elt F) → (⟨S1x1024x2048, .f32⟩ : BufTy).Contents (Elt F)),
    StableHlo.binary main_v99 main_v100 main_v101 (subf : (⟨S1x1024x2048, .f32⟩ : BufTy).Contents (Elt F) → (⟨S1x1024x2048, .f32⟩ : BufTy).Contents (Elt F) → (⟨S1x1024x2048, .f32⟩ : BufTy).Contents (Elt F)),
    StableHlo.nullary main_cst_23 (constant S_ .f32 0x3F000000#32) ]

theorem opsC_1_sub : (opsC_1 : List (HloOp τ sig (Elt F))).Forall fun op => op.bufs ⊆ StableHlo.tcRefs τ sig :=
  ⟨StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.ternary_bufs_sub .., StableHlo.unary_bufs_sub .., StableHlo.ternary_bufs_sub .., StableHlo.unary_bufs_sub .., StableHlo.unary_bufs_sub .., StableHlo.binary_bufs_sub .., StableHlo.nullary_bufs_sub ..⟩

/-- operations 87 to 129 of the stretch below. -/
abbrev opsC_2 : List (HloOp τ sig (Elt F)) :=
  [ StableHlo.unary main_cst_23 main_v102 (broadcastInDim S1x1024x2048 ![] bcast_S_S1x1024x2048 : (⟨S_, .f32⟩ : BufTy).Contents (Elt F) → (⟨S1x1024x2048, .f32⟩ : BufTy).Contents (Elt F)),
    StableHlo.binary main_v102 main_v101 main_v103 (mulf : (⟨S1x1024x2048, .f32⟩ : BufTy).Contents (Elt F) → (⟨S1x1024x2048, .f32⟩ : BufTy).Contents (Elt F) → (⟨S1x1024x2048, .f32⟩ : BufTy).Contents (Elt F)),
    StableHlo.binary main_v31 main_v103 main_v104 (mulf : (⟨S1x1024x2048, .f32⟩ : BufTy).Contents (Elt F) → (⟨S1x1024x2048, .f32⟩ : BufTy).Contents (Elt F) → (⟨S1x1024x2048, .f32⟩ : BufTy).Contents (Elt F)),
    StableHlo.nullary main_cst_24 (constant S_ .f32 0x3B400000#32),
    StableHlo.unary main_cst_24 main_v105 (broadcastInDim S1x1024x2048 ![] bcast_S_S1x1024x2048 : (⟨S_, .f32⟩ : BufTy).Contents (Elt F) → (⟨S1x1024x2048, .f32⟩ : BufTy).Contents (Elt F)),
    StableHlo.binary main_v104 main_v105 main_v106 (Host.divf : (⟨S1x1024x2048, .f32⟩ : BufTy).Contents (Elt F) → (⟨S1x1024x2048, .f32⟩ : BufTy).Contents (Elt F) → (⟨S1x1024x2048, .f32⟩ : BufTy).Contents (Elt F)),
    StableHlo.unary main_v36 main_v107 ((extractStridedSlice S1x1024x2048 ![0, 2, 1] · slices_S1x1026x2050_S1x1024x2048_0_2_1) : (⟨S1x1026x2050, .f32⟩ : BufTy).Contents (Elt F) → (⟨S1x1024x2048, .f32⟩ : BufTy).Contents (Elt F)),
    StableHlo.unary main_v36 main_v108 ((extractStridedSlice S1x1024x2048 ![0, 0, 1] · slices_S1x1026x2050_S1x1024x2048_0_0_1) : (⟨S1x1026x2050, .f32⟩ : BufTy).Contents (Elt F) → (⟨S1x1024x2048, .f32⟩ : BufTy).Contents (Elt F)),
    StableHlo.binary main_v107 main_v108 main_v109 (subf : (⟨S1x1024x2048, .f32⟩ : BufTy).Contents (Elt F) → (⟨S1x1024x2048, .f32⟩ : BufTy).Contents (Elt F) → (⟨S1x1024x2048, .f32⟩ : BufTy).Contents (Elt F)),
    StableHlo.nullary main_cst_25 (constant S_ .f32 0x3F000000#32),
    StableHlo.unary main_cst_25 main_v110 (broadcastInDim S1x1024x2048 ![] bcast_S_S1x1024x2048 : (⟨S_, .f32⟩ : BufTy).Contents (Elt F) → (⟨S1x1024x2048, .f32⟩ : BufTy).Contents (Elt F)),
    StableHlo.binary main_v110 main_v109 main_v111 (mulf : (⟨S1x1024x2048, .f32⟩ : BufTy).Contents (Elt F) → (⟨S1x1024x2048, .f32⟩ : BufTy).Contents (Elt F) → (⟨S1x1024x2048, .f32⟩ : BufTy).Contents (Elt F)),
    StableHlo.binary main_v33 main_v111 main_v112 (mulf : (⟨S1x1024x2048, .f32⟩ : BufTy).Contents (Elt F) → (⟨S1x1024x2048, .f32⟩ : BufTy).Contents (Elt F) → (⟨S1x1024x2048, .f32⟩ : BufTy).Contents (Elt F)),
    StableHlo.nullary main_cst_26 (constant S_ .f32 0x3B400000#32),
    StableHlo.unary main_cst_26 main_v113 (broadcastInDim S1x1024x2048 ![] bcast_S_S1x1024x2048 : (⟨S_, .f32⟩ : BufTy).Contents (Elt F) → (⟨S1x1024x2048, .f32⟩ : BufTy).Contents (Elt F)),
    StableHlo.binary main_v112 main_v113 main_v114 (Host.divf : (⟨S1x1024x2048, .f32⟩ : BufTy).Contents (Elt F) → (⟨S1x1024x2048, .f32⟩ : BufTy).Contents (Elt F) → (⟨S1x1024x2048, .f32⟩ : BufTy).Contents (Elt F)),
    StableHlo.binary main_v106 main_v114 main_v115 (addf : (⟨S1x1024x2048, .f32⟩ : BufTy).Contents (Elt F) → (⟨S1x1024x2048, .f32⟩ : BufTy).Contents (Elt F) → (⟨S1x1024x2048, .f32⟩ : BufTy).Contents (Elt F)),
    StableHlo.nullary main_cst_27 (constant S_ .f32 0x3B400000#32),
    StableHlo.unary main_cst_27 main_v116 (broadcastInDim S1x1024x2048 ![] bcast_S_S1x1024x2048 : (⟨S_, .f32⟩ : BufTy).Contents (Elt F) → (⟨S1x1024x2048, .f32⟩ : BufTy).Contents (Elt F)),
    StableHlo.binary main_v69 main_v116 main_v117 (Host.divf : (⟨S1x1024x2048, .f32⟩ : BufTy).Contents (Elt F) → (⟨S1x1024x2048, .f32⟩ : BufTy).Contents (Elt F) → (⟨S1x1024x2048, .f32⟩ : BufTy).Contents (Elt F)),
    StableHlo.binary main_v115 main_v117 main_v118 (addf : (⟨S1x1024x2048, .f32⟩ : BufTy).Contents (Elt F) → (⟨S1x1024x2048, .f32⟩ : BufTy).Contents (Elt F) → (⟨S1x1024x2048, .f32⟩ : BufTy).Contents (Elt F)),
    StableHlo.unary main_v36 main_v119 ((extractStridedSlice S1x1024x2048 ![0, 0, 1] · slices_S1x1026x2050_S1x1024x2048_0_0_1) : (⟨S1x1026x2050, .f32⟩ : BufTy).Contents (Elt F) → (⟨S1x1024x2048, .f32⟩ : BufTy).Contents (Elt F)),
    StableHlo.unary main_v36 main_v120 ((extractStridedSlice S1x1024x2048 ![0, 2, 1] · slices_S1x1026x2050_S1x1024x2048_0_2_1) : (⟨S1x1026x2050, .f32⟩ : BufTy).Contents (Elt F) → (⟨S1x1024x2048, .f32⟩ : BufTy).Contents (Elt F)),
    StableHlo.binary main_v119 main_v120 main_v121 (addf : (⟨S1x1024x2048, .f32⟩ : BufTy).Contents (Elt F) → (⟨S1x1024x2048, .f32⟩ : BufTy).Contents (Elt F) → (⟨S1x1024x2048, .f32⟩ : BufTy).Contents (Elt F)),
    StableHlo.unary main_v36 main_v122 ((extractStridedSlice S1x1024x2048 ![0, 1, 0] · slices_S1x1026x2050_S1x1024x2048_0_1_0) : (⟨S1x1026x2050, .f32⟩ : BufTy).Contents (Elt F) → (⟨S1x1024x2048, .f32⟩ : BufTy).Contents (Elt F)),
    StableHlo.binary main_v121 main_v122 main_v123 (addf : (⟨S1x1024x2048, .f32⟩ : BufTy).Contents (Elt F) → (⟨S1x1024x2048, .f32⟩ : BufTy).Contents (Elt F) → (⟨S1x1024x2048, .f32⟩ : BufTy).Contents (Elt F)),
    StableHlo.unary main_v36 main_v124 ((extractStridedSlice S1x1024x2048 ![0, 1, 2] · slices_S1x1026x2050_S1x1024x2048_0_1_2) : (⟨S1x1026x2050, .f32⟩ : BufTy).Contents (Elt F) → (⟨S1x1024x2048, .f32⟩ : BufTy).Contents (Elt F)),
    StableHlo.binary main_v123 main_v124 main_v125 (addf : (⟨S1x1024x2048, .f32⟩ : BufTy).Contents (Elt F) → (⟨S1x1024x2048, .f32⟩ : BufTy).Contents (Elt F) → (⟨S1x1024x2048, .f32⟩ : BufTy).Contents (Elt F)),
    StableHlo.unary main_v36 main_v126 ((extractStridedSlice S1x1024x2048 ![0, 1, 1] · slices_S1x1026x2050_S1x1024x2048_0_1_1) : (⟨S1x1026x2050, .f32⟩ : BufTy).Contents (Elt F) → (⟨S1x1024x2048, .f32⟩ : BufTy).Contents (Elt F)),
    StableHlo.nullary main_cst_28 (constant S_ .f32 0x40800000#32),
    StableHlo.unary main_cst_28 main_v127 (broadcastInDim S1x1024x2048 ![] bcast_S_S1x1024x2048 : (⟨S_, .f32⟩ : BufTy).Contents (Elt F) → (⟨S1x1024x2048, .f32⟩ : BufTy).Contents (Elt F)),
    StableHlo.binary main_v127 main_v126 main_v128 (mulf : (⟨S1x1024x2048, .f32⟩ : BufTy).Contents (Elt F) → (⟨S1x1024x2048, .f32⟩ : BufTy).Contents (Elt F) → (⟨S1x1024x2048, .f32⟩ : BufTy).Contents (Elt F)),
    StableHlo.binary main_v125 main_v128 main_v129 (subf : (⟨S1x1024x2048, .f32⟩ : BufTy).Contents (Elt F) → (⟨S1x1024x2048, .f32⟩ : BufTy).Contents (Elt F) → (⟨S1x1024x2048, .f32⟩ : BufTy).Contents (Elt F)),
    StableHlo.nullary main_cst_29 (constant S_ .f32 0x3D4CCCCD#32),
    StableHlo.unary main_cst_29 main_v130 (broadcastInDim S1x1024x2048 ![] bcast_S_S1x1024x2048 : (⟨S_, .f32⟩ : BufTy).Contents (Elt F) → (⟨S1x1024x2048, .f32⟩ : BufTy).Contents (Elt F)),
    StableHlo.binary main_v130 main_v129 main_v131 (mulf : (⟨S1x1024x2048, .f32⟩ : BufTy).Contents (Elt F) → (⟨S1x1024x2048, .f32⟩ : BufTy).Contents (Elt F) → (⟨S1x1024x2048, .f32⟩ : BufTy).Contents (Elt F)),
    StableHlo.nullary main_cst_30 (constant S_ .f32 0x37100000#32),
    StableHlo.unary main_cst_30 main_v132 (broadcastInDim S1x1024x2048 ![] bcast_S_S1x1024x2048 : (⟨S_, .f32⟩ : BufTy).Contents (Elt F) → (⟨S1x1024x2048, .f32⟩ : BufTy).Contents (Elt F)),
    StableHlo.binary main_v131 main_v132 main_v133 (Host.divf : (⟨S1x1024x2048, .f32⟩ : BufTy).Contents (Elt F) → (⟨S1x1024x2048, .f32⟩ : BufTy).Contents (Elt F) → (⟨S1x1024x2048, .f32⟩ : BufTy).Contents (Elt F)),
    StableHlo.binary main_v118 main_v133 main_v134 (subf : (⟨S1x1024x2048, .f32⟩ : BufTy).Contents (Elt F) → (⟨S1x1024x2048, .f32⟩ : BufTy).Contents (Elt F) → (⟨S1x1024x2048, .f32⟩ : BufTy).Contents (Elt F)),
    StableHlo.unary main_v38 main_v135 ((extractStridedSlice S1x1024x2048 ![0, 1, 2] · slices_S1x1026x2050_S1x1024x2048_0_1_2) : (⟨S1x1026x2050, .f32⟩ : BufTy).Contents (Elt F) → (⟨S1x1024x2048, .f32⟩ : BufTy).Contents (Elt F)),
    StableHlo.unary main_v38 main_v136 ((extractStridedSlice S1x1024x2048 ![0, 1, 0] · slices_S1x1026x2050_S1x1024x2048_0_1_0) : (⟨S1x1026x2050, .f32⟩ : BufTy).Contents (Elt F) → (⟨S1x1024x2048, .f32⟩ : BufTy).Contents (Elt F)),
    StableHlo.binary main_v135 main_v136 main_v137 (subf : (⟨S1x1024x2048, .f32⟩ : BufTy).Contents (Elt F) → (⟨S1x1024x2048, .f32⟩ : BufTy).Contents (Elt F) → (⟨S1x1024x2048, .f32⟩ : BufTy).Contents (Elt F)) ]

theorem opsC_2_sub : (opsC_2 : List (HloOp τ sig (Elt F))).Forall fun op => op.bufs ⊆ StableHlo.tcRefs τ sig :=
  ⟨StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.binary_bufs_sub .., StableHlo.unary_bufs_sub .., StableHlo.binary_bufs_sub .., StableHlo.unary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub ..⟩

/-- operations 130 to 172 of the stretch below. -/
abbrev opsC_3 : List (HloOp τ sig (Elt F)) :=
  [ StableHlo.nullary main_cst_31 (constant S_ .f32 0x3F000000#32),
    StableHlo.unary main_cst_31 main_v138 (broadcastInDim S1x1024x2048 ![] bcast_S_S1x1024x2048 : (⟨S_, .f32⟩ : BufTy).Contents (Elt F) → (⟨S1x1024x2048, .f32⟩ : BufTy).Contents (Elt F)),
    StableHlo.binary main_v138 main_v137 main_v139 (mulf : (⟨S1x1024x2048, .f32⟩ : BufTy).Contents (Elt F) → (⟨S1x1024x2048, .f32⟩ : BufTy).Contents (Elt F) → (⟨S1x1024x2048, .f32⟩ : BufTy).Contents (Elt F)),
    StableHlo.binary main_v31 main_v139 main_v140 (mulf : (⟨S1x1024x2048, .f32⟩ : BufTy).Contents (Elt F) → (⟨S1x1024x2048, .f32⟩ : BufTy).Contents (Elt F) → (⟨S1x1024x2048, .f32⟩ : BufTy).Contents (Elt F)),
    StableHlo.nullary main_cst_32 (constant S_ .f32 0x3B400000#32),
    StableHlo.unary main_cst_32 main_v141 (broadcastInDim S1x1024x2048 ![] bcast_S_S1x1024x2048 : (⟨S_, .f32⟩ : BufTy).Contents (Elt F) → (⟨S1x1024x2048, .f32⟩ : BufTy).Contents (Elt F)),
    StableHlo.binary main_v140 main_v141 main_v142 (Host.divf : (⟨S1x1024x2048, .f32⟩ : BufTy).Contents (Elt F) → (⟨S1x1024x2048, .f32⟩ : BufTy).Contents (Elt F) → (⟨S1x1024x2048, .f32⟩ : BufTy).Contents (Elt F)),
    StableHlo.unary main_v38 main_v143 ((extractStridedSlice S1x1024x2048 ![0, 2, 1] · slices_S1x1026x2050_S1x1024x2048_0_2_1) : (⟨S1x1026x2050, .f32⟩ : BufTy).Contents (Elt F) → (⟨S1x1024x2048, .f32⟩ : BufTy).Contents (Elt F)),
    StableHlo.unary main_v38 main_v144 ((extractStridedSlice S1x1024x2048 ![0, 0, 1] · slices_S1x1026x2050_S1x1024x2048_0_0_1) : (⟨S1x1026x2050, .f32⟩ : BufTy).Contents (Elt F) → (⟨S1x1024x2048, .f32⟩ : BufTy).Contents (Elt F)),
    StableHlo.binary main_v143 main_v144 main_v145 (subf : (⟨S1x1024x2048, .f32⟩ : BufTy).Contents (Elt F) → (⟨S1x1024x2048, .f32⟩ : BufTy).Contents (Elt F) → (⟨S1x1024x2048, .f32⟩ : BufTy).Contents (Elt F)),
    StableHlo.nullary main_cst_33 (constant S_ .f32 0x3F000000#32),
    StableHlo.unary main_cst_33 main_v146 (broadcastInDim S1x1024x2048 ![] bcast_S_S1x1024x2048 : (⟨S_, .f32⟩ : BufTy).Contents (Elt F) → (⟨S1x1024x2048, .f32⟩ : BufTy).Contents (Elt F)),
    StableHlo.binary main_v146 main_v145 main_v147 (mulf : (⟨S1x1024x2048, .f32⟩ : BufTy).Contents (Elt F) → (⟨S1x1024x2048, .f32⟩ : BufTy).Contents (Elt F) → (⟨S1x1024x2048, .f32⟩ : BufTy).Contents (Elt F)),
    StableHlo.binary main_v33 main_v147 main_v148 (mulf : (⟨S1x1024x2048, .f32⟩ : BufTy).Contents (Elt F) → (⟨S1x1024x2048, .f32⟩ : BufTy).Contents (Elt F) → (⟨S1x1024x2048, .f32⟩ : BufTy).Contents (Elt F)),
    StableHlo.nullary main_cst_34 (constant S_ .f32 0x3B400000#32),
    StableHlo.unary main_cst_34 main_v149 (broadcastInDim S1x1024x2048 ![] bcast_S_S1x1024x2048 : (⟨S_, .f32⟩ : BufTy).Contents (Elt F) → (⟨S1x1024x2048, .f32⟩ : BufTy).Contents (Elt F)),
    StableHlo.binary main_v148 main_v149 main_v150 (Host.divf : (⟨S1x1024x2048, .f32⟩ : BufTy).Contents (Elt F) → (⟨S1x1024x2048, .f32⟩ : BufTy).Contents (Elt F) → (⟨S1x1024x2048, .f32⟩ : BufTy).Contents (Elt F)),
    StableHlo.binary main_v142 main_v150 main_v151 (addf : (⟨S1x1024x2048, .f32⟩ : BufTy).Contents (Elt F) → (⟨S1x1024x2048, .f32⟩ : BufTy).Contents (Elt F) → (⟨S1x1024x2048, .f32⟩ : BufTy).Contents (Elt F)),
    StableHlo.nullary main_cst_35 (constant S_ .f32 0x3B400000#32),
    StableHlo.unary main_cst_35 main_v152 (broadcastInDim S1x1024x2048 ![] bcast_S_S1x1024x2048 : (⟨S_, .f32⟩ : BufTy).Contents (Elt F) → (⟨S1x1024x2048, .f32⟩ : BufTy).Contents (Elt F)),
    StableHlo.binary main_v98 main_v152 main_v153 (Host.divf : (⟨S1x1024x2048, .f32⟩ : BufTy).Contents (Elt F) → (⟨S1x1024x2048, .f32⟩ : BufTy).Contents (Elt F) → (⟨S1x1024x2048, .f32⟩ : BufTy).Contents (Elt F)),
    StableHlo.binary main_v151 main_v153 main_v154 (addf : (⟨S1x1024x2048, .f32⟩ : BufTy).Contents (Elt F) → (⟨S1x1024x2048, .f32⟩ : BufTy).Contents (Elt F) → (⟨S1x1024x2048, .f32⟩ : BufTy).Contents (Elt F)),
    StableHlo.unary main_v38 main_v155 ((extractStridedSlice S1x1024x2048 ![0, 0, 1] · slices_S1x1026x2050_S1x1024x2048_0_0_1) : (⟨S1x1026x2050, .f32⟩ : BufTy).Contents (Elt F) → (⟨S1x1024x2048, .f32⟩ : BufTy).Contents (Elt F)),
    StableHlo.unary main_v38 main_v156 ((extractStridedSlice S1x1024x2048 ![0, 2, 1] · slices_S1x1026x2050_S1x1024x2048_0_2_1) : (⟨S1x1026x2050, .f32⟩ : BufTy).Contents (Elt F) → (⟨S1x1024x2048, .f32⟩ : BufTy).Contents (Elt F)),
    StableHlo.binary main_v155 main_v156 main_v157 (addf : (⟨S1x1024x2048, .f32⟩ : BufTy).Contents (Elt F) → (⟨S1x1024x2048, .f32⟩ : BufTy).Contents (Elt F) → (⟨S1x1024x2048, .f32⟩ : BufTy).Contents (Elt F)),
    StableHlo.unary main_v38 main_v158 ((extractStridedSlice S1x1024x2048 ![0, 1, 0] · slices_S1x1026x2050_S1x1024x2048_0_1_0) : (⟨S1x1026x2050, .f32⟩ : BufTy).Contents (Elt F) → (⟨S1x1024x2048, .f32⟩ : BufTy).Contents (Elt F)),
    StableHlo.binary main_v157 main_v158 main_v159 (addf : (⟨S1x1024x2048, .f32⟩ : BufTy).Contents (Elt F) → (⟨S1x1024x2048, .f32⟩ : BufTy).Contents (Elt F) → (⟨S1x1024x2048, .f32⟩ : BufTy).Contents (Elt F)),
    StableHlo.unary main_v38 main_v160 ((extractStridedSlice S1x1024x2048 ![0, 1, 2] · slices_S1x1026x2050_S1x1024x2048_0_1_2) : (⟨S1x1026x2050, .f32⟩ : BufTy).Contents (Elt F) → (⟨S1x1024x2048, .f32⟩ : BufTy).Contents (Elt F)),
    StableHlo.binary main_v159 main_v160 main_v161 (addf : (⟨S1x1024x2048, .f32⟩ : BufTy).Contents (Elt F) → (⟨S1x1024x2048, .f32⟩ : BufTy).Contents (Elt F) → (⟨S1x1024x2048, .f32⟩ : BufTy).Contents (Elt F)),
    StableHlo.unary main_v38 main_v162 ((extractStridedSlice S1x1024x2048 ![0, 1, 1] · slices_S1x1026x2050_S1x1024x2048_0_1_1) : (⟨S1x1026x2050, .f32⟩ : BufTy).Contents (Elt F) → (⟨S1x1024x2048, .f32⟩ : BufTy).Contents (Elt F)),
    StableHlo.nullary main_cst_36 (constant S_ .f32 0x40800000#32),
    StableHlo.unary main_cst_36 main_v163 (broadcastInDim S1x1024x2048 ![] bcast_S_S1x1024x2048 : (⟨S_, .f32⟩ : BufTy).Contents (Elt F) → (⟨S1x1024x2048, .f32⟩ : BufTy).Contents (Elt F)),
    StableHlo.binary main_v163 main_v162 main_v164 (mulf : (⟨S1x1024x2048, .f32⟩ : BufTy).Contents (Elt F) → (⟨S1x1024x2048, .f32⟩ : BufTy).Contents (Elt F) → (⟨S1x1024x2048, .f32⟩ : BufTy).Contents (Elt F)),
    StableHlo.binary main_v161 main_v164 main_v165 (subf : (⟨S1x1024x2048, .f32⟩ : BufTy).Contents (Elt F) → (⟨S1x1024x2048, .f32⟩ : BufTy).Contents (Elt F) → (⟨S1x1024x2048, .f32⟩ : BufTy).Contents (Elt F)),
    StableHlo.nullary main_cst_37 (constant S_ .f32 0x3D4CCCCD#32),
    StableHlo.unary main_cst_37 main_v166 (broadcastInDim S1x1024x2048 ![] bcast_S_S1x1024x2048 : (⟨S_, .f32⟩ : BufTy).Contents (Elt F) → (⟨S1x1024x2048, .f32⟩ : BufTy).Contents (Elt F)),
    StableHlo.binary main_v166 main_v165 main_v167 (mulf : (⟨S1x1024x2048, .f32⟩ : BufTy).Contents (Elt F) → (⟨S1x1024x2048, .f32⟩ : BufTy).Contents (Elt F) → (⟨S1x1024x2048, .f32⟩ : BufTy).Contents (Elt F)),
    StableHlo.nullary main_cst_38 (constant S_ .f32 0x37100000#32),
    StableHlo.unary main_cst_38 main_v168 (broadcastInDim S1x1024x2048 ![] bcast_S_S1x1024x2048 : (⟨S_, .f32⟩ : BufTy).Contents (Elt F) → (⟨S1x1024x2048, .f32⟩ : BufTy).Contents (Elt F)),
    StableHlo.binary main_v167 main_v168 main_v169 (Host.divf : (⟨S1x1024x2048, .f32⟩ : BufTy).Contents (Elt F) → (⟨S1x1024x2048, .f32⟩ : BufTy).Contents (Elt F) → (⟨S1x1024x2048, .f32⟩ : BufTy).Contents (Elt F)),
    StableHlo.binary main_v154 main_v169 main_v170 (subf : (⟨S1x1024x2048, .f32⟩ : BufTy).Contents (Elt F) → (⟨S1x1024x2048, .f32⟩ : BufTy).Contents (Elt F) → (⟨S1x1024x2048, .f32⟩ : BufTy).Contents (Elt F)),
    StableHlo.unary main_v36 main_v171 ((extractStridedSlice S1x1024x2048 ![0, 1, 2] · slices_S1x1026x2050_S1x1024x2048_0_1_2) : (⟨S1x1026x2050, .f32⟩ : BufTy).Contents (Elt F) → (⟨S1x1024x2048, .f32⟩ : BufTy).Contents (Elt F)),
    StableHlo.unary main_v36 main_v172 ((extractStridedSlice S1x1024x2048 ![0, 1, 0] · slices_S1x1026x2050_S1x1024x2048_0_1_0) : (⟨S1x1026x2050, .f32⟩ : BufTy).Contents (Elt F) → (⟨S1x1024x2048, .f32⟩ : BufTy).Contents (Elt F)) ]

theorem opsC_3_sub : (opsC_3 : List (HloOp τ sig (Elt F))).Forall fun op => op.bufs ⊆ StableHlo.tcRefs τ sig :=
  ⟨StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.binary_bufs_sub .., StableHlo.unary_bufs_sub .., StableHlo.binary_bufs_sub .., StableHlo.unary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub ..⟩

/-- operations 173 to 215 of the stretch below. -/
abbrev opsC_4 : List (HloOp τ sig (Elt F)) :=
  [ StableHlo.binary main_v171 main_v172 main_v173 (subf : (⟨S1x1024x2048, .f32⟩ : BufTy).Contents (Elt F) → (⟨S1x1024x2048, .f32⟩ : BufTy).Contents (Elt F) → (⟨S1x1024x2048, .f32⟩ : BufTy).Contents (Elt F)),
    StableHlo.nullary main_cst_39 (constant S_ .f32 0x3F000000#32),
    StableHlo.unary main_cst_39 main_v174 (broadcastInDim S1x1024x2048 ![] bcast_S_S1x1024x2048 : (⟨S_, .f32⟩ : BufTy).Contents (Elt F) → (⟨S1x1024x2048, .f32⟩ : BufTy).Contents (Elt F)),
    StableHlo.binary main_v174 main_v173 main_v175 (mulf : (⟨S1x1024x2048, .f32⟩ : BufTy).Contents (Elt F) → (⟨S1x1024x2048, .f32⟩ : BufTy).Contents (Elt F) → (⟨S1x1024x2048, .f32⟩ : BufTy).Contents (Elt F)),
    StableHlo.nullary main_cst_40 (constant S_ .f32 0x3B400000#32),
    StableHlo.unary main_cst_40 main_v176 (broadcastInDim S1x1024x2048 ![] bcast_S_S1x1024x2048 : (⟨S_, .f32⟩ : BufTy).Contents (Elt F) → (⟨S1x1024x2048, .f32⟩ : BufTy).Contents (Elt F)),
    StableHlo.binary main_v175 main_v176 main_v177 (Host.divf : (⟨S1x1024x2048, .f32⟩ : BufTy).Contents (Elt F) → (⟨S1x1024x2048, .f32⟩ : BufTy).Contents (Elt F) → (⟨S1x1024x2048, .f32⟩ : BufTy).Contents (Elt F)),
    StableHlo.unary main_v38 main_v178 ((extractStridedSlice S1x1024x2048 ![0, 2, 1] · slices_S1x1026x2050_S1x1024x2048_0_2_1) : (⟨S1x1026x2050, .f32⟩ : BufTy).Contents (Elt F) → (⟨S1x1024x2048, .f32⟩ : BufTy).Contents (Elt F)),
    StableHlo.unary main_v38 main_v179 ((extractStridedSlice S1x1024x2048 ![0, 0, 1] · slices_S1x1026x2050_S1x1024x2048_0_0_1) : (⟨S1x1026x2050, .f32⟩ : BufTy).Contents (Elt F) → (⟨S1x1024x2048, .f32⟩ : BufTy).Contents (Elt F)),
    StableHlo.binary main_v178 main_v179 main_v180 (subf : (⟨S1x1024x2048, .f32⟩ : BufTy).Contents (Elt F) → (⟨S1x1024x2048, .f32⟩ : BufTy).Contents (Elt F) → (⟨S1x1024x2048, .f32⟩ : BufTy).Contents (Elt F)),
    StableHlo.nullary main_cst_41 (constant S_ .f32 0x3F000000#32),
    StableHlo.unary main_cst_41 main_v181 (broadcastInDim S1x1024x2048 ![] bcast_S_S1x1024x2048 : (⟨S_, .f32⟩ : BufTy).Contents (Elt F) → (⟨S1x1024x2048, .f32⟩ : BufTy).Contents (Elt F)),
    StableHlo.binary main_v181 main_v180 main_v182 (mulf : (⟨S1x1024x2048, .f32⟩ : BufTy).Contents (Elt F) → (⟨S1x1024x2048, .f32⟩ : BufTy).Contents (Elt F) → (⟨S1x1024x2048, .f32⟩ : BufTy).Contents (Elt F)),
    StableHlo.nullary main_cst_42 (constant S_ .f32 0x3B400000#32),
    StableHlo.unary main_cst_42 main_v183 (broadcastInDim S1x1024x2048 ![] bcast_S_S1x1024x2048 : (⟨S_, .f32⟩ : BufTy).Contents (Elt F) → (⟨S1x1024x2048, .f32⟩ : BufTy).Contents (Elt F)),
    StableHlo.binary main_v182 main_v183 main_v184 (Host.divf : (⟨S1x1024x2048, .f32⟩ : BufTy).Contents (Elt F) → (⟨S1x1024x2048, .f32⟩ : BufTy).Contents (Elt F) → (⟨S1x1024x2048, .f32⟩ : BufTy).Contents (Elt F)),
    StableHlo.binary main_v177 main_v184 main_v185 (addf : (⟨S1x1024x2048, .f32⟩ : BufTy).Contents (Elt F) → (⟨S1x1024x2048, .f32⟩ : BufTy).Contents (Elt F) → (⟨S1x1024x2048, .f32⟩ : BufTy).Contents (Elt F)),
    StableHlo.nullary main_c_43 (constantI S_ 32 0#32),
    StableHlo.unary main_c_43 main_v186 (broadcastInDim S1024x2048 ![] bcast_S_S1024x2048 : (⟨S_, .i32⟩ : BufTy).Contents (Elt F) → (⟨S1024x2048, .i32⟩ : BufTy).Contents (Elt F)),
    StableHlo.binary main_v1 main_v186 main_v187 (cmpi .eq : (⟨S1024x2048, .i32⟩ : BufTy).Contents (Elt F) → (⟨S1024x2048, .i32⟩ : BufTy).Contents (Elt F) → (⟨S1024x2048, .i1⟩ : BufTy).Contents (Elt F)),
    StableHlo.nullary main_c_44 (constantI S_ 32 4#32),
    StableHlo.unary main_c_44 main_v188 (broadcastInDim S1024x2048 ![] bcast_S_S1024x2048 : (⟨S_, .i32⟩ : BufTy).Contents (Elt F) → (⟨S1024x2048, .i32⟩ : BufTy).Contents (Elt F)),
    StableHlo.binary main_v1 main_v188 main_v189 (cmpi .eq : (⟨S1024x2048, .i32⟩ : BufTy).Contents (Elt F) → (⟨S1024x2048, .i32⟩ : BufTy).Contents (Elt F) → (⟨S1024x2048, .i1⟩ : BufTy).Contents (Elt F)),
    StableHlo.binary main_v187 main_v189 main_v190 (ori : (⟨S1024x2048, .i1⟩ : BufTy).Contents (Elt F) → (⟨S1024x2048, .i1⟩ : BufTy).Contents (Elt F) → (⟨S1024x2048, .i1⟩ : BufTy).Contents (Elt F)),
    StableHlo.nullary main_c_45 (constantI S_ 32 5#32),
    StableHlo.unary main_c_45 main_v191 (broadcastInDim S1024x2048 ![] bcast_S_S1024x2048 : (⟨S_, .i32⟩ : BufTy).Contents (Elt F) → (⟨S1024x2048, .i32⟩ : BufTy).Contents (Elt F)),
    StableHlo.binary main_v1 main_v191 main_v192 (cmpi .eq : (⟨S1024x2048, .i32⟩ : BufTy).Contents (Elt F) → (⟨S1024x2048, .i32⟩ : BufTy).Contents (Elt F) → (⟨S1024x2048, .i1⟩ : BufTy).Contents (Elt F)),
    StableHlo.binary main_v190 main_v192 main_v193 (ori : (⟨S1024x2048, .i1⟩ : BufTy).Contents (Elt F) → (⟨S1024x2048, .i1⟩ : BufTy).Contents (Elt F) → (⟨S1024x2048, .i1⟩ : BufTy).Contents (Elt F)),
    StableHlo.nullary main_c_46 (constantI S_ 32 6#32),
    StableHlo.unary main_c_46 main_v194 (broadcastInDim S1024x2048 ![] bcast_S_S1024x2048 : (⟨S_, .i32⟩ : BufTy).Contents (Elt F) → (⟨S1024x2048, .i32⟩ : BufTy).Contents (Elt F)),
    StableHlo.binary main_v1 main_v194 main_v195 (cmpi .eq : (⟨S1024x2048, .i32⟩ : BufTy).Contents (Elt F) → (⟨S1024x2048, .i32⟩ : BufTy).Contents (Elt F) → (⟨S1024x2048, .i1⟩ : BufTy).Contents (Elt F)),
    StableHlo.binary main_v193 main_v195 main_v196 (ori : (⟨S1024x2048, .i1⟩ : BufTy).Contents (Elt F) → (⟨S1024x2048, .i1⟩ : BufTy).Contents (Elt F) → (⟨S1024x2048, .i1⟩ : BufTy).Contents (Elt F)),
    StableHlo.nullary main_c_47 (constantI S_ 32 7#32),
    StableHlo.unary main_c_47 main_v197 (broadcastInDim S1024x2048 ![] bcast_S_S1024x2048 : (⟨S_, .i32⟩ : BufTy).Contents (Elt F) → (⟨S1024x2048, .i32⟩ : BufTy).Contents (Elt F)),
    StableHlo.binary main_v1 main_v197 main_v198 (cmpi .eq : (⟨S1024x2048, .i32⟩ : BufTy).Contents (Elt F) → (⟨S1024x2048, .i32⟩ : BufTy).Contents (Elt F) → (⟨S1024x2048, .i1⟩ : BufTy).Contents (Elt F)),
    StableHlo.binary main_v196 main_v198 main_v199 (ori : (⟨S1024x2048, .i1⟩ : BufTy).Contents (Elt F) → (⟨S1024x2048, .i1⟩ : BufTy).Contents (Elt F) → (⟨S1024x2048, .i1⟩ : BufTy).Contents (Elt F)),
    StableHlo.nullary main_c_48 (constantI S_ 32 8#32),
    StableHlo.unary main_c_48 main_v200 (broadcastInDim S1024x2048 ![] bcast_S_S1024x2048 : (⟨S_, .i32⟩ : BufTy).Contents (Elt F) → (⟨S1024x2048, .i32⟩ : BufTy).Contents (Elt F)),
    StableHlo.binary main_v1 main_v200 main_v201 (cmpi .eq : (⟨S1024x2048, .i32⟩ : BufTy).Contents (Elt F) → (⟨S1024x2048, .i32⟩ : BufTy).Contents (Elt F) → (⟨S1024x2048, .i1⟩ : BufTy).Contents (Elt F)),
    StableHlo.binary main_v199 main_v201 main_v202 (ori : (⟨S1024x2048, .i1⟩ : BufTy).Contents (Elt F) → (⟨S1024x2048, .i1⟩ : BufTy).Contents (Elt F) → (⟨S1024x2048, .i1⟩ : BufTy).Contents (Elt F)),
    StableHlo.nullary main_c_49 (constantI S_ 32 9#32),
    StableHlo.unary main_c_49 main_v203 (broadcastInDim S1024x2048 ![] bcast_S_S1024x2048 : (⟨S_, .i32⟩ : BufTy).Contents (Elt F) → (⟨S1024x2048, .i32⟩ : BufTy).Contents (Elt F)),
    StableHlo.binary main_v1 main_v203 main_v204 (cmpi .eq : (⟨S1024x2048, .i32⟩ : BufTy).Contents (Elt F) → (⟨S1024x2048, .i32⟩ : BufTy).Contents (Elt F) → (⟨S1024x2048, .i1⟩ : BufTy).Contents (Elt F)) ]

theorem opsC_4_sub : (opsC_4 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub ..⟩

/-- operations 216 to 253 of the stretch below. -/
abbrev opsC_5 : List (HloOp τ sig (Elt F)) :=
  [ StableHlo.binary main_v202 main_v204 main_v205 (ori : (⟨S1024x2048, .i1⟩ : BufTy).Contents (Elt F) → (⟨S1024x2048, .i1⟩ : BufTy).Contents (Elt F) → (⟨S1024x2048, .i1⟩ : BufTy).Contents (Elt F)),
    StableHlo.nullary main_c_50 (constantI S_ 32 10#32),
    StableHlo.unary main_c_50 main_v206 (broadcastInDim S1024x2048 ![] bcast_S_S1024x2048 : (⟨S_, .i32⟩ : BufTy).Contents (Elt F) → (⟨S1024x2048, .i32⟩ : BufTy).Contents (Elt F)),
    StableHlo.binary main_v1 main_v206 main_v207 (cmpi .eq : (⟨S1024x2048, .i32⟩ : BufTy).Contents (Elt F) → (⟨S1024x2048, .i32⟩ : BufTy).Contents (Elt F) → (⟨S1024x2048, .i1⟩ : BufTy).Contents (Elt F)),
    StableHlo.binary main_v205 main_v207 main_v208 (ori : (⟨S1024x2048, .i1⟩ : BufTy).Contents (Elt F) → (⟨S1024x2048, .i1⟩ : BufTy).Contents (Elt F) → (⟨S1024x2048, .i1⟩ : BufTy).Contents (Elt F)),
    StableHlo.nullary main_c_51 (constantI S_ 32 11#32),
    StableHlo.unary main_c_51 main_v209 (broadcastInDim S1024x2048 ![] bcast_S_S1024x2048 : (⟨S_, .i32⟩ : BufTy).Contents (Elt F) → (⟨S1024x2048, .i32⟩ : BufTy).Contents (Elt F)),
    StableHlo.binary main_v1 main_v209 main_v210 (cmpi .eq : (⟨S1024x2048, .i32⟩ : BufTy).Contents (Elt F) → (⟨S1024x2048, .i32⟩ : BufTy).Contents (Elt F) → (⟨S1024x2048, .i1⟩ : BufTy).Contents (Elt F)),
    StableHlo.binary main_v208 main_v210 main_v211 (ori : (⟨S1024x2048, .i1⟩ : BufTy).Contents (Elt F) → (⟨S1024x2048, .i1⟩ : BufTy).Contents (Elt F) → (⟨S1024x2048, .i1⟩ : BufTy).Contents (Elt F)),
    StableHlo.unary main_v211 main_v212 (uitofp .f32 : (⟨S1024x2048, .i1⟩ : BufTy).Contents (Elt F) → (⟨S1024x2048, .f32⟩ : BufTy).Contents (Elt F)),
    StableHlo.unary main_v212 main_v213 (broadcastInDim S1x1024x2048 ![1, 2] bcast_S1024x2048_S1x1024x2048_1_2 : (⟨S1024x2048, .f32⟩ : BufTy).Contents (Elt F) → (⟨S1x1024x2048, .f32⟩ : BufTy).Contents (Elt F)),
    StableHlo.binary main_v213 main_v134 main_v214 (mulf : (⟨S1x1024x2048, .f32⟩ : BufTy).Contents (Elt F) → (⟨S1x1024x2048, .f32⟩ : BufTy).Contents (Elt F) → (⟨S1x1024x2048, .f32⟩ : BufTy).Contents (Elt F)),
    StableHlo.unary main_v212 main_v215 (broadcastInDim S1x1024x2048 ![1, 2] bcast_S1024x2048_S1x1024x2048_1_2 : (⟨S1024x2048, .f32⟩ : BufTy).Contents (Elt F) → (⟨S1x1024x2048, .f32⟩ : BufTy).Contents (Elt F)),
    StableHlo.binary main_v215 main_v170 main_v216 (mulf : (⟨S1x1024x2048, .f32⟩ : BufTy).Contents (Elt F) → (⟨S1x1024x2048, .f32⟩ : BufTy).Contents (Elt F) → (⟨S1x1024x2048, .f32⟩ : BufTy).Contents (Elt F)),
    StableHlo.unary main_v212 main_v217 (broadcastInDim S1x1024x2048 ![1, 2] bcast_S1024x2048_S1x1024x2048_1_2 : (⟨S1024x2048, .f32⟩ : BufTy).Contents (Elt F) → (⟨S1x1024x2048, .f32⟩ : BufTy).Contents (Elt F)),
    StableHlo.binary main_v217 main_v185 main_v218 (mulf : (⟨S1x1024x2048, .f32⟩ : BufTy).Contents (Elt F) → (⟨S1x1024x2048, .f32⟩ : BufTy).Contents (Elt F) → (⟨S1x1024x2048, .f32⟩ : BufTy).Contents (Elt F)),
    StableHlo.binary main_v214 main_v214 main_v219 (mulf : (⟨S1x1024x2048, .f32⟩ : BufTy).Contents (Elt F) → (⟨S1x1024x2048, .f32⟩ : BufTy).Contents (Elt F) → (⟨S1x1024x2048, .f32⟩ : BufTy).Contents (Elt F)),
    StableHlo.nullary main_cst_52 (constant S_ .f32 0x00000000#32),
    StableHlo.binary main_v219 main_cst_52 main_v220 ((fun x v => Host.reduceAdd x v reducesTo_S1x1024x2048_S_d0_1_2 h_S_) : (⟨S1x1024x2048, .f32⟩ : BufTy).Contents (Elt F) → (⟨S_, .f32⟩ : BufTy).Contents (Elt F) → (⟨S_, .f32⟩ : BufTy).Contents (Elt F)),
    StableHlo.nullary main_cst_53 (constant S_ .f32 0x4A000000#32),
    StableHlo.binary main_v220 main_cst_53 main_v221 (Host.divf : (⟨S_, .f32⟩ : BufTy).Contents (Elt F) → (⟨S_, .f32⟩ : BufTy).Contents (Elt F) → (⟨S_, .f32⟩ : BufTy).Contents (Elt F)),
    StableHlo.binary main_v216 main_v216 main_v222 (mulf : (⟨S1x1024x2048, .f32⟩ : BufTy).Contents (Elt F) → (⟨S1x1024x2048, .f32⟩ : BufTy).Contents (Elt F) → (⟨S1x1024x2048, .f32⟩ : BufTy).Contents (Elt F)),
    StableHlo.nullary main_cst_54 (constant S_ .f32 0x00000000#32),
    StableHlo.binary main_v222 main_cst_54 main_v223 ((fun x v => Host.reduceAdd x v reducesTo_S1x1024x2048_S_d0_1_2 h_S_) : (⟨S1x1024x2048, .f32⟩ : BufTy).Contents (Elt F) → (⟨S_, .f32⟩ : BufTy).Contents (Elt F) → (⟨S_, .f32⟩ : BufTy).Contents (Elt F)),
    StableHlo.nullary main_cst_55 (constant S_ .f32 0x4A000000#32),
    StableHlo.binary main_v223 main_cst_55 main_v224 (Host.divf : (⟨S_, .f32⟩ : BufTy).Contents (Elt F) → (⟨S_, .f32⟩ : BufTy).Contents (Elt F) → (⟨S_, .f32⟩ : BufTy).Contents (Elt F)),
    StableHlo.binary main_v221 main_v224 main_v225 (addf : (⟨S_, .f32⟩ : BufTy).Contents (Elt F) → (⟨S_, .f32⟩ : BufTy).Contents (Elt F) → (⟨S_, .f32⟩ : BufTy).Contents (Elt F)),
    StableHlo.binary main_v218 main_v218 main_v226 (mulf : (⟨S1x1024x2048, .f32⟩ : BufTy).Contents (Elt F) → (⟨S1x1024x2048, .f32⟩ : BufTy).Contents (Elt F) → (⟨S1x1024x2048, .f32⟩ : BufTy).Contents (Elt F)),
    StableHlo.nullary main_cst_56 (constant S_ .f32 0x00000000#32),
    StableHlo.binary main_v226 main_cst_56 main_v227 ((fun x v => Host.reduceAdd x v reducesTo_S1x1024x2048_S_d0_1_2 h_S_) : (⟨S1x1024x2048, .f32⟩ : BufTy).Contents (Elt F) → (⟨S_, .f32⟩ : BufTy).Contents (Elt F) → (⟨S_, .f32⟩ : BufTy).Contents (Elt F)),
    StableHlo.nullary main_cst_57 (constant S_ .f32 0x4A000000#32),
    StableHlo.binary main_v227 main_cst_57 main_v228 (Host.divf : (⟨S_, .f32⟩ : BufTy).Contents (Elt F) → (⟨S_, .f32⟩ : BufTy).Contents (Elt F) → (⟨S_, .f32⟩ : BufTy).Contents (Elt F)),
    StableHlo.binary main_v225 main_v228 main_v229 (addf : (⟨S_, .f32⟩ : BufTy).Contents (Elt F) → (⟨S_, .f32⟩ : BufTy).Contents (Elt F) → (⟨S_, .f32⟩ : BufTy).Contents (Elt F)),
    StableHlo.nullary main_c_58 (constantI S_ 32 0#32),
    StableHlo.TRef.unary (.of main_c_58 : StableHlo.TRef sig ⟨S_, .i32⟩) (.of main_call9_v0 : StableHlo.TRef sig ⟨S_, .i32⟩) id,
    StableHlo.TRef.unary (.of main_call9_v0 : StableHlo.TRef sig ⟨S_, .i32⟩) (.of main_call9_v1 : StableHlo.TRef sig ⟨S1024x2048, .i32⟩) (broadcastInDim S1024x2048 ![] bcast_S_S1024x2048),
    StableHlo.TRef.ternary (.of main_v211 : StableHlo.TRef sig ⟨S1024x2048, .i1⟩) (.of main_v1 : StableHlo.TRef sig ⟨S1024x2048, .i32⟩) (.of main_call9_v1 : StableHlo.TRef sig ⟨S1024x2048, .i32⟩) (.of main_v230 : StableHlo.TRef sig ⟨S1024x2048, .i32⟩) select,
    StableHlo.unary main_v230 main_v231 (sitofp .f32 : (⟨S1024x2048, .i32⟩ : BufTy).Contents (Elt F) → (⟨S1024x2048, .f32⟩ : BufTy).Contents (Elt F)) ]

theorem opsC_5_sub : (opsC_5 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.binary_bufs_sub .., StableHlo.unary_bufs_sub .., StableHlo.binary_bufs_sub .., StableHlo.binary_bufs_sub .., StableHlo.nullary_bufs_sub .., StableHlo.binary_bufs_sub .., StableHlo.nullary_bufs_sub .., StableHlo.binary_bufs_sub .., StableHlo.binary_bufs_sub .., StableHlo.nullary_bufs_sub .., StableHlo.binary_bufs_sub .., StableHlo.nullary_bufs_sub .., StableHlo.binary_bufs_sub .., StableHlo.binary_bufs_sub .., StableHlo.binary_bufs_sub .., StableHlo.nullary_bufs_sub .., StableHlo.binary_bufs_sub .., StableHlo.nullary_bufs_sub .., StableHlo.binary_bufs_sub .., StableHlo.binary_bufs_sub .., StableHlo.nullary_bufs_sub .., StableHlo.unary_bufs_sub .., StableHlo.unary_bufs_sub .., StableHlo.ternary_bufs_sub .., StableHlo.unary_bufs_sub ..⟩

/-- 253 operations: the stencils on the extended fields, the masked residuals, their mean squares and the masked code. -/
abbrev opsC : List (HloOp τ sig (Elt F)) := opsC_0 ++ opsC_1 ++ opsC_2 ++ opsC_3 ++ opsC_4 ++ opsC_5

end Cert.ReferenceIdeal.Hand

end
-- ==== Proof.RRun.lean ====
import proofs.«148698_j59665685676147_2_alg».proof.Proof.ROps
import proofs.«148698_j59665685676147_2_alg».proof.Proof.LibAfterAppend
set_option maxRecDepth 16384
noncomputable section
namespace Cert.ReferenceIdeal.Hand
open Cert.ReferenceIdeal Cert.ReferenceIdeal.Gen Idealize.ShloMosaic Idealize.ShloMosaic.TcCoe Idealize.SL.Sem Idealize.ShloMosaic.StableHlo

variable {F : FTy → Type} [FloatOps F]

/-! ## The five windows of @main as parts of the three stretches

@main is printed in five windows.  Window 1 is the first two stretches and the first 14 operations of the third;
the later windows cut the third stretch's chunks at operations 14, 33 (next chunk), 9 (chunk after the next) and 26. -/

/-- The operations of window 1 of @main. -/
def win0 : List (HloOp τ sig (Elt F)) := opsA_0 ++ (opsA_1 ++ (opsB_0 ++ opsC_0.take 14))
/-- The operations of window 2 of @main. -/
def win1 : List (HloOp τ sig (Elt F)) := opsC_0.drop 14 ++ opsC_1.take 33
/-- The operations of window 3 of @main. -/
def win2 : List (HloOp τ sig (Elt F)) := opsC_1.drop 33 ++ (opsC_2 ++ opsC_3.take 9)
/-- The operations of window 4 of @main. -/
def win3 : List (HloOp τ sig (Elt F)) := opsC_3.drop 9 ++ opsC_4.take 26
/-- The operations of window 5 of @main. -/
def win4 : List (HloOp τ sig (Elt F)) := opsC_4.drop 26 ++ opsC_5

/-- Each window is the straight line of its operations: the called functions' bodies unfold at their calls, the
    call records at their fields, and both sides are one chain of steps. -/
theorem main_part0_eq (c : Dev nD) : main_part0 (F := F) c = seq win0 := rfl
theorem main_part1_eq (c : Dev nD) : main_part1 (F := F) c = seq win1 := rfl
theorem main_part2_eq (c : Dev nD) : main_part2 (F := F) c = seq win2 := rfl
theorem main_part3_eq (c : Dev nD) : main_part3 (F := F) c = seq win3 := rfl
theorem main_part4_eq (c : Dev nD) : main_part4 (F := F) c = seq win4 := rfl

/-- A list cut at `n` and continued is the list continued. -/
theorem take_append_drop_append {α : Type} (n : ℕ) (l r : List α) : l.take n ++ (l.drop n ++ r) = l ++ r := by
  rw [← List.append_assoc, List.take_append_drop]

/-- The nine chunks in order, cut into the five windows, are the nine chunks in order. -/
theorem glue {α : Type} (A0 A1 B0 C0 C1 C2 C3 C4 C5 : List α) :
    (A0 ++ A1) ++ (B0 ++ (C0 ++ C1 ++ C2 ++ C3 ++ C4 ++ C5))
      = (A0 ++ (A1 ++ (B0 ++ C0.take 14))) ++ ((C0.drop 14 ++ C1.take 33)
          ++ ((C1.drop 33 ++ (C2 ++ C3.take 9)) ++ ((C3.drop 9 ++ C4.take 26) ++ (C4.drop 26 ++ C5)))) := by
  simp only [List.append_assoc, take_append_drop_append]

/-- The three stretches in order are the five windows in order. -/
theorem ops_eq_wins : (opsA ++ (opsB ++ opsC) : List (HloOp τ sig (Elt F))) = win0 ++ (win1 ++ (win2 ++ (win3 ++ win4))) :=
  glue opsA_0 opsA_1 opsB_0 opsC_0 opsC_1 opsC_2 opsC_3 opsC_4 opsC_5

/-- @main is the three stretches run one after the other. -/
theorem main_eq (c : Dev nD) : main (F := F) c = seq (opsA ++ (opsB ++ opsC)) := by
  rw [ops_eq_wins, seq_append win0, seq_append win1, seq_append win2, seq_append win3,
    ← main_part0_eq c, ← main_part1_eq c, ← main_part2_eq c, ← main_part3_eq c, ← main_part4_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation of the three stretches touches TensorCore buffers only. -/
theorem ops_sub : (opsA ++ (opsB ++ opsC) : List (HloOp τ sig (Elt F))).Forall fun op => op.bufs ⊆ tcRefs τ sig := by
  simp only [opsA, opsB, opsC, List.forall_append]
  exact ⟨⟨opsA_0_sub, opsA_1_sub⟩, opsB_0_sub, ⟨⟨⟨⟨opsC_0_sub, opsC_1_sub⟩, opsC_2_sub⟩, opsC_3_sub⟩, opsC_4_sub⟩, opsC_5_sub⟩

/-! Every operation determines its results: none allocates. -/
theorem opsA_0_fresh : (opsA_0 : List (HloOp τ sig (Elt F))).Forall fun op => op.fresh = ∅ := by
  simp only [List.Forall]; repeat' constructor
theorem opsA_1_fresh : (opsA_1 : List (HloOp τ sig (Elt F))).Forall fun op => op.fresh = ∅ := by
  simp only [List.Forall]; repeat' constructor
theorem opsB_0_fresh : (opsB_0 : List (HloOp τ sig (Elt F))).Forall fun op => op.fresh = ∅ := by
  simp only [List.Forall]; repeat' constructor
theorem opsC_0_fresh : (opsC_0 : List (HloOp τ sig (Elt F))).Forall fun op => op.fresh = ∅ := by
  simp only [List.Forall]; repeat' constructor
theorem opsC_1_fresh : (opsC_1 : List (HloOp τ sig (Elt F))).Forall fun op => op.fresh = ∅ := by
  simp only [List.Forall]; repeat' constructor
theorem opsC_2_fresh : (opsC_2 : List (HloOp τ sig (Elt F))).Forall fun op => op.fresh = ∅ := by
  simp only [List.Forall]; repeat' constructor
theorem opsC_3_fresh : (opsC_3 : List (HloOp τ sig (Elt F))).Forall fun op => op.fresh = ∅ := by
  simp only [List.Forall]; repeat' constructor
theorem opsC_4_fresh : (opsC_4 : List (HloOp τ sig (Elt F))).Forall fun op => op.fresh = ∅ := by
  simp only [List.Forall]; repeat' constructor
theorem opsC_5_fresh : (opsC_5 : List (HloOp τ sig (Elt F))).Forall fun op => op.fresh = ∅ := by
  simp only [List.Forall]; repeat' constructor

theorem ops_fresh : ∀ op ∈ (opsA ++ (opsB ++ opsC) : List (HloOp τ sig (Elt F))), op.fresh = ∅ := by
  have h : (opsA ++ (opsB ++ opsC) : List (HloOp τ sig (Elt F))).Forall fun op => op.fresh = ∅ := by
    simp only [opsA, opsB, opsC, List.forall_append]
    exact ⟨⟨opsA_0_fresh, opsA_1_fresh⟩, opsB_0_fresh,
      ⟨⟨⟨⟨opsC_0_fresh, opsC_1_fresh⟩, opsC_2_fresh⟩, opsC_3_fresh⟩, opsC_4_fresh⟩, opsC_5_fresh⟩
  exact List.forall_iff_forall_mem.mp h

/-- The contents after the three stretches in one list are the contents after each in turn. -/
theorem after_three_stretches (V : Valuation τ sig (Elt F)) :
    after (opsA ++ (opsB ++ opsC)) V = after opsC (after opsB (after opsA V)) :=
  (Cert.Lib.AfterAppend.after_append opsA (opsB ++ opsC) V).trans (Cert.Lib.AfterAppend.after_append opsB opsC _)

/-- Every weakly fair execution of @main terminates with each buffer at the fold of the three stretches over its
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = after opsC (after opsB (after opsA (launchContents m c))) (Proc.devRef .tc b) := by
  have h := run_seq scopedRefs_eq scopedSems_eq defs (main (F := F)) (fun _ => opsA ++ (opsB ++ opsC)) main_eq
    (fun _ => ops_sub) m ρ (fun _ => ops_fresh)
  simp only [after_three_stretches] at h
  exact h

end Cert.ReferenceIdeal.Hand
end
-- ==== Proof.RValAB.lean ====
import proofs.«148698_j59665685676147_2_alg».proof.Proof.ROps
import proofs.«148698_j59665685676147_2_alg».proof.Proof.Spec
import proofs.«148698_j59665685676147_2_alg».proof.Proof.LibAfterAppend
import Idealize.ShloMosaic.Lib.ValueIdx
import Idealize.ShloMosaic.Lib.ValueLayout
set_option maxRecDepth 16384
noncomputable section
namespace Cert.ReferenceIdeal.Hand
open Cert.ReferenceIdeal Cert.ReferenceIdeal.Gen Idealize.ShloMosaic Idealize.ShloMosaic.TcCoe Idealize.SL.Sem Idealize.ShloMosaic.StableHlo Idealize.ShloMosaic.ValueIdx

/-! The first two stretches of the reference program, read as mathematics.

  Stretch A takes the boundary code b = layout[0, 1] and the three raw fields flow[0, k], overwrites each field where the
  code prescribes a Dirichlet value, and stacks the three results; read at a cell, plane k of the stack is the k-th
  substituted field of the specification at the padded coordinates (R + 1, C + 1) of that cell.
  Stretch B extends the stack by one cell on every side by reflection: a row is prepended (the image of row 1), a row is
  appended (the image of the last row but one), then the same for columns. Read at padded coordinates (p, q) the result
  is the stack at the reflected source cell. -/

namespace RAB

section FieldsDef

/-- the boundary code: plane 1 of the layout array -/
def codeOf (L : S1x2x1024x2048.Idx → BitVec 32) : S1024x2048.Idx → BitVec 32 :=
  shapeCast S1024x2048 (extractStridedSlice S1x1x1024x2048 ![0, 1, 0, 0] L slices_S1x2x1024x2048_S1x1x1024x2048_0_1_0_0) shapeCasts_S1x1x1024x2048_S1024x2048

/-- "the code is c", cell by cell -/
def eqK (b : S1024x2048.Idx → BitVec 32) (c : BitVec 32) : IVec S1024x2048 1 :=
  cmpi .eq b (broadcastInDim S1024x2048 ![] bcast_S_S1024x2048 (constantI S_ 32 c))

/-- where the mask holds the constant word w, elsewhere x -/
def whereK (m : IVec S1024x2048 1) (w : BitVec 32) (x : S1x1024x2048.Idx → EReal) : S1x1024x2048.Idx → EReal :=
  select (broadcastInDim S1x1024x2048 ![1, 2] bcast_S1024x2048_S1x1024x2048_1_2 m)
    (broadcastInDim S1x1024x2048 ![] bcast_S_S1x1024x2048 (constant (F := Ideal) S_ .f32 w)) x

/-- plane 0, 1 or 2 of the flow array -/
def plane0 (Fl : S1x3x1024x2048.Idx → EReal) : S1x1024x2048.Idx → EReal :=
  shapeCast S1x1024x2048 (extractStridedSlice S1x1x1024x2048 ![0, 0, 0, 0] Fl slices_S1x3x1024x2048_S1x1x1024x2048_0_0_0_0) shapeCasts_S1x1x1024x2048_S1x1024x2048
def plane1 (Fl : S1x3x1024x2048.Idx → EReal) : S1x1024x2048.Idx → EReal :=
  shapeCast S1x1024x2048 (extractStridedSlice S1x1x1024x2048 ![0, 1, 0, 0] Fl slices_S1x3x1024x2048_S1x1x1024x2048_0_1_0_0) shapeCasts_S1x1x1024x2048_S1x1024x2048
def plane2 (Fl : S1x3x1024x2048.Idx → EReal) : S1x1024x2048.Idx → EReal :=
  shapeCast S1x1024x2048 (extractStridedSlice S1x1x1024x2048 ![0, 2, 0, 0] Fl slices_S1x3x1024x2048_S1x1x1024x2048_0_2_0_0) shapeCasts_S1x1x1024x2048_S1x1024x2048

/-- the three fields after the Dirichlet substitution -/
def uF (b : S1024x2048.Idx → BitVec 32) (Fl : S1x3x1024x2048.Idx → EReal) : S1x1024x2048.Idx → EReal :=
  whereK (eqK b 2#32) 0x00000000#32 (whereK (eqK b 1#32) 0x40400000#32 (plane0 Fl))
def vF (b : S1024x2048.Idx → BitVec 32) (Fl : S1x3x1024x2048.Idx → EReal) : S1x1024x2048.Idx → EReal :=
  whereK (ori (eqK b 1#32) (eqK b 2#32)) 0x00000000#32 (plane1 Fl)
def pF (b : S1024x2048.Idx → BitVec 32) (Fl : S1x3x1024x2048.Idx → EReal) : S1x1024x2048.Idx → EReal :=
  whereK (ori (eqK b 2#32) (eqK b 3#32)) 0x00000000#32 (plane2 Fl)

/-- a field as one plane of a stack -/
def asPlane (x : S1x1024x2048.Idx → EReal) : S1x1x1024x2048.Idx → EReal :=
  broadcastInDim S1x1x1024x2048 ![0, 2, 3] bcast_S1x1024x2048_S1x1x1024x2048_0_2_3 x

/-- the three substituted fields stacked -/
def stackOf (b : S1024x2048.Idx → BitVec 32) (Fl : S1x3x1024x2048.Idx → EReal) : S1x3x1024x2048.Idx → EReal :=
  concatenate S1x3x1024x2048 1 [⟨S1x1x1024x2048, asPlane (uF b Fl)⟩, ⟨S1x1x1024x2048, asPlane (vF b Fl)⟩, ⟨S1x1x1024x2048, asPlane (pF b Fl)⟩]
    concatenates_S1x1x1024x2048_S1x1x1024x2048_S1x1x1024x2048_S1x3x1024x2048_d1

end FieldsDef

section FieldsAt
open Cert.Spec

theorem codeOf_apply (L : S1x2x1024x2048.Idx → BitVec 32) (R : Fin 1024) (C : Fin 2048) :
    codeOf L (ix2 R C) = L (ix4 (0 : Fin 1) (1 : Fin 2) R C) := by
  unfold codeOf
  refine (shapeCast_apply _ _ (ix2 R C) (ix4 (0 : Fin 1) (0 : Fin 1) R C) ?_).trans ?_
  · rw [Shape.rowMajor_val_four, Shape.rowMajor_val_two]
    show ((0 * 1 + 0) * 1024 + R.val) * 2048 + C.val = R.val * 2048 + C.val
    omega
  · exact slice4_axis1_apply 1 L _ (0 : Fin 1) (0 : Fin 1) R C (1 : Fin 2) rfl

theorem plane0_apply (Fl : S1x3x1024x2048.Idx → EReal) (u : Fin 1) (R : Fin 1024) (C : Fin 2048) :
    plane0 Fl (ix3 u R C) = Fl (ix4 (0 : Fin 1) (0 : Fin 3) R C) := by
  unfold plane0
  refine (shapeCast_1abc_abc_apply _ _ u R C).trans ?_
  exact slice4_axis1_apply 0 Fl _ (0 : Fin 1) u R C (0 : Fin 3) (by show 0 = 0 + u.val; omega)
theorem plane1_apply (Fl : S1x3x1024x2048.Idx → EReal) (u : Fin 1) (R : Fin 1024) (C : Fin 2048) :
    plane1 Fl (ix3 u R C) = Fl (ix4 (0 : Fin 1) (1 : Fin 3) R C) := by
  unfold plane1
  refine (shapeCast_1abc_abc_apply _ _ u R C).trans ?_
  exact slice4_axis1_apply 1 Fl _ (0 : Fin 1) u R C (1 : Fin 3) (by show 1 = 1 + u.val; omega)
theorem plane2_apply (Fl : S1x3x1024x2048.Idx → EReal) (u : Fin 1) (R : Fin 1024) (C : Fin 2048) :
    plane2 Fl (ix3 u R C) = Fl (ix4 (0 : Fin 1) (2 : Fin 3) R C) := by
  unfold plane2
  refine (shapeCast_1abc_abc_apply _ _ u R C).trans ?_
  exact slice4_axis1_apply 2 Fl _ (0 : Fin 1) u R C (2 : Fin 3) (by show 2 = 2 + u.val; omega)

theorem eqK_apply (b : S1024x2048.Idx → BitVec 32) (c : BitVec 32) (R : Fin 1024) (C : Fin 2048) :
    eqK b c (ix2 R C) = eqc (b (ix2 R C)) c := by
  have h : broadcastInDim S1024x2048 ![] bcast_S_S1024x2048 (constantI S_ 32 c) (ix2 R C) = c :=
    broadcastInDim_apply _ _ (constantI S_ 32 c) (ix2 R C) ix0 (fun a => a.elim0)
  show IntOp.cmpi .eq (b (ix2 R C)) (broadcastInDim S1024x2048 ![] bcast_S_S1024x2048 (constantI S_ 32 c) (ix2 R C)) = _
  rw [h]; rfl

theorem whereK_apply (m : IVec S1024x2048 1) (w : BitVec 32) (x : S1x1024x2048.Idx → EReal) (u : Fin 1) (R : Fin 1024) (C : Fin 2048) :
    whereK m w x (ix3 u R C) = Scalar.select (m (ix2 R C)) (Ideal.ofBits .f32 w) (x (ix3 u R C)) := by
  have h1 : broadcastInDim S1x1024x2048 ![1, 2] bcast_S1024x2048_S1x1024x2048_1_2 m (ix3 u R C) = m (ix2 R C) :=
    broadcastInDim_apply _ _ m (ix3 u R C) (ix2 R C) (fun a => match a with | ⟨0, _⟩ => rfl | ⟨1, _⟩ => rfl)
  have h2 : broadcastInDim S1x1024x2048 ![] bcast_S_S1x1024x2048 (constant (F := Ideal) S_ .f32 w) (ix3 u R C) = Ideal.ofBits .f32 w :=
    broadcastInDim_apply _ _ (constant (F := Ideal) S_ .f32 w) (ix3 u R C) ix0 (fun a => a.elim0)
  show Scalar.select (broadcastInDim S1x1024x2048 ![1, 2] bcast_S1024x2048_S1x1024x2048_1_2 m (ix3 u R C))
    (broadcastInDim S1x1024x2048 ![] bcast_S_S1x1024x2048 (constant (F := Ideal) S_ .f32 w) (ix3 u R C)) (x (ix3 u R C)) = _
  rw [h1, h2]

theorem asPlane_apply (x : S1x1024x2048.Idx → EReal) (u u' : Fin 1) (R : Fin 1024) (C : Fin 2048) :
    asPlane x (ix4 u u' R C) = x (ix3 u R C) := by
  unfold asPlane
  refine broadcastInDim_apply _ _ x (ix4 u u' R C) (ix3 u R C) (fun a => ?_)
  match a with
  | ⟨0, _⟩ => show u.val = 0; omega
  | ⟨1, _⟩ => rfl
  | ⟨2, _⟩ => rfl

theorem uF_apply (L : S1x2x1024x2048.Idx → BitVec 32) (Fl : S1x3x1024x2048.Idx → EReal) (u : Fin 1) (R : Fin 1024) (C : Fin 2048) :
    uF (codeOf L) Fl (ix3 u R C) = uS (L (ix4 (0 : Fin 1) (1 : Fin 2) R C)) (Fl (ix4 (0 : Fin 1) (0 : Fin 3) R C)) := by
  unfold uF
  rw [whereK_apply, whereK_apply, eqK_apply, eqK_apply, codeOf_apply, plane0_apply]
  rfl
theorem vF_apply (L : S1x2x1024x2048.Idx → BitVec 32) (Fl : S1x3x1024x2048.Idx → EReal) (u : Fin 1) (R : Fin 1024) (C : Fin 2048) :
    vF (codeOf L) Fl (ix3 u R C) = vS (L (ix4 (0 : Fin 1) (1 : Fin 2) R C)) (Fl (ix4 (0 : Fin 1) (1 : Fin 3) R C)) := by
  unfold vF
  rw [whereK_apply, plane1_apply]
  show Scalar.select (IntOp.ori (eqK (codeOf L) 1#32 (ix2 R C)) (eqK (codeOf L) 2#32 (ix2 R C))) _ _ = _
  rw [eqK_apply, eqK_apply, codeOf_apply]
  rfl
theorem pF_apply (L : S1x2x1024x2048.Idx → BitVec 32) (Fl : S1x3x1024x2048.Idx → EReal) (u : Fin 1) (R : Fin 1024) (C : Fin 2048) :
    pF (codeOf L) Fl (ix3 u R C) = pS (L (ix4 (0 : Fin 1) (1 : Fin 2) R C)) (Fl (ix4 (0 : Fin 1) (2 : Fin 3) R C)) := by
  unfold pF
  rw [whereK_apply, plane2_apply]
  show Scalar.select (IntOp.ori (eqK (codeOf L) 2#32 (ix2 R C)) (eqK (codeOf L) 3#32 (ix2 R C))) _ _ = _
  rw [eqK_apply, eqK_apply, codeOf_apply]
  rfl

/-- the code and the raw fields at the padded coordinates of a grid cell are the arrays at the cell -/
theorem Bp_succ (L : SL.Idx → BitVec 32) (R : Fin 1024) (C : Fin 2048) :
    Bp L (R.val + 1) (C.val + 1) = L (ix4 (0 : Fin 1) (1 : Fin 2) R C) := by
  unfold Bp
  rw [rowSrc_succ R.val R.isLt, colSrc_succ C.val C.isLt]
theorem Fp_succ (Fl : SF.Idx → EReal) (k : Fin 3) (R : Fin 1024) (C : Fin 2048) :
    Fp Fl k (R.val + 1) (C.val + 1) = Fl (ix4 (0 : Fin 1) k R C) := by
  unfold Fp
  rw [rowSrc_succ R.val R.isLt, colSrc_succ C.val C.isLt]

set_option maxHeartbeats 400000 in
/-- the stack read at a cell: plane k is the k-th substituted field -/
theorem stackOf_apply (L : S1x2x1024x2048.Idx → BitVec 32) (Fl : S1x3x1024x2048.Idx → EReal) (u : Fin 1) (k : Fin 3) (R : Fin 1024) (C : Fin 2048) :
    stackOf (codeOf L) Fl (ix4 u k R C) = fld (Bp L) (Fp Fl) k (R.val + 1) (C.val + 1) := by
  unfold stackOf
  match k with
  | ⟨0, _⟩ =>
    refine (concatenate_apply_piece (t := S1x3x1024x2048) 1 _ _ (ix4 u (0 : Fin 3) R C) 0 (by show (0 : ℕ) < 3; omega) S1x1x1024x2048 _ rfl rfl 0 rfl
      (ix4 u (0 : Fin 1) R C) (fun b hb => ?_) rfl).trans ?_
    · match b with
      | ⟨0, _⟩ => rfl
      | ⟨1, _⟩ => exact absurd rfl hb
      | ⟨2, _⟩ => rfl
      | ⟨3, _⟩ => rfl
    · rw [asPlane_apply, uF_apply]
      show _ = uS (Bp L (R.val + 1) (C.val + 1)) (Fp Fl 0 (R.val + 1) (C.val + 1))
      rw [Bp_succ, Fp_succ]
  | ⟨1, _⟩ =>
    refine (concatenate_apply_piece (t := S1x3x1024x2048) 1 _ _ (ix4 u (1 : Fin 3) R C) 1 (by show (1 : ℕ) < 3; omega) S1x1x1024x2048 _ rfl rfl 1 rfl
      (ix4 u (0 : Fin 1) R C) (fun b hb => ?_) rfl).trans ?_
    · match b with
      | ⟨0, _⟩ => rfl
      | ⟨1, _⟩ => exact absurd rfl hb
      | ⟨2, _⟩ => rfl
      | ⟨3, _⟩ => rfl
    · rw [asPlane_apply, vF_apply]
      show _ = vS (Bp L (R.val + 1) (C.val + 1)) (Fp Fl 1 (R.val + 1) (C.val + 1))
      rw [Bp_succ, Fp_succ]
  | ⟨2, _⟩ =>
    refine (concatenate_apply_piece (t := S1x3x1024x2048) 1 _ _ (ix4 u (2 : Fin 3) R C) 2 (by show (2 : ℕ) < 3; omega) S1x1x1024x2048 _ rfl rfl 2 rfl
      (ix4 u (0 : Fin 1) R C) (fun b hb => ?_) rfl).trans ?_
    · match b with
      | ⟨0, _⟩ => rfl
      | ⟨1, _⟩ => exact absurd rfl hb
      | ⟨2, _⟩ => rfl
      | ⟨3, _⟩ => rfl
    · rw [asPlane_apply, pF_apply]
      show _ = pS (Bp L (R.val + 1) (C.val + 1)) (Fp Fl 2 (R.val + 1) (C.val + 1))
      rw [Bp_succ, Fp_succ]

end FieldsAt

section Pad
variable {α : Type}

/-- a row prepended: the mirror image of row 1 -/
def padR1 (X : S1x3x1024x2048.Idx → α) : S1x3x1025x2048.Idx → α :=
  concatenate S1x3x1025x2048 2 [⟨S1x3x1x2048, Host.reverse [2] (extractStridedSlice S1x3x1x2048 ![0, 0, 1, 0] X slices_S1x3x1024x2048_S1x3x1x2048_0_0_1_0)⟩, ⟨S1x3x1024x2048, X⟩] concatenates_S1x3x1x2048_S1x3x1024x2048_S1x3x1025x2048_d2

/-- a row appended: the mirror image of the last row but one (row 1023 of the 1025) -/
def padR2 (Y : S1x3x1025x2048.Idx → α) : S1x3x1026x2048.Idx → α :=
  concatenate S1x3x1026x2048 2 [⟨S1x3x1025x2048, Y⟩, ⟨S1x3x1x2048, Host.reverse [2] (extractStridedSlice S1x3x1x2048 ![0, 0, 1023, 0] Y slices_S1x3x1025x2048_S1x3x1x2048_0_0_1023_0)⟩] concatenates_S1x3x1025x2048_S1x3x1x2048_S1x3x1026x2048_d2

/-- a column prepended: the mirror image of column 1 -/
def padC1 (Z : S1x3x1026x2048.Idx → α) : S1x3x1026x2049.Idx → α :=
  concatenate S1x3x1026x2049 3 [⟨S1x3x1026x1, Host.reverse [3] (extractStridedSlice S1x3x1026x1 ![0, 0, 0, 1] Z slices_S1x3x1026x2048_S1x3x1026x1_0_0_0_1)⟩, ⟨S1x3x1026x2048, Z⟩] concatenates_S1x3x1026x1_S1x3x1026x2048_S1x3x1026x2049_d3

/-- a column appended: the mirror image of the last column but one (column 2047 of the 2049) -/
def padC2 (T : S1x3x1026x2049.Idx → α) : S1x3x1026x2050.Idx → α :=
  concatenate S1x3x1026x2050 3 [⟨S1x3x1026x2049, T⟩, ⟨S1x3x1026x1, Host.reverse [3] (extractStridedSlice S1x3x1026x1 ![0, 0, 0, 2047] T slices_S1x3x1026x2049_S1x3x1026x1_0_0_0_2047)⟩] concatenates_S1x3x1026x2049_S1x3x1026x1_S1x3x1026x2050_d3

set_option maxHeartbeats 400000 in
/-- Row 0 reads row 1, row p ≥ 1 reads row p - 1. -/
theorem padR1_apply (X : S1x3x1024x2048.Idx → α) (u : Fin 1) (k : Fin 3) (p : Fin 1025) (q : Fin 2048) :
    padR1 X (ix4 u k p q) = X (ix4 u k ⟨if p.val = 0 then 1 else p.val - 1, by split <;> omega⟩ q) := by
  unfold padR1
  by_cases hp : p.val = 0
  · refine (concatenate_pair_apply_left (t := S1x3x1025x2048) (s₁ := S1x3x1x2048) (s₂ := S1x3x1024x2048) 2 _ _ _ (ix4 u k p q) rfl (ix4 u k (0 : Fin 1) q) (fun b => ?_)).trans ?_
    · match b with
      | ⟨0, _⟩ => rfl
      | ⟨1, _⟩ => rfl
      | ⟨2, _⟩ => exact hp.symm
      | ⟨3, _⟩ => rfl
    · unfold Host.reverse
      refine (extractStridedSlice_apply _ _ _ _ (ix4 u k (1 : Fin 1024) q) (fun a => ?_)).trans ?_
      · match a with
        | ⟨0, _⟩ => simp
        | ⟨1, _⟩ => simp
        | ⟨2, _⟩ => simp
        | ⟨3, _⟩ => simp
      · congr 1
        funext a
        match a with
        | ⟨0, _⟩ => rfl
        | ⟨1, _⟩ => rfl
        | ⟨2, _⟩ => exact Fin.ext (by simp [hp])
        | ⟨3, _⟩ => rfl
  · refine (concatenate_pair_apply_right (t := S1x3x1025x2048) (s₁ := S1x3x1x2048) (s₂ := S1x3x1024x2048) 2 _ _ _ (ix4 u k p q) rfl rfl (ix4 u k (⟨p.val - 1, by omega⟩ : Fin 1024) q) (fun b hb => ?_) ?_).trans ?_
    · match b with
      | ⟨0, _⟩ => rfl
      | ⟨1, _⟩ => rfl
      | ⟨2, _⟩ => exact absurd rfl hb
      | ⟨3, _⟩ => rfl
    · show p.val - 1 + 1 = p.val
      omega
    · congr 1
      funext a
      match a with
      | ⟨0, _⟩ => rfl
      | ⟨1, _⟩ => rfl
      | ⟨2, _⟩ => exact Fin.ext (by simp [hp])
      | ⟨3, _⟩ => rfl

set_option maxHeartbeats 400000 in
/-- Rows 0 … 1024 read themselves, row 1025 reads row 1023. -/
theorem padR2_apply (Y : S1x3x1025x2048.Idx → α) (u : Fin 1) (k : Fin 3) (p : Fin 1026) (q : Fin 2048) :
    padR2 Y (ix4 u k p q) = Y (ix4 u k ⟨if p.val ≤ 1024 then p.val else 1023, by split <;> omega⟩ q) := by
  unfold padR2
  by_cases hp : p.val ≤ 1024
  · refine (concatenate_pair_apply_left (t := S1x3x1026x2048) (s₁ := S1x3x1025x2048) (s₂ := S1x3x1x2048) 2 _ _ _ (ix4 u k p q) rfl (ix4 u k (⟨p.val, by omega⟩ : Fin 1025) q) (fun b => ?_)).trans ?_
    · match b with
      | ⟨0, _⟩ => rfl
      | ⟨1, _⟩ => rfl
      | ⟨2, _⟩ => rfl
      | ⟨3, _⟩ => rfl
    · congr 1
      funext a
      match a with
      | ⟨0, _⟩ => rfl
      | ⟨1, _⟩ => rfl
      | ⟨2, _⟩ => exact Fin.ext (by simp [hp])
      | ⟨3, _⟩ => rfl
  · refine (concatenate_pair_apply_right (t := S1x3x1026x2048) (s₁ := S1x3x1025x2048) (s₂ := S1x3x1x2048) 2 _ _ _ (ix4 u k p q) rfl rfl (ix4 u k (0 : Fin 1) q) (fun b hb => ?_) ?_).trans ?_
    · match b with
      | ⟨0, _⟩ => rfl
      | ⟨1, _⟩ => rfl
      | ⟨2, _⟩ => exact absurd rfl hb
      | ⟨3, _⟩ => rfl
    · show 0 + 1025 = p.val
      omega
    · unfold Host.reverse
      refine (extractStridedSlice_apply _ _ _ _ (ix4 u k (1023 : Fin 1025) q) (fun a => ?_)).trans ?_
      · match a with
        | ⟨0, _⟩ => simp
        | ⟨1, _⟩ => simp
        | ⟨2, _⟩ => simp
        | ⟨3, _⟩ => simp
      · congr 1
        funext a
        match a with
        | ⟨0, _⟩ => rfl
        | ⟨1, _⟩ => rfl
        | ⟨2, _⟩ => exact Fin.ext (by simp [hp])
        | ⟨3, _⟩ => rfl

set_option maxHeartbeats 400000 in
/-- Column 0 reads column 1, column q ≥ 1 reads column q - 1. -/
theorem padC1_apply (Z : S1x3x1026x2048.Idx → α) (u : Fin 1) (k : Fin 3) (p : Fin 1026) (q : Fin 2049) :
    padC1 Z (ix4 u k p q) = Z (ix4 u k p ⟨if q.val = 0 then 1 else q.val - 1, by split <;> omega⟩) := by
  unfold padC1
  by_cases hq : q.val = 0
  · refine (concatenate_pair_apply_left (t := S1x3x1026x2049) (s₁ := S1x3x1026x1) (s₂ := S1x3x1026x2048) 3 _ _ _ (ix4 u k p q) rfl (ix4 u k p (0 : Fin 1)) (fun b => ?_)).trans ?_
    · match b with
      | ⟨0, _⟩ => rfl
      | ⟨1, _⟩ => rfl
      | ⟨2, _⟩ => rfl
      | ⟨3, _⟩ => exact hq.symm
    · unfold Host.reverse
      refine (extractStridedSlice_apply _ _ _ _ (ix4 u k p (1 : Fin 2048)) (fun a => ?_)).trans ?_
      · match a with
        | ⟨0, _⟩ => simp
        | ⟨1, _⟩ => simp
        | ⟨2, _⟩ => simp
        | ⟨3, _⟩ => simp
      · congr 1
        funext a
        match a with
        | ⟨0, _⟩ => rfl
        | ⟨1, _⟩ => rfl
        | ⟨2, _⟩ => rfl
        | ⟨3, _⟩ => exact Fin.ext (by simp [hq])
  · refine (concatenate_pair_apply_right (t := S1x3x1026x2049) (s₁ := S1x3x1026x1) (s₂ := S1x3x1026x2048) 3 _ _ _ (ix4 u k p q) rfl rfl (ix4 u k p (⟨q.val - 1, by omega⟩ : Fin 2048)) (fun b hb => ?_) ?_).trans ?_
    · match b with
      | ⟨0, _⟩ => rfl
      | ⟨1, _⟩ => rfl
      | ⟨2, _⟩ => rfl
      | ⟨3, _⟩ => exact absurd rfl hb
    · show q.val - 1 + 1 = q.val
      omega
    · congr 1
      funext a
      match a with
      | ⟨0, _⟩ => rfl
      | ⟨1, _⟩ => rfl
      | ⟨2, _⟩ => rfl
      | ⟨3, _⟩ => exact Fin.ext (by simp [hq])

set_option maxHeartbeats 400000 in
/-- Columns 0 … 2048 read themselves, column 2049 reads column 2047. -/
theorem padC2_apply (T : S1x3x1026x2049.Idx → α) (u : Fin 1) (k : Fin 3) (p : Fin 1026) (q : Fin 2050) :
    padC2 T (ix4 u k p q) = T (ix4 u k p ⟨if q.val ≤ 2048 then q.val else 2047, by split <;> omega⟩) := by
  unfold padC2
  by_cases hq : q.val ≤ 2048
  · refine (concatenate_pair_apply_left (t := S1x3x1026x2050) (s₁ := S1x3x1026x2049) (s₂ := S1x3x1026x1) 3 _ _ _ (ix4 u k p q) rfl (ix4 u k p (⟨q.val, by omega⟩ : Fin 2049)) (fun b => ?_)).trans ?_
    · match b with
      | ⟨0, _⟩ => rfl
      | ⟨1, _⟩ => rfl
      | ⟨2, _⟩ => rfl
      | ⟨3, _⟩ => rfl
    · congr 1
      funext a
      match a with
      | ⟨0, _⟩ => rfl
      | ⟨1, _⟩ => rfl
      | ⟨2, _⟩ => rfl
      | ⟨3, _⟩ => exact Fin.ext (by simp [hq])
  · refine (concatenate_pair_apply_right (t := S1x3x1026x2050) (s₁ := S1x3x1026x2049) (s₂ := S1x3x1026x1) 3 _ _ _ (ix4 u k p q) rfl rfl (ix4 u k p (0 : Fin 1)) (fun b hb => ?_) ?_).trans ?_
    · match b with
      | ⟨0, _⟩ => rfl
      | ⟨1, _⟩ => rfl
      | ⟨2, _⟩ => rfl
      | ⟨3, _⟩ => exact absurd rfl hb
    · show 0 + 2049 = q.val
      omega
    · unfold Host.reverse
      refine (extractStridedSlice_apply _ _ _ _ (ix4 u k p (2047 : Fin 2049)) (fun a => ?_)).trans ?_
      · match a with
        | ⟨0, _⟩ => simp
        | ⟨1, _⟩ => simp
        | ⟨2, _⟩ => simp
        | ⟨3, _⟩ => simp
      · congr 1
        funext a
        match a with
        | ⟨0, _⟩ => rfl
        | ⟨1, _⟩ => rfl
        | ⟨2, _⟩ => rfl
        | ⟨3, _⟩ => exact Fin.ext (by simp [hq])
end Pad

section StretchA
variable (V : Valuation τ sig (Elt Ideal))

/-- The 57 operations cut before the stacking: the first 51 build the code and the three substituted fields as planes,
    the last 6 stack them and read planes 0 and 1 back. -/
abbrev opsAP : List (HloOp τ sig (Elt Ideal)) := opsA_0 ++ opsA_1.take 8
abbrev opsAQ : List (HloOp τ sig (Elt Ideal)) := opsA_1.drop 8

theorem opsA_split : (opsA : List (HloOp τ sig (Elt Ideal))) = opsAP ++ opsAQ := by
  show opsA_0 ++ opsA_1 = (opsA_0 ++ opsA_1.take 8) ++ opsA_1.drop 8
  rw [List.append_assoc, List.take_append_drop]

set_option maxHeartbeats 1000000 in
theorem AP_v1 : (after opsAP V (Proc.devRef .tc main_v1) : S1024x2048.Idx → BitVec 32) = codeOf (V (Proc.devRef .tc main_arg0)) := by
  simp only [opsAP, opsA_0, opsA_1, List.take_succ_cons, List.take_zero, List.cons_append, List.nil_append]
  after_results_simp
  rfl
set_option maxHeartbeats 1000000 in
theorem AP_v26 : (after opsAP V (Proc.devRef .tc main_v26) : S1x1x1024x2048.Idx → EReal)
    = asPlane (uF (codeOf (V (Proc.devRef .tc main_arg0))) (V (Proc.devRef .tc main_arg1))) := by
  simp only [opsAP, opsA_0, opsA_1, List.take_succ_cons, List.take_zero, List.cons_append, List.nil_append]
  after_results_simp
  rfl
set_option maxHeartbeats 1000000 in
theorem AP_v27 : (after opsAP V (Proc.devRef .tc main_v27) : S1x1x1024x2048.Idx → EReal)
    = asPlane (vF (codeOf (V (Proc.devRef .tc main_arg0))) (V (Proc.devRef .tc main_arg1))) := by
  simp only [opsAP, opsA_0, opsA_1, List.take_succ_cons, List.take_zero, List.cons_append, List.nil_append]
  after_results_simp
  rfl
set_option maxHeartbeats 1000000 in
theorem AP_v28 : (after opsAP V (Proc.devRef .tc main_v28) : S1x1x1024x2048.Idx → EReal)
    = asPlane (pF (codeOf (V (Proc.devRef .tc main_arg0))) (V (Proc.devRef .tc main_arg1))) := by
  simp only [opsAP, opsA_0, opsA_1, List.take_succ_cons, List.take_zero, List.cons_append, List.nil_append]
  after_results_simp
  rfl

variable (W : Valuation τ sig (Elt Ideal))

set_option maxHeartbeats 400000 in
theorem AQ_v29 : (after opsAQ W (Proc.devRef .tc main_v29) : S1x3x1024x2048.Idx → EReal)
    = concatenate S1x3x1024x2048 1 [⟨S1x1x1024x2048, (W (Proc.devRef .tc main_v26) : S1x1x1024x2048.Idx → EReal)⟩,
        ⟨S1x1x1024x2048, (W (Proc.devRef .tc main_v27) : S1x1x1024x2048.Idx → EReal)⟩,
        ⟨S1x1x1024x2048, (W (Proc.devRef .tc main_v28) : S1x1x1024x2048.Idx → EReal)⟩]
      concatenates_S1x1x1024x2048_S1x1x1024x2048_S1x1x1024x2048_S1x3x1024x2048_d1 := by
  simp only [opsAQ, opsA_1, List.drop_succ_cons, List.drop_zero]
  after_results
  rfl
set_option maxHeartbeats 400000 in
theorem AQ_v31 : (after opsAQ W (Proc.devRef .tc main_v31) : S1x1024x2048.Idx → EReal)
    = shapeCast S1x1024x2048 (extractStridedSlice S1x1x1024x2048 ![0, 0, 0, 0] (after opsAQ W (Proc.devRef .tc main_v29) : S1x3x1024x2048.Idx → EReal)
        slices_S1x3x1024x2048_S1x1x1024x2048_0_0_0_0) shapeCasts_S1x1x1024x2048_S1x1024x2048 := by
  simp only [opsAQ, opsA_1, List.drop_succ_cons, List.drop_zero]
  after_results
  rfl
set_option maxHeartbeats 400000 in
theorem AQ_v33 : (after opsAQ W (Proc.devRef .tc main_v33) : S1x1024x2048.Idx → EReal)
    = shapeCast S1x1024x2048 (extractStridedSlice S1x1x1024x2048 ![0, 1, 0, 0] (after opsAQ W (Proc.devRef .tc main_v29) : S1x3x1024x2048.Idx → EReal)
        slices_S1x3x1024x2048_S1x1x1024x2048_0_1_0_0) shapeCasts_S1x1x1024x2048_S1x1024x2048 := by
  simp only [opsAQ, opsA_1, List.drop_succ_cons, List.drop_zero]
  after_results
  rfl
theorem AQ_v1 : after opsAQ W (Proc.devRef .tc main_v1) = W (Proc.devRef .tc main_v1) := by
  simp only [opsAQ, opsA_1, List.drop_succ_cons, List.drop_zero]
  after_results_simp

/-- The stacked fields after the 57 operations. -/
theorem A_v29 : (after opsA V (Proc.devRef .tc main_v29) : S1x3x1024x2048.Idx → EReal)
    = stackOf (codeOf (V (Proc.devRef .tc main_arg0))) (V (Proc.devRef .tc main_arg1)) := by
  rw [opsA_split, Cert.Lib.AfterAppend.after_append, AQ_v29, AP_v26, AP_v27, AP_v28]
  rfl

end StretchA

section StretchB
variable (W : Valuation τ sig (Elt Ideal))

/-- The sixteen operations in four groups of four: each group extends the array by one row or one column. -/
abbrev opsB1 : List (HloOp τ sig (Elt Ideal)) := opsB_0.take 4
abbrev opsB2 : List (HloOp τ sig (Elt Ideal)) := (opsB_0.drop 4).take 4
abbrev opsB3 : List (HloOp τ sig (Elt Ideal)) := (opsB_0.drop 8).take 4
abbrev opsB4 : List (HloOp τ sig (Elt Ideal)) := opsB_0.drop 12

theorem opsB_split : (opsB : List (HloOp τ sig (Elt Ideal))) = opsB1 ++ (opsB2 ++ (opsB3 ++ opsB4)) := rfl

set_option maxHeartbeats 400000 in
theorem B1_v3 : (after opsB1 W (Proc.devRef .tc main_call4_v3) : S1x3x1025x2048.Idx → EReal)
    = padR1 (W (Proc.devRef .tc main_v29) : S1x3x1024x2048.Idx → EReal) := by
  simp only [opsB1, opsB_0, List.take_succ_cons, List.take_zero]
  after_results
  rfl

set_option maxHeartbeats 400000 in
theorem B2_v7 : (after opsB2 W (Proc.devRef .tc main_call4_v7) : S1x3x1026x2048.Idx → EReal)
    = padR2 (W (Proc.devRef .tc main_call4_v3) : S1x3x1025x2048.Idx → EReal) := by
  simp only [opsB2, opsB_0, List.take_succ_cons, List.take_zero, List.drop_succ_cons, List.drop_zero]
  after_results
  rfl

set_option maxHeartbeats 400000 in
theorem B3_v11 : (after opsB3 W (Proc.devRef .tc main_call4_v11) : S1x3x1026x2049.Idx → EReal)
    = padC1 (W (Proc.devRef .tc main_call4_v7) : S1x3x1026x2048.Idx → EReal) := by
  simp only [opsB3, opsB_0, List.take_succ_cons, List.take_zero, List.drop_succ_cons, List.drop_zero]
  after_results
  rfl

set_option maxHeartbeats 400000 in
theorem B4_v34 : (after opsB4 W (Proc.devRef .tc main_v34) : S1x3x1026x2050.Idx → EReal)
    = padC2 (W (Proc.devRef .tc main_call4_v11) : S1x3x1026x2049.Idx → EReal) := by
  simp only [opsB4, opsB_0, List.drop_succ_cons, List.drop_zero]
  after_results
  rfl

set_option maxHeartbeats 400000 in
/-- The sixteen operations compose the four extensions. -/
theorem B_v34 : (after opsB W (Proc.devRef .tc main_v34) : S1x3x1026x2050.Idx → EReal)
    = padC2 (padC1 (padR2 (padR1 (W (Proc.devRef .tc main_v29) : S1x3x1024x2048.Idx → EReal)))) := by
  rw [opsB_split, Cert.Lib.AfterAppend.after_append, Cert.Lib.AfterAppend.after_append, Cert.Lib.AfterAppend.after_append,
    B4_v34, B3_v11, B2_v7, B1_v3]

end StretchB

end RAB

open RAB

section A
variable (V : Valuation τ sig (Elt Ideal))

theorem A_flow : (after opsA V (Proc.devRef .tc main_v29) : S1x3x1024x2048.Idx → EReal)
    = Cert.Spec.flowbc (V (Proc.devRef .tc main_arg0)) (V (Proc.devRef .tc main_arg1)) := by
  rw [A_v29]
  funext i
  obtain ⟨u, k, R, C, rfl⟩ : ∃ (u : Fin 1) (k : Fin 3) (R : Fin 1024) (C : Fin 2048), i = ix4 u k R C :=
    ⟨i 0, i 1, i 2, i 3, eq_ix4 i⟩
  exact stackOf_apply _ _ u k R C

theorem A_code (R : Fin 1024) (C : Fin 2048) : (after opsA V (Proc.devRef .tc main_v1) : S1024x2048.Idx → BitVec 32) (ix2 R C)
    = Cert.Spec.Bp (V (Proc.devRef .tc main_arg0)) (R.val + 1) (C.val + 1) := by
  rw [opsA_split, Cert.Lib.AfterAppend.after_append, AQ_v1, AP_v1, codeOf_apply, Bp_succ]

theorem A_u (R : Fin 1024) (C : Fin 2048) : (after opsA V (Proc.devRef .tc main_v31) : S1x1024x2048.Idx → EReal) (ix3 (0 : Fin 1) R C)
    = Cert.Spec.up (Cert.Spec.Bp (V (Proc.devRef .tc main_arg0))) (Cert.Spec.Fp (V (Proc.devRef .tc main_arg1))) (R.val + 1) (C.val + 1) := by
  have h29 := A_v29 V
  rw [opsA_split, Cert.Lib.AfterAppend.after_append] at h29
  rw [opsA_split, Cert.Lib.AfterAppend.after_append, AQ_v31, h29]
  refine (shapeCast_1abc_abc_apply _ _ (0 : Fin 1) R C).trans ?_
  refine (slice4_axis1_apply 0 _ _ (0 : Fin 1) (0 : Fin 1) R C (0 : Fin 3) rfl).trans ?_
  exact stackOf_apply _ _ (0 : Fin 1) (0 : Fin 3) R C

theorem A_v (R : Fin 1024) (C : Fin 2048) : (after opsA V (Proc.devRef .tc main_v33) : S1x1024x2048.Idx → EReal) (ix3 (0 : Fin 1) R C)
    = Cert.Spec.vp (Cert.Spec.Bp (V (Proc.devRef .tc main_arg0))) (Cert.Spec.Fp (V (Proc.devRef .tc main_arg1))) (R.val + 1) (C.val + 1) := by
  have h29 := A_v29 V
  rw [opsA_split, Cert.Lib.AfterAppend.after_append] at h29
  rw [opsA_split, Cert.Lib.AfterAppend.after_append, AQ_v33, h29]
  refine (shapeCast_1abc_abc_apply _ _ (0 : Fin 1) R C).trans ?_
  refine (slice4_axis1_apply 1 _ _ (0 : Fin 1) (0 : Fin 1) R C (1 : Fin 3) rfl).trans ?_
  exact stackOf_apply _ _ (0 : Fin 1) (1 : Fin 3) R C

theorem A_arg0 : after opsA V (Proc.devRef .tc main_arg0) = V (Proc.devRef .tc main_arg0) := by
  simp only [opsA, opsA_0, opsA_1, List.cons_append, List.nil_append]
  after_results_simp
theorem A_arg1 : after opsA V (Proc.devRef .tc main_arg1) = V (Proc.devRef .tc main_arg1) := by
  simp only [opsA, opsA_0, opsA_1, List.cons_append, List.nil_append]
  after_results_simp
end A

section B
variable (W : Valuation τ sig (Elt Ideal))

set_option maxHeartbeats 400000 in
/-- The reflection: the extended array at padded coordinates reads the stacked fields at the reflected source cell. -/
theorem B_pad (k : Fin 3) (p : Fin 1026) (q : Fin 2050) :
    (after opsB W (Proc.devRef .tc main_v34) : S1x3x1026x2050.Idx → EReal) (ix4 (0 : Fin 1) k p q)
      = (W (Proc.devRef .tc main_v29) : S1x3x1024x2048.Idx → EReal) (ix4 (0 : Fin 1) k (Cert.Spec.rowSrc p.val) (Cert.Spec.colSrc q.val)) := by
  rw [B_v34, padC2_apply, padC1_apply, padR2_apply, padR1_apply]
  have hp := p.isLt
  have hq := q.isLt
  have hr : (⟨if (if p.val ≤ 1024 then p.val else 1023) = 0 then 1 else (if p.val ≤ 1024 then p.val else 1023) - 1,
      by split <;> split <;> omega⟩ : Fin 1024) = Cert.Spec.rowSrc p.val := by
    refine Fin.ext ?_
    show (if (if p.val ≤ 1024 then p.val else 1023) = 0 then 1 else (if p.val ≤ 1024 then p.val else 1023) - 1)
        = (if p.val = 0 then 1 else if p.val ≤ 1024 then p.val - 1 else 1024 - 2) % 1024
    split_ifs <;> first | omega | contradiction
  have hc : (⟨if (if q.val ≤ 2048 then q.val else 2047) = 0 then 1 else (if q.val ≤ 2048 then q.val else 2047) - 1,
      by split <;> split <;> omega⟩ : Fin 2048) = Cert.Spec.colSrc q.val := by
    refine Fin.ext ?_
    show (if (if q.val ≤ 2048 then q.val else 2047) = 0 then 1 else (if q.val ≤ 2048 then q.val else 2047) - 1)
        = (if q.val = 0 then 1 else if q.val ≤ 2048 then q.val - 1 else 2048 - 2) % 2048
    split_ifs <;> first | omega | contradiction
  exact congrArg₂ (fun (a : Fin 1024) (b : Fin 2048) => (W (Proc.devRef .tc main_v29) : S1x3x1024x2048.Idx → EReal) (ix4 (0 : Fin 1) k a b)) hr hc

theorem B_v1 : after opsB W (Proc.devRef .tc main_v1) = W (Proc.devRef .tc main_v1) := by
  simp only [opsB, opsB_0]
  after_results_simp
theorem B_v29 : after opsB W (Proc.devRef .tc main_v29) = W (Proc.devRef .tc main_v29) := by
  simp only [opsB, opsB_0]
  after_results_simp
theorem B_v31 : after opsB W (Proc.devRef .tc main_v31) = W (Proc.devRef .tc main_v31) := by
  simp only [opsB, opsB_0]
  after_results_simp
theorem B_v33 : after opsB W (Proc.devRef .tc main_v33) = W (Proc.devRef .tc main_v33) := by
  simp only [opsB, opsB_0]
  after_results_simp
theorem B_arg0 : after opsB W (Proc.devRef .tc main_arg0) = W (Proc.devRef .tc main_arg0) := by
  simp only [opsB, opsB_0]
  after_results_simp
theorem B_arg1 : after opsB W (Proc.devRef .tc main_arg1) = W (Proc.devRef .tc main_arg1) := by
  simp only [opsB, opsB_0]
  after_results_simp
end B
end Cert.ReferenceIdeal.Hand
end
-- ==== Proof.LibSumIdx.lean ====
import Idealize.ShloMosaic.Lib.ValueIdx

/-!
# Sums over rank-3 and rank-4 index sets, coordinate by coordinate

An index of a rank-`k` shape is the tuple of its coordinates, so a sum over the whole index set is the iterated
sum over the coordinate ranges, outermost axis first. The rank-2 case is the library's `sum_idx2`; these are the
same statement at ranks 3 and 4, in any commutative additive monoid (no finiteness is involved in regrouping).
Two rotations of nested sums follow: the order in which a reduction visits its axes does not change the total.
-/

noncomputable section

open scoped BigOperators

namespace Cert.Lib

open Idealize.ShloMosaic Idealize.ShloMosaic.ValueIdx

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over its coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over a rank-4 index set is the fourfold sum over its coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- Three nested sums with the outermost index moved innermost. -/
theorem sum_rot3 {M : Type*} [AddCommMonoid M] {α β γ : Type*} [Fintype α] [Fintype β] [Fintype γ]
    (g : α → β → γ → M) : ∑ a, ∑ b, ∑ c, g a b c = ∑ b, ∑ c, ∑ a, g a b c := by
  calc ∑ a, ∑ b, ∑ c, g a b c = ∑ b, ∑ a, ∑ c, g a b c := Finset.sum_comm
    _ = ∑ b, ∑ c, ∑ a, g a b c := Finset.sum_congr rfl fun b _ => Finset.sum_comm

/-- Four nested sums with the innermost index moved outermost. -/
theorem sum_rot4 {M : Type*} [AddCommMonoid M] {α β γ δ : Type*} [Fintype α] [Fintype β] [Fintype γ] [Fintype δ]
    (g : α → β → γ → δ → M) : ∑ c, ∑ d, ∑ b, ∑ a, g a b c d = ∑ a, ∑ c, ∑ d, ∑ b, g a b c d := by
  calc ∑ c, ∑ d, ∑ b, ∑ a, g a b c d = ∑ c, ∑ d, ∑ a, ∑ b, g a b c d :=
        Finset.sum_congr rfl fun c _ => Finset.sum_congr rfl fun d _ => Finset.sum_comm
    _ = ∑ c, ∑ a, ∑ d, ∑ b, g a b c d := Finset.sum_congr rfl fun c _ => Finset.sum_comm
    _ = ∑ a, ∑ c, ∑ d, ∑ b, g a b c d := Finset.sum_comm

end Cert.Lib

end
-- ==== Proof.RValC1.lean ====
import proofs.«148698_j59665685676147_2_alg».proof.Proof.ROps
import proofs.«148698_j59665685676147_2_alg».proof.Proof.Spec
import proofs.«148698_j59665685676147_2_alg».proof.Proof.LibAfterAppend
import Idealize.ShloMosaic.Lib.ValueIdx
import Idealize.ShloMosaic.Lib.ValueLayout
set_option maxRecDepth 16384
noncomputable section
namespace Cert.ReferenceIdeal.Hand
open Cert.ReferenceIdeal Cert.ReferenceIdeal.Gen Idealize.ShloMosaic Idealize.ShloMosaic.TcCoe Idealize.SL.Sem Idealize.ShloMosaic.StableHlo Idealize.ShloMosaic.ValueIdx

/-!
# The three residuals of the reference, cell by cell

The last 253 operations of the reference read the code b on the grid, the fields u and v on the grid, and the three
fields extended by one cell on every side. Read at a grid cell (R, C), whose centre in padded coordinates is
(R + 1, C + 1), every operation is pointwise: a slice of an extended plane from offset (a, b) reads the plane at
(R + a, C + b); a comparison of the code with a constant, an 'or' of such bits, a select on such a bit and the
float arithmetic all act on the values at the cell. So the pressure gradient, the two momentum residuals and the
continuity residual at the cell are the stencil expressions of the specification in the extended fields. The
operations are read in six stretches, each from arbitrary contents with the facts it needs about the buffers it
reads; the stretches are then chained.
-/

namespace RC1

/-! ## Layout operations of this program read at an index -/
section Helpers
variable {α : Type}

/-- A [1,1026,2050] array cut to [1,1024,2048] from (a, b) reads, at (0, R, C), the source at (0, R + a, C + b). -/
theorem slice_at (a b : ℕ) (x : S1x1026x2050.Idx → α) (h : S1x1026x2050.Slices ![0, a, b] S1x1024x2048)
    (R : Fin 1024) (C : Fin 2048) (hR : R.val + a < 1026) (hC : C.val + b < 2050) :
    extractStridedSlice S1x1024x2048 ![0, a, b] x h (ix3 (0 : Fin 1) R C)
      = x (ix3 (0 : Fin 1) (⟨R.val + a, hR⟩ : Fin 1026) (⟨C.val + b, hC⟩ : Fin 2050)) :=
  extractStridedSlice_apply _ _ _ _ _ (fun ax => by
    match ax with
    | ⟨0, _⟩ => rfl
    | ⟨1, _⟩ => exact Nat.add_comm _ _
    | ⟨2, _⟩ => exact Nat.add_comm _ _)

theorem slice_at_12 (x : S1x1026x2050.Idx → α) (h : S1x1026x2050.Slices ![0, 1, 2] S1x1024x2048) (R : Fin 1024) (C : Fin 2048) :
    extractStridedSlice S1x1024x2048 ![0, 1, 2] x h (ix3 (0 : Fin 1) R C)
      = x (ix3 (0 : Fin 1) (⟨R.val + 1, by omega⟩ : Fin 1026) (⟨C.val + 2, by omega⟩ : Fin 2050)) := slice_at 1 2 x h R C _ _
theorem slice_at_11 (x : S1x1026x2050.Idx → α) (h : S1x1026x2050.Slices ![0, 1, 1] S1x1024x2048) (R : Fin 1024) (C : Fin 2048) :
    extractStridedSlice S1x1024x2048 ![0, 1, 1] x h (ix3 (0 : Fin 1) R C)
      = x (ix3 (0 : Fin 1) (⟨R.val + 1, by omega⟩ : Fin 1026) (⟨C.val + 1, by omega⟩ : Fin 2050)) := slice_at 1 1 x h R C _ _
theorem slice_at_10 (x : S1x1026x2050.Idx → α) (h : S1x1026x2050.Slices ![0, 1, 0] S1x1024x2048) (R : Fin 1024) (C : Fin 2048) :
    extractStridedSlice S1x1024x2048 ![0, 1, 0] x h (ix3 (0 : Fin 1) R C)
      = x (ix3 (0 : Fin 1) (⟨R.val + 1, by omega⟩ : Fin 1026) (⟨C.val, by omega⟩ : Fin 2050)) := slice_at 1 0 x h R C _ _
theorem slice_at_01 (x : S1x1026x2050.Idx → α) (h : S1x1026x2050.Slices ![0, 0, 1] S1x1024x2048) (R : Fin 1024) (C : Fin 2048) :
    extractStridedSlice S1x1024x2048 ![0, 0, 1] x h (ix3 (0 : Fin 1) R C)
      = x (ix3 (0 : Fin 1) (⟨R.val, by omega⟩ : Fin 1026) (⟨C.val + 1, by omega⟩ : Fin 2050)) := slice_at 0 1 x h R C _ _
theorem slice_at_21 (x : S1x1026x2050.Idx → α) (h : S1x1026x2050.Slices ![0, 2, 1] S1x1024x2048) (R : Fin 1024) (C : Fin 2048) :
    extractStridedSlice S1x1024x2048 ![0, 2, 1] x h (ix3 (0 : Fin 1) R C)
      = x (ix3 (0 : Fin 1) (⟨R.val + 2, by omega⟩ : Fin 1026) (⟨C.val + 1, by omega⟩ : Fin 2050)) := slice_at 2 1 x h R C _ _

/-- Plane k of a [1,3,1026,2050] array, as a [1,1026,2050] array, reads at (0, p, q) the source at (0, k, p, q). -/
theorem plane_at (k : ℕ) (hk : k < 3) (x : S1x3x1026x2050.Idx → α) (hs : S1x3x1026x2050.Slices ![0, k, 0, 0] S1x1x1026x2050)
    (hc : S1x1x1026x2050.ShapeCasts S1x1026x2050) (p : Fin 1026) (q : Fin 2050) :
    shapeCast S1x1026x2050 (extractStridedSlice S1x1x1026x2050 ![0, k, 0, 0] x hs) hc (ix3 (0 : Fin 1) p q)
      = x (ix4 (0 : Fin 1) (⟨k, hk⟩ : Fin 3) p q) := by
  refine (shapeCast_1abc_abc_apply _ hc (0 : Fin 1) p q).trans ?_
  exact extractStridedSlice_apply _ _ _ _ _ (fun ax => by
    match ax with
    | ⟨0, _⟩ => rfl
    | ⟨1, _⟩ => rfl
    | ⟨2, _⟩ => exact (Nat.zero_add _).symm
    | ⟨3, _⟩ => exact (Nat.zero_add _).symm)

/-- A [1024,2048] array broadcast to [1,1024,2048] along axes 1 and 2 reads, at (0, R, C), the source at (R, C). -/
theorem bcast12_at (x : S1024x2048.Idx → α) (h : S1024x2048.BroadcastsInDim S1x1024x2048 (![1, 2] : Fin 2 → Fin S1x1024x2048.rank))
    (R : Fin 1024) (C : Fin 2048) :
    broadcastInDim S1x1024x2048 ![1, 2] h x (ix3 (0 : Fin 1) R C) = x (ix2 R C) :=
  broadcastInDim_apply _ h x _ _ (fun ax => by
    match ax with
    | ⟨0, _⟩ => rfl
    | ⟨1, _⟩ => rfl)

/-- A scalar broadcast to any shape reads the scalar everywhere. -/
theorem bcast0_at {t : Shape} (x : S_.Idx → α) (h : S_.BroadcastsInDim t (![] : Fin 0 → Fin t.rank)) (j : t.Idx) :
    broadcastInDim t ![] h x j = x ix0 := by
  unfold broadcastInDim
  exact congrArg x (funext fun a => a.elim0)
end Helpers

section Helpers2
theorem ori_at {s : Shape} {w : ℕ} (x y : IVec s w) (i : s.Idx) : ori x y i = IntOp.ori (x i) (y i) := rfl
theorem cmpi_at {s : Shape} {w : ℕ} (p : CmpIPredicate) (x y : IVec s w) (i : s.Idx) : cmpi p x y i = IntOp.cmpi p (x i) (y i) := rfl
theorem hostDivf_at {s : Shape} {φ : FTy} (x y : FVec Ideal s φ) (i : s.Idx) : Host.divf x y i = Ideal.div (x i) (y i) := rfl
theorem uitofp_at {s : Shape} {w : ℕ} {φ : FTy} (x : IVec s w) (i : s.Idx) : (uitofp φ x : FVec Ideal s φ) i = FloatOps.uitofp φ (x i) := rfl
end Helpers2

/-- The one-pass reading of a stretch's results, at a hypothesis. -/
macro "rc1_results_at " h:ident : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne'] at $h:ident))

section Chunks
variable (V : Valuation τ sig (Elt Ideal)) (B : ℕ → ℕ → BitVec 32) (Fl : Fin 3 → ℕ → ℕ → EReal)

/-! ## Operations 1 to 43: the three planes, the pressure's forward difference in x and the inner choice of its x-derivative -/
section C0
variable (h1 : ∀ (R : Fin 1024) (C : Fin 2048), (V (Proc.devRef .tc main_v1) : S1024x2048.Idx → BitVec 32) (ix2 R C) = B (R.val + 1) (C.val + 1))
  (h34 : ∀ (k : Fin 3) (p : Fin 1026) (q : Fin 2050), (V (Proc.devRef .tc main_v34) : S1x3x1026x2050.Idx → EReal) (ix4 (0 : Fin 1) k p q) = Cert.Spec.fld B Fl k p.val q.val)

include h34 in
theorem c0_v36 (p : Fin 1026) (q : Fin 2050) : (after opsC_0 V (Proc.devRef .tc main_v36) : S1x1026x2050.Idx → EReal) (ix3 (0 : Fin 1) p q)
    = Cert.Spec.up B Fl p.val q.val := by
  after_results_simp
  exact (plane_at 0 (by decide) _ _ _ p q).trans (h34 _ p q)
include h34 in
theorem c0_v38 (p : Fin 1026) (q : Fin 2050) : (after opsC_0 V (Proc.devRef .tc main_v38) : S1x1026x2050.Idx → EReal) (ix3 (0 : Fin 1) p q)
    = Cert.Spec.vp B Fl p.val q.val := by
  after_results_simp
  exact (plane_at 1 (by decide) _ _ _ p q).trans (h34 _ p q)
include h34 in
theorem c0_v40 (p : Fin 1026) (q : Fin 2050) : (after opsC_0 V (Proc.devRef .tc main_v40) : S1x1026x2050.Idx → EReal) (ix3 (0 : Fin 1) p q)
    = Cert.Spec.pp B Fl p.val q.val := by
  after_results_simp
  exact (plane_at 2 (by decide) _ _ _ p q).trans (h34 _ p q)

include h34 in
set_option maxHeartbeats 400000 in
theorem c0_v51 (R : Fin 1024) (C : Fin 2048) : (after opsC_0 V (Proc.devRef .tc main_v51) : S1x1024x2048.Idx → EReal) (ix3 (0 : Fin 1) R C)
    = Cert.Spec.fdx (Cert.Spec.pp B Fl) R.val C.val := by
  have e40 := c0_v40 V B Fl h34
  rc1_results_at e40
  after_results_simp
  simp only [subf_apply, slice_at_12, slice_at_11, e40]
  rfl
include h34 in
set_option maxHeartbeats 400000 in
theorem c0_v62 (R : Fin 1024) (C : Fin 2048) : (after opsC_0 V (Proc.devRef .tc main_v62) : S1x1024x2048.Idx → EReal) (ix3 (0 : Fin 1) R C)
    = Cert.Spec.bdx (Cert.Spec.pp B Fl) R.val C.val := by
  have e40 := c0_v40 V B Fl h34
  rc1_results_at e40
  after_results_simp
  simp only [subf_apply, slice_at_11, slice_at_10, e40]
  rfl
include h34 in
set_option maxHeartbeats 400000 in
theorem c0_v67 (R : Fin 1024) (C : Fin 2048) : (after opsC_0 V (Proc.devRef .tc main_v67) : S1x1024x2048.Idx → EReal) (ix3 (0 : Fin 1) R C)
    = Cert.Spec.dx (Cert.Spec.pp B Fl) R.val C.val := by
  have e40 := c0_v40 V B Fl h34
  rc1_results_at e40
  after_results_simp
  simp only [subf_apply, mulf_apply, slice_at_12, slice_at_10, e40, bcast0_at, constant_apply]
  rfl

include h1 in
set_option maxHeartbeats 400000 in
theorem c0_v48 (R : Fin 1024) (C : Fin 2048) : (after opsC_0 V (Proc.devRef .tc main_v48) : S1024x2048.Idx → BitVec 1) (ix2 R C)
    = Cert.Spec.in3 (Cert.Spec.code B R.val C.val) 4#32 8#32 11#32 := by
  after_results_simp
  simp only [ori_at, cmpi_at, h1]
  rfl
include h1 in
set_option maxHeartbeats 400000 in
theorem c0_v59 (R : Fin 1024) (C : Fin 2048) : (after opsC_0 V (Proc.devRef .tc main_v59) : S1024x2048.Idx → BitVec 1) (ix2 R C)
    = Cert.Spec.in3 (Cert.Spec.code B R.val C.val) 6#32 9#32 10#32 := by
  after_results_simp
  simp only [ori_at, cmpi_at, h1]
  rfl

set_option maxHeartbeats 400000 in
theorem c0_v68_buf : (after opsC_0 V (Proc.devRef .tc main_v68) : S1x1024x2048.Idx → EReal)
    = select (broadcastInDim S1x1024x2048 ![1, 2] bcast_S1024x2048_S1x1024x2048_1_2 (after opsC_0 V (Proc.devRef .tc main_v59) : S1024x2048.Idx → BitVec 1))
        (after opsC_0 V (Proc.devRef .tc main_v62) : S1x1024x2048.Idx → EReal) (after opsC_0 V (Proc.devRef .tc main_v67) : S1x1024x2048.Idx → EReal) := by
  after_results_simp
  rfl
set_option maxHeartbeats 400000 in
theorem c0_call6_buf : (after opsC_0 V (Proc.devRef .tc main_call6_v0) : S1x1024x2048.Idx → BitVec 1)
    = broadcastInDim S1x1024x2048 ![1, 2] bcast_S1024x2048_S1x1024x2048_1_2 (after opsC_0 V (Proc.devRef .tc main_v48) : S1024x2048.Idx → BitVec 1) := by
  after_results_simp
  rfl

include h1 h34 in
theorem c0_v68 (R : Fin 1024) (C : Fin 2048) : (after opsC_0 V (Proc.devRef .tc main_v68) : S1x1024x2048.Idx → EReal) (ix3 (0 : Fin 1) R C)
    = Scalar.select (Cert.Spec.in3 (Cert.Spec.code B R.val C.val) 6#32 9#32 10#32) (Cert.Spec.bdx (Cert.Spec.pp B Fl) R.val C.val) (Cert.Spec.dx (Cert.Spec.pp B Fl) R.val C.val) := by
  rw [c0_v68_buf V, select_apply, bcast12_at, c0_v59 V B h1, c0_v62 V B Fl h34, c0_v67 V B Fl h34]
include h1 in
theorem c0_call6 (R : Fin 1024) (C : Fin 2048) : (after opsC_0 V (Proc.devRef .tc main_call6_v0) : S1x1024x2048.Idx → BitVec 1) (ix3 (0 : Fin 1) R C)
    = Cert.Spec.in3 (Cert.Spec.code B R.val C.val) 4#32 8#32 11#32 := by
  rw [c0_call6_buf V, bcast12_at, c0_v48 V B h1]

theorem c0_v1 : after opsC_0 V (Proc.devRef .tc main_v1) = V (Proc.devRef .tc main_v1) := by after_results_simp
theorem c0_v31 : after opsC_0 V (Proc.devRef .tc main_v31) = V (Proc.devRef .tc main_v31) := by after_results_simp
theorem c0_v33 : after opsC_0 V (Proc.devRef .tc main_v33) = V (Proc.devRef .tc main_v33) := by after_results_simp
end C0

/-! ## Operations 44 to 86: the pressure gradient, one-sided where the code says so, and the x-difference of u -/
section C1
variable (h1 : ∀ (R : Fin 1024) (C : Fin 2048), (V (Proc.devRef .tc main_v1) : S1024x2048.Idx → BitVec 32) (ix2 R C) = B (R.val + 1) (C.val + 1))
  (P36 : ∀ (p : Fin 1026) (q : Fin 2050), (V (Proc.devRef .tc main_v36) : S1x1026x2050.Idx → EReal) (ix3 (0 : Fin 1) p q) = Cert.Spec.up B Fl p.val q.val)
  (P40 : ∀ (p : Fin 1026) (q : Fin 2050), (V (Proc.devRef .tc main_v40) : S1x1026x2050.Idx → EReal) (ix3 (0 : Fin 1) p q) = Cert.Spec.pp B Fl p.val q.val)
  (E51 : ∀ (R : Fin 1024) (C : Fin 2048), (V (Proc.devRef .tc main_v51) : S1x1024x2048.Idx → EReal) (ix3 (0 : Fin 1) R C) = Cert.Spec.fdx (Cert.Spec.pp B Fl) R.val C.val)
  (E68 : ∀ (R : Fin 1024) (C : Fin 2048), (V (Proc.devRef .tc main_v68) : S1x1024x2048.Idx → EReal) (ix3 (0 : Fin 1) R C)
    = Scalar.select (Cert.Spec.in3 (Cert.Spec.code B R.val C.val) 6#32 9#32 10#32) (Cert.Spec.bdx (Cert.Spec.pp B Fl) R.val C.val) (Cert.Spec.dx (Cert.Spec.pp B Fl) R.val C.val))
  (E6 : ∀ (R : Fin 1024) (C : Fin 2048), (V (Proc.devRef .tc main_call6_v0) : S1x1024x2048.Idx → BitVec 1) (ix3 (0 : Fin 1) R C)
    = Cert.Spec.in3 (Cert.Spec.code B R.val C.val) 4#32 8#32 11#32)

set_option maxHeartbeats 400000 in
theorem c1_v69_buf : (after opsC_1 V (Proc.devRef .tc main_v69) : S1x1024x2048.Idx → EReal)
    = select (V (Proc.devRef .tc main_call6_v0) : S1x1024x2048.Idx → BitVec 1)
        (V (Proc.devRef .tc main_v51) : S1x1024x2048.Idx → EReal) (V (Proc.devRef .tc main_v68) : S1x1024x2048.Idx → EReal) := by
  after_results_simp
  rfl
include E51 E68 E6 in
theorem c1_v69 (R : Fin 1024) (C : Fin 2048) : (after opsC_1 V (Proc.devRef .tc main_v69) : S1x1024x2048.Idx → EReal) (ix3 (0 : Fin 1) R C)
    = Cert.Spec.dpx B Fl R.val C.val := by
  rw [c1_v69_buf V, select_apply, E6, E51, E68]
  rfl

include h1 in
set_option maxHeartbeats 400000 in
theorem c1_v77 (R : Fin 1024) (C : Fin 2048) : (after opsC_1 V (Proc.devRef .tc main_v77) : S1024x2048.Idx → BitVec 1) (ix2 R C)
    = Cert.Spec.in3 (Cert.Spec.code B R.val C.val) 7#32 10#32 11#32 := by
  after_results_simp
  simp only [ori_at, cmpi_at, h1]
  rfl
include h1 in
set_option maxHeartbeats 400000 in
theorem c1_v88 (R : Fin 1024) (C : Fin 2048) : (after opsC_1 V (Proc.devRef .tc main_v88) : S1024x2048.Idx → BitVec 1) (ix2 R C)
    = Cert.Spec.in3 (Cert.Spec.code B R.val C.val) 5#32 8#32 9#32 := by
  after_results_simp
  simp only [ori_at, cmpi_at, h1]
  rfl
include P40 in
set_option maxHeartbeats 400000 in
theorem c1_v80 (R : Fin 1024) (C : Fin 2048) : (after opsC_1 V (Proc.devRef .tc main_v80) : S1x1024x2048.Idx → EReal) (ix3 (0 : Fin 1) R C)
    = Cert.Spec.fdy (Cert.Spec.pp B Fl) R.val C.val := by
  after_results_simp
  simp only [subf_apply, slice_at_01, slice_at_11, P40]
  rfl
include P40 in
set_option maxHeartbeats 400000 in
theorem c1_v91 (R : Fin 1024) (C : Fin 2048) : (after opsC_1 V (Proc.devRef .tc main_v91) : S1x1024x2048.Idx → EReal) (ix3 (0 : Fin 1) R C)
    = Cert.Spec.bdy (Cert.Spec.pp B Fl) R.val C.val := by
  after_results_simp
  simp only [subf_apply, slice_at_11, slice_at_21, P40]
  rfl
include P40 in
set_option maxHeartbeats 400000 in
theorem c1_v96 (R : Fin 1024) (C : Fin 2048) : (after opsC_1 V (Proc.devRef .tc main_v96) : S1x1024x2048.Idx → EReal) (ix3 (0 : Fin 1) R C)
    = Cert.Spec.dy (Cert.Spec.pp B Fl) R.val C.val := by
  after_results_simp
  simp only [subf_apply, mulf_apply, slice_at_21, slice_at_01, P40, bcast0_at, constant_apply]
  rfl
set_option maxHeartbeats 400000 in
theorem c1_v97_buf : (after opsC_1 V (Proc.devRef .tc main_v97) : S1x1024x2048.Idx → EReal)
    = select (broadcastInDim S1x1024x2048 ![1, 2] bcast_S1024x2048_S1x1024x2048_1_2 (after opsC_1 V (Proc.devRef .tc main_v88) : S1024x2048.Idx → BitVec 1))
        (after opsC_1 V (Proc.devRef .tc main_v91) : S1x1024x2048.Idx → EReal) (after opsC_1 V (Proc.devRef .tc main_v96) : S1x1024x2048.Idx → EReal) := by
  after_results_simp
  rfl
set_option maxHeartbeats 400000 in
theorem c1_v98_buf : (after opsC_1 V (Proc.devRef .tc main_v98) : S1x1024x2048.Idx → EReal)
    = select (broadcastInDim S1x1024x2048 ![1, 2] bcast_S1024x2048_S1x1024x2048_1_2 (after opsC_1 V (Proc.devRef .tc main_v77) : S1024x2048.Idx → BitVec 1))
        (after opsC_1 V (Proc.devRef .tc main_v80) : S1x1024x2048.Idx → EReal) (after opsC_1 V (Proc.devRef .tc main_v97) : S1x1024x2048.Idx → EReal) := by
  after_results_simp
  rfl
include h1 P40 in
theorem c1_v98 (R : Fin 1024) (C : Fin 2048) : (after opsC_1 V (Proc.devRef .tc main_v98) : S1x1024x2048.Idx → EReal) (ix3 (0 : Fin 1) R C)
    = Cert.Spec.dpy B Fl R.val C.val := by
  rw [c1_v98_buf V, select_apply, bcast12_at, c1_v77 V B h1, c1_v80 V B Fl P40, c1_v97_buf V, select_apply, bcast12_at,
    c1_v88 V B h1, c1_v91 V B Fl P40, c1_v96 V B Fl P40]
  rfl
include P36 in
set_option maxHeartbeats 400000 in
theorem c1_v101 (R : Fin 1024) (C : Fin 2048) : (after opsC_1 V (Proc.devRef .tc main_v101) : S1x1024x2048.Idx → EReal) (ix3 (0 : Fin 1) R C)
    = Cert.Spec.up B Fl (R.val + 1) (C.val + 2) - Cert.Spec.up B Fl (R.val + 1) C.val := by
  after_results_simp
  simp only [subf_apply, slice_at_12, slice_at_10, P36]
theorem c1_cst23 : (after opsC_1 V (Proc.devRef .tc main_cst_23) : S_.Idx → EReal) = (constant (F := Ideal) S_ .f32 0x3F000000#32 : S_.Idx → EReal) := by
  after_results_simp

theorem c1_v31 : after opsC_1 V (Proc.devRef .tc main_v31) = V (Proc.devRef .tc main_v31) := by after_results_simp
theorem c1_v33 : after opsC_1 V (Proc.devRef .tc main_v33) = V (Proc.devRef .tc main_v33) := by after_results_simp
theorem c1_v36 : after opsC_1 V (Proc.devRef .tc main_v36) = V (Proc.devRef .tc main_v36) := by after_results_simp
theorem c1_v38 : after opsC_1 V (Proc.devRef .tc main_v38) = V (Proc.devRef .tc main_v38) := by after_results_simp
end C1

/-! ## Operations 87 to 129: the u-momentum residual and the x-difference of v -/
section C2
variable (h31 : ∀ (R : Fin 1024) (C : Fin 2048), (V (Proc.devRef .tc main_v31) : S1x1024x2048.Idx → EReal) (ix3 (0 : Fin 1) R C) = Cert.Spec.up B Fl (R.val + 1) (C.val + 1))
  (h33 : ∀ (R : Fin 1024) (C : Fin 2048), (V (Proc.devRef .tc main_v33) : S1x1024x2048.Idx → EReal) (ix3 (0 : Fin 1) R C) = Cert.Spec.vp B Fl (R.val + 1) (C.val + 1))
  (P36 : ∀ (p : Fin 1026) (q : Fin 2050), (V (Proc.devRef .tc main_v36) : S1x1026x2050.Idx → EReal) (ix3 (0 : Fin 1) p q) = Cert.Spec.up B Fl p.val q.val)
  (P38 : ∀ (p : Fin 1026) (q : Fin 2050), (V (Proc.devRef .tc main_v38) : S1x1026x2050.Idx → EReal) (ix3 (0 : Fin 1) p q) = Cert.Spec.vp B Fl p.val q.val)
  (D69 : ∀ (R : Fin 1024) (C : Fin 2048), (V (Proc.devRef .tc main_v69) : S1x1024x2048.Idx → EReal) (ix3 (0 : Fin 1) R C) = Cert.Spec.dpx B Fl R.val C.val)
  (E101 : ∀ (R : Fin 1024) (C : Fin 2048), (V (Proc.devRef .tc main_v101) : S1x1024x2048.Idx → EReal) (ix3 (0 : Fin 1) R C)
    = Cert.Spec.up B Fl (R.val + 1) (C.val + 2) - Cert.Spec.up B Fl (R.val + 1) C.val)
  (K23 : (V (Proc.devRef .tc main_cst_23) : S_.Idx → EReal) = (constant (F := Ideal) S_ .f32 0x3F000000#32 : S_.Idx → EReal))

include h31 h33 P36 D69 E101 K23 in
set_option maxHeartbeats 400000 in
theorem c2_v134 (R : Fin 1024) (C : Fin 2048) : (after opsC_2 V (Proc.devRef .tc main_v134) : S1x1024x2048.Idx → EReal) (ix3 (0 : Fin 1) R C)
    = Cert.Spec.momU B Fl R.val C.val := by
  after_results_simp
  simp only [subf_apply, addf_apply, mulf_apply, hostDivf_at, slice_at_12, slice_at_11, slice_at_10, slice_at_01, slice_at_21, bcast0_at, K23, constant_apply, h31, h33, P36, D69, E101]
  rfl
include P38 in
set_option maxHeartbeats 400000 in
theorem c2_v137 (R : Fin 1024) (C : Fin 2048) : (after opsC_2 V (Proc.devRef .tc main_v137) : S1x1024x2048.Idx → EReal) (ix3 (0 : Fin 1) R C)
    = Cert.Spec.vp B Fl (R.val + 1) (C.val + 2) - Cert.Spec.vp B Fl (R.val + 1) C.val := by
  after_results_simp
  simp only [subf_apply, slice_at_12, slice_at_10, P38]
theorem c2_v31 : after opsC_2 V (Proc.devRef .tc main_v31) = V (Proc.devRef .tc main_v31) := by after_results_simp
theorem c2_v33 : after opsC_2 V (Proc.devRef .tc main_v33) = V (Proc.devRef .tc main_v33) := by after_results_simp
theorem c2_v36 : after opsC_2 V (Proc.devRef .tc main_v36) = V (Proc.devRef .tc main_v36) := by after_results_simp
theorem c2_v38 : after opsC_2 V (Proc.devRef .tc main_v38) = V (Proc.devRef .tc main_v38) := by after_results_simp
theorem c2_v98 : after opsC_2 V (Proc.devRef .tc main_v98) = V (Proc.devRef .tc main_v98) := by after_results_simp
end C2

/-! ## Operations 130 to 172: the v-momentum residual and the two u-neighbours in x -/
section C3
variable (h31 : ∀ (R : Fin 1024) (C : Fin 2048), (V (Proc.devRef .tc main_v31) : S1x1024x2048.Idx → EReal) (ix3 (0 : Fin 1) R C) = Cert.Spec.up B Fl (R.val + 1) (C.val + 1))
  (h33 : ∀ (R : Fin 1024) (C : Fin 2048), (V (Proc.devRef .tc main_v33) : S1x1024x2048.Idx → EReal) (ix3 (0 : Fin 1) R C) = Cert.Spec.vp B Fl (R.val + 1) (C.val + 1))
  (P36 : ∀ (p : Fin 1026) (q : Fin 2050), (V (Proc.devRef .tc main_v36) : S1x1026x2050.Idx → EReal) (ix3 (0 : Fin 1) p q) = Cert.Spec.up B Fl p.val q.val)
  (P38 : ∀ (p : Fin 1026) (q : Fin 2050), (V (Proc.devRef .tc main_v38) : S1x1026x2050.Idx → EReal) (ix3 (0 : Fin 1) p q) = Cert.Spec.vp B Fl p.val q.val)
  (D98 : ∀ (R : Fin 1024) (C : Fin 2048), (V (Proc.devRef .tc main_v98) : S1x1024x2048.Idx → EReal) (ix3 (0 : Fin 1) R C) = Cert.Spec.dpy B Fl R.val C.val)
  (E137 : ∀ (R : Fin 1024) (C : Fin 2048), (V (Proc.devRef .tc main_v137) : S1x1024x2048.Idx → EReal) (ix3 (0 : Fin 1) R C)
    = Cert.Spec.vp B Fl (R.val + 1) (C.val + 2) - Cert.Spec.vp B Fl (R.val + 1) C.val)

include h31 h33 P38 D98 E137 in
set_option maxHeartbeats 400000 in
theorem c3_v170 (R : Fin 1024) (C : Fin 2048) : (after opsC_3 V (Proc.devRef .tc main_v170) : S1x1024x2048.Idx → EReal) (ix3 (0 : Fin 1) R C)
    = Cert.Spec.momV B Fl R.val C.val := by
  after_results_simp
  simp only [subf_apply, addf_apply, mulf_apply, hostDivf_at, slice_at_12, slice_at_11, slice_at_10, slice_at_01, slice_at_21, bcast0_at, constant_apply, h31, h33, P38, D98, E137]
  rfl
include P36 in
set_option maxHeartbeats 400000 in
theorem c3_v171 (R : Fin 1024) (C : Fin 2048) : (after opsC_3 V (Proc.devRef .tc main_v171) : S1x1024x2048.Idx → EReal) (ix3 (0 : Fin 1) R C)
    = Cert.Spec.up B Fl (R.val + 1) (C.val + 2) := by
  after_results_simp
  simp only [slice_at_12, P36]
include P36 in
set_option maxHeartbeats 400000 in
theorem c3_v172 (R : Fin 1024) (C : Fin 2048) : (after opsC_3 V (Proc.devRef .tc main_v172) : S1x1024x2048.Idx → EReal) (ix3 (0 : Fin 1) R C)
    = Cert.Spec.up B Fl (R.val + 1) C.val := by
  after_results_simp
  simp only [slice_at_10, P36]
theorem c3_v38 : after opsC_3 V (Proc.devRef .tc main_v38) = V (Proc.devRef .tc main_v38) := by after_results_simp
theorem c3_v134 : after opsC_3 V (Proc.devRef .tc main_v134) = V (Proc.devRef .tc main_v134) := by after_results_simp
end C3

/-! ## Operations 173 to 215: the continuity residual -/
section C4
variable (P38 : ∀ (p : Fin 1026) (q : Fin 2050), (V (Proc.devRef .tc main_v38) : S1x1026x2050.Idx → EReal) (ix3 (0 : Fin 1) p q) = Cert.Spec.vp B Fl p.val q.val)
  (E171 : ∀ (R : Fin 1024) (C : Fin 2048), (V (Proc.devRef .tc main_v171) : S1x1024x2048.Idx → EReal) (ix3 (0 : Fin 1) R C) = Cert.Spec.up B Fl (R.val + 1) (C.val + 2))
  (E172 : ∀ (R : Fin 1024) (C : Fin 2048), (V (Proc.devRef .tc main_v172) : S1x1024x2048.Idx → EReal) (ix3 (0 : Fin 1) R C) = Cert.Spec.up B Fl (R.val + 1) C.val)

include P38 E171 E172 in
set_option maxHeartbeats 400000 in
theorem c4_v185 (R : Fin 1024) (C : Fin 2048) : (after opsC_4 V (Proc.devRef .tc main_v185) : S1x1024x2048.Idx → EReal) (ix3 (0 : Fin 1) R C)
    = Cert.Spec.cont B Fl R.val C.val := by
  after_results_simp
  simp only [subf_apply, addf_apply, mulf_apply, hostDivf_at, slice_at_12, slice_at_11, slice_at_10, slice_at_01, slice_at_21, bcast0_at, constant_apply, P38, E171, E172]
  rfl
theorem c4_v134 : after opsC_4 V (Proc.devRef .tc main_v134) = V (Proc.devRef .tc main_v134) := by after_results_simp
theorem c4_v170 : after opsC_4 V (Proc.devRef .tc main_v170) = V (Proc.devRef .tc main_v170) := by after_results_simp
end C4

/-! ## Operations 216 to 253 write none of the three residuals -/
section C5
theorem c5_v134 : after opsC_5 V (Proc.devRef .tc main_v134) = V (Proc.devRef .tc main_v134) := by after_results_simp
theorem c5_v170 : after opsC_5 V (Proc.devRef .tc main_v170) = V (Proc.devRef .tc main_v170) := by after_results_simp
theorem c5_v185 : after opsC_5 V (Proc.devRef .tc main_v185) = V (Proc.devRef .tc main_v185) := by after_results_simp
end C5

end Chunks

/-! ## The six stretches one after another -/
section Stages
variable (W : Valuation τ sig (Elt Ideal)) (B : ℕ → ℕ → BitVec 32) (Fl : Fin 3 → ℕ → ℕ → EReal)
  (h1 : ∀ (R : Fin 1024) (C : Fin 2048), (W (Proc.devRef .tc main_v1) : S1024x2048.Idx → BitVec 32) (ix2 R C) = B (R.val + 1) (C.val + 1))
  (h31 : ∀ (R : Fin 1024) (C : Fin 2048), (W (Proc.devRef .tc main_v31) : S1x1024x2048.Idx → EReal) (ix3 (0 : Fin 1) R C) = Cert.Spec.up B Fl (R.val + 1) (C.val + 1))
  (h33 : ∀ (R : Fin 1024) (C : Fin 2048), (W (Proc.devRef .tc main_v33) : S1x1024x2048.Idx → EReal) (ix3 (0 : Fin 1) R C) = Cert.Spec.vp B Fl (R.val + 1) (C.val + 1))
  (h34 : ∀ (k : Fin 3) (p : Fin 1026) (q : Fin 2050), (W (Proc.devRef .tc main_v34) : S1x3x1026x2050.Idx → EReal) (ix4 (0 : Fin 1) k p q) = Cert.Spec.fld B Fl k p.val q.val)

/-- The contents after all 253 operations are the contents after the six stretches in order. -/
theorem opsC_after : after opsC W = after opsC_5 (after opsC_4 (after opsC_3 (after opsC_2 (after opsC_1 (after opsC_0 W))))) := by
  show after (opsC_0 ++ opsC_1 ++ opsC_2 ++ opsC_3 ++ opsC_4 ++ opsC_5) W = _
  rw [Cert.Lib.AfterAppend.after_append, Cert.Lib.AfterAppend.after_append, Cert.Lib.AfterAppend.after_append,
    Cert.Lib.AfterAppend.after_append, Cert.Lib.AfterAppend.after_append]

/-! after operations 1 to 43 -/
include h1 h31 h33 h34 in
theorem s1_h1 (R : Fin 1024) (C : Fin 2048) :
    (after opsC_0 W (Proc.devRef .tc main_v1) : S1024x2048.Idx → BitVec 32) (ix2 R C) = B (R.val + 1) (C.val + 1) := by
  rw [c0_v1]; exact h1 R C

include h1 h31 h33 h34 in
theorem s1_h31 (R : Fin 1024) (C : Fin 2048) :
    (after opsC_0 W (Proc.devRef .tc main_v31) : S1x1024x2048.Idx → EReal) (ix3 (0 : Fin 1) R C) = Cert.Spec.up B Fl (R.val + 1) (C.val + 1) := by
  rw [c0_v31]; exact h31 R C

include h1 h31 h33 h34 in
theorem s1_h33 (R : Fin 1024) (C : Fin 2048) :
    (after opsC_0 W (Proc.devRef .tc main_v33) : S1x1024x2048.Idx → EReal) (ix3 (0 : Fin 1) R C) = Cert.Spec.vp B Fl (R.val + 1) (C.val + 1) := by
  rw [c0_v33]; exact h33 R C

/-! after operations 44 to 86 -/
include h1 h31 h33 h34 in
theorem s2_h31 (R : Fin 1024) (C : Fin 2048) :
    (after opsC_1 (after opsC_0 W) (Proc.devRef .tc main_v31) : S1x1024x2048.Idx → EReal) (ix3 (0 : Fin 1) R C) = Cert.Spec.up B Fl (R.val + 1) (C.val + 1) := by
  rw [c1_v31]; exact s1_h31 W B Fl h1 h31 h33 h34 R C

include h1 h31 h33 h34 in
theorem s2_h33 (R : Fin 1024) (C : Fin 2048) :
    (after opsC_1 (after opsC_0 W) (Proc.devRef .tc main_v33) : S1x1024x2048.Idx → EReal) (ix3 (0 : Fin 1) R C) = Cert.Spec.vp B Fl (R.val + 1) (C.val + 1) := by
  rw [c1_v33]; exact s1_h33 W B Fl h1 h31 h33 h34 R C

include h1 h31 h33 h34 in
theorem s2_P36 (p : Fin 1026) (q : Fin 2050) :
    (after opsC_1 (after opsC_0 W) (Proc.devRef .tc main_v36) : S1x1026x2050.Idx → EReal) (ix3 (0 : Fin 1) p q) = Cert.Spec.up B Fl p.val q.val := by
  rw [c1_v36]; exact c0_v36 W B Fl h34 p q

include h1 h31 h33 h34 in
theorem s2_P38 (p : Fin 1026) (q : Fin 2050) :
    (after opsC_1 (after opsC_0 W) (Proc.devRef .tc main_v38) : S1x1026x2050.Idx → EReal) (ix3 (0 : Fin 1) p q) = Cert.Spec.vp B Fl p.val q.val := by
  rw [c1_v38]; exact c0_v38 W B Fl h34 p q

include h1 h31 h33 h34 in
theorem s2_D69 (R : Fin 1024) (C : Fin 2048) :
    (after opsC_1 (after opsC_0 W) (Proc.devRef .tc main_v69) : S1x1024x2048.Idx → EReal) (ix3 (0 : Fin 1) R C) = Cert.Spec.dpx B Fl R.val C.val := by
  exact c1_v69 (after opsC_0 W) B Fl (c0_v51 W B Fl h34) (c0_v68 W B Fl h1 h34) (c0_call6 W B h1) R C

include h1 h31 h33 h34 in
theorem s2_D98 (R : Fin 1024) (C : Fin 2048) :
    (after opsC_1 (after opsC_0 W) (Proc.devRef .tc main_v98) : S1x1024x2048.Idx → EReal) (ix3 (0 : Fin 1) R C) = Cert.Spec.dpy B Fl R.val C.val := by
  exact c1_v98 (after opsC_0 W) B Fl (s1_h1 W B Fl h1 h31 h33 h34) (c0_v40 W B Fl h34) R C

include h1 h31 h33 h34 in
theorem s2_E101 (R : Fin 1024) (C : Fin 2048) :
    (after opsC_1 (after opsC_0 W) (Proc.devRef .tc main_v101) : S1x1024x2048.Idx → EReal) (ix3 (0 : Fin 1) R C) = Cert.Spec.up B Fl (R.val + 1) (C.val + 2) - Cert.Spec.up B Fl (R.val + 1) C.val := by
  exact c1_v101 (after opsC_0 W) B Fl (c0_v36 W B Fl h34) R C

/-! after operations 87 to 129 -/
include h1 h31 h33 h34 in
theorem s3_M134 (R : Fin 1024) (C : Fin 2048) :
    (after opsC_2 (after opsC_1 (after opsC_0 W)) (Proc.devRef .tc main_v134) : S1x1024x2048.Idx → EReal) (ix3 (0 : Fin 1) R C) = Cert.Spec.momU B Fl R.val C.val := by
  exact c2_v134 (after opsC_1 (after opsC_0 W)) B Fl (s2_h31 W B Fl h1 h31 h33 h34) (s2_h33 W B Fl h1 h31 h33 h34) (s2_P36 W B Fl h1 h31 h33 h34) (s2_D69 W B Fl h1 h31 h33 h34) (s2_E101 W B Fl h1 h31 h33 h34) (c1_cst23 (after opsC_0 W)) R C

include h1 h31 h33 h34 in
theorem s3_E137 (R : Fin 1024) (C : Fin 2048) :
    (after opsC_2 (after opsC_1 (after opsC_0 W)) (Proc.devRef .tc main_v137) : S1x1024x2048.Idx → EReal) (ix3 (0 : Fin 1) R C) = Cert.Spec.vp B Fl (R.val + 1) (C.val + 2) - Cert.Spec.vp B Fl (R.val + 1) C.val := by
  exact c2_v137 (after opsC_1 (after opsC_0 W)) B Fl (s2_P38 W B Fl h1 h31 h33 h34) R C

include h1 h31 h33 h34 in
theorem s3_h31 (R : Fin 1024) (C : Fin 2048) :
    (after opsC_2 (after opsC_1 (after opsC_0 W)) (Proc.devRef .tc main_v31) : S1x1024x2048.Idx → EReal) (ix3 (0 : Fin 1) R C) = Cert.Spec.up B Fl (R.val + 1) (C.val + 1) := by
  rw [c2_v31]; exact s2_h31 W B Fl h1 h31 h33 h34 R C

include h1 h31 h33 h34 in
theorem s3_h33 (R : Fin 1024) (C : Fin 2048) :
    (after opsC_2 (after opsC_1 (after opsC_0 W)) (Proc.devRef .tc main_v33) : S1x1024x2048.Idx → EReal) (ix3 (0 : Fin 1) R C) = Cert.Spec.vp B Fl (R.val + 1) (C.val + 1) := by
  rw [c2_v33]; exact s2_h33 W B Fl h1 h31 h33 h34 R C

include h1 h31 h33 h34 in
theorem s3_P36 (p : Fin 1026) (q : Fin 2050) :
    (after opsC_2 (after opsC_1 (after opsC_0 W)) (Proc.devRef .tc main_v36) : S1x1026x2050.Idx → EReal) (ix3 (0 : Fin 1) p q) = Cert.Spec.up B Fl p.val q.val := by
  rw [c2_v36]; exact s2_P36 W B Fl h1 h31 h33 h34 p q

include h1 h31 h33 h34 in
theorem s3_P38 (p : Fin 1026) (q : Fin 2050) :
    (after opsC_2 (after opsC_1 (after opsC_0 W)) (Proc.devRef .tc main_v38) : S1x1026x2050.Idx → EReal) (ix3 (0 : Fin 1) p q) = Cert.Spec.vp B Fl p.val q.val := by
  rw [c2_v38]; exact s2_P38 W B Fl h1 h31 h33 h34 p q

include h1 h31 h33 h34 in
theorem s3_D98 (R : Fin 1024) (C : Fin 2048) :
    (after opsC_2 (after opsC_1 (after opsC_0 W)) (Proc.devRef .tc main_v98) : S1x1024x2048.Idx → EReal) (ix3 (0 : Fin 1) R C) = Cert.Spec.dpy B Fl R.val C.val := by
  rw [c2_v98]; exact s2_D98 W B Fl h1 h31 h33 h34 R C

/-! after operations 130 to 172 -/
include h1 h31 h33 h34 in
theorem s4_M170 (R : Fin 1024) (C : Fin 2048) :
    (after opsC_3 (after opsC_2 (after opsC_1 (after opsC_0 W))) (Proc.devRef .tc main_v170) : S1x1024x2048.Idx → EReal) (ix3 (0 : Fin 1) R C) = Cert.Spec.momV B Fl R.val C.val := by
  exact c3_v170 (after opsC_2 (after opsC_1 (after opsC_0 W))) B Fl (s3_h31 W B Fl h1 h31 h33 h34) (s3_h33 W B Fl h1 h31 h33 h34) (s3_P38 W B Fl h1 h31 h33 h34) (s3_D98 W B Fl h1 h31 h33 h34) (s3_E137 W B Fl h1 h31 h33 h34) R C

include h1 h31 h33 h34 in
theorem s4_E171 (R : Fin 1024) (C : Fin 2048) :
    (after opsC_3 (after opsC_2 (after opsC_1 (after opsC_0 W))) (Proc.devRef .tc main_v171) : S1x1024x2048.Idx → EReal) (ix3 (0 : Fin 1) R C) = Cert.Spec.up B Fl (R.val + 1) (C.val + 2) := by
  exact c3_v171 (after opsC_2 (after opsC_1 (after opsC_0 W))) B Fl (s3_P36 W B Fl h1 h31 h33 h34) R C

include h1 h31 h33 h34 in
theorem s4_E172 (R : Fin 1024) (C : Fin 2048) :
    (after opsC_3 (after opsC_2 (after opsC_1 (after opsC_0 W))) (Proc.devRef .tc main_v172) : S1x1024x2048.Idx → EReal) (ix3 (0 : Fin 1) R C) = Cert.Spec.up B Fl (R.val + 1) C.val := by
  exact c3_v172 (after opsC_2 (after opsC_1 (after opsC_0 W))) B Fl (s3_P36 W B Fl h1 h31 h33 h34) R C

include h1 h31 h33 h34 in
theorem s4_P38 (p : Fin 1026) (q : Fin 2050) :
    (after opsC_3 (after opsC_2 (after opsC_1 (after opsC_0 W))) (Proc.devRef .tc main_v38) : S1x1026x2050.Idx → EReal) (ix3 (0 : Fin 1) p q) = Cert.Spec.vp B Fl p.val q.val := by
  rw [c3_v38]; exact s3_P38 W B Fl h1 h31 h33 h34 p q

include h1 h31 h33 h34 in
theorem s4_M134 (R : Fin 1024) (C : Fin 2048) :
    (after opsC_3 (after opsC_2 (after opsC_1 (after opsC_0 W))) (Proc.devRef .tc main_v134) : S1x1024x2048.Idx → EReal) (ix3 (0 : Fin 1) R C) = Cert.Spec.momU B Fl R.val C.val := by
  rw [c3_v134]; exact s3_M134 W B Fl h1 h31 h33 h34 R C

/-! after operations 173 to 215 -/
include h1 h31 h33 h34 in
theorem s5_C185 (R : Fin 1024) (C : Fin 2048) :
    (after opsC_4 (after opsC_3 (after opsC_2 (after opsC_1 (after opsC_0 W)))) (Proc.devRef .tc main_v185) : S1x1024x2048.Idx → EReal) (ix3 (0 : Fin 1) R C) = Cert.Spec.cont B Fl R.val C.val := by
  exact c4_v185 (after opsC_3 (after opsC_2 (after opsC_1 (after opsC_0 W)))) B Fl (s4_P38 W B Fl h1 h31 h33 h34) (s4_E171 W B Fl h1 h31 h33 h34) (s4_E172 W B Fl h1 h31 h33 h34) R C

include h1 h31 h33 h34 in
theorem s5_M134 (R : Fin 1024) (C : Fin 2048) :
    (after opsC_4 (after opsC_3 (after opsC_2 (after opsC_1 (after opsC_0 W)))) (Proc.devRef .tc main_v134) : S1x1024x2048.Idx → EReal) (ix3 (0 : Fin 1) R C) = Cert.Spec.momU B Fl R.val C.val := by
  rw [c4_v134]; exact s4_M134 W B Fl h1 h31 h33 h34 R C

include h1 h31 h33 h34 in
theorem s5_M170 (R : Fin 1024) (C : Fin 2048) :
    (after opsC_4 (after opsC_3 (after opsC_2 (after opsC_1 (after opsC_0 W)))) (Proc.devRef .tc main_v170) : S1x1024x2048.Idx → EReal) (ix3 (0 : Fin 1) R C) = Cert.Spec.momV B Fl R.val C.val := by
  rw [c4_v170]; exact s4_M170 W B Fl h1 h31 h33 h34 R C

end Stages
end RC1

variable (W : Valuation τ sig (Elt Ideal)) (B : ℕ → ℕ → BitVec 32) (Fl : Fin 3 → ℕ → ℕ → EReal)
  (h1 : ∀ (R : Fin 1024) (C : Fin 2048), (W (Proc.devRef .tc main_v1) : S1024x2048.Idx → BitVec 32) (ix2 R C) = B (R.val + 1) (C.val + 1))
  (h31 : ∀ (R : Fin 1024) (C : Fin 2048), (W (Proc.devRef .tc main_v31) : S1x1024x2048.Idx → EReal) (ix3 (0 : Fin 1) R C) = Cert.Spec.up B Fl (R.val + 1) (C.val + 1))
  (h33 : ∀ (R : Fin 1024) (C : Fin 2048), (W (Proc.devRef .tc main_v33) : S1x1024x2048.Idx → EReal) (ix3 (0 : Fin 1) R C) = Cert.Spec.vp B Fl (R.val + 1) (C.val + 1))
  (h34 : ∀ (k : Fin 3) (p : Fin 1026) (q : Fin 2050), (W (Proc.devRef .tc main_v34) : S1x3x1026x2050.Idx → EReal) (ix4 (0 : Fin 1) k p q) = Cert.Spec.fld B Fl k p.val q.val)

include h1 h31 h33 h34 in
/-- The u-momentum residual the reference computes, cell by cell. -/
theorem C_momU (R : Fin 1024) (C : Fin 2048) :
    (after opsC W (Proc.devRef .tc main_v134) : S1x1024x2048.Idx → EReal) (ix3 (0 : Fin 1) R C) = Cert.Spec.momU B Fl R.val C.val := by
  rw [RC1.opsC_after, RC1.c5_v134]
  exact RC1.s5_M134 W B Fl h1 h31 h33 h34 R C

include h1 h31 h33 h34 in
/-- The v-momentum residual. -/
theorem C_momV (R : Fin 1024) (C : Fin 2048) :
    (after opsC W (Proc.devRef .tc main_v170) : S1x1024x2048.Idx → EReal) (ix3 (0 : Fin 1) R C) = Cert.Spec.momV B Fl R.val C.val := by
  rw [RC1.opsC_after, RC1.c5_v170]
  exact RC1.s5_M170 W B Fl h1 h31 h33 h34 R C

include h1 h31 h33 h34 in
/-- The continuity residual. -/
theorem C_cont (R : Fin 1024) (C : Fin 2048) :
    (after opsC W (Proc.devRef .tc main_v185) : S1x1024x2048.Idx → EReal) (ix3 (0 : Fin 1) R C) = Cert.Spec.cont B Fl R.val C.val := by
  rw [RC1.opsC_after, RC1.c5_v185]
  exact RC1.s5_C185 W B Fl h1 h31 h33 h34 R C
end Cert.ReferenceIdeal.Hand
end
-- ==== Proof.RValC.lean ====
/-
  The end of the reference's last stretch, read from any contents before the stretch.

  The last sixty-four operations compare the code of each grid cell with 0, 4, 5, …, 11 and join the nine bits by or:
  the cells where the equations are imposed. The bit, read as a number, multiplies the two momentum residuals and
  the continuity residual; each product is squared, summed over the whole grid from zero and divided by the number of
  cells; the three means are added: the loss. The same bit selects the code itself against zero, and the selected word
  read as a number is the masked code. Nothing in the stretch writes the two arguments, the code array or the stacked
  substituted fields.

  The stretch is read as its chunks run one after another (the fifth cut where the mask's comparisons start); every
  buffer of the tail is written once, so what it holds at the end is its operation applied to what its operands hold at
  the end. Read at a cell, the operations are the specification's by unfolding; a sum over an array with a unit
  leading axis is the double sum over the grid; and one bit read unsigned is its zero-extension read signed.
-/
import proofs.«148698_j59665685676147_2_alg».proof.Proof.ROps
import proofs.«148698_j59665685676147_2_alg».proof.Proof.Spec
import proofs.«148698_j59665685676147_2_alg».proof.Proof.LibSumIdx
import proofs.«148698_j59665685676147_2_alg».proof.Proof.LibAfterAppend
import proofs.«148698_j59665685676147_2_alg».proof.Proof.RValC1
import Idealize.ShloMosaic.Lib.ValueIdx
import Idealize.ShloMosaic.PureOps.Ideal.Laws
set_option maxRecDepth 16384
noncomputable section
namespace Cert.ReferenceIdeal.Hand
open Cert.ReferenceIdeal Cert.ReferenceIdeal.Gen Idealize.ShloMosaic Idealize.ShloMosaic.TcCoe Idealize.SL.Sem Idealize.ShloMosaic.StableHlo Idealize.ShloMosaic.ValueIdx

namespace RC2

section Split
variable {F : FTy → Type} [FloatOps F]

/-- The first seventeen operations of the fifth chunk: the end of the continuity residual. -/
abbrev opsC_4a : List (HloOp τ sig (Elt F)) :=
  [ StableHlo.binary main_v171 main_v172 main_v173 (subf : (⟨S1x1024x2048, .f32⟩ : BufTy).Contents (Elt F) → (⟨S1x1024x2048, .f32⟩ : BufTy).Contents (Elt F) → (⟨S1x1024x2048, .f32⟩ : BufTy).Contents (Elt F)),
    StableHlo.nullary main_cst_39 (constant S_ .f32 0x3F000000#32),
    StableHlo.unary main_cst_39 main_v174 (broadcastInDim S1x1024x2048 ![] bcast_S_S1x1024x2048 : (⟨S_, .f32⟩ : BufTy).Contents (Elt F) → (⟨S1x1024x2048, .f32⟩ : BufTy).Contents (Elt F)),
    StableHlo.binary main_v174 main_v173 main_v175 (mulf : (⟨S1x1024x2048, .f32⟩ : BufTy).Contents (Elt F) → (⟨S1x1024x2048, .f32⟩ : BufTy).Contents (Elt F) → (⟨S1x1024x2048, .f32⟩ : BufTy).Contents (Elt F)),
    StableHlo.nullary main_cst_40 (constant S_ .f32 0x3B400000#32),
    StableHlo.unary main_cst_40 main_v176 (broadcastInDim S1x1024x2048 ![] bcast_S_S1x1024x2048 : (⟨S_, .f32⟩ : BufTy).Contents (Elt F) → (⟨S1x1024x2048, .f32⟩ : BufTy).Contents (Elt F)),
    StableHlo.binary main_v175 main_v176 main_v177 (Host.divf : (⟨S1x1024x2048, .f32⟩ : BufTy).Contents (Elt F) → (⟨S1x1024x2048, .f32⟩ : BufTy).Contents (Elt F) → (⟨S1x1024x2048, .f32⟩ : BufTy).Contents (Elt F)),
    StableHlo.unary main_v38 main_v178 ((extractStridedSlice S1x1024x2048 ![0, 2, 1] · slices_S1x1026x2050_S1x1024x2048_0_2_1) : (⟨S1x1026x2050, .f32⟩ : BufTy).Contents (Elt F) → (⟨S1x1024x2048, .f32⟩ : BufTy).Contents (Elt F)),
    StableHlo.unary main_v38 main_v179 ((extractStridedSlice S1x1024x2048 ![0, 0, 1] · slices_S1x1026x2050_S1x1024x2048_0_0_1) : (⟨S1x1026x2050, .f32⟩ : BufTy).Contents (Elt F) → (⟨S1x1024x2048, .f32⟩ : BufTy).Contents (Elt F)),
    StableHlo.binary main_v178 main_v179 main_v180 (subf : (⟨S1x1024x2048, .f32⟩ : BufTy).Contents (Elt F) → (⟨S1x1024x2048, .f32⟩ : BufTy).Contents (Elt F) → (⟨S1x1024x2048, .f32⟩ : BufTy).Contents (Elt F)),
    StableHlo.nullary main_cst_41 (constant S_ .f32 0x3F000000#32),
    StableHlo.unary main_cst_41 main_v181 (broadcastInDim S1x1024x2048 ![] bcast_S_S1x1024x2048 : (⟨S_, .f32⟩ : BufTy).Contents (Elt F) → (⟨S1x1024x2048, .f32⟩ : BufTy).Contents (Elt F)),
    StableHlo.binary main_v181 main_v180 main_v182 (mulf : (⟨S1x1024x2048, .f32⟩ : BufTy).Contents (Elt F) → (⟨S1x1024x2048, .f32⟩ : BufTy).Contents (Elt F) → (⟨S1x1024x2048, .f32⟩ : BufTy).Contents (Elt F)),
    StableHlo.nullary main_cst_42 (constant S_ .f32 0x3B400000#32),
    StableHlo.unary main_cst_42 main_v183 (broadcastInDim S1x1024x2048 ![] bcast_S_S1x1024x2048 : (⟨S_, .f32⟩ : BufTy).Contents (Elt F) → (⟨S1x1024x2048, .f32⟩ : BufTy).Contents (Elt F)),
    StableHlo.binary main_v182 main_v183 main_v184 (Host.divf : (⟨S1x1024x2048, .f32⟩ : BufTy).Contents (Elt F) → (⟨S1x1024x2048, .f32⟩ : BufTy).Contents (Elt F) → (⟨S1x1024x2048, .f32⟩ : BufTy).Contents (Elt F)),
    StableHlo.binary main_v177 main_v184 main_v185 (addf : (⟨S1x1024x2048, .f32⟩ : BufTy).Contents (Elt F) → (⟨S1x1024x2048, .f32⟩ : BufTy).Contents (Elt F) → (⟨S1x1024x2048, .f32⟩ : BufTy).Contents (Elt F)) ]

/-- Its other twenty-six operations: the start of the mask's chain of comparisons. -/
abbrev opsC_4b : List (HloOp τ sig (Elt F)) :=
  [ StableHlo.nullary main_c_43 (constantI S_ 32 0#32),
    StableHlo.unary main_c_43 main_v186 (broadcastInDim S1024x2048 ![] bcast_S_S1024x2048 : (⟨S_, .i32⟩ : BufTy).Contents (Elt F) → (⟨S1024x2048, .i32⟩ : BufTy).Contents (Elt F)),
    StableHlo.binary main_v1 main_v186 main_v187 (cmpi .eq : (⟨S1024x2048, .i32⟩ : BufTy).Contents (Elt F) → (⟨S1024x2048, .i32⟩ : BufTy).Contents (Elt F) → (⟨S1024x2048, .i1⟩ : BufTy).Contents (Elt F)),
    StableHlo.nullary main_c_44 (constantI S_ 32 4#32),
    StableHlo.unary main_c_44 main_v188 (broadcastInDim S1024x2048 ![] bcast_S_S1024x2048 : (⟨S_, .i32⟩ : BufTy).Contents (Elt F) → (⟨S1024x2048, .i32⟩ : BufTy).Contents (Elt F)),
    StableHlo.binary main_v1 main_v188 main_v189 (cmpi .eq : (⟨S1024x2048, .i32⟩ : BufTy).Contents (Elt F) → (⟨S1024x2048, .i32⟩ : BufTy).Contents (Elt F) → (⟨S1024x2048, .i1⟩ : BufTy).Contents (Elt F)),
    StableHlo.binary main_v187 main_v189 main_v190 (ori : (⟨S1024x2048, .i1⟩ : BufTy).Contents (Elt F) → (⟨S1024x2048, .i1⟩ : BufTy).Contents (Elt F) → (⟨S1024x2048, .i1⟩ : BufTy).Contents (Elt F)),
    StableHlo.nullary main_c_45 (constantI S_ 32 5#32),
    StableHlo.unary main_c_45 main_v191 (broadcastInDim S1024x2048 ![] bcast_S_S1024x2048 : (⟨S_, .i32⟩ : BufTy).Contents (Elt F) → (⟨S1024x2048, .i32⟩ : BufTy).Contents (Elt F)),
    StableHlo.binary main_v1 main_v191 main_v192 (cmpi .eq : (⟨S1024x2048, .i32⟩ : BufTy).Contents (Elt F) → (⟨S1024x2048, .i32⟩ : BufTy).Contents (Elt F) → (⟨S1024x2048, .i1⟩ : BufTy).Contents (Elt F)),
    StableHlo.binary main_v190 main_v192 main_v193 (ori : (⟨S1024x2048, .i1⟩ : BufTy).Contents (Elt F) → (⟨S1024x2048, .i1⟩ : BufTy).Contents (Elt F) → (⟨S1024x2048, .i1⟩ : BufTy).Contents (Elt F)),
    StableHlo.nullary main_c_46 (constantI S_ 32 6#32),
    StableHlo.unary main_c_46 main_v194 (broadcastInDim S1024x2048 ![] bcast_S_S1024x2048 : (⟨S_, .i32⟩ : BufTy).Contents (Elt F) → (⟨S1024x2048, .i32⟩ : BufTy).Contents (Elt F)),
    StableHlo.binary main_v1 main_v194 main_v195 (cmpi .eq : (⟨S1024x2048, .i32⟩ : BufTy).Contents (Elt F) → (⟨S1024x2048, .i32⟩ : BufTy).Contents (Elt F) → (⟨S1024x2048, .i1⟩ : BufTy).Contents (Elt F)),
    StableHlo.binary main_v193 main_v195 main_v196 (ori : (⟨S1024x2048, .i1⟩ : BufTy).Contents (Elt F) → (⟨S1024x2048, .i1⟩ : BufTy).Contents (Elt F) → (⟨S1024x2048, .i1⟩ : BufTy).Contents (Elt F)),
    StableHlo.nullary main_c_47 (constantI S_ 32 7#32),
    StableHlo.unary main_c_47 main_v197 (broadcastInDim S1024x2048 ![] bcast_S_S1024x2048 : (⟨S_, .i32⟩ : BufTy).Contents (Elt F) → (⟨S1024x2048, .i32⟩ : BufTy).Contents (Elt F)),
    StableHlo.binary main_v1 main_v197 main_v198 (cmpi .eq : (⟨S1024x2048, .i32⟩ : BufTy).Contents (Elt F) → (⟨S1024x2048, .i32⟩ : BufTy).Contents (Elt F) → (⟨S1024x2048, .i1⟩ : BufTy).Contents (Elt F)),
    StableHlo.binary main_v196 main_v198 main_v199 (ori : (⟨S1024x2048, .i1⟩ : BufTy).Contents (Elt F) → (⟨S1024x2048, .i1⟩ : BufTy).Contents (Elt F) → (⟨S1024x2048, .i1⟩ : BufTy).Contents (Elt F)),
    StableHlo.nullary main_c_48 (constantI S_ 32 8#32),
    StableHlo.unary main_c_48 main_v200 (broadcastInDim S1024x2048 ![] bcast_S_S1024x2048 : (⟨S_, .i32⟩ : BufTy).Contents (Elt F) → (⟨S1024x2048, .i32⟩ : BufTy).Contents (Elt F)),
    StableHlo.binary main_v1 main_v200 main_v201 (cmpi .eq : (⟨S1024x2048, .i32⟩ : BufTy).Contents (Elt F) → (⟨S1024x2048, .i32⟩ : BufTy).Contents (Elt F) → (⟨S1024x2048, .i1⟩ : BufTy).Contents (Elt F)),
    StableHlo.binary main_v199 main_v201 main_v202 (ori : (⟨S1024x2048, .i1⟩ : BufTy).Contents (Elt F) → (⟨S1024x2048, .i1⟩ : BufTy).Contents (Elt F) → (⟨S1024x2048, .i1⟩ : BufTy).Contents (Elt F)),
    StableHlo.nullary main_c_49 (constantI S_ 32 9#32),
    StableHlo.unary main_c_49 main_v203 (broadcastInDim S1024x2048 ![] bcast_S_S1024x2048 : (⟨S_, .i32⟩ : BufTy).Contents (Elt F) → (⟨S1024x2048, .i32⟩ : BufTy).Contents (Elt F)),
    StableHlo.binary main_v1 main_v203 main_v204 (cmpi .eq : (⟨S1024x2048, .i32⟩ : BufTy).Contents (Elt F) → (⟨S1024x2048, .i32⟩ : BufTy).Contents (Elt F) → (⟨S1024x2048, .i1⟩ : BufTy).Contents (Elt F)) ]

theorem opsC_4_split : (opsC_4 : List (HloOp τ sig (Elt F))) = opsC_4a ++ opsC_4b := rfl
end Split

/-! ### Buffers the stretch never writes -/
section Keep
variable (V : Valuation τ sig (Elt Ideal))

set_option maxHeartbeats 400000 in
theorem k0_v1 : after opsC_0 V (Proc.devRef .tc main_v1) = V (Proc.devRef .tc main_v1) := by after_results_simp
set_option maxHeartbeats 400000 in
theorem k0_v29 : after opsC_0 V (Proc.devRef .tc main_v29) = V (Proc.devRef .tc main_v29) := by after_results_simp
set_option maxHeartbeats 400000 in
theorem k0_arg0 : after opsC_0 V (Proc.devRef .tc main_arg0) = V (Proc.devRef .tc main_arg0) := by after_results_simp
set_option maxHeartbeats 400000 in
theorem k0_arg1 : after opsC_0 V (Proc.devRef .tc main_arg1) = V (Proc.devRef .tc main_arg1) := by after_results_simp
set_option maxHeartbeats 400000 in
theorem k1_v1 : after opsC_1 V (Proc.devRef .tc main_v1) = V (Proc.devRef .tc main_v1) := by after_results_simp
set_option maxHeartbeats 400000 in
theorem k1_v29 : after opsC_1 V (Proc.devRef .tc main_v29) = V (Proc.devRef .tc main_v29) := by after_results_simp
set_option maxHeartbeats 400000 in
theorem k1_arg0 : after opsC_1 V (Proc.devRef .tc main_arg0) = V (Proc.devRef .tc main_arg0) := by after_results_simp
set_option maxHeartbeats 400000 in
theorem k1_arg1 : after opsC_1 V (Proc.devRef .tc main_arg1) = V (Proc.devRef .tc main_arg1) := by after_results_simp
set_option maxHeartbeats 400000 in
theorem k2_v1 : after opsC_2 V (Proc.devRef .tc main_v1) = V (Proc.devRef .tc main_v1) := by after_results_simp
set_option maxHeartbeats 400000 in
theorem k2_v29 : after opsC_2 V (Proc.devRef .tc main_v29) = V (Proc.devRef .tc main_v29) := by after_results_simp
set_option maxHeartbeats 400000 in
theorem k2_arg0 : after opsC_2 V (Proc.devRef .tc main_arg0) = V (Proc.devRef .tc main_arg0) := by after_results_simp
set_option maxHeartbeats 400000 in
theorem k2_arg1 : after opsC_2 V (Proc.devRef .tc main_arg1) = V (Proc.devRef .tc main_arg1) := by after_results_simp
set_option maxHeartbeats 400000 in
theorem k3_v1 : after opsC_3 V (Proc.devRef .tc main_v1) = V (Proc.devRef .tc main_v1) := by after_results_simp
set_option maxHeartbeats 400000 in
theorem k3_v29 : after opsC_3 V (Proc.devRef .tc main_v29) = V (Proc.devRef .tc main_v29) := by after_results_simp
set_option maxHeartbeats 400000 in
theorem k3_arg0 : after opsC_3 V (Proc.devRef .tc main_arg0) = V (Proc.devRef .tc main_arg0) := by after_results_simp
set_option maxHeartbeats 400000 in
theorem k3_arg1 : after opsC_3 V (Proc.devRef .tc main_arg1) = V (Proc.devRef .tc main_arg1) := by after_results_simp
set_option maxHeartbeats 400000 in
theorem k4a_v1 : after opsC_4a V (Proc.devRef .tc main_v1) = V (Proc.devRef .tc main_v1) := by after_results_simp
set_option maxHeartbeats 400000 in
theorem k4a_v29 : after opsC_4a V (Proc.devRef .tc main_v29) = V (Proc.devRef .tc main_v29) := by after_results_simp
set_option maxHeartbeats 400000 in
theorem k4a_arg0 : after opsC_4a V (Proc.devRef .tc main_arg0) = V (Proc.devRef .tc main_arg0) := by after_results_simp
set_option maxHeartbeats 400000 in
theorem k4a_arg1 : after opsC_4a V (Proc.devRef .tc main_arg1) = V (Proc.devRef .tc main_arg1) := by after_results_simp
set_option maxHeartbeats 400000 in
theorem tl_v29 : (after opsC_5 (after opsC_4b V) (Proc.devRef .tc main_v29)) = V (Proc.devRef .tc main_v29) := by after_results_simp
set_option maxHeartbeats 400000 in
theorem tl_arg0 : (after opsC_5 (after opsC_4b V) (Proc.devRef .tc main_arg0)) = V (Proc.devRef .tc main_arg0) := by after_results_simp
set_option maxHeartbeats 400000 in
theorem tl_arg1 : (after opsC_5 (after opsC_4b V) (Proc.devRef .tc main_arg1)) = V (Proc.devRef .tc main_arg1) := by after_results_simp
end Keep

section Whole
variable (W : Valuation τ sig (Elt Ideal))

/-- The stretch read as its chunks run one after another, the fifth chunk cut in two. -/
theorem opsC_after : after opsC W = after opsC_5 (after opsC_4b (after opsC_4a (after opsC_3 (after opsC_2 (after opsC_1 (after opsC_0 W)))))) := by
  show after (opsC_0 ++ opsC_1 ++ opsC_2 ++ opsC_3 ++ opsC_4 ++ opsC_5) W = _
  rw [Cert.Lib.AfterAppend.after_append, Cert.Lib.AfterAppend.after_append, Cert.Lib.AfterAppend.after_append,
    Cert.Lib.AfterAppend.after_append, Cert.Lib.AfterAppend.after_append, opsC_4_split, Cert.Lib.AfterAppend.after_append]

theorem pre_v1 : after opsC_4a (after opsC_3 (after opsC_2 (after opsC_1 (after opsC_0 W)))) (Proc.devRef .tc main_v1) = W (Proc.devRef .tc main_v1) := by
  rw [k4a_v1, k3_v1, k2_v1, k1_v1, k0_v1]
theorem pre_v29 : after opsC_4a (after opsC_3 (after opsC_2 (after opsC_1 (after opsC_0 W)))) (Proc.devRef .tc main_v29) = W (Proc.devRef .tc main_v29) := by
  rw [k4a_v29, k3_v29, k2_v29, k1_v29, k0_v29]
theorem pre_arg0 : after opsC_4a (after opsC_3 (after opsC_2 (after opsC_1 (after opsC_0 W)))) (Proc.devRef .tc main_arg0) = W (Proc.devRef .tc main_arg0) := by
  rw [k4a_arg0, k3_arg0, k2_arg0, k1_arg0, k0_arg0]
theorem pre_arg1 : after opsC_4a (after opsC_3 (after opsC_2 (after opsC_1 (after opsC_0 W)))) (Proc.devRef .tc main_arg1) = W (Proc.devRef .tc main_arg1) := by
  rw [k4a_arg1, k3_arg1, k2_arg1, k1_arg1, k0_arg1]
end Whole

/-! ### The last sixty-four operations, buffer by buffer, from any contents `V` before them -/
section Tail
variable (V : Valuation τ sig (Elt Ideal))

set_option maxHeartbeats 400000 in
theorem tl_v1 : (after opsC_5 (after opsC_4b V) (Proc.devRef .tc main_v1)) = V (Proc.devRef .tc main_v1) := by after_results_simp
set_option maxHeartbeats 400000 in
theorem tl_v134 : (after opsC_5 (after opsC_4b V) (Proc.devRef .tc main_v134)) = V (Proc.devRef .tc main_v134) := by after_results_simp
set_option maxHeartbeats 400000 in
theorem tl_v170 : (after opsC_5 (after opsC_4b V) (Proc.devRef .tc main_v170)) = V (Proc.devRef .tc main_v170) := by after_results_simp
set_option maxHeartbeats 400000 in
theorem tl_v185 : (after opsC_5 (after opsC_4b V) (Proc.devRef .tc main_v185)) = V (Proc.devRef .tc main_v185) := by after_results_simp
set_option maxHeartbeats 400000 in
/-- The mask bit: the chain of comparisons of the code with 0, 4, 5, …, 11, joined by or. -/
theorem tl_v211 : ((after opsC_5 (after opsC_4b V) (Proc.devRef .tc main_v211)) : S1024x2048.Idx → BitVec 1) = fun i => Cert.Spec.maskS ((V (Proc.devRef .tc main_v1) : S1024x2048.Idx → BitVec 32) i) := by
  after_results_simp; rfl
set_option maxHeartbeats 400000 in
theorem tl_v212 : (after opsC_5 (after opsC_4b V) (Proc.devRef .tc main_v212)) = uitofp (F := Ideal) (s := S1024x2048) (w := 1) .f32 (after opsC_5 (after opsC_4b V) (Proc.devRef .tc main_v211)) := by after_results_simp
set_option maxHeartbeats 400000 in
theorem tl_v213 : (after opsC_5 (after opsC_4b V) (Proc.devRef .tc main_v213)) = broadcastInDim (α := EReal) S1x1024x2048 ![1, 2] bcast_S1024x2048_S1x1024x2048_1_2 (after opsC_5 (after opsC_4b V) (Proc.devRef .tc main_v212)) := by after_results_simp
set_option maxHeartbeats 400000 in
theorem tl_v215 : (after opsC_5 (after opsC_4b V) (Proc.devRef .tc main_v215)) = broadcastInDim (α := EReal) S1x1024x2048 ![1, 2] bcast_S1024x2048_S1x1024x2048_1_2 (after opsC_5 (after opsC_4b V) (Proc.devRef .tc main_v212)) := by after_results_simp
set_option maxHeartbeats 400000 in
theorem tl_v217 : (after opsC_5 (after opsC_4b V) (Proc.devRef .tc main_v217)) = broadcastInDim (α := EReal) S1x1024x2048 ![1, 2] bcast_S1024x2048_S1x1024x2048_1_2 (after opsC_5 (after opsC_4b V) (Proc.devRef .tc main_v212)) := by after_results_simp
set_option maxHeartbeats 400000 in
theorem tl_v214 : (after opsC_5 (after opsC_4b V) (Proc.devRef .tc main_v214)) = mulf (F := Ideal) (s := S1x1024x2048) (φ := .f32) (after opsC_5 (after opsC_4b V) (Proc.devRef .tc main_v213)) (after opsC_5 (after opsC_4b V) (Proc.devRef .tc main_v134)) := by after_results_simp
set_option maxHeartbeats 400000 in
theorem tl_v216 : (after opsC_5 (after opsC_4b V) (Proc.devRef .tc main_v216)) = mulf (F := Ideal) (s := S1x1024x2048) (φ := .f32) (after opsC_5 (after opsC_4b V) (Proc.devRef .tc main_v215)) (after opsC_5 (after opsC_4b V) (Proc.devRef .tc main_v170)) := by after_results_simp
set_option maxHeartbeats 400000 in
theorem tl_v218 : (after opsC_5 (after opsC_4b V) (Proc.devRef .tc main_v218)) = mulf (F := Ideal) (s := S1x1024x2048) (φ := .f32) (after opsC_5 (after opsC_4b V) (Proc.devRef .tc main_v217)) (after opsC_5 (after opsC_4b V) (Proc.devRef .tc main_v185)) := by after_results_simp
set_option maxHeartbeats 400000 in
theorem tl_v219 : (after opsC_5 (after opsC_4b V) (Proc.devRef .tc main_v219)) = mulf (F := Ideal) (s := S1x1024x2048) (φ := .f32) (after opsC_5 (after opsC_4b V) (Proc.devRef .tc main_v214)) (after opsC_5 (after opsC_4b V) (Proc.devRef .tc main_v214)) := by after_results_simp
set_option maxHeartbeats 400000 in
theorem tl_v222 : (after opsC_5 (after opsC_4b V) (Proc.devRef .tc main_v222)) = mulf (F := Ideal) (s := S1x1024x2048) (φ := .f32) (after opsC_5 (after opsC_4b V) (Proc.devRef .tc main_v216)) (after opsC_5 (after opsC_4b V) (Proc.devRef .tc main_v216)) := by after_results_simp
set_option maxHeartbeats 400000 in
theorem tl_v226 : (after opsC_5 (after opsC_4b V) (Proc.devRef .tc main_v226)) = mulf (F := Ideal) (s := S1x1024x2048) (φ := .f32) (after opsC_5 (after opsC_4b V) (Proc.devRef .tc main_v218)) (after opsC_5 (after opsC_4b V) (Proc.devRef .tc main_v218)) := by after_results_simp
set_option maxHeartbeats 400000 in
theorem tl_v220 : (after opsC_5 (after opsC_4b V) (Proc.devRef .tc main_v220)) = Host.reduceAdd (F := Ideal) (φ := .f32) (s := S1x1024x2048) (t := S_) (u := S_) (after opsC_5 (after opsC_4b V) (Proc.devRef .tc main_v219)) (constant S_ .f32 0x00000000#32) reducesTo_S1x1024x2048_S_d0_1_2 h_S_ := by after_results_simp
set_option maxHeartbeats 400000 in
theorem tl_v223 : (after opsC_5 (after opsC_4b V) (Proc.devRef .tc main_v223)) = Host.reduceAdd (F := Ideal) (φ := .f32) (s := S1x1024x2048) (t := S_) (u := S_) (after opsC_5 (after opsC_4b V) (Proc.devRef .tc main_v222)) (constant S_ .f32 0x00000000#32) reducesTo_S1x1024x2048_S_d0_1_2 h_S_ := by after_results_simp
set_option maxHeartbeats 400000 in
theorem tl_v227 : (after opsC_5 (after opsC_4b V) (Proc.devRef .tc main_v227)) = Host.reduceAdd (F := Ideal) (φ := .f32) (s := S1x1024x2048) (t := S_) (u := S_) (after opsC_5 (after opsC_4b V) (Proc.devRef .tc main_v226)) (constant S_ .f32 0x00000000#32) reducesTo_S1x1024x2048_S_d0_1_2 h_S_ := by after_results_simp
set_option maxHeartbeats 400000 in
theorem tl_v221 : (after opsC_5 (after opsC_4b V) (Proc.devRef .tc main_v221)) = Host.divf (F := Ideal) (s := S_) (φ := .f32) (after opsC_5 (after opsC_4b V) (Proc.devRef .tc main_v220)) (constant S_ .f32 0x4A000000#32) := by after_results_simp
set_option maxHeartbeats 400000 in
theorem tl_v224 : (after opsC_5 (after opsC_4b V) (Proc.devRef .tc main_v224)) = Host.divf (F := Ideal) (s := S_) (φ := .f32) (after opsC_5 (after opsC_4b V) (Proc.devRef .tc main_v223)) (constant S_ .f32 0x4A000000#32) := by after_results_simp
set_option maxHeartbeats 400000 in
theorem tl_v228 : (after opsC_5 (after opsC_4b V) (Proc.devRef .tc main_v228)) = Host.divf (F := Ideal) (s := S_) (φ := .f32) (after opsC_5 (after opsC_4b V) (Proc.devRef .tc main_v227)) (constant S_ .f32 0x4A000000#32) := by after_results_simp
set_option maxHeartbeats 400000 in
theorem tl_v225 : (after opsC_5 (after opsC_4b V) (Proc.devRef .tc main_v225)) = addf (F := Ideal) (s := S_) (φ := .f32) (after opsC_5 (after opsC_4b V) (Proc.devRef .tc main_v221)) (after opsC_5 (after opsC_4b V) (Proc.devRef .tc main_v224)) := by after_results_simp
set_option maxHeartbeats 400000 in
theorem tl_v229 : (after opsC_5 (after opsC_4b V) (Proc.devRef .tc main_v229)) = addf (F := Ideal) (s := S_) (φ := .f32) (after opsC_5 (after opsC_4b V) (Proc.devRef .tc main_v225)) (after opsC_5 (after opsC_4b V) (Proc.devRef .tc main_v228)) := by after_results_simp
set_option maxHeartbeats 400000 in
/-- The masked code as a number, entry by entry. -/
theorem tl_v231 : ((after opsC_5 (after opsC_4b V) (Proc.devRef .tc main_v231)) : S1024x2048.Idx → EReal)
    = fun i => FloatOps.sitofp (F := Ideal) .f32 (Scalar.select (Cert.Spec.maskS ((V (Proc.devRef .tc main_v1) : S1024x2048.Idx → BitVec 32) i)) ((V (Proc.devRef .tc main_v1) : S1024x2048.Idx → BitVec 32) i) 0#32) := by
  after_results_simp; rfl
end Tail

/-! ### Arithmetic read at an entry -/

/-- One bit read as an unsigned number is its zero-extension to a word read as a signed number. -/
theorem bit_val (a : BitVec 1) :
    FloatOps.uitofp (F := Ideal) .f32 a = FloatOps.sitofp (F := Ideal) .f32 (a.setWidth 32) := by
  rcases BitVec.eq_zero_or_eq_one a with h | h <;> subst h
  · show (((0#1 : BitVec 1).toNat : ℝ) : EReal) = (((BitVec.setWidth 32 (0#1 : BitVec 1)).toInt : ℝ) : EReal)
    have e1 : (0#1 : BitVec 1).toNat = 0 := rfl
    have e2 : (BitVec.setWidth 32 (0#1 : BitVec 1)).toInt = 0 := by decide
    rw [e1, e2]; simp
  · show (((1#1 : BitVec 1).toNat : ℝ) : EReal) = (((BitVec.setWidth 32 (1#1 : BitVec 1)).toInt : ℝ) : EReal)
    have e1 : (1#1 : BitVec 1).toNat = 1 := rfl
    have e2 : (BitVec.setWidth 32 (1#1 : BitVec 1)).toInt = 1 := by decide
    rw [e1, e2]; simp

/-- A grid array repeated along a new leading axis of extent one, read at an entry. -/
theorem bcast12_apply {α : Type} (h : S1024x2048.BroadcastsInDim S1x1024x2048 (![1, 2] : Fin 2 → Fin S1x1024x2048.rank))
    (x : S1024x2048.Idx → α) (R : Fin 1024) (C : Fin 2048) :
    broadcastInDim S1x1024x2048 ![1, 2] h x (ix3 (0 : Fin 1) R C) = x (ix2 R C) := by
  unfold broadcastInDim
  exact congrArg x (funext fun a => match a with | ⟨0, _⟩ => rfl | ⟨1, _⟩ => rfl)

/-- The sum of an array with a unit leading axis over all its entries, started from the zero word, is the double sum
    over the grid. -/
theorem reduce_all (h : S1x1024x2048.ReducesTo [0, 1, 2] S_) (hu : 0 < S_.numel) (x : S1x1024x2048.Idx → EReal)
    (f : ℕ → ℕ → EReal) (hx : ∀ (R : Fin 1024) (C : Fin 2048), x (ix3 (0 : Fin 1) R C) = f R.val C.val) (j : S_.Idx) :
    Host.reduceAdd (F := Ideal) (φ := .f32) x (constant S_ .f32 0x00000000#32) h hu j = Cert.Spec.total f := by
  show Ideal.hostReduceAdd h x (Ideal.ofBits .f32 0x00000000#32) j = _
  rw [Ideal.hostReduceAdd_total h (fun b => b.elim0), Ideal.ofBits_zero_f32, zero_add, Cert.Lib.sum_idx3, Fin.sum_univ_one]
  exact Finset.sum_congr rfl fun R _ => Finset.sum_congr rfl fun C _ => hx R C

/-! ### The end of the stretch from any contents `V` whose code and residuals are the specification's -/
section TailValue
variable (V : Valuation τ sig (Elt Ideal)) (B : ℕ → ℕ → BitVec 32) (Fl : Fin 3 → ℕ → ℕ → EReal)
  (g1 : ∀ (R : Fin 1024) (C : Fin 2048), (V (Proc.devRef .tc main_v1) : S1024x2048.Idx → BitVec 32) (ix2 R C) = B (R.val + 1) (C.val + 1))

include g1 in
/-- The mask as a number at a cell. -/
theorem tail_mf (R : Fin 1024) (C : Fin 2048) :
    ((after opsC_5 (after opsC_4b V) (Proc.devRef .tc main_v212)) : S1024x2048.Idx → EReal) (ix2 R C) = Cert.Spec.mfS (Cert.Spec.code B R.val C.val) := by
  rw [tl_v212, tl_v211]
  show FloatOps.uitofp (F := Ideal) .f32 (Cert.Spec.maskS ((V (Proc.devRef .tc main_v1) : S1024x2048.Idx → BitVec 32) (ix2 R C))) = _
  rw [g1 R C]; exact bit_val _

include g1 in
/-- The masked code as a number at a cell. -/
theorem tail_mask (R : Fin 1024) (C : Fin 2048) :
    ((after opsC_5 (after opsC_4b V) (Proc.devRef .tc main_v231)) : S1024x2048.Idx → EReal) (ix2 R C) = Cert.Spec.maskVal B R.val C.val := by
  rw [tl_v231]
  show FloatOps.sitofp (F := Ideal) .f32 (Scalar.select (Cert.Spec.maskS ((V (Proc.devRef .tc main_v1) : S1024x2048.Idx → BitVec 32) (ix2 R C))) ((V (Proc.devRef .tc main_v1) : S1024x2048.Idx → BitVec 32) (ix2 R C)) 0#32) = _
  rw [g1 R C]; rfl

variable
  (gU : ∀ (R : Fin 1024) (C : Fin 2048), (V (Proc.devRef .tc main_v134) : S1x1024x2048.Idx → EReal) (ix3 (0 : Fin 1) R C) = Cert.Spec.momU B Fl R.val C.val)
  (gV : ∀ (R : Fin 1024) (C : Fin 2048), (V (Proc.devRef .tc main_v170) : S1x1024x2048.Idx → EReal) (ix3 (0 : Fin 1) R C) = Cert.Spec.momV B Fl R.val C.val)
  (gC : ∀ (R : Fin 1024) (C : Fin 2048), (V (Proc.devRef .tc main_v185) : S1x1024x2048.Idx → EReal) (ix3 (0 : Fin 1) R C) = Cert.Spec.cont B Fl R.val C.val)

include g1 gU in
theorem tail_sqU (R : Fin 1024) (C : Fin 2048) :
    ((after opsC_5 (after opsC_4b V) (Proc.devRef .tc main_v219)) : S1x1024x2048.Idx → EReal) (ix3 (0 : Fin 1) R C) = Cert.Spec.sqU B Fl R.val C.val := by
  rw [tl_v219, mulf_apply, tl_v214, mulf_apply, tl_v213, bcast12_apply, tail_mf V B g1 R C, tl_v134, gU R C]; rfl

include g1 gV in
theorem tail_sqV (R : Fin 1024) (C : Fin 2048) :
    ((after opsC_5 (after opsC_4b V) (Proc.devRef .tc main_v222)) : S1x1024x2048.Idx → EReal) (ix3 (0 : Fin 1) R C) = Cert.Spec.sqV B Fl R.val C.val := by
  rw [tl_v222, mulf_apply, tl_v216, mulf_apply, tl_v215, bcast12_apply, tail_mf V B g1 R C, tl_v170, gV R C]; rfl

include g1 gC in
theorem tail_sqC (R : Fin 1024) (C : Fin 2048) :
    ((after opsC_5 (after opsC_4b V) (Proc.devRef .tc main_v226)) : S1x1024x2048.Idx → EReal) (ix3 (0 : Fin 1) R C) = Cert.Spec.sqC B Fl R.val C.val := by
  rw [tl_v226, mulf_apply, tl_v218, mulf_apply, tl_v217, bcast12_apply, tail_mf V B g1 R C, tl_v185, gC R C]; rfl

include g1 gU gV gC in
/-- The three mean squares added. -/
theorem tail_loss : ((after opsC_5 (after opsC_4b V) (Proc.devRef .tc main_v229)) : S_.Idx → EReal) = fun _ => Cert.Spec.lossOf B Fl := by
  funext j
  rw [tl_v229, addf_apply, tl_v225, addf_apply, tl_v221, tl_v224, tl_v228]
  show Ideal.div (((after opsC_5 (after opsC_4b V) (Proc.devRef .tc main_v220)) : S_.Idx → EReal) j) (Ideal.ofBits .f32 0x4A000000#32)
      + Ideal.div (((after opsC_5 (after opsC_4b V) (Proc.devRef .tc main_v223)) : S_.Idx → EReal) j) (Ideal.ofBits .f32 0x4A000000#32)
      + Ideal.div (((after opsC_5 (after opsC_4b V) (Proc.devRef .tc main_v227)) : S_.Idx → EReal) j) (Ideal.ofBits .f32 0x4A000000#32) = _
  rw [tl_v220, tl_v223, tl_v227,
    reduce_all _ _ _ (Cert.Spec.sqU B Fl) (tail_sqU V B Fl g1 gU) j,
    reduce_all _ _ _ (Cert.Spec.sqV B Fl) (tail_sqV V B Fl g1 gV) j,
    reduce_all _ _ _ (Cert.Spec.sqC B Fl) (tail_sqC V B Fl g1 gC) j]
  rfl
end TailValue

end RC2

variable (W : Valuation τ sig (Elt Ideal)) (B : ℕ → ℕ → BitVec 32) (Fl : Fin 3 → ℕ → ℕ → EReal)
  (h1 : ∀ (R : Fin 1024) (C : Fin 2048), (W (Proc.devRef .tc main_v1) : S1024x2048.Idx → BitVec 32) (ix2 R C) = B (R.val + 1) (C.val + 1))
  (h31 : ∀ (R : Fin 1024) (C : Fin 2048), (W (Proc.devRef .tc main_v31) : S1x1024x2048.Idx → EReal) (ix3 (0 : Fin 1) R C) = Cert.Spec.up B Fl (R.val + 1) (C.val + 1))
  (h33 : ∀ (R : Fin 1024) (C : Fin 2048), (W (Proc.devRef .tc main_v33) : S1x1024x2048.Idx → EReal) (ix3 (0 : Fin 1) R C) = Cert.Spec.vp B Fl (R.val + 1) (C.val + 1))
  (h34 : ∀ (k : Fin 3) (p : Fin 1026) (q : Fin 2050), (W (Proc.devRef .tc main_v34) : S1x3x1026x2050.Idx → EReal) (ix4 (0 : Fin 1) k p q) = Cert.Spec.fld B Fl k p.val q.val)

include h1 h31 h33 h34 in
/-- The loss the reference ends with is the specification's. -/
theorem C_loss : (after opsC W (Proc.devRef .tc main_v229) : S_.Idx → EReal) = fun _ => Cert.Spec.lossOf B Fl := by
  rw [RC2.opsC_after]
  refine RC2.tail_loss _ B Fl ?_ ?_ ?_ ?_
  · intro R C; rw [RC2.pre_v1]; exact h1 R C
  · intro R C
    have h := C_momU W B Fl h1 h31 h33 h34 R C
    rw [RC2.opsC_after, RC2.tl_v134] at h; exact h
  · intro R C
    have h := C_momV W B Fl h1 h31 h33 h34 R C
    rw [RC2.opsC_after, RC2.tl_v170] at h; exact h
  · intro R C
    have h := C_cont W B Fl h1 h31 h33 h34 R C
    rw [RC2.opsC_after, RC2.tl_v185] at h; exact h

include h1 in
/-- The masked code the reference ends with is the specification's. -/
theorem C_mask (R : Fin 1024) (C : Fin 2048) :
    (after opsC W (Proc.devRef .tc main_v231) : S1024x2048.Idx → EReal) (ix2 R C) = Cert.Spec.maskVal B R.val C.val := by
  rw [RC2.opsC_after]
  refine RC2.tail_mask _ B ?_ R C
  intro R C; rw [RC2.pre_v1]; exact h1 R C

theorem C_v29 : after opsC W (Proc.devRef .tc main_v29) = W (Proc.devRef .tc main_v29) := by
  rw [RC2.opsC_after, RC2.tl_v29, RC2.pre_v29]
theorem C_arg0 : after opsC W (Proc.devRef .tc main_arg0) = W (Proc.devRef .tc main_arg0) := by
  rw [RC2.opsC_after, RC2.tl_arg0, RC2.pre_arg0]
theorem C_arg1 : after opsC W (Proc.devRef .tc main_arg1) = W (Proc.devRef .tc main_arg1) := by
  rw [RC2.opsC_after, RC2.tl_arg1, RC2.pre_arg1]
end Cert.ReferenceIdeal.Hand
end
-- ==== Proof.RFinal.lean ====
import proofs.«148698_j59665685676147_2_alg».proof.Proof.RRun
import proofs.«148698_j59665685676147_2_alg».proof.Proof.RValAB
import proofs.«148698_j59665685676147_2_alg».proof.Proof.RValC
set_option maxRecDepth 16384
noncomputable section
namespace Cert.ReferenceIdeal.Hand
open Cert.ReferenceIdeal Cert.ReferenceIdeal.Gen Idealize.ShloMosaic Idealize.ShloMosaic.TcCoe Idealize.SL.Sem Idealize.ShloMosaic.StableHlo Idealize.ShloMosaic.ValueIdx

/-! ## Reading a padded field one cell inside the source cell

The code and the raw fields at padded coordinates read the argument arrays at the reflected source cell, and the
source cell (r, s) sits at padded coordinates (r + 1, s + 1): so reading at the padded position of the source cell
of (p, q) is reading at (p, q). -/
section Src
variable (lay : Cert.Spec.SL.Idx → BitVec 32) (flo : Cert.Spec.SF.Idx → EReal)

theorem rowSrc_src (p : ℕ) : Cert.Spec.rowSrc ((Cert.Spec.rowSrc p).val + 1) = Cert.Spec.rowSrc p :=
  Cert.Spec.rowSrc_succ _ (Cert.Spec.rowSrc p).isLt
theorem colSrc_src (q : ℕ) : Cert.Spec.colSrc ((Cert.Spec.colSrc q).val + 1) = Cert.Spec.colSrc q :=
  Cert.Spec.colSrc_succ _ (Cert.Spec.colSrc q).isLt

theorem Bp_src (p q : ℕ) :
    Cert.Spec.Bp lay ((Cert.Spec.rowSrc p).val + 1) ((Cert.Spec.colSrc q).val + 1) = Cert.Spec.Bp lay p q := by
  unfold Cert.Spec.Bp; rw [rowSrc_src, colSrc_src]
theorem Fp_src (k : Fin 3) (p q : ℕ) :
    Cert.Spec.Fp flo k ((Cert.Spec.rowSrc p).val + 1) ((Cert.Spec.colSrc q).val + 1) = Cert.Spec.Fp flo k p q := by
  unfold Cert.Spec.Fp; rw [rowSrc_src, colSrc_src]

theorem up_src (p q : ℕ) :
    Cert.Spec.up (Cert.Spec.Bp lay) (Cert.Spec.Fp flo) ((Cert.Spec.rowSrc p).val + 1) ((Cert.Spec.colSrc q).val + 1)
      = Cert.Spec.up (Cert.Spec.Bp lay) (Cert.Spec.Fp flo) p q := by
  unfold Cert.Spec.up; rw [Bp_src, Fp_src]
theorem vp_src (p q : ℕ) :
    Cert.Spec.vp (Cert.Spec.Bp lay) (Cert.Spec.Fp flo) ((Cert.Spec.rowSrc p).val + 1) ((Cert.Spec.colSrc q).val + 1)
      = Cert.Spec.vp (Cert.Spec.Bp lay) (Cert.Spec.Fp flo) p q := by
  unfold Cert.Spec.vp; rw [Bp_src, Fp_src]
theorem pp_src (p q : ℕ) :
    Cert.Spec.pp (Cert.Spec.Bp lay) (Cert.Spec.Fp flo) ((Cert.Spec.rowSrc p).val + 1) ((Cert.Spec.colSrc q).val + 1)
      = Cert.Spec.pp (Cert.Spec.Bp lay) (Cert.Spec.Fp flo) p q := by
  unfold Cert.Spec.pp; rw [Bp_src, Fp_src]

theorem fld_src (k : Fin 3) (p q : ℕ) :
    Cert.Spec.fld (Cert.Spec.Bp lay) (Cert.Spec.Fp flo) k ((Cert.Spec.rowSrc p).val + 1) ((Cert.Spec.colSrc q).val + 1)
      = Cert.Spec.fld (Cert.Spec.Bp lay) (Cert.Spec.Fp flo) k p q :=
  match k with
  | ⟨0, _⟩ => up_src lay flo p q
  | ⟨1, _⟩ => vp_src lay flo p q
  | ⟨_ + 2, _⟩ => pp_src lay flo p q
end Src

/-! ## The three stretches composed -/
section Compose
variable (V : Valuation τ sig (Elt Ideal))

/-- The code after the first two stretches. -/
theorem all_h1 (R : Fin 1024) (C : Fin 2048) :
    (after opsB (after opsA V) (Proc.devRef .tc main_v1) : S1024x2048.Idx → BitVec 32) (ix2 R C)
      = Cert.Spec.Bp (V (Proc.devRef .tc main_arg0)) (R.val + 1) (C.val + 1) := by
  rw [B_v1]; exact A_code V R C

/-- The substituted first field after the first two stretches. -/
theorem all_h31 (R : Fin 1024) (C : Fin 2048) :
    (after opsB (after opsA V) (Proc.devRef .tc main_v31) : S1x1024x2048.Idx → EReal) (ix3 (0 : Fin 1) R C)
      = Cert.Spec.up (Cert.Spec.Bp (V (Proc.devRef .tc main_arg0))) (Cert.Spec.Fp (V (Proc.devRef .tc main_arg1))) (R.val + 1) (C.val + 1) := by
  rw [B_v31]; exact A_u V R C

/-- The substituted second field after the first two stretches. -/
theorem all_h33 (R : Fin 1024) (C : Fin 2048) :
    (after opsB (after opsA V) (Proc.devRef .tc main_v33) : S1x1024x2048.Idx → EReal) (ix3 (0 : Fin 1) R C)
      = Cert.Spec.vp (Cert.Spec.Bp (V (Proc.devRef .tc main_arg0))) (Cert.Spec.Fp (V (Proc.devRef .tc main_arg1))) (R.val + 1) (C.val + 1) := by
  rw [B_v33]; exact A_v V R C

/-- The extended array after the first two stretches is the substituted fields at padded coordinates. -/
theorem all_h34 (k : Fin 3) (p : Fin 1026) (q : Fin 2050) :
    (after opsB (after opsA V) (Proc.devRef .tc main_v34) : S1x3x1026x2050.Idx → EReal) (ix4 (0 : Fin 1) k p q)
      = Cert.Spec.fld (Cert.Spec.Bp (V (Proc.devRef .tc main_arg0))) (Cert.Spec.Fp (V (Proc.devRef .tc main_arg1))) k p.val q.val := by
  rw [B_pad, A_flow]
  exact fld_src (V (Proc.devRef .tc main_arg0)) (V (Proc.devRef .tc main_arg1)) k p.val q.val

theorem all_loss :
    (after opsC (after opsB (after opsA V)) (Proc.devRef .tc main_v229) : S_.Idx → EReal)
      = Cert.Spec.loss (V (Proc.devRef .tc main_arg0)) (V (Proc.devRef .tc main_arg1)) :=
  C_loss (after opsB (after opsA V)) (Cert.Spec.Bp (V (Proc.devRef .tc main_arg0))) (Cert.Spec.Fp (V (Proc.devRef .tc main_arg1)))
    (all_h1 V) (all_h31 V) (all_h33 V) (all_h34 V)

theorem all_flow :
    (after opsC (after opsB (after opsA V)) (Proc.devRef .tc main_v29) : S1x3x1024x2048.Idx → EReal)
      = Cert.Spec.flowbc (V (Proc.devRef .tc main_arg0)) (V (Proc.devRef .tc main_arg1)) := by
  rw [C_v29, B_v29]; exact A_flow V

theorem all_mask :
    (after opsC (after opsB (after opsA V)) (Proc.devRef .tc main_v231) : S1024x2048.Idx → EReal)
      = Cert.Spec.eqmask (V (Proc.devRef .tc main_arg0)) := by
  funext i
  obtain ⟨R, C, rfl⟩ : ∃ R C, i = ix2 R C := ⟨i 0, i 1, eq_ix2 i⟩
  exact C_mask (after opsB (after opsA V)) (Cert.Spec.Bp (V (Proc.devRef .tc main_arg0))) (all_h1 V) R C

theorem all_arg0 :
    after opsC (after opsB (after opsA V)) (Proc.devRef .tc main_arg0) = V (Proc.devRef .tc main_arg0) := by
  rw [C_arg0, B_arg0]; exact A_arg0 V

theorem all_arg1 :
    after opsC (after opsB (after opsA V)) (Proc.devRef .tc main_arg1) = V (Proc.devRef .tc main_arg1) := by
  rw [C_arg1, B_arg1]; exact A_arg1 V
end Compose

/-- At the ideal instance, from any memory with zero counters: every weakly fair execution of @main terminates, the
    three results are the specification's loss, substituted fields and masked code of the argument arrays, and the
    argument arrays end unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v229)
        = Cert.Spec.loss (m ((c.tc : Thread nD τ).loc main_arg0)) (m ((c.tc : Thread nD τ).loc main_arg1))
      ∧ r.2.mem ((c.tc : Thread nD τ).loc main_v29)
        = Cert.Spec.flowbc (m ((c.tc : Thread nD τ).loc main_arg0)) (m ((c.tc : Thread nD τ).loc main_arg1))
      ∧ r.2.mem ((c.tc : Thread nD τ).loc main_v231) = Cert.Spec.eqmask (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨(h c main_v229).trans (all_loss (launchContents m c)),
        (h c main_v29).trans (all_flow (launchContents m c)),
        (h c main_v231).trans (all_mask (launchContents m c)),
        (h c main_arg0).trans (all_arg0 (launchContents m c)),
        (h c main_arg1).trans (all_arg1 (launchContents m c))⟩)
    (run_main m ρ)

end Cert.ReferenceIdeal.Hand
end
-- ==== Proof.lean ====
/-
  The five claims of this certificate, assembled.

  The kernel tiles the 1024 × 2048 grid into 16 row tiles; on each it reads the tile of the code and of the three
  fields extended by one reflected cell, substitutes the Dirichlet values, applies the finite-difference stencils,
  writes the tile of the substituted fields and of the masked code, and the tile's three sums of squared masked
  residuals; the host adds the sixteen partial sums and divides by the number of cells. The reference substitutes first,
  reflects afterwards, applies the same stencils to the whole grid and takes the three means. Reflection commutes with
  a cell-by-cell substitution, the kernel's reflection by eight rows read at rows 7 … 1032 is the reflection by one,
  and a finite sum over the grid may be taken tile by tile: so both programs end at the one specification of
  Proof/Spec.lean (flowbc, eqmask, loss), cell by cell, with no use of finiteness of the inputs.

  The two kernel programs' frames are the generated frame certificates; the reference's frame is its run
  (Proof/RFinal.lean) with the results dropped; the idealization rewrote nothing, so 'preserves' is trivial; the
  algebraic claim pairs the kernel's run (Proof/KRun.lean) with the reference's run at the specification's values.
-/
import proofs.«148698_j59665685676147_2_alg».proof.Defs
import proofs.«148698_j59665685676147_2_alg».proof.Proof.Gen.Kernel
import proofs.«148698_j59665685676147_2_alg».proof.Proof.Gen.Kernel.Frame
import proofs.«148698_j59665685676147_2_alg».proof.Proof.Gen.KernelIdeal
import proofs.«148698_j59665685676147_2_alg».proof.Proof.Gen.KernelIdeal.Frame
import proofs.«148698_j59665685676147_2_alg».proof.Proof.Gen.ReferenceIdeal
import proofs.«148698_j59665685676147_2_alg».proof.Proof.Gen.Pre_finite_inputs
import proofs.«148698_j59665685676147_2_alg».proof.Proof.KRun
import proofs.«148698_j59665685676147_2_alg».proof.Proof.RFinal
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame: its run with the results dropped. -/
theorem frame_ri : Cert.frame_ReferenceIdeal := fun m ρ _ =>
  (θ_run Cert.ReferenceIdeal.defs _ _).mono (fun _ h c => ⟨(h c).2.2.2.1, (h c).2.2.2.2⟩) (Cert.ReferenceIdeal.Hand.run m ρ)

/-- Both idealized programs end at the specification's three arrays of the (agreeing) arguments. -/
theorem algebraic : Cert.algebraic_KernelIdeal_ReferenceIdeal := by
  intro m ρ m' ρ' _ hagree
  refine ⟨fun c => Cert.Spec.loss (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => Cert.Spec.flowbc (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => Cert.Spec.eqmask (m ((c.tc : Thread Cert.KernelIdeal.nD Cert.KernelIdeal.τ).loc Cert.KernelIdeal.main_arg0)),
    Cert.KernelIdeal.Hand.run m ρ, ?_⟩
  refine (θ_run Cert.ReferenceIdeal.defs _ _).mono (fun _ h c => ?_) (Cert.ReferenceIdeal.Hand.run m' ρ')
  obtain ⟨h1, h2, h3, h4, h5⟩ := h c
  refine ⟨?_, ?_, ?_, h4, h5⟩
  · rw [h1, (hagree c).1, (hagree c).2]
  · rw [h2, (hagree c).1, (hagree c).2]
  · rw [h3, (hagree c).1]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
